-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) (main_arg2 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x128 : Shape := ⟨2, ![512, 128]⟩
abbrev S2048x128 : Shape := ⟨2, ![2048, 128]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩
abbrev S24576 : Shape := ⟨1, ![24576]⟩

abbrev nBuf : Space → Nat
  | .hbm => 52
  | .vmem => 44
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096, .i32⟩
  | .hbm, ⟨3, _⟩ => ⟨S4096x128, .bf16⟩
  | .hbm, ⟨4, _⟩ => ⟨S4096x128, .bf16⟩
  | .hbm, ⟨5, _⟩ => ⟨S4096x128, .f32⟩
  | .hbm, ⟨6, _⟩ => ⟨S_, .f32⟩
  | .hbm, ⟨7, _⟩ => ⟨S4096, .f32⟩
  | .hbm, ⟨8, _⟩ => ⟨S4096x128, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S4096x1, .f32⟩
  | .hbm, ⟨14, _⟩ => ⟨S1x4096, .f32⟩
  | .hbm, ⟨15, _⟩ => ⟨S4096x1, .i32⟩
  | .hbm, ⟨16, _⟩ => ⟨S1x4096, .i32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S24576, .f32⟩
  | .hbm, ⟨34, _⟩ => ⟨S24576, .f32⟩
  | .hbm, ⟨35, _⟩ => ⟨S24576, .f32⟩
  | .hbm, ⟨36, _⟩ => ⟨S_, .f32⟩
  | .hbm, ⟨37, _⟩ => ⟨S24576, .f32⟩
  | .hbm, ⟨38, _⟩ => ⟨S24576, .f32⟩
  | .hbm, ⟨39, _⟩ => ⟨S_, .f32⟩
  | .hbm, ⟨40, _⟩ => ⟨S24576, .f32⟩
  | .hbm, ⟨41, _⟩ => ⟨S24576, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S24576, .i1⟩
  | .hbm, ⟨47, _⟩ => ⟨S24576, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S512x1, .f32⟩
  | .local _ .vmem, ⟨9, _⟩ => ⟨S512x1, .f32⟩
  | .local _ .vmem, ⟨10, _⟩ => ⟨S1x2048, .f32⟩
  | .local _ .vmem, ⟨11, _⟩ => ⟨S1x2048, .f32⟩
  | .local _ .vmem, ⟨12, _⟩ => ⟨S512x1, .f32⟩
  | .local _ .vmem, ⟨13, _⟩ => ⟨S512x1, .f32⟩
  | .local _ .vmem, ⟨14, _⟩ => ⟨S1x2048, .f32⟩
  | .local _ .vmem, ⟨15, _⟩ => ⟨S1x2048, .f32⟩
  | .local _ .vmem, ⟨16, _⟩ => ⟨S512x1, .i32⟩
  | .local _ .vmem, ⟨17, _⟩ => ⟨S512x1, .i32⟩
  | .local _ .vmem, ⟨18, _⟩ => ⟨S1x2048, .i32⟩
  | .local _ .vmem, ⟨19, _⟩ => ⟨S1x2048, .i32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S512x1, .f32⟩
  | .local _ .vmem, ⟨42, _⟩ => ⟨S512x1, .f32⟩
  | .local _ .vmem, ⟨43, _⟩ => ⟨S512x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v147 : BitVec 1 := Scalar.cmpi .eq arg1 c1_i32
  let v148 : BitVec 32 := Scalar.extui v147
  let c0_i32_81 : BitVec 32 := 0#32
  let v149 : BitVec 1 := Scalar.cmpi .ne v148 c0_i32_81
  v149

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

class Facts₀ : Prop where
  bitsLt_bf16_f32 : FTy.bits .bf16 < FTy.bits .f32
  reducesTo_S4096x128_S4096_d1 : S4096x128.ReducesTo [1] S4096
  h_S_ : 0 < S_.numel
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  shapeCasts_S4096x1_S4096 : S4096x1.ShapeCasts S4096
  concatenates_S4096_S4096_S4096_S4096_S4096_S4096_S24576_d0 : Shape.Concatenates [S4096, S4096, S4096, S4096, S4096, S4096] S24576 0
  bcast_S_S24576 : S_.BroadcastsInDim S24576 (![] : Fin 0 → Fin S24576.rank)
  reducesTo_S24576_S_d0 : S24576.ReducesTo [0] S_
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .bf16 = 32 ∨ (Rect.block (s := S4096x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .bf16 = 32 ∨ (Rect.block (s := S4096x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S4096x128.size a
  hwx0_2 : ∀ i : grid0.Coords, EltTy.bits .bf16 = 32 ∨ (Rect.block (s := S4096x128) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S4096x128.size a
  hwx0_3 : ∀ i : grid0.Coords, EltTy.bits .bf16 = 32 ∨ (Rect.block (s := S4096x128) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .f32 = 32 ∨ (Rect.block (s := S1x4096) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x4096.size a
  hwx0_7 : ∀ i : grid0.Coords, EltTy.bits .f32 = 32 ∨ (Rect.block (s := S1x4096) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .i32 = 32 ∨ (Rect.block (s := S4096x1) S512x1.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x4096.size a
  hwx0_9 : ∀ i : grid0.Coords, EltTy.bits .i32 = 32 ∨ (Rect.block (s := S1x4096) S1x2048.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S4096x1.size a
  hwx0_12 : ∀ i : grid0.Coords, EltTy.bits .f32 = 32 ∨ (Rect.block (s := S4096x1) S512x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S4096x1.size a
  hwx0_13 : ∀ i : grid0.Coords, EltTy.bits .f32 = 32 ∨ (Rect.block (s := S4096x1) S512x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S4096x1.size a
  hwx0_14 : ∀ i : grid0.Coords, EltTy.bits .f32 = 32 ∨ (Rect.block (s := S4096x1) S512x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S4096x1.size a
  hwx0_15 : ∀ i : grid0.Coords, EltTy.bits .f32 = 32 ∨ (Rect.block (s := S4096x1) S512x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1.size a ≤ S4096x1.size a
  hwx0_16 : ∀ i : grid0.Coords, EltTy.bits .f32 = 32 ∨ (Rect.block (s := S4096x1) S512x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S4096x1.size a
  hwx0_17 : ∀ i : grid0.Coords, EltTy.bits .f32 = 32 ∨ (Rect.block (s := S4096x1) S512x1.size (cc0_transform_17 i) (hinb0_17 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S512x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S512x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S512x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_2) S512x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_3) S512x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_4) S512x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12_5) S512x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_6) S512x1.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v12_7) S512x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | 13 => fun i => !(k0_cond2 i == 1#1) | 14 => fun i => !(k0_cond2 i == 1#1) | 15 => fun i => !(k0_cond2 i == 1#1) | 16 => fun i => !(k0_cond2 i == 1#1) | 17 => fun i => !(k0_cond2 i == 1#1) | ⟨_ + 18, h⟩ => absurd h (Nat.not_lt.2 (Nat.le_add_left _ _))

class Facts : Prop extends Facts₀ where

variable [Facts]
-- ==== ReferenceIdeal.lean ====
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S128x4096 : Shape := ⟨2, ![128, 4096]⟩
abbrev S24576 : Shape := ⟨1, ![24576]⟩

abbrev nBuf : Space → Nat
  | .hbm => 159
  | .vmem => 0
  | .smem => 0
  | _ => 0

abbrev hbmTy0_0 (i : Nat) : BufTy := match i % 128 with
  | 0 => ⟨S4096x128, .f32⟩
  | 1 => ⟨S4096x128, .f32⟩
  | 2 => ⟨S4096, .i32⟩
  | 3 => ⟨S4096x1, .i32⟩
  | 4 => ⟨S1x4096, .i32⟩
  | 5 => ⟨S4096x4096, .i32⟩
  | 6 => ⟨S4096x4096, .i32⟩
  | 7 => ⟨S4096x4096, .i1⟩
  | 8 => ⟨S4096x128, .f32⟩
  | 9 => ⟨S_, .f32⟩
  | 10 => ⟨S4096, .f32⟩
  | 11 => ⟨S4096x1, .f32⟩
  | 12 => ⟨S4096x128, .f32⟩
  | 13 => ⟨S_, .f32⟩
  | 14 => ⟨S4096, .f32⟩
  | 15 => ⟨S4096x1, .f32⟩
  | 16 => ⟨S1x4096, .f32⟩
  | 17 => ⟨S4096x4096, .f32⟩
  | 18 => ⟨S4096x4096, .f32⟩
  | 19 => ⟨S4096x4096, .f32⟩
  | 20 => ⟨S128x4096, .f32⟩
  | 21 => ⟨S4096x4096, .f32⟩
  | 22 => ⟨S_, .f32⟩
  | 23 => ⟨S4096x4096, .f32⟩
  | 24 => ⟨S4096x4096, .f32⟩
  | 25 => ⟨S4096x4096, .f32⟩
  | 26 => ⟨S_, .f32⟩
  | 27 => ⟨S_, .f32⟩
  | 28 => ⟨S4096x4096, .f32⟩
  | 29 => ⟨S4096x4096, .f32⟩
  | 30 => ⟨S4096x4096, .f32⟩
  | 31 => ⟨S4096x128, .f32⟩
  | 32 => ⟨S_, .f32⟩
  | 33 => ⟨S4096, .f32⟩
  | 34 => ⟨S4096x1, .f32⟩
  | 35 => ⟨S4096x128, .f32⟩
  | 36 => ⟨S_, .f32⟩
  | 37 => ⟨S4096, .f32⟩
  | 38 => ⟨S4096x1, .f32⟩
  | 39 => ⟨S1x4096, .f32⟩
  | 40 => ⟨S4096x4096, .f32⟩
  | 41 => ⟨S4096x4096, .f32⟩
  | 42 => ⟨S4096x4096, .f32⟩
  | 43 => ⟨S128x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S_, .f32⟩
  | 51 => ⟨S4096x4096, .f32⟩
  | 52 => ⟨S4096x4096, .f32⟩
  | 53 => ⟨S4096x4096, .f32⟩
  | 54 => ⟨S4096x128, .f32⟩
  | 55 => ⟨S_, .f32⟩
  | 56 => ⟨S4096, .f32⟩
  | 57 => ⟨S4096x1, .f32⟩
  | 58 => ⟨S4096x128, .f32⟩
  | 59 => ⟨S_, .f32⟩
  | 60 => ⟨S4096, .f32⟩
  | 61 => ⟨S4096x1, .f32⟩
  | 62 => ⟨S1x4096, .f32⟩
  | 63 => ⟨S4096x4096, .f32⟩
  | 64 => ⟨S4096x4096, .f32⟩
  | 65 => ⟨S4096x4096, .f32⟩
  | 66 => ⟨S128x4096, .f32⟩
  | 67 => ⟨S4096x4096, .f32⟩
  | 68 => ⟨S_, .f32⟩
  | 69 => ⟨S4096x4096, .f32⟩
  | 70 => ⟨S4096x4096, .f32⟩
  | 71 => ⟨S4096x4096, .f32⟩
  | 72 => ⟨S_, .f32⟩
  | 73 => ⟨S_, .f32⟩
  | 74 => ⟨S4096x4096, .f32⟩
  | 75 => ⟨S4096x4096, .f32⟩
  | 76 => ⟨S4096x4096, .f32⟩
  | 77 => ⟨S4096x128, .f32⟩
  | 78 => ⟨S_, .f32⟩
  | 79 => ⟨S4096, .f32⟩
  | 80 => ⟨S4096x1, .f32⟩
  | 81 => ⟨S4096x128, .f32⟩
  | 82 => ⟨S_, .f32⟩
  | 83 => ⟨S4096, .f32⟩
  | 84 => ⟨S4096x1, .f32⟩
  | 85 => ⟨S1x4096, .f32⟩
  | 86 => ⟨S4096x4096, .f32⟩
  | 87 => ⟨S4096x4096, .f32⟩
  | 88 => ⟨S4096x4096, .f32⟩
  | 89 => ⟨S128x4096, .f32⟩
  | 90 => ⟨S4096x4096, .f32⟩
  | 91 => ⟨S_, .f32⟩
  | 92 => ⟨S4096x4096, .f32⟩
  | 93 => ⟨S4096x4096, .f32⟩
  | 94 => ⟨S4096x4096, .f32⟩
  | 95 => ⟨S_, .f32⟩
  | 96 => ⟨S_, .f32⟩
  | 97 => ⟨S4096x4096, .f32⟩
  | 98 => ⟨S4096x4096, .f32⟩
  | 99 => ⟨S4096x4096, .f32⟩
  | 100 => ⟨S_, .f32⟩
  | 101 => ⟨S4096x4096, .f32⟩
  | 102 => ⟨S4096x4096, .f32⟩
  | 103 => ⟨S_, .f32⟩
  | 104 => ⟨S4096, .f32⟩
  | 105 => ⟨S_, .f32⟩
  | 106 => ⟨S4096x4096, .f32⟩
  | 107 => ⟨S4096x4096, .f32⟩
  | 108 => ⟨S_, .f32⟩
  | 109 => ⟨S4096, .f32⟩
  | 110 => ⟨S_, .f32⟩
  | 111 => ⟨S4096x4096, .f32⟩
  | 112 => ⟨S4096x4096, .f32⟩
  | 113 => ⟨S_, .f32⟩
  | 114 => ⟨S4096, .f32⟩
  | 115 => ⟨S_, .f32⟩
  | 116 => ⟨S4096x4096, .f32⟩
  | 117 => ⟨S4096x4096, .f32⟩
  | 118 => ⟨S_, .f32⟩
  | 119 => ⟨S4096, .f32⟩
  | 120 => ⟨S_, .f32⟩
  | 121 => ⟨S4096x4096, .f32⟩
  | 122 => ⟨S4096x4096, .f32⟩
  | 123 => ⟨S_, .f32⟩
  | 124 => ⟨S4096, .f32⟩
  | 125 => ⟨S_, .f32⟩
  | 126 => ⟨S4096x4096, .f32⟩
  | 127 => ⟨S4096x4096, .f32⟩
  | _ => ⟨S4096x128, .f32⟩

abbrev hbmTy0_1 (i : Nat) : BufTy := match i % 128 with
  | 0 => ⟨S_, .f32⟩
  | 1 => ⟨S4096, .f32⟩
  | 2 => ⟨S_, .f32⟩
  | 3 => ⟨S4096x4096, .f32⟩
  | 4 => ⟨S4096x4096, .f32⟩
  | 5 => ⟨S_, .f32⟩
  | 6 => ⟨S4096, .f32⟩
  | 7 => ⟨S_, .f32⟩
  | 8 => ⟨S4096x4096, .f32⟩
  | 9 => ⟨S4096x4096, .f32⟩
  | 10 => ⟨S_, .f32⟩
  | 11 => ⟨S4096, .f32⟩
  | 12 => ⟨S24576, .f32⟩
  | 13 => ⟨S24576, .f32⟩
  | 14 => ⟨S24576, .f32⟩
  | 15 => ⟨S_, .f32⟩
  | 16 => ⟨S24576, .f32⟩
  | 17 => ⟨S24576, .f32⟩
  | 18 => ⟨S_, .f32⟩
  | 19 => ⟨S24576, .f32⟩
  | 20 => ⟨S24576, .f32⟩
  | 21 => ⟨S_, .f32⟩
  | 22 => ⟨S_, .f32⟩
  | 23 => ⟨S_, .f32⟩
  | 24 => ⟨S_, .f32⟩
  | 25 => ⟨S24576, .i1⟩
  | 26 => ⟨S24576, .f32⟩
  | 27 => ⟨S_, .f32⟩
  | 28 => ⟨S_, .f32⟩
  | 29 => ⟨S_, .f32⟩
  | 30 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_call2_v0 : Ref sig .tc := ⟨.hbm, 73, rfl⟩
abbrev main_call2_v1 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_call3_v0 : Ref sig .tc := ⟨.hbm, 96, rfl⟩
abbrev main_call3_v1 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_call4_v0 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_cst_17 : Ref sig .tc := ⟨.hbm, 105, rfl⟩
abbrev main_call5_v0 : Ref sig .tc := ⟨.hbm, 106, rfl⟩
abbrev main_v75 : Ref sig .tc := ⟨.hbm, 107, rfl⟩
abbrev main_cst_18 : Ref sig .tc := ⟨.hbm, 108, rfl⟩
abbrev main_v76 : Ref sig .tc := ⟨.hbm, 109, rfl⟩
abbrev main_cst_19 : Ref sig .tc := ⟨.hbm, 110, rfl⟩
abbrev main_call6_v0 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_cst_21 : Ref sig .tc := ⟨.hbm, 115, rfl⟩
abbrev main_call7_v0 : Ref sig .tc := ⟨.hbm, 116, rfl⟩
abbrev main_v79 : Ref sig .tc := ⟨.hbm, 117, rfl⟩
abbrev main_cst_22 : Ref sig .tc := ⟨.hbm, 118, rfl⟩
abbrev main_v80 : Ref sig .tc := ⟨.hbm, 119, rfl⟩
abbrev main_cst_23 : Ref sig .tc := ⟨.hbm, 120, rfl⟩
abbrev main_call8_v0 : Ref sig .tc := ⟨.hbm, 121, rfl⟩
abbrev main_v81 : Ref sig .tc := ⟨.hbm, 122, rfl⟩
abbrev main_cst_24 : Ref sig .tc := ⟨.hbm, 123, rfl⟩
abbrev main_v82 : Ref sig .tc := ⟨.hbm, 124, rfl⟩
abbrev main_cst_25 : Ref sig .tc := ⟨.hbm, 125, rfl⟩
abbrev main_call9_v0 : Ref sig .tc := ⟨.hbm, 126, rfl⟩
abbrev main_v83 : Ref sig .tc := ⟨.hbm, 127, rfl⟩
abbrev main_cst_26 : Ref sig .tc := ⟨.hbm, 128, rfl⟩
abbrev main_v84 : Ref sig .tc := ⟨.hbm, 129, rfl⟩
abbrev main_cst_27 : Ref sig .tc := ⟨.hbm, 130, rfl⟩
abbrev main_call10_v0 : Ref sig .tc := ⟨.hbm, 131, rfl⟩
abbrev main_v85 : Ref sig .tc := ⟨.hbm, 132, rfl⟩
abbrev main_cst_28 : Ref sig .tc := ⟨.hbm, 133, rfl⟩
abbrev main_v86 : Ref sig .tc := ⟨.hbm, 134, rfl⟩
abbrev main_cst_29 : Ref sig .tc := ⟨.hbm, 135, rfl⟩
abbrev main_call11_v0 : Ref sig .tc := ⟨.hbm, 136, rfl⟩
abbrev main_v87 : Ref sig .tc := ⟨.hbm, 137, rfl⟩
abbrev main_cst_30 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_31 : Ref sig .tc := ⟨.hbm, 143, rfl⟩
abbrev main_v92 : Ref sig .tc := ⟨.hbm, 144, rfl⟩
abbrev main_v93 : Ref sig .tc := ⟨.hbm, 145, rfl⟩
abbrev main_call12_cst : Ref sig .tc := ⟨.hbm, 146, rfl⟩
abbrev main_call12_v0 : Ref sig .tc := ⟨.hbm, 147, rfl⟩
abbrev main_v94 : Ref sig .tc := ⟨.hbm, 148, rfl⟩
abbrev main_cst_32 : Ref sig .tc := ⟨.hbm, 149, rfl⟩
abbrev main_v95 : Ref sig .tc := ⟨.hbm, 150, rfl⟩
abbrev main_cst_33 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_34 : Ref sig .tc := ⟨.hbm, 155, rfl⟩
abbrev main_v99 : Ref sig .tc := ⟨.hbm, 156, rfl⟩
abbrev main_cst_35 : Ref sig .tc := ⟨.hbm, 157, rfl⟩
abbrev main_v100 : Ref sig .tc := ⟨.hbm, 158, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x128_S4096_d1 : S4096x128.ReducesTo [1] S4096
  h_S_ : 0 < S_.numel
  transposes_S4096x1_S1x4096_1_0 : S4096x1.Transposes [1, 0] S1x4096
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  concatenates_S4096_S4096_S4096_S4096_S4096_S4096_S24576_d0 : Shape.Concatenates [S4096, S4096, S4096, S4096, S4096, S4096] S24576 0
  bcast_S_S24576 : S_.BroadcastsInDim S24576 (![] : Fin 0 → Fin S24576.rank)
  reducesTo_S24576_S_d0 : S24576.ReducesTo [0] S_
  dot_S4096x128_S128x4096_S4096x4096_1_0_0_1_n_n_wf : DotDims.WF S4096x128 S128x4096 S4096x4096 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.RegionBase.lean ====
/-
  The kernel body's two control cases.  The grid is 8 row blocks by 2 column blocks; the second coordinate j of a
  point says which half of the columns the body sees.  At j = 0 the body first resets its eight running extrema
  (four running maxima to -inf, four running minima to +inf) and folds the first half's row extrema into them; at
  j = 1 it folds the second half's in and then writes the square roots of the eight running extrema to its eight
  outputs.  The two conditions below are the body's own tests "j = 0" and "j = 1" as it computes them from the
  point's coordinates, each decided over the sixteen points: j = 0 at the even points, j = 1 at the odd ones.
-/
import proofs.«181479_j36618891166019_2_alg».proof.Proof.Gen.KernelIdeal.Launch
import proofs.«181479_j36618891166019_2_alg».proof.Proof.Gen.KernelIdeal.Skeleton
import proofs.«181479_j36618891166019_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test "this is the first column block" (j = 0), as it computes it from the point's coordinates. -/
abbrev condFirst (i : grid0.Coords) : Prop := (Scalar.cmpi .ne (Scalar.extui (Scalar.cmpi .eq (BitVec.ofNat 32 (i 1).val) 0#32)) 0#32) = 1#1
/-- It holds exactly at the even points of the grid. -/
theorem condFirst_iff : ∀ t : Fin cfg0.N, condFirst (grid0.coords t) ↔ t.val % 2 = 0 :=
  (by decide +kernel : ∀ t : Fin grid0.N, condFirst (grid0.coords t) ↔ t.val % 2 = 0)

/-- The body's test "this is the last column block" (j = 1). -/
abbrev condLast (i : grid0.Coords) : Prop := k0_cond2 i = 1#1
/-- It holds exactly at the odd points of the grid. -/
theorem condLast_iff : ∀ t : Fin cfg0.N, condLast (grid0.coords t) ↔ t.val % 2 = 1 :=
  (by decide +kernel : ∀ t : Fin grid0.N, condLast (grid0.coords t) ↔ t.val % 2 = 1)

/-- The eight running extrema live in eight scratch buffers of the kernel's own, each a whole [512,1] buffer. -/
abbrev scr0 : Memref sig .tc .vmem S512x1 .f32 := Memref.whole cc0_scratch0
abbrev scr1 : Memref sig .tc .vmem S512x1 .f32 := Memref.whole cc0_scratch1
abbrev scr2 : Memref sig .tc .vmem S512x1 .f32 := Memref.whole cc0_scratch2
abbrev scr3 : Memref sig .tc .vmem S512x1 .f32 := Memref.whole cc0_scratch3
abbrev scr4 : Memref sig .tc .vmem S512x1 .f32 := Memref.whole cc0_scratch4
abbrev scr5 : Memref sig .tc .vmem S512x1 .f32 := Memref.whole cc0_scratch5
abbrev scr6 : Memref sig .tc .vmem S512x1 .f32 := Memref.whole cc0_scratch6
abbrev scr7 : Memref sig .tc .vmem S512x1 .f32 := Memref.whole cc0_scratch7

end Cert.KernelIdeal.Region

end
-- ==== Proof.RegionRunFirst.lean ====
/-
  The body at a point of the first column block (j = 0).  Run on whole staging buffers holding the ten input
  blocks, it resets the eight running extrema, folds this half's masked row maxima and minima into them and stores
  them; it stores nothing into the eight outputs, which come back as they were.  What each scratch buffer ends
  with is recorded as the list of pieces the body stored into it.
-/
import proofs.«181479_j36618891166019_2_alg».proof.Proof.RegionBase

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body's run when j = 0: for any contents of the ten input blocks, and the outputs at any contents `xi·` which it
    leaves alone, it terminates without a fault holding the inputs as they were, the outputs as they were, and each
    of the eight running extrema as the pieces it stored (`LS·`, found by the run itself). -/
noncomputable def runFirst (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    Σ' (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)) (LS5 : List (View.Piece (Elt F) S512x1 .f32)) (LS6 : List (View.Piece (Elt F) S512x1 .f32)), { LS7 : List (View.Piece (Elt F) S512x1 .f32) //
      ∀ (xi0 : Vec F S512x1 .f32) (xi1 : Vec F S512x1 .f32) (xi2 : Vec F S512x1 .f32) (xi3 : Vec F S512x1 .f32) (xi4 : Vec F S512x1 .f32) (xi5 : Vec F S512x1 .f32) (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi0 ∗ owns (c : Thread nD τ) arg13 fullShare xi1 ∗ owns (c : Thread nD τ) arg14 fullShare xi2 ∗ owns (c : Thread nD τ) arg15 fullShare xi3 ∗ owns (c : Thread nD τ) arg16 fullShare xi4 ∗ owns (c : Thread nD τ) arg17 fullShare xi5 ∗ owns (c : Thread nD τ) arg18 fullShare xi6 ∗ owns (c : Thread nD τ) arg19 fullShare xi7 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi0 ∗ owns (c : Thread nD τ) arg13 fullShare xi1 ∗ owns (c : Thread nD τ) arg14 fullShare xi2 ∗ owns (c : Thread nD τ) arg15 fullShare xi3 ∗ owns (c : Thread nD τ) arg16 fullShare xi4 ∗ owns (c : Thread nD τ) arg17 fullShare xi5 ∗ owns (c : Thread nD τ) arg18 fullShare xi6 ∗ owns (c : Thread nD τ) arg19 fullShare xi7 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3) ∗ (∃ f, arg24.view.loc (c : Thread nD τ) ↦[arg24.view.set]{fullShare} arg24.view.writes (Elt F) f LS4) ∗ (∃ f, arg25.view.loc (c : Thread nD τ) ↦[arg25.view.set]{fullShare} arg25.view.writes (Elt F) f LS5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7)) -∗ K ⟨⟩))
          ⊢ wp frame (wpE (defs₀ (F := F)) Variants.none c none) E (cc0__hardmine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, fun xi0 xi1 xi2 xi3 xi4 xi5 xi6 xi7 E K => ?run⟩
  case run =>
    simp only [cc0__hardmine_kernel_eq_skeleton]; unfold cc0__hardmine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩, ⟨%g7, %hg7, G7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hg0
    obtain rfl := harg13.eq_unread hg1
    obtain rfl := harg14.eq_unread hg2
    obtain rfl := harg15.eq_unread hg3
    obtain rfl := harg16.eq_unread hg4
    obtain rfl := harg17.eq_unread hg5
    obtain rfl := harg18.eq_unread hg6
    obtain rfl := harg19.eq_unread hg7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [G0]
    · iexists _; isplitr; · ipureintro; exact harg12.read_unread _
      iexact G0
    isplitl [G1]
    · iexists _; isplitr; · ipureintro; exact harg13.read_unread _
      iexact G1
    isplitl [G2]
    · iexists _; isplitr; · ipureintro; exact harg14.read_unread _
      iexact G2
    isplitl [G3]
    · iexists _; isplitr; · ipureintro; exact harg15.read_unread _
      iexact G3
    isplitl [G4]
    · iexists _; isplitr; · ipureintro; exact harg16.read_unread _
      iexact G4
    isplitl [G5]
    · iexists _; isplitr; · ipureintro; exact harg17.read_unread _
      iexact G5
    isplitl [G6]
    · iexists _; isplitr; · ipureintro; exact harg18.read_unread _
      iexact G6
    isplitl [G7]
    · iexists _; isplitr; · ipureintro; exact harg19.read_unread _
      iexact G7
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Region

end
-- ==== Proof.RegionRunLast.lean ====
/-
  The body at a point of the last column block (j = 1).  Run on whole staging buffers holding the ten input
  blocks, with the eight running extrema at what the point before left, it folds this half's masked row maxima and
  minima into them, stores them, and then stores the square root of each into its output.  What each output and
  each scratch buffer ends with is recorded as the list of pieces the body stored into it.
-/
import proofs.«181479_j36618891166019_2_alg».proof.Proof.RegionRunFirst

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body's run when j = 1: for any contents of the ten input blocks and the running extrema at contents `xs·`, the
    outputs at anything, it terminates without a fault holding the inputs as they were and each output and each
    running extremum as the pieces it stored (`L·`, `LS·`, found by the run itself). -/
noncomputable def runLast (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    Σ' (L0 : List (View.Piece (Elt F) S512x1 .f32)) (L1 : List (View.Piece (Elt F) S512x1 .f32)) (L2 : List (View.Piece (Elt F) S512x1 .f32)) (L3 : List (View.Piece (Elt F) S512x1 .f32)) (L4 : List (View.Piece (Elt F) S512x1 .f32)) (L5 : List (View.Piece (Elt F) S512x1 .f32)) (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)) (LS5 : List (View.Piece (Elt F) S512x1 .f32)) (LS6 : List (View.Piece (Elt F) S512x1 .f32)), { LS7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4 ∗ owns (c : Thread nD τ) arg25 fullShare xs5 ∗ owns (c : Thread nD τ) arg26 fullShare xs6 ∗ owns (c : Thread nD τ) arg27 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L0) ∗ (∃ f, arg13.view.loc (c : Thread nD τ) ↦[arg13.view.set]{fullShare} arg13.view.writes (Elt F) f L1) ∗ (∃ f, arg14.view.loc (c : Thread nD τ) ↦[arg14.view.set]{fullShare} arg14.view.writes (Elt F) f L2) ∗ (∃ f, arg15.view.loc (c : Thread nD τ) ↦[arg15.view.set]{fullShare} arg15.view.writes (Elt F) f L3) ∗ (∃ f, arg16.view.loc (c : Thread nD τ) ↦[arg16.view.set]{fullShare} arg16.view.writes (Elt F) f L4) ∗ (∃ f, arg17.view.loc (c : Thread nD τ) ↦[arg17.view.set]{fullShare} arg17.view.writes (Elt F) f L5) ∗ (∃ f, arg18.view.loc (c : Thread nD τ) ↦[arg18.view.set]{fullShare} arg18.view.writes (Elt F) f L6) ∗ (∃ f, arg19.view.loc (c : Thread nD τ) ↦[arg19.view.set]{fullShare} arg19.view.writes (Elt F) f L7) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3) ∗ (∃ f, arg24.view.loc (c : Thread nD τ) ↦[arg24.view.set]{fullShare} arg24.view.writes (Elt F) f LS4) ∗ (∃ f, arg25.view.loc (c : Thread nD τ) ↦[arg25.view.set]{fullShare} arg25.view.writes (Elt F) f LS5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7)) -∗ K ⟨⟩))
          ⊢ wp frame (wpE (defs₀ (F := F)) Variants.none c none) E (cc0__hardmine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, ?_, ?_, ?_, fun E K => ?run⟩
  case run =>
    simp only [cc0__hardmine_kernel_eq_skeleton]; unfold cc0__hardmine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d0, %g0, -, G0⟩, ⟨%d1, %g1, -, G1⟩, ⟨%d2, %g2, -, G2⟩, ⟨%d3, %g3, -, G3⟩, ⟨%d4, %g4, -, G4⟩, ⟨%d5, %g5, -, G5⟩, ⟨%d6, %g6, -, G6⟩, ⟨%d7, %g7, -, G7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg20.eq_unread hfs0
    obtain rfl := harg21.eq_unread hfs1
    obtain rfl := harg22.eq_unread hfs2
    obtain rfl := harg23.eq_unread hfs3
    obtain rfl := harg24.eq_unread hfs4
    obtain rfl := harg25.eq_unread hfs5
    obtain rfl := harg26.eq_unread hfs6
    obtain rfl := harg27.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Region

end
-- ==== Proof.RegionData.lean ====
/-
  The proof data of the kernel region, at the contents V the region finds in the program's buffers.
  Window w's block at point t is its slice of its array.  After a point of the first column block (an even point)
  the eight running extrema hold what the body's reset-and-fold leaves, a function of that point's ten input
  blocks alone; after a point of the last column block (an odd point) they hold the fold of this half into what
  the point before left, and the eight outputs hold the square roots.  An output is stored, and written back to
  its array, only at the odd points; at the even points its buffer comes back as it was.
-/
import proofs.«181479_j36618891166019_2_alg».proof.Proof.RegionRunLast

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the slice of its array the point's index map selects. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block at every point, fetched there or not -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9 {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with at a point -/
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1 .i32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2048 .i32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x1 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x1 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S512x1 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x1 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S512x1 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S512x1 .f32 := win0_17.stage (cfg0.slots t 17)
abbrev hs17 (t : Fin cfg0.N) : (ms17 t).IsWhole := hstage0_17 ((cfg0.slots t 17).cast nbuf0_17)

/-- One staging buffer of each output window and each scratch buffer, as the view its contents are stated through. -/
abbrev VO0 : View sig .tc .vmem S512x1 .f32 := (Memref.whole cc0_stg10_0 : Memref sig .tc .vmem S512x1 .f32).view
abbrev VO1 : View sig .tc .vmem S512x1 .f32 := (Memref.whole cc0_stg11_0 : Memref sig .tc .vmem S512x1 .f32).view
abbrev VO2 : View sig .tc .vmem S512x1 .f32 := (Memref.whole cc0_stg12_0 : Memref sig .tc .vmem S512x1 .f32).view
abbrev VO3 : View sig .tc .vmem S512x1 .f32 := (Memref.whole cc0_stg13_0 : Memref sig .tc .vmem S512x1 .f32).view
abbrev VO4 : View sig .tc .vmem S512x1 .f32 := (Memref.whole cc0_stg14_0 : Memref sig .tc .vmem S512x1 .f32).view
abbrev VO5 : View sig .tc .vmem S512x1 .f32 := (Memref.whole cc0_stg15_0 : Memref sig .tc .vmem S512x1 .f32).view
abbrev VO6 : View sig .tc .vmem S512x1 .f32 := (Memref.whole cc0_stg16_0 : Memref sig .tc .vmem S512x1 .f32).view
abbrev VO7 : View sig .tc .vmem S512x1 .f32 := (Memref.whole cc0_stg17_0 : Memref sig .tc .vmem S512x1 .f32).view
abbrev VS0 : View sig .tc .vmem S512x1 .f32 := scr0.view
abbrev VS1 : View sig .tc .vmem S512x1 .f32 := scr1.view
abbrev VS2 : View sig .tc .vmem S512x1 .f32 := scr2.view
abbrev VS3 : View sig .tc .vmem S512x1 .f32 := scr3.view
abbrev VS4 : View sig .tc .vmem S512x1 .f32 := scr4.view
abbrev VS5 : View sig .tc .vmem S512x1 .f32 := scr5.view
abbrev VS6 : View sig .tc .vmem S512x1 .f32 := scr6.view
abbrev VS7 : View sig .tc .vmem S512x1 .f32 := scr7.view

/-! ## Where the windows are idle -/
theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem liveIn3 : ∀ t : Fin cfg0.N, cfg0.idle 3 (grid0.coords t) = false := by decide +kernel
theorem liveIn4 : ∀ t : Fin cfg0.N, cfg0.idle 4 (grid0.coords t) = false := by decide +kernel
theorem liveIn5 : ∀ t : Fin cfg0.N, cfg0.idle 5 (grid0.coords t) = false := by decide +kernel
theorem liveIn6 : ∀ t : Fin cfg0.N, cfg0.idle 6 (grid0.coords t) = false := by decide +kernel
theorem liveIn7 : ∀ t : Fin cfg0.N, cfg0.idle 7 (grid0.coords t) = false := by decide +kernel
theorem liveIn8 : ∀ t : Fin cfg0.N, cfg0.idle 8 (grid0.coords t) = false := by decide +kernel
theorem liveIn9 : ∀ t : Fin cfg0.N, cfg0.idle 9 (grid0.coords t) = false := by decide +kernel
theorem idleOut0 : ∀ t : Fin cfg0.N, condFirst (grid0.coords t) → ¬condLast (grid0.coords t) → cfg0.idle 10 (grid0.coords t) = true := by decide +kernel
theorem noFlushOut0 : ∀ t : Fin cfg0.N, condFirst (grid0.coords t) → ¬condLast (grid0.coords t) → (cfg0.win 10).flush t = false := by decide +kernel
theorem liveOut0 : ∀ t : Fin cfg0.N, ¬condFirst (grid0.coords t) → condLast (grid0.coords t) → cfg0.idle 10 (grid0.coords t) = false := by decide +kernel
theorem idleOut1 : ∀ t : Fin cfg0.N, condFirst (grid0.coords t) → ¬condLast (grid0.coords t) → cfg0.idle 11 (grid0.coords t) = true := by decide +kernel
theorem noFlushOut1 : ∀ t : Fin cfg0.N, condFirst (grid0.coords t) → ¬condLast (grid0.coords t) → (cfg0.win 11).flush t = false := by decide +kernel
theorem liveOut1 : ∀ t : Fin cfg0.N, ¬condFirst (grid0.coords t) → condLast (grid0.coords t) → cfg0.idle 11 (grid0.coords t) = false := by decide +kernel
theorem idleOut2 : ∀ t : Fin cfg0.N, condFirst (grid0.coords t) → ¬condLast (grid0.coords t) → cfg0.idle 12 (grid0.coords t) = true := by decide +kernel
theorem noFlushOut2 : ∀ t : Fin cfg0.N, condFirst (grid0.coords t) → ¬condLast (grid0.coords t) → (cfg0.win 12).flush t = false := by decide +kernel
theorem liveOut2 : ∀ t : Fin cfg0.N, ¬condFirst (grid0.coords t) → condLast (grid0.coords t) → cfg0.idle 12 (grid0.coords t) = false := by decide +kernel
theorem idleOut3 : ∀ t : Fin cfg0.N, condFirst (grid0.coords t) → ¬condLast (grid0.coords t) → cfg0.idle 13 (grid0.coords t) = true := by decide +kernel
theorem noFlushOut3 : ∀ t : Fin cfg0.N, condFirst (grid0.coords t) → ¬condLast (grid0.coords t) → (cfg0.win 13).flush t = false := by decide +kernel
theorem liveOut3 : ∀ t : Fin cfg0.N, ¬condFirst (grid0.coords t) → condLast (grid0.coords t) → cfg0.idle 13 (grid0.coords t) = false := by decide +kernel
theorem idleOut4 : ∀ t : Fin cfg0.N, condFirst (grid0.coords t) → ¬condLast (grid0.coords t) → cfg0.idle 14 (grid0.coords t) = true := by decide +kernel
theorem noFlushOut4 : ∀ t : Fin cfg0.N, condFirst (grid0.coords t) → ¬condLast (grid0.coords t) → (cfg0.win 14).flush t = false := by decide +kernel
theorem liveOut4 : ∀ t : Fin cfg0.N, ¬condFirst (grid0.coords t) → condLast (grid0.coords t) → cfg0.idle 14 (grid0.coords t) = false := by decide +kernel
theorem idleOut5 : ∀ t : Fin cfg0.N, condFirst (grid0.coords t) → ¬condLast (grid0.coords t) → cfg0.idle 15 (grid0.coords t) = true := by decide +kernel
theorem noFlushOut5 : ∀ t : Fin cfg0.N, condFirst (grid0.coords t) → ¬condLast (grid0.coords t) → (cfg0.win 15).flush t = false := by decide +kernel
theorem liveOut5 : ∀ t : Fin cfg0.N, ¬condFirst (grid0.coords t) → condLast (grid0.coords t) → cfg0.idle 15 (grid0.coords t) = false := by decide +kernel
theorem idleOut6 : ∀ t : Fin cfg0.N, condFirst (grid0.coords t) → ¬condLast (grid0.coords t) → cfg0.idle 16 (grid0.coords t) = true := by decide +kernel
theorem noFlushOut6 : ∀ t : Fin cfg0.N, condFirst (grid0.coords t) → ¬condLast (grid0.coords t) → (cfg0.win 16).flush t = false := by decide +kernel
theorem liveOut6 : ∀ t : Fin cfg0.N, ¬condFirst (grid0.coords t) → condLast (grid0.coords t) → cfg0.idle 16 (grid0.coords t) = false := by decide +kernel
theorem idleOut7 : ∀ t : Fin cfg0.N, condFirst (grid0.coords t) → ¬condLast (grid0.coords t) → cfg0.idle 17 (grid0.coords t) = true := by decide +kernel
theorem noFlushOut7 : ∀ t : Fin cfg0.N, condFirst (grid0.coords t) → ¬condLast (grid0.coords t) → (cfg0.win 17).flush t = false := by decide +kernel
theorem liveOut7 : ∀ t : Fin cfg0.N, ¬condFirst (grid0.coords t) → condLast (grid0.coords t) → cfg0.idle 17 (grid0.coords t) = false := by decide +kernel

/-- The region's class invariant with the eight scratch buffers as memrefs owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d)) ∗ (∃ r, prngReg c r)) := by
  unfold Pipeline.ΦA; rw [scopedRest0_eq]; simp only [scr0, scr1, scr2, scr3, scr4, scr5, scr6, scr7, owns_whole]; try rfl

/-! ## The two cases at a point -/

theorem first_of_even (t : Fin cfg0.N) (h0 : t.val % 2 = 0) : condFirst (grid0.coords t) := (condFirst_iff t).mpr h0
theorem notLast_of_even (t : Fin cfg0.N) (h0 : t.val % 2 = 0) : ¬condLast (grid0.coords t) := fun h => by have := (condLast_iff t).mp h; omega
theorem notFirst_of_odd (t : Fin cfg0.N) (h1 : t.val % 2 = 1) : ¬condFirst (grid0.coords t) := fun h => by have := (condFirst_iff t).mp h; omega
theorem last_of_odd (t : Fin cfg0.N) (h1 : t.val % 2 = 1) : condLast (grid0.coords t) := (condLast_iff t).mpr h1

/-- The body's run at an even point, on the point's staging memrefs and input blocks. -/
abbrev RF (c : Dev nD) (t : Fin cfg0.N) (h0 : t.val % 2 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t)

/-- What the body leaves in each running extremum at an even point: its stored pieces read back. -/
def sF0 (c : Dev nD) (t : Fin cfg0.N) (h0 : t.val % 2 = 0) : Vec F S512x1 .f32 :=
  VS0.read (Elt F) (VS0.writes (Elt F) VS0.junk (RF V c t h0).1)
def sF1 (c : Dev nD) (t : Fin cfg0.N) (h0 : t.val % 2 = 0) : Vec F S512x1 .f32 :=
  VS1.read (Elt F) (VS1.writes (Elt F) VS1.junk (RF V c t h0).2.1)
def sF2 (c : Dev nD) (t : Fin cfg0.N) (h0 : t.val % 2 = 0) : Vec F S512x1 .f32 :=
  VS2.read (Elt F) (VS2.writes (Elt F) VS2.junk (RF V c t h0).2.2.1)
def sF3 (c : Dev nD) (t : Fin cfg0.N) (h0 : t.val % 2 = 0) : Vec F S512x1 .f32 :=
  VS3.read (Elt F) (VS3.writes (Elt F) VS3.junk (RF V c t h0).2.2.2.1)
def sF4 (c : Dev nD) (t : Fin cfg0.N) (h0 : t.val % 2 = 0) : Vec F S512x1 .f32 :=
  VS4.read (Elt F) (VS4.writes (Elt F) VS4.junk (RF V c t h0).2.2.2.2.1)
def sF5 (c : Dev nD) (t : Fin cfg0.N) (h0 : t.val % 2 = 0) : Vec F S512x1 .f32 :=
  VS5.read (Elt F) (VS5.writes (Elt F) VS5.junk (RF V c t h0).2.2.2.2.2.1)
def sF6 (c : Dev nD) (t : Fin cfg0.N) (h0 : t.val % 2 = 0) : Vec F S512x1 .f32 :=
  VS6.read (Elt F) (VS6.writes (Elt F) VS6.junk (RF V c t h0).2.2.2.2.2.2.1)
def sF7 (c : Dev nD) (t : Fin cfg0.N) (h0 : t.val % 2 = 0) : Vec F S512x1 .f32 :=
  VS7.read (Elt F) (VS7.writes (Elt F) VS7.junk (RF V c t h0).2.2.2.2.2.2.2.1)

/-- The point before an odd point, which is even. -/
def predPt (t : Fin cfg0.N) : Fin cfg0.N := ⟨t.val - 1, Nat.lt_of_le_of_lt (Nat.sub_le _ _) t.isLt⟩
theorem predPt_even (t : Fin cfg0.N) (h1 : t.val % 2 = 1) : (predPt t).val % 2 = 0 := by
  show (t.val - 1) % 2 = 0; omega

/-- The body's run at an odd point, the running extrema at what the point before left. -/
abbrev RL (c : Dev nD) (t : Fin cfg0.N) (h1 : t.val % 2 = 1) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t)
    (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1))

/-- What the body leaves in each output at an odd point: its stored pieces read back. -/
def oL0 (c : Dev nD) (t : Fin cfg0.N) (h1 : t.val % 2 = 1) : Vec F S512x1 .f32 :=
  VO0.read (Elt F) (VO0.writes (Elt F) VO0.junk (RL V c t h1).1)
def oL1 (c : Dev nD) (t : Fin cfg0.N) (h1 : t.val % 2 = 1) : Vec F S512x1 .f32 :=
  VO1.read (Elt F) (VO1.writes (Elt F) VO1.junk (RL V c t h1).2.1)
def oL2 (c : Dev nD) (t : Fin cfg0.N) (h1 : t.val % 2 = 1) : Vec F S512x1 .f32 :=
  VO2.read (Elt F) (VO2.writes (Elt F) VO2.junk (RL V c t h1).2.2.1)
def oL3 (c : Dev nD) (t : Fin cfg0.N) (h1 : t.val % 2 = 1) : Vec F S512x1 .f32 :=
  VO3.read (Elt F) (VO3.writes (Elt F) VO3.junk (RL V c t h1).2.2.2.1)
def oL4 (c : Dev nD) (t : Fin cfg0.N) (h1 : t.val % 2 = 1) : Vec F S512x1 .f32 :=
  VO4.read (Elt F) (VO4.writes (Elt F) VO4.junk (RL V c t h1).2.2.2.2.1)
def oL5 (c : Dev nD) (t : Fin cfg0.N) (h1 : t.val % 2 = 1) : Vec F S512x1 .f32 :=
  VO5.read (Elt F) (VO5.writes (Elt F) VO5.junk (RL V c t h1).2.2.2.2.2.1)
def oL6 (c : Dev nD) (t : Fin cfg0.N) (h1 : t.val % 2 = 1) : Vec F S512x1 .f32 :=
  VO6.read (Elt F) (VO6.writes (Elt F) VO6.junk (RL V c t h1).2.2.2.2.2.2.1)
def oL7 (c : Dev nD) (t : Fin cfg0.N) (h1 : t.val % 2 = 1) : Vec F S512x1 .f32 :=
  VO7.read (Elt F) (VO7.writes (Elt F) VO7.junk (RL V c t h1).2.2.2.2.2.2.2.1)

/-- What each output's buffer is said to hold after point `t`: at an odd point what the body stored; at an even
    point, where nothing is stored and nothing written back, a placeholder nothing consults. -/
def outAt0 (c : Dev nD) (t : Fin cfg0.N) : Vec F S512x1 .f32 :=
  if h1 : t.val % 2 = 1 then oL0 V c t h1 else VO0.read (Elt F) VO0.junk
def outAt1 (c : Dev nD) (t : Fin cfg0.N) : Vec F S512x1 .f32 :=
  if h1 : t.val % 2 = 1 then oL1 V c t h1 else VO1.read (Elt F) VO1.junk
def outAt2 (c : Dev nD) (t : Fin cfg0.N) : Vec F S512x1 .f32 :=
  if h1 : t.val % 2 = 1 then oL2 V c t h1 else VO2.read (Elt F) VO2.junk
def outAt3 (c : Dev nD) (t : Fin cfg0.N) : Vec F S512x1 .f32 :=
  if h1 : t.val % 2 = 1 then oL3 V c t h1 else VO3.read (Elt F) VO3.junk
def outAt4 (c : Dev nD) (t : Fin cfg0.N) : Vec F S512x1 .f32 :=
  if h1 : t.val % 2 = 1 then oL4 V c t h1 else VO4.read (Elt F) VO4.junk
def outAt5 (c : Dev nD) (t : Fin cfg0.N) : Vec F S512x1 .f32 :=
  if h1 : t.val % 2 = 1 then oL5 V c t h1 else VO5.read (Elt F) VO5.junk
def outAt6 (c : Dev nD) (t : Fin cfg0.N) : Vec F S512x1 .f32 :=
  if h1 : t.val % 2 = 1 then oL6 V c t h1 else VO6.read (Elt F) VO6.junk
def outAt7 (c : Dev nD) (t : Fin cfg0.N) : Vec F S512x1 .f32 :=
  if h1 : t.val % 2 = 1 then oL7 V c t h1 else VO7.read (Elt F) VO7.junk
theorem outAt0_odd (c : Dev nD) (t : Fin cfg0.N) (h1 : t.val % 2 = 1) : outAt0 V c t = oL0 V c t h1 := dif_pos h1
theorem outAt1_odd (c : Dev nD) (t : Fin cfg0.N) (h1 : t.val % 2 = 1) : outAt1 V c t = oL1 V c t h1 := dif_pos h1
theorem outAt2_odd (c : Dev nD) (t : Fin cfg0.N) (h1 : t.val % 2 = 1) : outAt2 V c t = oL2 V c t h1 := dif_pos h1
theorem outAt3_odd (c : Dev nD) (t : Fin cfg0.N) (h1 : t.val % 2 = 1) : outAt3 V c t = oL3 V c t h1 := dif_pos h1
theorem outAt4_odd (c : Dev nD) (t : Fin cfg0.N) (h1 : t.val % 2 = 1) : outAt4 V c t = oL4 V c t h1 := dif_pos h1
theorem outAt5_odd (c : Dev nD) (t : Fin cfg0.N) (h1 : t.val % 2 = 1) : outAt5 V c t = oL5 V c t h1 := dif_pos h1
theorem outAt6_odd (c : Dev nD) (t : Fin cfg0.N) (h1 : t.val % 2 = 1) : outAt6 V c t = oL6 V c t h1 := dif_pos h1
theorem outAt7_odd (c : Dev nD) (t : Fin cfg0.N) (h1 : t.val % 2 = 1) : outAt7 V c t = oL7 V c t h1 := dif_pos h1

end Cert.KernelIdeal.Region

end
-- ==== Proof.RegionCovers.lean ====
/-
  The pieces the body stores into a [512,1] buffer tile it: each of the eight running extrema at a point of either
  kind, and each of the eight outputs at a point of the last column block, is stored whole by one store.  So what
  such a buffer holds afterwards does not depend on what it held before.
-/
import proofs.«181479_j36618891166019_2_alg».proof.Proof.RegionData

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## At a point of the first column block: the eight running extrema -/
theorem coverF0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).1, y ∈ pc.1.set :=
  View.cover_of_tiledL _ S512x1.size (by sl_kernel_rfl) y
theorem coverF1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.1, y ∈ pc.1.set :=
  View.cover_of_tiledL _ S512x1.size (by sl_kernel_rfl) y
theorem coverF2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.1, y ∈ pc.1.set :=
  View.cover_of_tiledL _ S512x1.size (by sl_kernel_rfl) y
theorem coverF3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.1, y ∈ pc.1.set :=
  View.cover_of_tiledL _ S512x1.size (by sl_kernel_rfl) y
theorem coverF4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.1, y ∈ pc.1.set :=
  View.cover_of_tiledL _ S512x1.size (by sl_kernel_rfl) y
theorem coverF5 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.1, y ∈ pc.1.set :=
  View.cover_of_tiledL _ S512x1.size (by sl_kernel_rfl) y
theorem coverF6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.2.1, y ∈ pc.1.set :=
  View.cover_of_tiledL _ S512x1.size (by sl_kernel_rfl) y
theorem coverF7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.2.2.1, y ∈ pc.1.set :=
  View.cover_of_tiledL _ S512x1.size (by sl_kernel_rfl) y

/-! ## At a point of the last column block: the eight outputs, then the eight running extrema -/
theorem coverL0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).1, y ∈ pc.1.set :=
  View.cover_of_tiledL _ S512x1.size (by sl_kernel_rfl) y
theorem coverL1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.1, y ∈ pc.1.set :=
  View.cover_of_tiledL _ S512x1.size (by sl_kernel_rfl) y
theorem coverL2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.1, y ∈ pc.1.set :=
  View.cover_of_tiledL _ S512x1.size (by sl_kernel_rfl) y
theorem coverL3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.1, y ∈ pc.1.set :=
  View.cover_of_tiledL _ S512x1.size (by sl_kernel_rfl) y
theorem coverL4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.1, y ∈ pc.1.set :=
  View.cover_of_tiledL _ S512x1.size (by sl_kernel_rfl) y
theorem coverL5 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.1, y ∈ pc.1.set :=
  View.cover_of_tiledL _ S512x1.size (by sl_kernel_rfl) y
theorem coverL6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.1, y ∈ pc.1.set :=
  View.cover_of_tiledL _ S512x1.size (by sl_kernel_rfl) y
theorem coverL7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.1, y ∈ pc.1.set :=
  View.cover_of_tiledL _ S512x1.size (by sl_kernel_rfl) y
theorem coverL8 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.1, y ∈ pc.1.set :=
  View.cover_of_tiledL _ S512x1.size (by sl_kernel_rfl) y
theorem coverL9 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.1, y ∈ pc.1.set :=
  View.cover_of_tiledL _ S512x1.size (by sl_kernel_rfl) y
theorem coverL10 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.1, y ∈ pc.1.set :=
  View.cover_of_tiledL _ S512x1.size (by sl_kernel_rfl) y
theorem coverL11 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.1, y ∈ pc.1.set :=
  View.cover_of_tiledL _ S512x1.size (by sl_kernel_rfl) y
theorem coverL12 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.1, y ∈ pc.1.set :=
  View.cover_of_tiledL _ S512x1.size (by sl_kernel_rfl) y
theorem coverL13 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.1, y ∈ pc.1.set :=
  View.cover_of_tiledL _ S512x1.size (by sl_kernel_rfl) y
theorem coverL14 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.2.1, y ∈ pc.1.set :=
  View.cover_of_tiledL _ S512x1.size (by sl_kernel_rfl) y
theorem coverL15 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.2.2.1, y ∈ pc.1.set :=
  View.cover_of_tiledL _ S512x1.size (by sl_kernel_rfl) y

end Cert.KernelIdeal.Region

end
-- ==== Proof.RegionBody.lean ====
/-
  The region's proof data and its body obligation.  Before an odd point the invariant holds the eight running
  extrema at what the even point before left; before an even point it holds them at anything, since the body
  resets them there.  The first two input windows of each of the two arrays that the kernel reads twice hold the
  left half of that array's share, the other two the right half; every other window holds its array whole.
  At an even point the body's run for j = 0 applies, at an odd point its run for j = 1; the inputs' staging
  buffers hold their blocks at every point.
-/
import proofs.«181479_j36618891166019_2_alg».proof.Proof.RegionCovers

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position `n`: after an even point the running extrema at what that point left, the
    generator register at some state; otherwise the scratch buffers at anything. -/
def PhiS (c : Dev nD) : (n : ℕ) → n ≤ cfg0.N → sProp 𝕄
  | 0, _ => Pipeline.ΦA spec0 c
  | n + 1, hn =>
    if h0 : n % 2 = 0 then
      iprop(iprop(owns (c : Thread nD τ) scr0 fullShare (sF0 V c ⟨n, Nat.lt_of_succ_le hn⟩ h0) ∗ owns (c : Thread nD τ) scr1 fullShare (sF1 V c ⟨n, Nat.lt_of_succ_le hn⟩ h0) ∗ owns (c : Thread nD τ) scr2 fullShare (sF2 V c ⟨n, Nat.lt_of_succ_le hn⟩ h0) ∗ owns (c : Thread nD τ) scr3 fullShare (sF3 V c ⟨n, Nat.lt_of_succ_le hn⟩ h0) ∗ owns (c : Thread nD τ) scr4 fullShare (sF4 V c ⟨n, Nat.lt_of_succ_le hn⟩ h0) ∗ owns (c : Thread nD τ) scr5 fullShare (sF5 V c ⟨n, Nat.lt_of_succ_le hn⟩ h0) ∗ owns (c : Thread nD τ) scr6 fullShare (sF6 V c ⟨n, Nat.lt_of_succ_le hn⟩ h0) ∗ owns (c : Thread nD τ) scr7 fullShare (sF7 V c ⟨n, Nat.lt_of_succ_le hn⟩ h0)) ∗ (∃ r, prngReg c r))
    else Pipeline.ΦA spec0 c

theorem PhiS_of_even (c : Dev nD) (n : ℕ) (hn : n ≤ cfg0.N) (he : n % 2 = 0) : PhiS V c n hn = Pipeline.ΦA spec0 c := by
  cases n with
  | zero => rfl
  | succ k => exact dif_neg (by omega)

theorem PhiS_succ_of_even (c : Dev nD) (t : Fin cfg0.N) (h0 : t.val % 2 = 0) :
    PhiS V c (t.val + 1) t.isLt = iprop(iprop(owns (c : Thread nD τ) scr0 fullShare (sF0 V c t h0) ∗ owns (c : Thread nD τ) scr1 fullShare (sF1 V c t h0) ∗ owns (c : Thread nD τ) scr2 fullShare (sF2 V c t h0) ∗ owns (c : Thread nD τ) scr3 fullShare (sF3 V c t h0) ∗ owns (c : Thread nD τ) scr4 fullShare (sF4 V c t h0) ∗ owns (c : Thread nD τ) scr5 fullShare (sF5 V c t h0) ∗ owns (c : Thread nD τ) scr6 fullShare (sF6 V c t h0) ∗ owns (c : Thread nD τ) scr7 fullShare (sF7 V c t h0)) ∗ (∃ r, prngReg c r)) :=
  dif_pos h0

theorem PhiS_succ_of_odd (c : Dev nD) (t : Fin cfg0.N) (h1 : t.val % 2 = 1) : PhiS V c (t.val + 1) t.isLt = Pipeline.ΦA spec0 c :=
  dif_neg (by omega)

theorem PhiS_of_odd (c : Dev nD) (t : Fin cfg0.N) (h1 : t.val % 2 = 1) :
    PhiS V c t.val (Nat.le_of_lt t.isLt)
      = iprop(iprop(owns (c : Thread nD τ) scr0 fullShare (sF0 V c (predPt t) (predPt_even t h1)) ∗ owns (c : Thread nD τ) scr1 fullShare (sF1 V c (predPt t) (predPt_even t h1)) ∗ owns (c : Thread nD τ) scr2 fullShare (sF2 V c (predPt t) (predPt_even t h1)) ∗ owns (c : Thread nD τ) scr3 fullShare (sF3 V c (predPt t) (predPt_even t h1)) ∗ owns (c : Thread nD τ) scr4 fullShare (sF4 V c (predPt t) (predPt_even t h1)) ∗ owns (c : Thread nD τ) scr5 fullShare (sF5 V c (predPt t) (predPt_even t h1)) ∗ owns (c : Thread nD τ) scr6 fullShare (sF6 V c (predPt t) (predPt_even t h1)) ∗ owns (c : Thread nD τ) scr7 fullShare (sF7 V c (predPt t) (predPt_even t h1))) ∗ (∃ r, prngReg c r)) := by
  obtain ⟨n, hn⟩ := t
  cases n with
  | zero => exact absurd (show (0 : ℕ) % 2 = 1 from h1) (by decide)
  | succ k =>
    have h1' : (k + 1) % 2 = 1 := h1
    exact dif_pos (by omega)

/-- The proof data of the region on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outAt0 V c t
    | ⟨11, _⟩ => outAt1 V c t
    | ⟨12, _⟩ => outAt2 V c t
    | ⟨13, _⟩ => outAt3 V c t
    | ⟨14, _⟩ => outAt4 V c t
    | ⟨15, _⟩ => outAt5 V c t
    | ⟨16, _⟩ => outAt6 V c t
    | ⟨17, _⟩ => outAt7 V c t
    | ⟨_ + 18, h⟩ => absurd h (Nat.not_lt.2 (Nat.le_add_left _ _))
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨_ + 18, h⟩ => absurd h (Nat.not_lt.2 (Nat.le_add_left _ _))
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = iblk V c 9 t := by dsimp only [dat]
theorem after10 (c : Dev nD) (t : Fin cfg0.N) : (dat V c).after 10 t = outAt0 V c t := by dsimp only [dat]
theorem after11 (c : Dev nD) (t : Fin cfg0.N) : (dat V c).after 11 t = outAt1 V c t := by dsimp only [dat]
theorem after12 (c : Dev nD) (t : Fin cfg0.N) : (dat V c).after 12 t = outAt2 V c t := by dsimp only [dat]
theorem after13 (c : Dev nD) (t : Fin cfg0.N) : (dat V c).after 13 t = outAt3 V c t := by dsimp only [dat]
theorem after14 (c : Dev nD) (t : Fin cfg0.N) : (dat V c).after 14 t = outAt4 V c t := by dsimp only [dat]
theorem after15 (c : Dev nD) (t : Fin cfg0.N) : (dat V c).after 15 t = outAt5 V c t := by dsimp only [dat]
theorem after16 (c : Dev nD) (t : Fin cfg0.N) : (dat V c).after 16 t = outAt6 V c t := by dsimp only [dat]
theorem after17 (c : Dev nD) (t : Fin cfg0.N) : (dat V c).after 17 t = outAt7 V c t := by dsimp only [dat]

theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d
theorem before3 (c : Dev nD) (t : Fin cfg0.N) (d) : (dat V c).before 3 t d = iblk V c 3 t :=
  before_in3 V (dat V c) (A_eq V c 3) (after3 V c) t d
theorem before4 (c : Dev nD) (t : Fin cfg0.N) (d) : (dat V c).before 4 t d = iblk V c 4 t :=
  before_in4 V (dat V c) (A_eq V c 4) (after4 V c) t d
theorem before5 (c : Dev nD) (t : Fin cfg0.N) (d) : (dat V c).before 5 t d = iblk V c 5 t :=
  before_in5 V (dat V c) (A_eq V c 5) (after5 V c) t d
theorem before6 (c : Dev nD) (t : Fin cfg0.N) (d) : (dat V c).before 6 t d = iblk V c 6 t :=
  before_in6 V (dat V c) (A_eq V c 6) (after6 V c) t d
theorem before7 (c : Dev nD) (t : Fin cfg0.N) (d) : (dat V c).before 7 t d = iblk V c 7 t :=
  before_in7 V (dat V c) (A_eq V c 7) (after7 V c) t d
theorem before8 (c : Dev nD) (t : Fin cfg0.N) (d) : (dat V c).before 8 t d = iblk V c 8 t :=
  before_in8 V (dat V c) (A_eq V c 8) (after8 V c) t d
theorem before9 (c : Dev nD) (t : Fin cfg0.N) (d) : (dat V c).before 9 t d = iblk V c 9 t :=
  before_in9 V (dat V c) (A_eq V c 9) (after9 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))
    ∗ (∃ d, owns (c : Thread nD τ) (ms12 t) fullShare ((dat V c).before 12 t d))
    ∗ (∃ d, owns (c : Thread nD τ) (ms13 t) fullShare ((dat V c).before 13 t d))
    ∗ (∃ d, owns (c : Thread nD τ) (ms14 t) fullShare ((dat V c).before 14 t d))
    ∗ (∃ d, owns (c : Thread nD τ) (ms15 t) fullShare ((dat V c).before 15 t d))
    ∗ (∃ d, owns (c : Thread nD τ) (ms16 t) fullShare ((dat V c).before 16 t d))
    ∗ (∃ d, owns (c : Thread nD τ) (ms17 t) fullShare ((dat V c).before 17 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t
    ∗ (dat V c).leavesExact 16 t
    ∗ (dat V c).leavesExact 17 t)

set_option maxHeartbeats 40000000 in
/-- The body at any point.  At an even point the invariant hands it the scratch at anything and it returns the
    running extrema at this point's contents, the outputs untouched; at an odd point the invariant hands it the
    running extrema at what the point before left and it returns the outputs at their square roots. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8, before9]
  rw [show (dat V c).owesAt () t.succ = (dat V c).owesAt () t.castSucc from rfl]
  rw [show (dat V c).Φ t.succ = PhiS V c (t.val + 1) t.isLt from rfl]
  rw [show (dat V c).leavesExact 0 t = owns (c : Thread nD τ) (ms0 t) fullShare ((dat V c).after 0 t) from by
    unfold Dat.leavesExact; rw [liveIn0 t], after0]
  rw [show (dat V c).leavesExact 1 t = owns (c : Thread nD τ) (ms1 t) fullShare ((dat V c).after 1 t) from by
    unfold Dat.leavesExact; rw [liveIn1 t], after1]
  rw [show (dat V c).leavesExact 2 t = owns (c : Thread nD τ) (ms2 t) fullShare ((dat V c).after 2 t) from by
    unfold Dat.leavesExact; rw [liveIn2 t], after2]
  rw [show (dat V c).leavesExact 3 t = owns (c : Thread nD τ) (ms3 t) fullShare ((dat V c).after 3 t) from by
    unfold Dat.leavesExact; rw [liveIn3 t], after3]
  rw [show (dat V c).leavesExact 4 t = owns (c : Thread nD τ) (ms4 t) fullShare ((dat V c).after 4 t) from by
    unfold Dat.leavesExact; rw [liveIn4 t], after4]
  rw [show (dat V c).leavesExact 5 t = owns (c : Thread nD τ) (ms5 t) fullShare ((dat V c).after 5 t) from by
    unfold Dat.leavesExact; rw [liveIn5 t], after5]
  rw [show (dat V c).leavesExact 6 t = owns (c : Thread nD τ) (ms6 t) fullShare ((dat V c).after 6 t) from by
    unfold Dat.leavesExact; rw [liveIn6 t], after6]
  rw [show (dat V c).leavesExact 7 t = owns (c : Thread nD τ) (ms7 t) fullShare ((dat V c).after 7 t) from by
    unfold Dat.leavesExact; rw [liveIn7 t], after7]
  rw [show (dat V c).leavesExact 8 t = owns (c : Thread nD τ) (ms8 t) fullShare ((dat V c).after 8 t) from by
    unfold Dat.leavesExact; rw [liveIn8 t], after8]
  rw [show (dat V c).leavesExact 9 t = owns (c : Thread nD τ) (ms9 t) fullShare ((dat V c).after 9 t) from by
    unfold Dat.leavesExact; rw [liveIn9 t], after9]
  by_cases h0 : t.val % 2 = 0
  · have hF := first_of_even t h0
    have hnL := notLast_of_even t h0
    rw [Dat.leavesExact_idle (dat V c) 10 t (idleOut0 t hF hnL) (noFlushOut0 t hF hnL)]
    rw [Dat.leavesExact_idle (dat V c) 11 t (idleOut1 t hF hnL) (noFlushOut1 t hF hnL)]
    rw [Dat.leavesExact_idle (dat V c) 12 t (idleOut2 t hF hnL) (noFlushOut2 t hF hnL)]
    rw [Dat.leavesExact_idle (dat V c) 13 t (idleOut3 t hF hnL) (noFlushOut3 t hF hnL)]
    rw [Dat.leavesExact_idle (dat V c) 14 t (idleOut4 t hF hnL) (noFlushOut4 t hF hnL)]
    rw [Dat.leavesExact_idle (dat V c) 15 t (idleOut5 t hF hnL) (noFlushOut5 t hF hnL)]
    rw [Dat.leavesExact_idle (dat V c) 16 t (idleOut6 t hF hnL) (noFlushOut6 t hF hnL)]
    rw [Dat.leavesExact_idle (dat V c) 17 t (idleOut7 t hF hnL) (noFlushOut7 t hF hnL)]
    rw [PhiS_succ_of_even V c t h0, Phi_castSucc V c t, PhiS_of_even V c _ _ h0, PhiA_eq]
    unfold sF0 sF1 sF2 sF3 sF4 sF5 sF6 sF7
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((RF V c t h0).2.2.2.2.2.2.2.2 _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, H11, H12, H13, H14, H15, H16, H17, ⟨%es0, HS0⟩, ⟨%es1, HS1⟩, ⟨%es2, HS2⟩, ⟨%es3, HS3⟩, ⟨%es4, HS4⟩, ⟨%es5, HS5⟩, ⟨%es6, HS6⟩, ⟨%es7, HS7⟩⟩
    isplitl [HS0 HS1 HS2 HS3 HS4 HS5 HS6 HS7 Hg]
    · isplitl [HS0 HS1 HS2 HS3 HS4 HS5 HS6 HS7]
      · isplitl [HS0]
        · unfold owns; iexists _; isplitr
          swap; · iexact HS0
          ipureintro; exact View.read_writes_of_cover _ _ _ _ _ (coverF0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverF1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverF2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverF3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS4]
        · unfold owns; iexists _; isplitr
          swap; · iexact HS4
          ipureintro; exact View.read_writes_of_cover _ _ _ _ _ (coverF4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS5]
        · unfold owns; iexists _; isplitr
          swap; · iexact HS5
          ipureintro; exact View.read_writes_of_cover _ _ _ _ _ (coverF5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS6]
        · unfold owns; iexists _; isplitr
          swap; · iexact HS6
          ipureintro; exact View.read_writes_of_cover _ _ _ _ _ (coverF6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS7
        ipureintro; exact View.read_writes_of_cover _ _ _ _ _ (coverF7 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  · have h1 : t.val % 2 = 1 := by omega
    have hnF := notFirst_of_odd t h1
    have hL := last_of_odd t h1
    rw [show (dat V c).leavesExact 10 t = owns (c : Thread nD τ) (ms10 t) fullShare ((dat V c).after 10 t) from by
      unfold Dat.leavesExact; rw [liveOut0 t hnF hL], after10, outAt0_odd V c t h1]
    rw [show (dat V c).leavesExact 11 t = owns (c : Thread nD τ) (ms11 t) fullShare ((dat V c).after 11 t) from by
      unfold Dat.leavesExact; rw [liveOut1 t hnF hL], after11, outAt1_odd V c t h1]
    rw [show (dat V c).leavesExact 12 t = owns (c : Thread nD τ) (ms12 t) fullShare ((dat V c).after 12 t) from by
      unfold Dat.leavesExact; rw [liveOut2 t hnF hL], after12, outAt2_odd V c t h1]
    rw [show (dat V c).leavesExact 13 t = owns (c : Thread nD τ) (ms13 t) fullShare ((dat V c).after 13 t) from by
      unfold Dat.leavesExact; rw [liveOut3 t hnF hL], after13, outAt3_odd V c t h1]
    rw [show (dat V c).leavesExact 14 t = owns (c : Thread nD τ) (ms14 t) fullShare ((dat V c).after 14 t) from by
      unfold Dat.leavesExact; rw [liveOut4 t hnF hL], after14, outAt4_odd V c t h1]
    rw [show (dat V c).leavesExact 15 t = owns (c : Thread nD τ) (ms15 t) fullShare ((dat V c).after 15 t) from by
      unfold Dat.leavesExact; rw [liveOut5 t hnF hL], after15, outAt5_odd V c t h1]
    rw [show (dat V c).leavesExact 16 t = owns (c : Thread nD τ) (ms16 t) fullShare ((dat V c).after 16 t) from by
      unfold Dat.leavesExact; rw [liveOut6 t hnF hL], after16, outAt6_odd V c t h1]
    rw [show (dat V c).leavesExact 17 t = owns (c : Thread nD τ) (ms17 t) fullShare ((dat V c).after 17 t) from by
      unfold Dat.leavesExact; rw [liveOut7 t hnF hL], after17, outAt7_odd V c t h1]
    rw [PhiS_succ_of_odd V c t h1, Phi_castSucc V c t, PhiS_of_odd V c t h1, PhiA_eq]
    unfold oL0 oL1 oL2 oL3 oL4 oL5 oL6 oL7
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((RL V c t h1).2.2.2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, ⟨%e0, H10⟩, ⟨%e1, H11⟩, ⟨%e2, H12⟩, ⟨%e3, H13⟩, ⟨%e4, H14⟩, ⟨%e5, H15⟩, ⟨%e6, H16⟩, ⟨%e7, H17⟩, ⟨%es0, HS0⟩, ⟨%es1, HS1⟩, ⟨%es2, HS2⟩, ⟨%es3, HS3⟩, ⟨%es4, HS4⟩, ⟨%es5, HS5⟩, ⟨%es6, HS6⟩, ⟨%es7, HS7⟩⟩
    isplitl [HS0 HS1 HS2 HS3 HS4 HS5 HS6 HS7 Hg]
    · isplitl [HS0 HS1 HS2 HS3 HS4 HS5 HS6 HS7]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexists _; unfold owns; iexists _; isplitr
          swap; · iexact HS6
          ipureintro; rfl
        iexists _; unfold owns; iexists _; isplitr
        swap; · iexact HS7
        ipureintro; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverL0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (coverL1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (coverL2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (coverL3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (coverL4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (coverL5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (coverL6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H17
    ipureintro; exact View.read_writes_of_cover _ _ _ _ _ (coverL7 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl]
  try exact Idealize.SL.BI.Entails.refl _

/-- After the last point, which is odd, the invariant is the scratch at anything again. -/
theorem hout (c : Dev nD) : (dat V c).Φ (Fin.last cfg0.N) ⊢ Pipeline.ΦA spec0 c := by
  rw [show (dat V c).Φ (Fin.last cfg0.N) = PhiS V c cfg0.N (Nat.le_refl _) from rfl, PhiS_of_even V c _ _ (by rw [show cfg0.N = 16 from N_0])]
  try exact Idealize.SL.BI.Entails.refl _

end Cert.KernelIdeal.Region

end
-- ==== Proof.RegionShares.lean ====
/-
  The kernel reads each of the two bf16 input arrays through two windows (a block of rows for the left operand
  of the products and a block of rows for the right operand).  At the region's entry the full share of such an
  array is dealt to its two windows as its left half and its right half, at one contents; at the exit the two
  halves, still at that contents since both windows only read, make the full share again.  Every other window's
  array is behind one window only and is held whole.
-/
import proofs.«181479_j36618891166019_2_alg».proof.Proof.Gen.KernelIdeal.Launch
import Idealize.ShloMosaic.Lib.Pipeline.Frame
import Idealize.ShloMosaic.Lib.Pipeline.Regions

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window holds of its array: the two windows on the first input array its two halves, the two on
    the second likewise, every other window the whole. -/
def shareOf : Fin 18 → PosShare TreeShare
  | ⟨0, _⟩ => fullShare.left
  | ⟨1, _⟩ => fullShare.left
  | ⟨2, _⟩ => fullShare.right
  | ⟨3, _⟩ => fullShare.right
  | ⟨4, _⟩ => fullShare
  | ⟨5, _⟩ => fullShare
  | ⟨6, _⟩ => fullShare
  | ⟨7, _⟩ => fullShare
  | ⟨8, _⟩ => fullShare
  | ⟨9, _⟩ => fullShare
  | ⟨10, _⟩ => fullShare
  | ⟨11, _⟩ => fullShare
  | ⟨12, _⟩ => fullShare
  | ⟨13, _⟩ => fullShare
  | ⟨14, _⟩ => fullShare
  | ⟨15, _⟩ => fullShare
  | ⟨16, _⟩ => fullShare
  | ⟨17, _⟩ => fullShare
  | ⟨_ + 18, h⟩ => absurd h (Nat.not_lt.2 (Nat.le_add_left _ _))

/-- The buffers behind the windows' arrays, each whole at contents `Vc`, are the windows' arrays at those contents
    with the shares dealt as above — both ways. -/
theorem arrays_deal (c : Dev nD) (dat : Dat τ (Elt F) Unit ℕ (UR sig nD τ) ℕ cfg0 c) (hq : ∀ w, dat.share w = shareOf w)
    (Vc : (b : Ref sig .tc) → Buf (Elt F) ((c : Thread nD τ).loc b))
    (Fa : (w : Fin cfg0.W) → Buf (Elt F) ((cfg0.win w).arr.view.loc (c : Thread nD τ)))
    (hF : ∀ w, Fa w = Vc (Pipeline.arrRef spec0 w)) :
    (Pipeline.arrBufs (Ix := Unit) (Name := ℕ) (U := UR sig nD τ) (Lvl := ℕ) spec0 c Vc : sProp 𝕄) ⊣⊢ dat.arrays Fa := by
  have harr : dat.arrays Fa = bigSep Finset.univ fun w : Fin 18 =>
      ((((c : Thread nD τ).loc (Pipeline.arrRef spec0 w)) ↦{shareOf w} Vc (Pipeline.arrRef spec0 w)) : sProp 𝕄) := by
    unfold Pipeline.Dat.arrays
    exact bigSep_congr fun w _ => by rw [(arr_whole0 w).set_eq_univ, hq, hF]
  rw [harr, bigSep_W0]
  have hB : (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_v1) ↦{fullShare} Vc main_v1) ∗ (((c : Thread nD τ).loc main_v6) ↦{fullShare} Vc main_v6) ∗ (((c : Thread nD τ).loc main_v7) ↦{fullShare} Vc main_v7) ∗ (((c : Thread nD τ).loc main_v8) ↦{fullShare} Vc main_v8) ∗ (((c : Thread nD τ).loc main_v9) ↦{fullShare} Vc main_v9) ∗ (((c : Thread nD τ).loc main_v10) ↦{fullShare} Vc main_v10) ∗ (((c : Thread nD τ).loc main_v11) ↦{fullShare} Vc main_v11) ∗ (((c : Thread nD τ).loc main_v12_0) ↦{fullShare} Vc main_v12_0) ∗ (((c : Thread nD τ).loc main_v12_1) ↦{fullShare} Vc main_v12_1) ∗ (((c : Thread nD τ).loc main_v12_2) ↦{fullShare} Vc main_v12_2) ∗ (((c : Thread nD τ).loc main_v12_3) ↦{fullShare} Vc main_v12_3) ∗ (((c : Thread nD τ).loc main_v12_4) ↦{fullShare} Vc main_v12_4) ∗ (((c : Thread nD τ).loc main_v12_5) ↦{fullShare} Vc main_v12_5) ∗ (((c : Thread nD τ).loc main_v12_6) ↦{fullShare} Vc main_v12_6) ∗ (((c : Thread nD τ).loc main_v12_7) ↦{fullShare} Vc main_v12_7)) :=
    bigSep_eq_bigSepL_of_eq [main_v0, main_v1, main_v6, main_v7, main_v8, main_v9, main_v10, main_v11, main_v12_0, main_v12_1, main_v12_2, main_v12_3, main_v12_4, main_v12_5, main_v12_6, main_v12_7] (by decide) (by decide) _
  rw [hB]
  constructor
  · iintro ⟨B0, B1, B2, B3, B4, B5, B6, B7, B8, B9, B10, B11, B12, B13, B14, B15⟩
    ihave B0' := (pointsTo_share (PosShare.mem_left_op_right fullShare)).1 $$ B0
    icases B0' with ⟨B0l, B0r⟩
    ihave B1' := (pointsTo_share (PosShare.mem_left_op_right fullShare)).1 $$ B1
    icases B1' with ⟨B1l, B1r⟩
    isplitl [B0l]; · iexact B0l
    isplitl [B1l]; · iexact B1l
    isplitl [B0r]; · iexact B0r
    isplitl [B1r]; · iexact B1r
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  · iintro ⟨A0, A1, A2, A3, A4, A5, A6, A7, A8, A9, A10, A11, A12, A13, A14, A15, A16, A17⟩
    isplitl [A0 A2]
    · iapply (pointsTo_share (PosShare.mem_left_op_right fullShare)).2
      isplitl [A0]; · iexact A0
      iexact A2
    isplitl [A1 A3]
    · iapply (pointsTo_share (PosShare.mem_left_op_right fullShare)).2
      isplitl [A1]; · iexact A1
      iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    iexact A17

end Cert.KernelIdeal.Region

end
-- ==== Proof.HostSideIdeal.lean ====
import proofs.«181479_j36618891166019_2_alg».proof.Proof.Gen.KernelIdeal.Launch
import Idealize.ShloMosaic.Lib.Pipeline.Frame
import Idealize.ShloMosaic.Lib.Pipeline.Regions

/-!
# The host side of the program's run

`@main` is five items in a row: fourteen host operations (the two inputs rounded, their row sums of squares, the
reshapes the kernel reads), the one kernel region, and then the tail in three stretches (fourteen operations, the three
of the rectifier, ten more) that turns the region's eight output columns into the two scalar results.

Between two items the TensorCore's unscoped buffers hold a valuation: `W0` the launch memory, `W1` after the first
stretch, `W2` equal to `W1` except at the region's eight output arrays, which hold unknown contents `outs`, and
`W3`, `W4`, `W5` after each stretch of the tail. No item writes an argument array, so each argument is read back
through the five steps to its launch contents.

`run_cond` is the run of `@main` GIVEN the region's segment record: every weakly fair execution terminates and the
final memory holds the two results at `W5` and the three arguments as launched. `run_of_region` is the same with the
bookkeeping resources chosen: nothing owed at launch, no level assigned, and beside the buffers only the core's
generator register and its empty debt ride through the items.
-/

noncomputable section

namespace Cert.KernelIdeal.HostSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the region leaves in its eight output arrays `main_v12_0 … main_v12_7`, per core: the unknowns the later
    valuations are written over (read at those eight references only). -/
abbrev Outs : Type := (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev W0 (c : Dev nD) : Valuation τ sig (Elt F) := fun b => m (c, b)
/-- After the fourteen host operations before the region. -/
abbrev W1 (c : Dev nD) : Valuation τ sig (Elt F) := StableHlo.after hostOps0 (W0 m c)
/-- After the region: its eight output arrays at `outs`, every other buffer as the region found it. -/
abbrev W2 (c : Dev nD) : Valuation τ sig (Elt F) :=
  Function.update (Function.update (Function.update (Function.update (Function.update (Function.update (Function.update (Function.update (W1 m c) main_v12_0 (outs main_v12_0 c)) main_v12_1 (outs main_v12_1 c)) main_v12_2 (outs main_v12_2 c)) main_v12_3 (outs main_v12_3 c)) main_v12_4 (outs main_v12_4 c)) main_v12_5 (outs main_v12_5 c)) main_v12_6 (outs main_v12_6 c)) main_v12_7 (outs main_v12_7 c)
/-- After the first stretch of the tail (reshapes, the two concatenations, the difference plus the margin). -/
abbrev W3 (c : Dev nD) : Valuation τ sig (Elt F) := StableHlo.after hostOps1 (W2 m outs c)
/-- After the rectifier's three operations. -/
abbrev W4 (c : Dev nD) : Valuation τ sig (Elt F) := StableHlo.after hostOps1_1 (W3 m outs c)
/-- After the last stretch (the two means): the end of `@main`. -/
abbrev W5 (c : Dev nD) : Valuation τ sig (Elt F) := StableHlo.after hostOps1_2 (W4 m outs c)

/-! ## What the host stretches write -/

theorem hostOps0_fresh : (hostOps0 : List (HloOp τ sig (Elt F))).Forall fun op => op.fresh = ∅ := by
  simp only [List.Forall]; repeat' constructor
/-- The references the first stretch writes. -/
abbrev hostOps0_W : List (Ref sig .tc) :=
  [main_v0, main_v1, main_v2, main_cst, main_v3, main_v4, main_cst_0, main_v5, main_v6, main_v7, main_v8, main_v9, main_v10, main_v11]
theorem hostOps0_writes : (hostOps0 : List (HloOp τ sig (Elt F))).Forall fun op => op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps1_fresh : (hostOps1 : List (HloOp τ sig (Elt F))).Forall fun op => op.fresh = ∅ := by
  simp only [List.Forall]; repeat' constructor
/-- The references the tail's first stretch writes. -/
abbrev hostOps1_W : List (Ref sig .tc) :=
  [main_v13, main_v14, main_v15, main_v16, main_v17, main_v18, main_v19, main_v20, main_v21, main_v22, main_v23, main_cst_1, main_v24, main_v25]
theorem hostOps1_writes : (hostOps1 : List (HloOp τ sig (Elt F))).Forall fun op => op.writes ⊆ (hostOps1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps1_1_fresh : (hostOps1_1 : List (HloOp τ sig (Elt F))).Forall fun op => op.fresh = ∅ := by
  simp only [List.Forall]; repeat' constructor
/-- The references the rectifier's operations write. -/
abbrev hostOps1_1_W : List (Ref sig .tc) := [main_call0_cst, main_call0_v0, main_v26]
theorem hostOps1_1_writes : (hostOps1_1 : List (HloOp τ sig (Elt F))).Forall fun op => op.writes ⊆ (hostOps1_1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps1_2_fresh : (hostOps1_2 : List (HloOp τ sig (Elt F))).Forall fun op => op.fresh = ∅ := by
  simp only [List.Forall]; repeat' constructor
/-- The references the last stretch writes. -/
abbrev hostOps1_2_W : List (Ref sig .tc) :=
  [main_cst_2, main_v27, main_cst_3, main_v28, main_v29, main_v30, main_cst_4, main_v31, main_cst_5, main_v32]
theorem hostOps1_2_writes : (hostOps1_2 : List (HloOp τ sig (Elt F))).Forall fun op => op.writes ⊆ (hostOps1_2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## What each item leaves unchanged -/

/-- The region's eight output arrays. -/
abbrev region_W : List (Ref sig .tc) := [main_v12_0, main_v12_1, main_v12_2, main_v12_3, main_v12_4, main_v12_5, main_v12_6, main_v12_7]

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ region_W) : W2 m outs c r = W1 m c r := by
  simp only [W2, Function.update_of_ne (StableHlo.devRef_ne_of_ne (List.ne_of_not_mem_cons h) : (Proc.devRef .tc r : DevRef τ sig) ≠ Proc.devRef .tc main_v12_0),
    Function.update_of_ne (StableHlo.devRef_ne_of_ne (List.ne_of_not_mem_cons (List.not_mem_of_not_mem_cons h)) : (Proc.devRef .tc r : DevRef τ sig) ≠ Proc.devRef .tc main_v12_1),
    Function.update_of_ne (StableHlo.devRef_ne_of_ne (List.ne_of_not_mem_cons (List.not_mem_of_not_mem_cons (List.not_mem_of_not_mem_cons h))) : (Proc.devRef .tc r : DevRef τ sig) ≠ Proc.devRef .tc main_v12_2),
    Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v12_3),
    Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v12_4),
    Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons h)))))) : (Proc.devRef .tc r : DevRef τ sig) ≠ Proc.devRef .tc main_v12_5),
    Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons (List.not_mem_of_not_mem_cons h))))))) : (Proc.devRef .tc r : DevRef τ sig) ≠ Proc.devRef .tc main_v12_6),
    Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons (List.not_mem_of_not_mem_cons (List.not_mem_of_not_mem_cons h)))))))) : (Proc.devRef .tc r : DevRef τ sig) ≠ Proc.devRef .tc main_v12_7)]
theorem W3_of (c : Dev nD) (r : Ref sig .tc) (h : r ∉ hostOps1_W) : W3 m outs c r = W2 m outs c r :=
  StableHlo.after_of_writes_sub hostOps1 _ hostOps1_writes h
theorem W4_of (c : Dev nD) (r : Ref sig .tc) (h : r ∉ hostOps1_1_W) : W4 m outs c r = W3 m outs c r :=
  StableHlo.after_of_writes_sub hostOps1_1 _ hostOps1_1_writes h
theorem W5_of (c : Dev nD) (r : Ref sig .tc) (h : r ∉ hostOps1_2_W) : W5 m outs c r = W4 m outs c r :=
  StableHlo.after_of_writes_sub hostOps1_2 _ hostOps1_2_writes h

/-! ## The region's output arrays after the region -/

theorem W2_main_v12_0 (c : Dev nD) : W2 m outs c main_v12_0 = outs main_v12_0 c := by
  simp (disch := exact StableHlo.devRef_ne_of_ne (by decide)) only [W2, Function.update_self, Function.update_of_ne]
theorem W2_main_v12_1 (c : Dev nD) : W2 m outs c main_v12_1 = outs main_v12_1 c := by
  simp (disch := exact StableHlo.devRef_ne_of_ne (by decide)) only [W2, Function.update_self, Function.update_of_ne]
theorem W2_main_v12_2 (c : Dev nD) : W2 m outs c main_v12_2 = outs main_v12_2 c := by
  simp (disch := exact StableHlo.devRef_ne_of_ne (by decide)) only [W2, Function.update_self, Function.update_of_ne]
theorem W2_main_v12_3 (c : Dev nD) : W2 m outs c main_v12_3 = outs main_v12_3 c := by
  simp (disch := exact StableHlo.devRef_ne_of_ne (by decide)) only [W2, Function.update_self, Function.update_of_ne]
theorem W2_main_v12_4 (c : Dev nD) : W2 m outs c main_v12_4 = outs main_v12_4 c := by
  simp (disch := exact StableHlo.devRef_ne_of_ne (by decide)) only [W2, Function.update_self, Function.update_of_ne]
theorem W2_main_v12_5 (c : Dev nD) : W2 m outs c main_v12_5 = outs main_v12_5 c := by
  simp (disch := exact StableHlo.devRef_ne_of_ne (by decide)) only [W2, Function.update_self, Function.update_of_ne]
theorem W2_main_v12_6 (c : Dev nD) : W2 m outs c main_v12_6 = outs main_v12_6 c := by
  simp (disch := exact StableHlo.devRef_ne_of_ne (by decide)) only [W2, Function.update_self, Function.update_of_ne]
theorem W2_main_v12_7 (c : Dev nD) : W2 m outs c main_v12_7 = outs main_v12_7 c := by
  simp (disch := exact StableHlo.devRef_ne_of_ne (by decide)) only [W2, Function.update_self, Function.update_of_ne]

/-! ## No item writes an argument -/

/-- `main_arg0` holds its launch contents at the end: no host operation writes it and the region's outputs are other arrays. -/
theorem W5_main_arg0 (c : Dev nD) : W5 m outs c main_arg0 = m ((c : Thread nD τ).loc main_arg0) :=
  (W5_of m outs c main_arg0 (by decide)).trans <| (W4_of m outs c main_arg0 (by decide)).trans <| (W3_of m outs c main_arg0 (by decide)).trans <|
    (W2_of m outs c main_arg0 (by decide)).trans <| (W1_of m c main_arg0 (by decide)).trans rfl
/-- `main_arg1` holds its launch contents at the end: no host operation writes it and the region's outputs are other arrays. -/
theorem W5_main_arg1 (c : Dev nD) : W5 m outs c main_arg1 = m ((c : Thread nD τ).loc main_arg1) :=
  (W5_of m outs c main_arg1 (by decide)).trans <| (W4_of m outs c main_arg1 (by decide)).trans <| (W3_of m outs c main_arg1 (by decide)).trans <|
    (W2_of m outs c main_arg1 (by decide)).trans <| (W1_of m c main_arg1 (by decide)).trans rfl
/-- `main_arg2` holds its launch contents at the end: no host operation writes it and the region's outputs are other arrays. -/
theorem W5_main_arg2 (c : Dev nD) : W5 m outs c main_arg2 = m ((c : Thread nD τ).loc main_arg2) :=
  (W5_of m outs c main_arg2 (by decide)).trans <| (W4_of m outs c main_arg2 (by decide)).trans <| (W3_of m outs c main_arg2 (by decide)).trans <|
    (W2_of m outs c main_arg2 (by decide)).trans <| (W1_of m c main_arg2 (by decide)).trans rfl

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 2 → Dev nD → sProp (MT nD τ sig Ix (Elt F) ℕ U Lvl))

/-- Item 0: the first stretch over the unscoped buffers from `W0`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E 0)
/-- Item 2: the tail's first stretch from `W2`, the rest `E 1` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m outs) (E 1)
/-- Item 3: the rectifier's operations from `W3`. -/
def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (W3 m outs) (E 1)
/-- Item 4: the last stretch from `W4`. -/
def seg4 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (W4 m outs) (E 1)

end Segs

section

variable {Ix : Type} [DecidableEq Ix] {U : Type} [URA U] {Lvl : Type} [Preorder Lvl]

/-- The prefetched tables' admissible contents: the kernel region has no prefetched table. -/
abbrev adm : (p : Fin 1) → (pcfgs (F := F) p).Adm := fun p => (cfgs p).toPCfg_adm

/-- `@main`'s five items as segments on core `c`: the four host stretches and the region's given record. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  [.host (seg0 m 𝒱₀ L lv E), .region R0, .host (seg2 m outs 𝒱₀ L lv E), .host (seg3 m outs 𝒱₀ L lv E), .host (seg4 m outs 𝒱₀ L lv E)]

end

/-! ## The run, given the region's record -/

set_option backward.isDefEq.respectTransparency.types false in
/-- THE CONDITIONAL RUN. For any user algebra, level assignment, launch dues and ghost resources, any rest states `E`
    the launch makes on every core at once (`hE0`) and that end owing nothing (`hE1`), any contents the region leaves in
    its output arrays (`outs`) and any proof data: GIVEN the region's segment record, entered from every unscoped buffer
    at `W1` beside `E 0` and left at `W2` beside `E 1`, every weakly fair execution of `@main` from memory `m` with zero
    counters terminates, and every final memory holds the two results at `W5` and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (W1 m c) ∗ E 0 c) ⊢ R0.pre c)
    (hpost0 : ∀ c : Dev nD, R0.post c ⊢ iprop(StableHlo.held (c : Thread nD τ) (Pipeline.ucRefs τ sig) (W2 m outs c) ∗ E 1 c)) :
    θ_run defs (onTc (τ := τ) (main (F := F))) ⟨m, fun _ => 0, ρ⟩ (fun r => ∀ c : Dev nD,
      r.2.mem ((c.tc : Thread nD τ).loc main_v28) = W5 m outs c main_v28
      ∧ r.2.mem ((c.tc : Thread nD τ).loc main_v32) = W5 m outs c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0)
    (fun c Q => by
      rewrite [main_chain c, Seg.run_eq_chain,
        show (segs m outs 𝒱₀ L lv E ι pdats R0 c).map Seg.prog = [
          StableHlo.seq hostOps0,
          Prog.lift (.customCall (Pipeline.entry 0) ()),
          StableHlo.seq hostOps1,
          StableHlo.seq hostOps1_1,
          StableHlo.seq hostOps1_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (W0 m c) ∗ E 0 c))
    (Tₙ := fun c => StableHlo.held (c : Thread nD τ) (Pipeline.ucRefs τ sig) (W5 m outs c))
    (hch := fun c => ⟨.rfl, hpre0 c, hpost0 c, .rfl, .rfl, sep_mono .rfl (hE1 c)⟩)
    (hinit := ?_)
    (QY := fun c s => s.mem ((c.tc : Thread nD τ).loc main_v28) = W5 m outs c main_v28
      ∧ s.mem ((c.tc : Thread nD τ).loc main_v32) = W5 m outs c main_v32
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers are held at `W0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (W0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the two results and the three arguments read off the last valuation
    unfold StableHlo.held
    iintro ⟨Hh, HSI⟩
    ihave Hr := (pointsTo_read_all (Pipeline.ucRefs τ sig) (fun b => ((c : Thread nD τ).1, b)) (W5 m outs c) s') $$ [Hh HSI]
    · isplitl [Hh] <;> iassumption
    icases Hr with ⟨%h, HSI⟩
    imodintro
    isplitr
    · ipureintro
      exact ⟨h (Proc.devRef .tc main_v28) (Finset.mem_filter.mpr ⟨StableHlo.devRef_mem_tcRefs main_v28, by decide⟩),
        h (Proc.devRef .tc main_v32) (Finset.mem_filter.mpr ⟨StableHlo.devRef_mem_tcRefs main_v32, by decide⟩),
        (h (Proc.devRef .tc main_arg0) (Finset.mem_filter.mpr ⟨StableHlo.devRef_mem_tcRefs main_arg0, by decide⟩)).trans (W5_main_arg0 m outs c),
        (h (Proc.devRef .tc main_arg1) (Finset.mem_filter.mpr ⟨StableHlo.devRef_mem_tcRefs main_arg1, by decide⟩)).trans (W5_main_arg1 m outs c),
        (h (Proc.devRef .tc main_arg2) (Finset.mem_filter.mpr ⟨StableHlo.devRef_mem_tcRefs main_arg2, by decide⟩)).trans (W5_main_arg2 m outs c)⟩
    · iexact HSI

/-! ## The run with the bookkeeping chosen -/

local notation "𝕄₁" => MT nD τ sig Unit (Elt F) ℕ (UR sig nD τ) ℕ

/-- What rides beside the buffers through every item: the core's generator register at some state and its debt,
    which is empty. -/
abbrev Rest (c : Dev nD) : sProp 𝕄₁ :=
  iprop((∃ r, prngReg c r) ∗ ∃ W, owes (c : Thread nD τ) (0 : CellTallies nD τ sig Unit) W)

set_option backward.isDefEq.respectTransparency.types false in
/-- THE RUN, GIVEN THE REGION. The user algebra is one copy of the rounds algebra, no level is assigned, no core owes
    anything at launch and no ghost resource is dealt; beside the buffers each core keeps `Rest`. GIVEN the region's
    segment record over any proof data, entered from every unscoped buffer at `W1` beside `Rest` and left at `W2`
    beside `Rest`, every weakly fair execution of `@main` from memory `m` with zero counters terminates, and every final
    memory holds the two results at `W5` and each argument as launched. -/
theorem run_of_region (ρ : Dev nD → PrngReg) (outs : Outs (F := F))
    (pdats : (p : Fin 1) → (c : Dev nD) → Dat τ (Elt F) Unit ℕ (UR sig nD τ) ℕ (cfgs p) c)
    (R0 : RegionSeg (pcfgs (F := F)) adm pdats () defs₀ Variants.none (fun _ => (∅ : Finset Unit)) (fun _ _ => (0 : ℕ)) 0)
    (hpre0 : ∀ c : Dev nD, iprop(StableHlo.held (c : Thread nD τ) (Pipeline.ucRefs τ sig) (W1 m c) ∗ Rest (F := F) c) ⊢ R0.pre c)
    (hpost0 : ∀ c : Dev nD, R0.post c ⊢ iprop(StableHlo.held (c : Thread nD τ) (Pipeline.ucRefs τ sig) (W2 m outs c) ∗ Rest (F := F) c)) :
    θ_run defs (onTc (τ := τ) (main (F := F))) ⟨m, fun _ => 0, ρ⟩ (fun r => ∀ c : Dev nD,
      r.2.mem ((c.tc : Thread nD τ).loc main_v28) = W5 m outs c main_v28
      ∧ r.2.mem ((c.tc : Thread nD τ).loc main_v32) = W5 m outs c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m emb₁ () Variants.none (fun _ => ∅) (fun _ _ => 0) (fun _ _ => rfl) ρ outs pdats
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄₁)
            ⊢ BI.own (emb₁ (initOf (Pipeline.cells cfgs cellOf_inj) (Pipeline.launchToks cfgs cellOf_inj))) from .rfl)
        iexact Hu
      iapply (show (BI.emp : sProp 𝕄₁) ⊢ bigSep Finset.univ (fun _ : Dev nD => (BI.emp : sProp 𝕄₁)) from by rw [BI.bigSep_emp_const])
      iempintro)
    (E := fun _ c => Rest (F := F) c)
    (hE0 := by
      refine Pipeline.initEach (fun _ => (∅ : Finset Unit)) (fun _ _ => (0 : ℕ)) fun c => ?_
      iintro ⟨⟨-, HO, -, Hp, -⟩, -⟩
      imodintro
      isplitl [Hp]; · iexists _; iexact Hp
      iexists ∅; iexact HO)
    (hE1 := fun c => by
      iintro ⟨-, HO⟩
      iexact HO)
    R0 hpre0 hpost0

end Cert.KernelIdeal.HostSide

end
-- ==== Proof.RegionSeg.lean ====
/-
  The kernel region as one segment of the program's run, and the program's run.  The region is entered holding
  every unscoped buffer at what the host operations before it left; the windows' arrays are taken out of those
  (the two arrays that are read twice dealt to their two windows by halves), the rest bypasses the region; at its
  exit the arrays come back, the eight output arrays at what the write-backs made of them and every input array
  as it was, and are put back among the unscoped buffers.  The scratch buffers and the generator register enter
  the region's invariant and come back out of it; the kernel signals no one.
-/
import proofs.«181479_j36618891166019_2_alg».proof.Proof.RegionBody
import proofs.«181479_j36618891166019_2_alg».proof.Proof.RegionShares
import proofs.«181479_j36618891166019_2_alg».proof.Proof.HostSideIdeal
import Idealize.ShloMosaic.Lib.Pipeline.RegionsLoop

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ)

/-- What the region finds in the TensorCore's buffers: the launch contents after the host operations before it. -/
abbrev V1 (c : Dev nD) (b : Ref sig .tc) : Buf (Elt F) ((c : Thread nD τ).loc b) := HostSide.W1 m c b

/-- What the region leaves in the buffers it may change: each of its eight output arrays at what its write-backs
    made of it. (At any other reference the value is not used.) -/
def outs : HostSide.Outs (F := F) := fun r c =>
  (Function.update (Function.update (Function.update (Function.update (Function.update (Function.update (Function.update (Function.update (fun b => V1 m c b) main_v12_0 ((dat (V1 m) c).arrAt 10 cfg0.N)) main_v12_1 ((dat (V1 m) c).arrAt 11 cfg0.N)) main_v12_2 ((dat (V1 m) c).arrAt 12 cfg0.N)) main_v12_3 ((dat (V1 m) c).arrAt 13 cfg0.N)) main_v12_4 ((dat (V1 m) c).arrAt 14 cfg0.N)) main_v12_5 ((dat (V1 m) c).arrAt 15 cfg0.N)) main_v12_6 ((dat (V1 m) c).arrAt 16 cfg0.N)) main_v12_7 ((dat (V1 m) c).arrAt 17 cfg0.N)) r

theorem outs_0 (c : Dev nD) : outs m main_v12_0 c = (dat (V1 m) c).arrAt 10 cfg0.N := by
  unfold outs
  simp only [Function.update_of_ne (show main_v12_0 ≠ main_v12_1 from by decide), Function.update_of_ne (show main_v12_0 ≠ main_v12_2 from by decide), Function.update_of_ne (show main_v12_0 ≠ main_v12_3 from by decide), Function.update_of_ne (show main_v12_0 ≠ main_v12_4 from by decide), Function.update_of_ne (show main_v12_0 ≠ main_v12_5 from by decide), Function.update_of_ne (show main_v12_0 ≠ main_v12_6 from by decide), Function.update_of_ne (show main_v12_0 ≠ main_v12_7 from by decide), Function.update_self]
theorem outs_1 (c : Dev nD) : outs m main_v12_1 c = (dat (V1 m) c).arrAt 11 cfg0.N := by
  unfold outs
  simp only [Function.update_of_ne (show main_v12_1 ≠ main_v12_2 from by decide), Function.update_of_ne (show main_v12_1 ≠ main_v12_3 from by decide), Function.update_of_ne (show main_v12_1 ≠ main_v12_4 from by decide), Function.update_of_ne (show main_v12_1 ≠ main_v12_5 from by decide), Function.update_of_ne (show main_v12_1 ≠ main_v12_6 from by decide), Function.update_of_ne (show main_v12_1 ≠ main_v12_7 from by decide), Function.update_self]
theorem outs_2 (c : Dev nD) : outs m main_v12_2 c = (dat (V1 m) c).arrAt 12 cfg0.N := by
  unfold outs
  simp only [Function.update_of_ne (show main_v12_2 ≠ main_v12_3 from by decide), Function.update_of_ne (show main_v12_2 ≠ main_v12_4 from by decide), Function.update_of_ne (show main_v12_2 ≠ main_v12_5 from by decide), Function.update_of_ne (show main_v12_2 ≠ main_v12_6 from by decide), Function.update_of_ne (show main_v12_2 ≠ main_v12_7 from by decide), Function.update_self]
theorem outs_3 (c : Dev nD) : outs m main_v12_3 c = (dat (V1 m) c).arrAt 13 cfg0.N := by
  unfold outs
  simp only [Function.update_of_ne (show main_v12_3 ≠ main_v12_4 from by decide), Function.update_of_ne (show main_v12_3 ≠ main_v12_5 from by decide), Function.update_of_ne (show main_v12_3 ≠ main_v12_6 from by decide), Function.update_of_ne (show main_v12_3 ≠ main_v12_7 from by decide), Function.update_self]
theorem outs_4 (c : Dev nD) : outs m main_v12_4 c = (dat (V1 m) c).arrAt 14 cfg0.N := by
  unfold outs
  simp only [Function.update_of_ne (show main_v12_4 ≠ main_v12_5 from by decide), Function.update_of_ne (show main_v12_4 ≠ main_v12_6 from by decide), Function.update_of_ne (show main_v12_4 ≠ main_v12_7 from by decide), Function.update_self]
theorem outs_5 (c : Dev nD) : outs m main_v12_5 c = (dat (V1 m) c).arrAt 15 cfg0.N := by
  unfold outs
  simp only [Function.update_of_ne (show main_v12_5 ≠ main_v12_6 from by decide), Function.update_of_ne (show main_v12_5 ≠ main_v12_7 from by decide), Function.update_self]
theorem outs_6 (c : Dev nD) : outs m main_v12_6 c = (dat (V1 m) c).arrAt 16 cfg0.N := by
  unfold outs
  simp only [Function.update_of_ne (show main_v12_6 ≠ main_v12_7 from by decide), Function.update_self]
theorem outs_7 (c : Dev nD) : outs m main_v12_7 c = (dat (V1 m) c).arrAt 17 cfg0.N := by
  unfold outs
  simp only [Function.update_self]

/-- The buffers' contents at the region's exit. -/
abbrev V2 (c : Dev nD) (b : Ref sig .tc) : Buf (Elt F) ((c : Thread nD τ).loc b) := HostSide.W2 m (outs m) c b

/-- The proof data of the program's one pipeline. -/
def pdats : (p : Fin 1) → (c : Dev nD) → Dat τ (Elt F) Unit ℕ (UR sig nD τ) ℕ (cfgs p) c
  | ⟨0, _⟩ => fun c => dat (V1 m) c

theorem share_eq (c : Dev nD) (w : Fin cfg0.W) : (dat (V1 m) c).share w = shareOf w := by
  unfold Pipeline.Dat.share
  fin_cases w <;> rfl

set_option maxHeartbeats 4000000 in
/-- At the exit each array holds what the proof data computes for it: an input array its entry contents, an output
    array what the exit valuation names. -/
theorem exit_arr (c : Dev nD) (w : Fin cfg0.W) : (dat (V1 m) c).arrAt w cfg0.N = V2 m c (Pipeline.arrRef spec0 w) := by
  fin_cases w
  · exact ((dat (V1 m) c).arrAt_in 0 rfl _).trans ((A_eq (V1 m) c 0).trans (HostSide.W2_of m (outs m) c _ (by decide)).symm)
  · exact ((dat (V1 m) c).arrAt_in 1 rfl _).trans ((A_eq (V1 m) c 1).trans (HostSide.W2_of m (outs m) c _ (by decide)).symm)
  · exact ((dat (V1 m) c).arrAt_in 2 rfl _).trans ((A_eq (V1 m) c 2).trans (HostSide.W2_of m (outs m) c _ (by decide)).symm)
  · exact ((dat (V1 m) c).arrAt_in 3 rfl _).trans ((A_eq (V1 m) c 3).trans (HostSide.W2_of m (outs m) c _ (by decide)).symm)
  · exact ((dat (V1 m) c).arrAt_in 4 rfl _).trans ((A_eq (V1 m) c 4).trans (HostSide.W2_of m (outs m) c _ (by decide)).symm)
  · exact ((dat (V1 m) c).arrAt_in 5 rfl _).trans ((A_eq (V1 m) c 5).trans (HostSide.W2_of m (outs m) c _ (by decide)).symm)
  · exact ((dat (V1 m) c).arrAt_in 6 rfl _).trans ((A_eq (V1 m) c 6).trans (HostSide.W2_of m (outs m) c _ (by decide)).symm)
  · exact ((dat (V1 m) c).arrAt_in 7 rfl _).trans ((A_eq (V1 m) c 7).trans (HostSide.W2_of m (outs m) c _ (by decide)).symm)
  · exact ((dat (V1 m) c).arrAt_in 8 rfl _).trans ((A_eq (V1 m) c 8).trans (HostSide.W2_of m (outs m) c _ (by decide)).symm)
  · exact ((dat (V1 m) c).arrAt_in 9 rfl _).trans ((A_eq (V1 m) c 9).trans (HostSide.W2_of m (outs m) c _ (by decide)).symm)
  · exact ((HostSide.W2_main_v12_0 m (outs m) c).trans (outs_0 m c)).symm
  · exact ((HostSide.W2_main_v12_1 m (outs m) c).trans (outs_1 m c)).symm
  · exact ((HostSide.W2_main_v12_2 m (outs m) c).trans (outs_2 m c)).symm
  · exact ((HostSide.W2_main_v12_3 m (outs m) c).trans (outs_3 m c)).symm
  · exact ((HostSide.W2_main_v12_4 m (outs m) c).trans (outs_4 m c)).symm
  · exact ((HostSide.W2_main_v12_5 m (outs m) c).trans (outs_5 m c)).symm
  · exact ((HostSide.W2_main_v12_6 m (outs m) c).trans (outs_6 m c)).symm
  · exact ((HostSide.W2_main_v12_7 m (outs m) c).trans (outs_7 m c)).symm

/-- Every buffer that is no window's array is at the exit what it was at the entry. -/
theorem exit_rest (c : Dev nD) (b : Ref sig .tc) (hb : b ∉ Finset.univ.image (Pipeline.arrRef spec0)) : V2 m c b = V1 m c b :=
  HostSide.W2_of m (outs m) c b fun h => by
    simp only [HostSide.region_W, List.mem_cons, List.mem_nil_iff, or_false] at h
    rcases h with rfl | rfl | rfl | rfl | rfl | rfl | rfl | rfl
    · exact hb (Finset.mem_image.mpr ⟨10, Finset.mem_univ _, rfl⟩)
    · exact hb (Finset.mem_image.mpr ⟨11, Finset.mem_univ _, rfl⟩)
    · exact hb (Finset.mem_image.mpr ⟨12, Finset.mem_univ _, rfl⟩)
    · exact hb (Finset.mem_image.mpr ⟨13, Finset.mem_univ _, rfl⟩)
    · exact hb (Finset.mem_image.mpr ⟨14, Finset.mem_univ _, rfl⟩)
    · exact hb (Finset.mem_image.mpr ⟨15, Finset.mem_univ _, rfl⟩)
    · exact hb (Finset.mem_image.mpr ⟨16, Finset.mem_univ _, rfl⟩)
    · exact hb (Finset.mem_image.mpr ⟨17, Finset.mem_univ _, rfl⟩)

/-- The unscoped buffers at contents `Vc` are the buffers behind the windows' arrays and the rest. -/
theorem ubufs_split (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop((Pipeline.arrBufs spec0 c Vc : sProp 𝕄) ∗ Pipeline.unscopedRest spec0 c Vc) :=
  Pipeline.unscopedBufs_split₀ cfgs 0 winFacts₀0.arr_unscoped c Vc

set_option backward.isDefEq.respectTransparency.types false in
/-- THE REGION as a segment of the run. -/
def reg0 : RegionSeg (pcfgs (F := F)) HostSide.adm (pdats m) () defs₀ Variants.none (fun _ => (∅ : Finset Unit)) (fun _ _ => (0 : ℕ)) 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ (fun _ => (∅ : Finset Unit)) (fun _ _ => (0 : ℕ)) 0 fun _ _ => rfl
  pre c := iprop(StableHlo.held (c : Thread nD τ) (Pipeline.ucRefs τ sig) (HostSide.W1 m c) ∗ HostSide.Rest (F := F) c)
  post c := iprop(StableHlo.held (c : Thread nD τ) (Pipeline.ucRefs τ sig) (HostSide.W2 m (outs m) c) ∗ HostSide.Rest (F := F) c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (HostSide.W1 m c) : sProp 𝕄)
        ⊢ iprop((pdats m 0 c).arrays ((pdats m 0 c).arrAt · 0) ∗ Pipeline.unscopedRest spec0 c (V1 m c)) := by
      rw [← Pipeline.unscopedBufs_held (Ix := Unit) (Name := ℕ) (U := UR sig nD τ) (Lvl := ℕ) c (HostSide.W1 m c), ubufs_split c (V1 m c)]
      exact sep_mono (arrays_deal c (dat (V1 m) c) (share_eq m c) (V1 m c) _ (fun w => A_eq (V1 m) c w)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Cert.KernelIdeal.Region.hout (V1 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (StableHlo.held (c : Thread nD τ) (Pipeline.ucRefs τ sig) (HostSide.W2 m (outs m) c) : sProp 𝕄) := by
      rw [← Pipeline.unscopedBufs_held (Ix := Unit) (Name := ℕ) (U := UR sig nD τ) (Lvl := ℕ) c (HostSide.W2 m (outs m) c), ubufs_split c (V2 m c)]
      refine sep_mono (arrays_deal c (dat (V1 m) c) (share_eq m c) (V2 m c) _ (exit_arr m c)).2 (Entails.of_eq ?_)
      unfold Pipeline.unscopedRest
      exact bigSep_congr fun b hb => by rw [exit_rest m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN of the kernel's program, at any float instance: every weakly fair execution terminates without a fault;
    each result buffer ends at what the host operations after the region make of the region's eight output arrays,
    and the three argument arrays end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v28) = HostSide.W5 m (outs m) c main_v28
      ∧ r.2.mem ((c.tc : Thread nD τ).loc main_v32) = HostSide.W5 m (outs m) c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  HostSide.run_of_region m ρ (outs m) (pdats m) (reg0 m) (fun _ => .rfl) (fun _ => .rfl)

end Cert.KernelIdeal.Region

end
-- ==== Proof.RegionBaseK.lean ====
/-
  The kernel body's two control cases.  The grid is 8 row blocks by 2 column blocks; the second coordinate j of a
  point says which half of the columns the body sees.  At j = 0 the body first resets its eight running extrema
  (four running maxima to -inf, four running minima to +inf) and folds the first half's row extrema into them; at
  j = 1 it folds the second half's in and then writes the square roots of the eight running extrema to its eight
  outputs.  The two conditions below are the body's own tests "j = 0" and "j = 1" as it computes them from the
  point's coordinates, each decided over the sixteen points: j = 0 at the even points, j = 1 at the odd ones.
-/
import proofs.«181479_j36618891166019_2_alg».proof.Proof.Gen.Kernel.Launch
import proofs.«181479_j36618891166019_2_alg».proof.Proof.Gen.Kernel.Skeleton
import proofs.«181479_j36618891166019_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test "this is the first column block" (j = 0), as it computes it from the point's coordinates. -/
abbrev condFirst (i : grid0.Coords) : Prop := (Scalar.cmpi .ne (Scalar.extui (Scalar.cmpi .eq (BitVec.ofNat 32 (i 1).val) 0#32)) 0#32) = 1#1
/-- It holds exactly at the even points of the grid. -/
theorem condFirst_iff : ∀ t : Fin cfg0.N, condFirst (grid0.coords t) ↔ t.val % 2 = 0 :=
  (by decide +kernel : ∀ t : Fin grid0.N, condFirst (grid0.coords t) ↔ t.val % 2 = 0)

/-- The body's test "this is the last column block" (j = 1). -/
abbrev condLast (i : grid0.Coords) : Prop := k0_cond2 i = 1#1
/-- It holds exactly at the odd points of the grid. -/
theorem condLast_iff : ∀ t : Fin cfg0.N, condLast (grid0.coords t) ↔ t.val % 2 = 1 :=
  (by decide +kernel : ∀ t : Fin grid0.N, condLast (grid0.coords t) ↔ t.val % 2 = 1)

/-- The eight running extrema live in eight scratch buffers of the kernel's own, each a whole [512,1] buffer. -/
abbrev scr0 : Memref sig .tc .vmem S512x1 .f32 := Memref.whole cc0_scratch0
abbrev scr1 : Memref sig .tc .vmem S512x1 .f32 := Memref.whole cc0_scratch1
abbrev scr2 : Memref sig .tc .vmem S512x1 .f32 := Memref.whole cc0_scratch2
abbrev scr3 : Memref sig .tc .vmem S512x1 .f32 := Memref.whole cc0_scratch3
abbrev scr4 : Memref sig .tc .vmem S512x1 .f32 := Memref.whole cc0_scratch4
abbrev scr5 : Memref sig .tc .vmem S512x1 .f32 := Memref.whole cc0_scratch5
abbrev scr6 : Memref sig .tc .vmem S512x1 .f32 := Memref.whole cc0_scratch6
abbrev scr7 : Memref sig .tc .vmem S512x1 .f32 := Memref.whole cc0_scratch7

end Cert.Kernel.Region

end
-- ==== Proof.RegionRunFirstK.lean ====
/-
  The body at a point of the first column block (j = 0).  Run on whole staging buffers holding the ten input
  blocks, it resets the eight running extrema, folds this half's masked row maxima and minima into them and stores
  them; it stores nothing into the eight outputs, which come back as they were.  What each scratch buffer ends
  with is recorded as the list of pieces the body stored into it.
-/
import proofs.«181479_j36618891166019_2_alg».proof.Proof.RegionBaseK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body's run when j = 0: for any contents of the ten input blocks, and the outputs at any contents `xi·` which it
    leaves alone, it terminates without a fault holding the inputs as they were, the outputs as they were, and each
    of the eight running extrema as the pieces it stored (`LS·`, found by the run itself). -/
noncomputable def runFirst (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    Σ' (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)) (LS5 : List (View.Piece (Elt F) S512x1 .f32)) (LS6 : List (View.Piece (Elt F) S512x1 .f32)), { LS7 : List (View.Piece (Elt F) S512x1 .f32) //
      ∀ (xi0 : Vec F S512x1 .f32) (xi1 : Vec F S512x1 .f32) (xi2 : Vec F S512x1 .f32) (xi3 : Vec F S512x1 .f32) (xi4 : Vec F S512x1 .f32) (xi5 : Vec F S512x1 .f32) (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi0 ∗ owns (c : Thread nD τ) arg13 fullShare xi1 ∗ owns (c : Thread nD τ) arg14 fullShare xi2 ∗ owns (c : Thread nD τ) arg15 fullShare xi3 ∗ owns (c : Thread nD τ) arg16 fullShare xi4 ∗ owns (c : Thread nD τ) arg17 fullShare xi5 ∗ owns (c : Thread nD τ) arg18 fullShare xi6 ∗ owns (c : Thread nD τ) arg19 fullShare xi7 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi0 ∗ owns (c : Thread nD τ) arg13 fullShare xi1 ∗ owns (c : Thread nD τ) arg14 fullShare xi2 ∗ owns (c : Thread nD τ) arg15 fullShare xi3 ∗ owns (c : Thread nD τ) arg16 fullShare xi4 ∗ owns (c : Thread nD τ) arg17 fullShare xi5 ∗ owns (c : Thread nD τ) arg18 fullShare xi6 ∗ owns (c : Thread nD τ) arg19 fullShare xi7 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3) ∗ (∃ f, arg24.view.loc (c : Thread nD τ) ↦[arg24.view.set]{fullShare} arg24.view.writes (Elt F) f LS4) ∗ (∃ f, arg25.view.loc (c : Thread nD τ) ↦[arg25.view.set]{fullShare} arg25.view.writes (Elt F) f LS5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7)) -∗ K ⟨⟩))
          ⊢ wp frame (wpE (defs₀ (F := F)) Variants.none c none) E (cc0__hardmine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, fun xi0 xi1 xi2 xi3 xi4 xi5 xi6 xi7 E K => ?run⟩
  case run =>
    simp only [cc0__hardmine_kernel_eq_skeleton]; unfold cc0__hardmine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩, ⟨%g7, %hg7, G7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hg0
    obtain rfl := harg13.eq_unread hg1
    obtain rfl := harg14.eq_unread hg2
    obtain rfl := harg15.eq_unread hg3
    obtain rfl := harg16.eq_unread hg4
    obtain rfl := harg17.eq_unread hg5
    obtain rfl := harg18.eq_unread hg6
    obtain rfl := harg19.eq_unread hg7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [G0]
    · iexists _; isplitr; · ipureintro; exact harg12.read_unread _
      iexact G0
    isplitl [G1]
    · iexists _; isplitr; · ipureintro; exact harg13.read_unread _
      iexact G1
    isplitl [G2]
    · iexists _; isplitr; · ipureintro; exact harg14.read_unread _
      iexact G2
    isplitl [G3]
    · iexists _; isplitr; · ipureintro; exact harg15.read_unread _
      iexact G3
    isplitl [G4]
    · iexists _; isplitr; · ipureintro; exact harg16.read_unread _
      iexact G4
    isplitl [G5]
    · iexists _; isplitr; · ipureintro; exact harg17.read_unread _
      iexact G5
    isplitl [G6]
    · iexists _; isplitr; · ipureintro; exact harg18.read_unread _
      iexact G6
    isplitl [G7]
    · iexists _; isplitr; · ipureintro; exact harg19.read_unread _
      iexact G7
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel.Region

end
-- ==== Proof.RegionRunLastK.lean ====
/-
  The body at a point of the last column block (j = 1).  Run on whole staging buffers holding the ten input
  blocks, with the eight running extrema at what the point before left, it folds this half's masked row maxima and
  minima into them, stores them, and then stores the square root of each into its output.  What each output and
  each scratch buffer ends with is recorded as the list of pieces the body stored into it.
-/
import proofs.«181479_j36618891166019_2_alg».proof.Proof.RegionRunFirstK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body's run when j = 1: for any contents of the ten input blocks and the running extrema at contents `xs·`, the
    outputs at anything, it terminates without a fault holding the inputs as they were and each output and each
    running extremum as the pieces it stored (`L·`, `LS·`, found by the run itself). -/
noncomputable def runLast (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    Σ' (L0 : List (View.Piece (Elt F) S512x1 .f32)) (L1 : List (View.Piece (Elt F) S512x1 .f32)) (L2 : List (View.Piece (Elt F) S512x1 .f32)) (L3 : List (View.Piece (Elt F) S512x1 .f32)) (L4 : List (View.Piece (Elt F) S512x1 .f32)) (L5 : List (View.Piece (Elt F) S512x1 .f32)) (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)) (LS4 : List (View.Piece (Elt F) S512x1 .f32)) (LS5 : List (View.Piece (Elt F) S512x1 .f32)) (LS6 : List (View.Piece (Elt F) S512x1 .f32)), { LS7 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4 ∗ owns (c : Thread nD τ) arg25 fullShare xs5 ∗ owns (c : Thread nD τ) arg26 fullShare xs6 ∗ owns (c : Thread nD τ) arg27 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L0) ∗ (∃ f, arg13.view.loc (c : Thread nD τ) ↦[arg13.view.set]{fullShare} arg13.view.writes (Elt F) f L1) ∗ (∃ f, arg14.view.loc (c : Thread nD τ) ↦[arg14.view.set]{fullShare} arg14.view.writes (Elt F) f L2) ∗ (∃ f, arg15.view.loc (c : Thread nD τ) ↦[arg15.view.set]{fullShare} arg15.view.writes (Elt F) f L3) ∗ (∃ f, arg16.view.loc (c : Thread nD τ) ↦[arg16.view.set]{fullShare} arg16.view.writes (Elt F) f L4) ∗ (∃ f, arg17.view.loc (c : Thread nD τ) ↦[arg17.view.set]{fullShare} arg17.view.writes (Elt F) f L5) ∗ (∃ f, arg18.view.loc (c : Thread nD τ) ↦[arg18.view.set]{fullShare} arg18.view.writes (Elt F) f L6) ∗ (∃ f, arg19.view.loc (c : Thread nD τ) ↦[arg19.view.set]{fullShare} arg19.view.writes (Elt F) f L7) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3) ∗ (∃ f, arg24.view.loc (c : Thread nD τ) ↦[arg24.view.set]{fullShare} arg24.view.writes (Elt F) f LS4) ∗ (∃ f, arg25.view.loc (c : Thread nD τ) ↦[arg25.view.set]{fullShare} arg25.view.writes (Elt F) f LS5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7)) -∗ K ⟨⟩))
          ⊢ wp frame (wpE (defs₀ (F := F)) Variants.none c none) E (cc0__hardmine_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, ?_, ?_, ?_, fun E K => ?run⟩
  case run =>
    simp only [cc0__hardmine_kernel_eq_skeleton]; unfold cc0__hardmine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d0, %g0, -, G0⟩, ⟨%d1, %g1, -, G1⟩, ⟨%d2, %g2, -, G2⟩, ⟨%d3, %g3, -, G3⟩, ⟨%d4, %g4, -, G4⟩, ⟨%d5, %g5, -, G5⟩, ⟨%d6, %g6, -, G6⟩, ⟨%d7, %g7, -, G7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg20.eq_unread hfs0
    obtain rfl := harg21.eq_unread hfs1
    obtain rfl := harg22.eq_unread hfs2
    obtain rfl := harg23.eq_unread hfs3
    obtain rfl := harg24.eq_unread hfs4
    obtain rfl := harg25.eq_unread hfs5
    obtain rfl := harg26.eq_unread hfs6
    obtain rfl := harg27.eq_unread hfs7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel.Region

end
-- ==== Proof.RegionDataK.lean ====
/-
  The proof data of the kernel region, at the contents V the region finds in the program's buffers.
  Window w's block at point t is its slice of its array.  After a point of the first column block (an even point)
  the eight running extrema hold what the body's reset-and-fold leaves, a function of that point's ten input
  blocks alone; after a point of the last column block (an odd point) they hold the fold of this half into what
  the point before left, and the eight outputs hold the square roots.  An output is stored, and written back to
  its array, only at the odd points; at the even points its buffer comes back as it was.
-/
import proofs.«181479_j36618891166019_2_alg».proof.Proof.RegionRunLastK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the slice of its array the point's index map selects. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block at every point, fetched there or not -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9 {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with at a point -/
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1 .i32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2048 .i32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x1 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x1 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S512x1 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x1 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S512x1 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S512x1 .f32 := win0_17.stage (cfg0.slots t 17)
abbrev hs17 (t : Fin cfg0.N) : (ms17 t).IsWhole := hstage0_17 ((cfg0.slots t 17).cast nbuf0_17)

/-- One staging buffer of each output window and each scratch buffer, as the view its contents are stated through. -/
abbrev VO0 : View sig .tc .vmem S512x1 .f32 := (Memref.whole cc0_stg10_0 : Memref sig .tc .vmem S512x1 .f32).view
abbrev VO1 : View sig .tc .vmem S512x1 .f32 := (Memref.whole cc0_stg11_0 : Memref sig .tc .vmem S512x1 .f32).view
abbrev VO2 : View sig .tc .vmem S512x1 .f32 := (Memref.whole cc0_stg12_0 : Memref sig .tc .vmem S512x1 .f32).view
abbrev VO3 : View sig .tc .vmem S512x1 .f32 := (Memref.whole cc0_stg13_0 : Memref sig .tc .vmem S512x1 .f32).view
abbrev VO4 : View sig .tc .vmem S512x1 .f32 := (Memref.whole cc0_stg14_0 : Memref sig .tc .vmem S512x1 .f32).view
abbrev VO5 : View sig .tc .vmem S512x1 .f32 := (Memref.whole cc0_stg15_0 : Memref sig .tc .vmem S512x1 .f32).view
abbrev VO6 : View sig .tc .vmem S512x1 .f32 := (Memref.whole cc0_stg16_0 : Memref sig .tc .vmem S512x1 .f32).view
abbrev VO7 : View sig .tc .vmem S512x1 .f32 := (Memref.whole cc0_stg17_0 : Memref sig .tc .vmem S512x1 .f32).view
abbrev VS0 : View sig .tc .vmem S512x1 .f32 := scr0.view
abbrev VS1 : View sig .tc .vmem S512x1 .f32 := scr1.view
abbrev VS2 : View sig .tc .vmem S512x1 .f32 := scr2.view
abbrev VS3 : View sig .tc .vmem S512x1 .f32 := scr3.view
abbrev VS4 : View sig .tc .vmem S512x1 .f32 := scr4.view
abbrev VS5 : View sig .tc .vmem S512x1 .f32 := scr5.view
abbrev VS6 : View sig .tc .vmem S512x1 .f32 := scr6.view
abbrev VS7 : View sig .tc .vmem S512x1 .f32 := scr7.view

/-! ## Where the windows are idle -/
theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem liveIn3 : ∀ t : Fin cfg0.N, cfg0.idle 3 (grid0.coords t) = false := by decide +kernel
theorem liveIn4 : ∀ t : Fin cfg0.N, cfg0.idle 4 (grid0.coords t) = false := by decide +kernel
theorem liveIn5 : ∀ t : Fin cfg0.N, cfg0.idle 5 (grid0.coords t) = false := by decide +kernel
theorem liveIn6 : ∀ t : Fin cfg0.N, cfg0.idle 6 (grid0.coords t) = false := by decide +kernel
theorem liveIn7 : ∀ t : Fin cfg0.N, cfg0.idle 7 (grid0.coords t) = false := by decide +kernel
theorem liveIn8 : ∀ t : Fin cfg0.N, cfg0.idle 8 (grid0.coords t) = false := by decide +kernel
theorem liveIn9 : ∀ t : Fin cfg0.N, cfg0.idle 9 (grid0.coords t) = false := by decide +kernel
theorem idleOut0 : ∀ t : Fin cfg0.N, condFirst (grid0.coords t) → ¬condLast (grid0.coords t) → cfg0.idle 10 (grid0.coords t) = true := by decide +kernel
theorem noFlushOut0 : ∀ t : Fin cfg0.N, condFirst (grid0.coords t) → ¬condLast (grid0.coords t) → (cfg0.win 10).flush t = false := by decide +kernel
theorem liveOut0 : ∀ t : Fin cfg0.N, ¬condFirst (grid0.coords t) → condLast (grid0.coords t) → cfg0.idle 10 (grid0.coords t) = false := by decide +kernel
theorem idleOut1 : ∀ t : Fin cfg0.N, condFirst (grid0.coords t) → ¬condLast (grid0.coords t) → cfg0.idle 11 (grid0.coords t) = true := by decide +kernel
theorem noFlushOut1 : ∀ t : Fin cfg0.N, condFirst (grid0.coords t) → ¬condLast (grid0.coords t) → (cfg0.win 11).flush t = false := by decide +kernel
theorem liveOut1 : ∀ t : Fin cfg0.N, ¬condFirst (grid0.coords t) → condLast (grid0.coords t) → cfg0.idle 11 (grid0.coords t) = false := by decide +kernel
theorem idleOut2 : ∀ t : Fin cfg0.N, condFirst (grid0.coords t) → ¬condLast (grid0.coords t) → cfg0.idle 12 (grid0.coords t) = true := by decide +kernel
theorem noFlushOut2 : ∀ t : Fin cfg0.N, condFirst (grid0.coords t) → ¬condLast (grid0.coords t) → (cfg0.win 12).flush t = false := by decide +kernel
theorem liveOut2 : ∀ t : Fin cfg0.N, ¬condFirst (grid0.coords t) → condLast (grid0.coords t) → cfg0.idle 12 (grid0.coords t) = false := by decide +kernel
theorem idleOut3 : ∀ t : Fin cfg0.N, condFirst (grid0.coords t) → ¬condLast (grid0.coords t) → cfg0.idle 13 (grid0.coords t) = true := by decide +kernel
theorem noFlushOut3 : ∀ t : Fin cfg0.N, condFirst (grid0.coords t) → ¬condLast (grid0.coords t) → (cfg0.win 13).flush t = false := by decide +kernel
theorem liveOut3 : ∀ t : Fin cfg0.N, ¬condFirst (grid0.coords t) → condLast (grid0.coords t) → cfg0.idle 13 (grid0.coords t) = false := by decide +kernel
theorem idleOut4 : ∀ t : Fin cfg0.N, condFirst (grid0.coords t) → ¬condLast (grid0.coords t) → cfg0.idle 14 (grid0.coords t) = true := by decide +kernel
theorem noFlushOut4 : ∀ t : Fin cfg0.N, condFirst (grid0.coords t) → ¬condLast (grid0.coords t) → (cfg0.win 14).flush t = false := by decide +kernel
theorem liveOut4 : ∀ t : Fin cfg0.N, ¬condFirst (grid0.coords t) → condLast (grid0.coords t) → cfg0.idle 14 (grid0.coords t) = false := by decide +kernel
theorem idleOut5 : ∀ t : Fin cfg0.N, condFirst (grid0.coords t) → ¬condLast (grid0.coords t) → cfg0.idle 15 (grid0.coords t) = true := by decide +kernel
theorem noFlushOut5 : ∀ t : Fin cfg0.N, condFirst (grid0.coords t) → ¬condLast (grid0.coords t) → (cfg0.win 15).flush t = false := by decide +kernel
theorem liveOut5 : ∀ t : Fin cfg0.N, ¬condFirst (grid0.coords t) → condLast (grid0.coords t) → cfg0.idle 15 (grid0.coords t) = false := by decide +kernel
theorem idleOut6 : ∀ t : Fin cfg0.N, condFirst (grid0.coords t) → ¬condLast (grid0.coords t) → cfg0.idle 16 (grid0.coords t) = true := by decide +kernel
theorem noFlushOut6 : ∀ t : Fin cfg0.N, condFirst (grid0.coords t) → ¬condLast (grid0.coords t) → (cfg0.win 16).flush t = false := by decide +kernel
theorem liveOut6 : ∀ t : Fin cfg0.N, ¬condFirst (grid0.coords t) → condLast (grid0.coords t) → cfg0.idle 16 (grid0.coords t) = false := by decide +kernel
theorem idleOut7 : ∀ t : Fin cfg0.N, condFirst (grid0.coords t) → ¬condLast (grid0.coords t) → cfg0.idle 17 (grid0.coords t) = true := by decide +kernel
theorem noFlushOut7 : ∀ t : Fin cfg0.N, condFirst (grid0.coords t) → ¬condLast (grid0.coords t) → (cfg0.win 17).flush t = false := by decide +kernel
theorem liveOut7 : ∀ t : Fin cfg0.N, ¬condFirst (grid0.coords t) → condLast (grid0.coords t) → cfg0.idle 17 (grid0.coords t) = false := by decide +kernel

/-- The region's class invariant with the eight scratch buffers as memrefs owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d)) ∗ (∃ r, prngReg c r)) := by
  unfold Pipeline.ΦA; rw [scopedRest0_eq]; simp only [scr0, scr1, scr2, scr3, scr4, scr5, scr6, scr7, owns_whole]; try rfl

/-! ## The two cases at a point -/

theorem first_of_even (t : Fin cfg0.N) (h0 : t.val % 2 = 0) : condFirst (grid0.coords t) := (condFirst_iff t).mpr h0
theorem notLast_of_even (t : Fin cfg0.N) (h0 : t.val % 2 = 0) : ¬condLast (grid0.coords t) := fun h => by have := (condLast_iff t).mp h; omega
theorem notFirst_of_odd (t : Fin cfg0.N) (h1 : t.val % 2 = 1) : ¬condFirst (grid0.coords t) := fun h => by have := (condFirst_iff t).mp h; omega
theorem last_of_odd (t : Fin cfg0.N) (h1 : t.val % 2 = 1) : condLast (grid0.coords t) := (condLast_iff t).mpr h1

/-- The body's run at an even point, on the point's staging memrefs and input blocks. -/
abbrev RF (c : Dev nD) (t : Fin cfg0.N) (h0 : t.val % 2 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t)

/-- What the body leaves in each running extremum at an even point: its stored pieces read back. -/
def sF0 (c : Dev nD) (t : Fin cfg0.N) (h0 : t.val % 2 = 0) : Vec F S512x1 .f32 :=
  VS0.read (Elt F) (VS0.writes (Elt F) VS0.junk (RF V c t h0).1)
def sF1 (c : Dev nD) (t : Fin cfg0.N) (h0 : t.val % 2 = 0) : Vec F S512x1 .f32 :=
  VS1.read (Elt F) (VS1.writes (Elt F) VS1.junk (RF V c t h0).2.1)
def sF2 (c : Dev nD) (t : Fin cfg0.N) (h0 : t.val % 2 = 0) : Vec F S512x1 .f32 :=
  VS2.read (Elt F) (VS2.writes (Elt F) VS2.junk (RF V c t h0).2.2.1)
def sF3 (c : Dev nD) (t : Fin cfg0.N) (h0 : t.val % 2 = 0) : Vec F S512x1 .f32 :=
  VS3.read (Elt F) (VS3.writes (Elt F) VS3.junk (RF V c t h0).2.2.2.1)
def sF4 (c : Dev nD) (t : Fin cfg0.N) (h0 : t.val % 2 = 0) : Vec F S512x1 .f32 :=
  VS4.read (Elt F) (VS4.writes (Elt F) VS4.junk (RF V c t h0).2.2.2.2.1)
def sF5 (c : Dev nD) (t : Fin cfg0.N) (h0 : t.val % 2 = 0) : Vec F S512x1 .f32 :=
  VS5.read (Elt F) (VS5.writes (Elt F) VS5.junk (RF V c t h0).2.2.2.2.2.1)
def sF6 (c : Dev nD) (t : Fin cfg0.N) (h0 : t.val % 2 = 0) : Vec F S512x1 .f32 :=
  VS6.read (Elt F) (VS6.writes (Elt F) VS6.junk (RF V c t h0).2.2.2.2.2.2.1)
def sF7 (c : Dev nD) (t : Fin cfg0.N) (h0 : t.val % 2 = 0) : Vec F S512x1 .f32 :=
  VS7.read (Elt F) (VS7.writes (Elt F) VS7.junk (RF V c t h0).2.2.2.2.2.2.2.1)

/-- The point before an odd point, which is even. -/
def predPt (t : Fin cfg0.N) : Fin cfg0.N := ⟨t.val - 1, Nat.lt_of_le_of_lt (Nat.sub_le _ _) t.isLt⟩
theorem predPt_even (t : Fin cfg0.N) (h1 : t.val % 2 = 1) : (predPt t).val % 2 = 0 := by
  show (t.val - 1) % 2 = 0; omega

/-- The body's run at an odd point, the running extrema at what the point before left. -/
abbrev RL (c : Dev nD) (t : Fin cfg0.N) (h1 : t.val % 2 = 1) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t)
    (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1))

/-- What the body leaves in each output at an odd point: its stored pieces read back. -/
def oL0 (c : Dev nD) (t : Fin cfg0.N) (h1 : t.val % 2 = 1) : Vec F S512x1 .f32 :=
  VO0.read (Elt F) (VO0.writes (Elt F) VO0.junk (RL V c t h1).1)
def oL1 (c : Dev nD) (t : Fin cfg0.N) (h1 : t.val % 2 = 1) : Vec F S512x1 .f32 :=
  VO1.read (Elt F) (VO1.writes (Elt F) VO1.junk (RL V c t h1).2.1)
def oL2 (c : Dev nD) (t : Fin cfg0.N) (h1 : t.val % 2 = 1) : Vec F S512x1 .f32 :=
  VO2.read (Elt F) (VO2.writes (Elt F) VO2.junk (RL V c t h1).2.2.1)
def oL3 (c : Dev nD) (t : Fin cfg0.N) (h1 : t.val % 2 = 1) : Vec F S512x1 .f32 :=
  VO3.read (Elt F) (VO3.writes (Elt F) VO3.junk (RL V c t h1).2.2.2.1)
def oL4 (c : Dev nD) (t : Fin cfg0.N) (h1 : t.val % 2 = 1) : Vec F S512x1 .f32 :=
  VO4.read (Elt F) (VO4.writes (Elt F) VO4.junk (RL V c t h1).2.2.2.2.1)
def oL5 (c : Dev nD) (t : Fin cfg0.N) (h1 : t.val % 2 = 1) : Vec F S512x1 .f32 :=
  VO5.read (Elt F) (VO5.writes (Elt F) VO5.junk (RL V c t h1).2.2.2.2.2.1)
def oL6 (c : Dev nD) (t : Fin cfg0.N) (h1 : t.val % 2 = 1) : Vec F S512x1 .f32 :=
  VO6.read (Elt F) (VO6.writes (Elt F) VO6.junk (RL V c t h1).2.2.2.2.2.2.1)
def oL7 (c : Dev nD) (t : Fin cfg0.N) (h1 : t.val % 2 = 1) : Vec F S512x1 .f32 :=
  VO7.read (Elt F) (VO7.writes (Elt F) VO7.junk (RL V c t h1).2.2.2.2.2.2.2.1)

/-- What each output's buffer is said to hold after point `t`: at an odd point what the body stored; at an even
    point, where nothing is stored and nothing written back, a placeholder nothing consults. -/
def outAt0 (c : Dev nD) (t : Fin cfg0.N) : Vec F S512x1 .f32 :=
  if h1 : t.val % 2 = 1 then oL0 V c t h1 else VO0.read (Elt F) VO0.junk
def outAt1 (c : Dev nD) (t : Fin cfg0.N) : Vec F S512x1 .f32 :=
  if h1 : t.val % 2 = 1 then oL1 V c t h1 else VO1.read (Elt F) VO1.junk
def outAt2 (c : Dev nD) (t : Fin cfg0.N) : Vec F S512x1 .f32 :=
  if h1 : t.val % 2 = 1 then oL2 V c t h1 else VO2.read (Elt F) VO2.junk
def outAt3 (c : Dev nD) (t : Fin cfg0.N) : Vec F S512x1 .f32 :=
  if h1 : t.val % 2 = 1 then oL3 V c t h1 else VO3.read (Elt F) VO3.junk
def outAt4 (c : Dev nD) (t : Fin cfg0.N) : Vec F S512x1 .f32 :=
  if h1 : t.val % 2 = 1 then oL4 V c t h1 else VO4.read (Elt F) VO4.junk
def outAt5 (c : Dev nD) (t : Fin cfg0.N) : Vec F S512x1 .f32 :=
  if h1 : t.val % 2 = 1 then oL5 V c t h1 else VO5.read (Elt F) VO5.junk
def outAt6 (c : Dev nD) (t : Fin cfg0.N) : Vec F S512x1 .f32 :=
  if h1 : t.val % 2 = 1 then oL6 V c t h1 else VO6.read (Elt F) VO6.junk
def outAt7 (c : Dev nD) (t : Fin cfg0.N) : Vec F S512x1 .f32 :=
  if h1 : t.val % 2 = 1 then oL7 V c t h1 else VO7.read (Elt F) VO7.junk
theorem outAt0_odd (c : Dev nD) (t : Fin cfg0.N) (h1 : t.val % 2 = 1) : outAt0 V c t = oL0 V c t h1 := dif_pos h1
theorem outAt1_odd (c : Dev nD) (t : Fin cfg0.N) (h1 : t.val % 2 = 1) : outAt1 V c t = oL1 V c t h1 := dif_pos h1
theorem outAt2_odd (c : Dev nD) (t : Fin cfg0.N) (h1 : t.val % 2 = 1) : outAt2 V c t = oL2 V c t h1 := dif_pos h1
theorem outAt3_odd (c : Dev nD) (t : Fin cfg0.N) (h1 : t.val % 2 = 1) : outAt3 V c t = oL3 V c t h1 := dif_pos h1
theorem outAt4_odd (c : Dev nD) (t : Fin cfg0.N) (h1 : t.val % 2 = 1) : outAt4 V c t = oL4 V c t h1 := dif_pos h1
theorem outAt5_odd (c : Dev nD) (t : Fin cfg0.N) (h1 : t.val % 2 = 1) : outAt5 V c t = oL5 V c t h1 := dif_pos h1
theorem outAt6_odd (c : Dev nD) (t : Fin cfg0.N) (h1 : t.val % 2 = 1) : outAt6 V c t = oL6 V c t h1 := dif_pos h1
theorem outAt7_odd (c : Dev nD) (t : Fin cfg0.N) (h1 : t.val % 2 = 1) : outAt7 V c t = oL7 V c t h1 := dif_pos h1

end Cert.Kernel.Region

end
-- ==== Proof.RegionCoversK.lean ====
/-
  The pieces the body stores into a [512,1] buffer tile it: each of the eight running extrema at a point of either
  kind, and each of the eight outputs at a point of the last column block, is stored whole by one store.  So what
  such a buffer holds afterwards does not depend on what it held before.
-/
import proofs.«181479_j36618891166019_2_alg».proof.Proof.RegionDataK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## At a point of the first column block: the eight running extrema -/
theorem coverF0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).1, y ∈ pc.1.set :=
  View.cover_of_tiledL _ S512x1.size (by sl_kernel_rfl) y
theorem coverF1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.1, y ∈ pc.1.set :=
  View.cover_of_tiledL _ S512x1.size (by sl_kernel_rfl) y
theorem coverF2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.1, y ∈ pc.1.set :=
  View.cover_of_tiledL _ S512x1.size (by sl_kernel_rfl) y
theorem coverF3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.1, y ∈ pc.1.set :=
  View.cover_of_tiledL _ S512x1.size (by sl_kernel_rfl) y
theorem coverF4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.1, y ∈ pc.1.set :=
  View.cover_of_tiledL _ S512x1.size (by sl_kernel_rfl) y
theorem coverF5 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.1, y ∈ pc.1.set :=
  View.cover_of_tiledL _ S512x1.size (by sl_kernel_rfl) y
theorem coverF6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.2.1, y ∈ pc.1.set :=
  View.cover_of_tiledL _ S512x1.size (by sl_kernel_rfl) y
theorem coverF7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.2.2.1, y ∈ pc.1.set :=
  View.cover_of_tiledL _ S512x1.size (by sl_kernel_rfl) y

/-! ## At a point of the last column block: the eight outputs, then the eight running extrema -/
theorem coverL0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).1, y ∈ pc.1.set :=
  View.cover_of_tiledL _ S512x1.size (by sl_kernel_rfl) y
theorem coverL1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.1, y ∈ pc.1.set :=
  View.cover_of_tiledL _ S512x1.size (by sl_kernel_rfl) y
theorem coverL2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.1, y ∈ pc.1.set :=
  View.cover_of_tiledL _ S512x1.size (by sl_kernel_rfl) y
theorem coverL3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.1, y ∈ pc.1.set :=
  View.cover_of_tiledL _ S512x1.size (by sl_kernel_rfl) y
theorem coverL4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.1, y ∈ pc.1.set :=
  View.cover_of_tiledL _ S512x1.size (by sl_kernel_rfl) y
theorem coverL5 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.1, y ∈ pc.1.set :=
  View.cover_of_tiledL _ S512x1.size (by sl_kernel_rfl) y
theorem coverL6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.1, y ∈ pc.1.set :=
  View.cover_of_tiledL _ S512x1.size (by sl_kernel_rfl) y
theorem coverL7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.1, y ∈ pc.1.set :=
  View.cover_of_tiledL _ S512x1.size (by sl_kernel_rfl) y
theorem coverL8 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.1, y ∈ pc.1.set :=
  View.cover_of_tiledL _ S512x1.size (by sl_kernel_rfl) y
theorem coverL9 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.1, y ∈ pc.1.set :=
  View.cover_of_tiledL _ S512x1.size (by sl_kernel_rfl) y
theorem coverL10 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.1, y ∈ pc.1.set :=
  View.cover_of_tiledL _ S512x1.size (by sl_kernel_rfl) y
theorem coverL11 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.1, y ∈ pc.1.set :=
  View.cover_of_tiledL _ S512x1.size (by sl_kernel_rfl) y
theorem coverL12 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.1, y ∈ pc.1.set :=
  View.cover_of_tiledL _ S512x1.size (by sl_kernel_rfl) y
theorem coverL13 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.1, y ∈ pc.1.set :=
  View.cover_of_tiledL _ S512x1.size (by sl_kernel_rfl) y
theorem coverL14 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.2.1, y ∈ pc.1.set :=
  View.cover_of_tiledL _ S512x1.size (by sl_kernel_rfl) y
theorem coverL15 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.2.2.1, y ∈ pc.1.set :=
  View.cover_of_tiledL _ S512x1.size (by sl_kernel_rfl) y

end Cert.Kernel.Region

end
-- ==== Proof.RegionBodyK.lean ====
/-
  The region's proof data and its body obligation.  Before an odd point the invariant holds the eight running
  extrema at what the even point before left; before an even point it holds them at anything, since the body
  resets them there.  The first two input windows of each of the two arrays that the kernel reads twice hold the
  left half of that array's share, the other two the right half; every other window holds its array whole.
  At an even point the body's run for j = 0 applies, at an odd point its run for j = 1; the inputs' staging
  buffers hold their blocks at every point.
-/
import proofs.«181479_j36618891166019_2_alg».proof.Proof.RegionCoversK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position `n`: after an even point the running extrema at what that point left, the
    generator register at some state; otherwise the scratch buffers at anything. -/
def PhiS (c : Dev nD) : (n : ℕ) → n ≤ cfg0.N → sProp 𝕄
  | 0, _ => Pipeline.ΦA spec0 c
  | n + 1, hn =>
    if h0 : n % 2 = 0 then
      iprop(iprop(owns (c : Thread nD τ) scr0 fullShare (sF0 V c ⟨n, Nat.lt_of_succ_le hn⟩ h0) ∗ owns (c : Thread nD τ) scr1 fullShare (sF1 V c ⟨n, Nat.lt_of_succ_le hn⟩ h0) ∗ owns (c : Thread nD τ) scr2 fullShare (sF2 V c ⟨n, Nat.lt_of_succ_le hn⟩ h0) ∗ owns (c : Thread nD τ) scr3 fullShare (sF3 V c ⟨n, Nat.lt_of_succ_le hn⟩ h0) ∗ owns (c : Thread nD τ) scr4 fullShare (sF4 V c ⟨n, Nat.lt_of_succ_le hn⟩ h0) ∗ owns (c : Thread nD τ) scr5 fullShare (sF5 V c ⟨n, Nat.lt_of_succ_le hn⟩ h0) ∗ owns (c : Thread nD τ) scr6 fullShare (sF6 V c ⟨n, Nat.lt_of_succ_le hn⟩ h0) ∗ owns (c : Thread nD τ) scr7 fullShare (sF7 V c ⟨n, Nat.lt_of_succ_le hn⟩ h0)) ∗ (∃ r, prngReg c r))
    else Pipeline.ΦA spec0 c

theorem PhiS_of_even (c : Dev nD) (n : ℕ) (hn : n ≤ cfg0.N) (he : n % 2 = 0) : PhiS V c n hn = Pipeline.ΦA spec0 c := by
  cases n with
  | zero => rfl
  | succ k => exact dif_neg (by omega)

theorem PhiS_succ_of_even (c : Dev nD) (t : Fin cfg0.N) (h0 : t.val % 2 = 0) :
    PhiS V c (t.val + 1) t.isLt = iprop(iprop(owns (c : Thread nD τ) scr0 fullShare (sF0 V c t h0) ∗ owns (c : Thread nD τ) scr1 fullShare (sF1 V c t h0) ∗ owns (c : Thread nD τ) scr2 fullShare (sF2 V c t h0) ∗ owns (c : Thread nD τ) scr3 fullShare (sF3 V c t h0) ∗ owns (c : Thread nD τ) scr4 fullShare (sF4 V c t h0) ∗ owns (c : Thread nD τ) scr5 fullShare (sF5 V c t h0) ∗ owns (c : Thread nD τ) scr6 fullShare (sF6 V c t h0) ∗ owns (c : Thread nD τ) scr7 fullShare (sF7 V c t h0)) ∗ (∃ r, prngReg c r)) :=
  dif_pos h0

theorem PhiS_succ_of_odd (c : Dev nD) (t : Fin cfg0.N) (h1 : t.val % 2 = 1) : PhiS V c (t.val + 1) t.isLt = Pipeline.ΦA spec0 c :=
  dif_neg (by omega)

theorem PhiS_of_odd (c : Dev nD) (t : Fin cfg0.N) (h1 : t.val % 2 = 1) :
    PhiS V c t.val (Nat.le_of_lt t.isLt)
      = iprop(iprop(owns (c : Thread nD τ) scr0 fullShare (sF0 V c (predPt t) (predPt_even t h1)) ∗ owns (c : Thread nD τ) scr1 fullShare (sF1 V c (predPt t) (predPt_even t h1)) ∗ owns (c : Thread nD τ) scr2 fullShare (sF2 V c (predPt t) (predPt_even t h1)) ∗ owns (c : Thread nD τ) scr3 fullShare (sF3 V c (predPt t) (predPt_even t h1)) ∗ owns (c : Thread nD τ) scr4 fullShare (sF4 V c (predPt t) (predPt_even t h1)) ∗ owns (c : Thread nD τ) scr5 fullShare (sF5 V c (predPt t) (predPt_even t h1)) ∗ owns (c : Thread nD τ) scr6 fullShare (sF6 V c (predPt t) (predPt_even t h1)) ∗ owns (c : Thread nD τ) scr7 fullShare (sF7 V c (predPt t) (predPt_even t h1))) ∗ (∃ r, prngReg c r)) := by
  obtain ⟨n, hn⟩ := t
  cases n with
  | zero => exact absurd (show (0 : ℕ) % 2 = 1 from h1) (by decide)
  | succ k =>
    have h1' : (k + 1) % 2 = 1 := h1
    exact dif_pos (by omega)

/-- The proof data of the region on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outAt0 V c t
    | ⟨11, _⟩ => outAt1 V c t
    | ⟨12, _⟩ => outAt2 V c t
    | ⟨13, _⟩ => outAt3 V c t
    | ⟨14, _⟩ => outAt4 V c t
    | ⟨15, _⟩ => outAt5 V c t
    | ⟨16, _⟩ => outAt6 V c t
    | ⟨17, _⟩ => outAt7 V c t
    | ⟨_ + 18, h⟩ => absurd h (Nat.not_lt.2 (Nat.le_add_left _ _))
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨_ + 18, h⟩ => absurd h (Nat.not_lt.2 (Nat.le_add_left _ _))
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = iblk V c 9 t := by dsimp only [dat]
theorem after10 (c : Dev nD) (t : Fin cfg0.N) : (dat V c).after 10 t = outAt0 V c t := by dsimp only [dat]
theorem after11 (c : Dev nD) (t : Fin cfg0.N) : (dat V c).after 11 t = outAt1 V c t := by dsimp only [dat]
theorem after12 (c : Dev nD) (t : Fin cfg0.N) : (dat V c).after 12 t = outAt2 V c t := by dsimp only [dat]
theorem after13 (c : Dev nD) (t : Fin cfg0.N) : (dat V c).after 13 t = outAt3 V c t := by dsimp only [dat]
theorem after14 (c : Dev nD) (t : Fin cfg0.N) : (dat V c).after 14 t = outAt4 V c t := by dsimp only [dat]
theorem after15 (c : Dev nD) (t : Fin cfg0.N) : (dat V c).after 15 t = outAt5 V c t := by dsimp only [dat]
theorem after16 (c : Dev nD) (t : Fin cfg0.N) : (dat V c).after 16 t = outAt6 V c t := by dsimp only [dat]
theorem after17 (c : Dev nD) (t : Fin cfg0.N) : (dat V c).after 17 t = outAt7 V c t := by dsimp only [dat]

theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d
theorem before3 (c : Dev nD) (t : Fin cfg0.N) (d) : (dat V c).before 3 t d = iblk V c 3 t :=
  before_in3 V (dat V c) (A_eq V c 3) (after3 V c) t d
theorem before4 (c : Dev nD) (t : Fin cfg0.N) (d) : (dat V c).before 4 t d = iblk V c 4 t :=
  before_in4 V (dat V c) (A_eq V c 4) (after4 V c) t d
theorem before5 (c : Dev nD) (t : Fin cfg0.N) (d) : (dat V c).before 5 t d = iblk V c 5 t :=
  before_in5 V (dat V c) (A_eq V c 5) (after5 V c) t d
theorem before6 (c : Dev nD) (t : Fin cfg0.N) (d) : (dat V c).before 6 t d = iblk V c 6 t :=
  before_in6 V (dat V c) (A_eq V c 6) (after6 V c) t d
theorem before7 (c : Dev nD) (t : Fin cfg0.N) (d) : (dat V c).before 7 t d = iblk V c 7 t :=
  before_in7 V (dat V c) (A_eq V c 7) (after7 V c) t d
theorem before8 (c : Dev nD) (t : Fin cfg0.N) (d) : (dat V c).before 8 t d = iblk V c 8 t :=
  before_in8 V (dat V c) (A_eq V c 8) (after8 V c) t d
theorem before9 (c : Dev nD) (t : Fin cfg0.N) (d) : (dat V c).before 9 t d = iblk V c 9 t :=
  before_in9 V (dat V c) (A_eq V c 9) (after9 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))
    ∗ (∃ d, owns (c : Thread nD τ) (ms12 t) fullShare ((dat V c).before 12 t d))
    ∗ (∃ d, owns (c : Thread nD τ) (ms13 t) fullShare ((dat V c).before 13 t d))
    ∗ (∃ d, owns (c : Thread nD τ) (ms14 t) fullShare ((dat V c).before 14 t d))
    ∗ (∃ d, owns (c : Thread nD τ) (ms15 t) fullShare ((dat V c).before 15 t d))
    ∗ (∃ d, owns (c : Thread nD τ) (ms16 t) fullShare ((dat V c).before 16 t d))
    ∗ (∃ d, owns (c : Thread nD τ) (ms17 t) fullShare ((dat V c).before 17 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t
    ∗ (dat V c).leavesExact 16 t
    ∗ (dat V c).leavesExact 17 t)

set_option maxHeartbeats 40000000 in
/-- The body at any point.  At an even point the invariant hands it the scratch at anything and it returns the
    running extrema at this point's contents, the outputs untouched; at an odd point the invariant hands it the
    running extrema at what the point before left and it returns the outputs at their square roots. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8, before9]
  rw [show (dat V c).owesAt () t.succ = (dat V c).owesAt () t.castSucc from rfl]
  rw [show (dat V c).Φ t.succ = PhiS V c (t.val + 1) t.isLt from rfl]
  rw [show (dat V c).leavesExact 0 t = owns (c : Thread nD τ) (ms0 t) fullShare ((dat V c).after 0 t) from by
    unfold Dat.leavesExact; rw [liveIn0 t], after0]
  rw [show (dat V c).leavesExact 1 t = owns (c : Thread nD τ) (ms1 t) fullShare ((dat V c).after 1 t) from by
    unfold Dat.leavesExact; rw [liveIn1 t], after1]
  rw [show (dat V c).leavesExact 2 t = owns (c : Thread nD τ) (ms2 t) fullShare ((dat V c).after 2 t) from by
    unfold Dat.leavesExact; rw [liveIn2 t], after2]
  rw [show (dat V c).leavesExact 3 t = owns (c : Thread nD τ) (ms3 t) fullShare ((dat V c).after 3 t) from by
    unfold Dat.leavesExact; rw [liveIn3 t], after3]
  rw [show (dat V c).leavesExact 4 t = owns (c : Thread nD τ) (ms4 t) fullShare ((dat V c).after 4 t) from by
    unfold Dat.leavesExact; rw [liveIn4 t], after4]
  rw [show (dat V c).leavesExact 5 t = owns (c : Thread nD τ) (ms5 t) fullShare ((dat V c).after 5 t) from by
    unfold Dat.leavesExact; rw [liveIn5 t], after5]
  rw [show (dat V c).leavesExact 6 t = owns (c : Thread nD τ) (ms6 t) fullShare ((dat V c).after 6 t) from by
    unfold Dat.leavesExact; rw [liveIn6 t], after6]
  rw [show (dat V c).leavesExact 7 t = owns (c : Thread nD τ) (ms7 t) fullShare ((dat V c).after 7 t) from by
    unfold Dat.leavesExact; rw [liveIn7 t], after7]
  rw [show (dat V c).leavesExact 8 t = owns (c : Thread nD τ) (ms8 t) fullShare ((dat V c).after 8 t) from by
    unfold Dat.leavesExact; rw [liveIn8 t], after8]
  rw [show (dat V c).leavesExact 9 t = owns (c : Thread nD τ) (ms9 t) fullShare ((dat V c).after 9 t) from by
    unfold Dat.leavesExact; rw [liveIn9 t], after9]
  by_cases h0 : t.val % 2 = 0
  · have hF := first_of_even t h0
    have hnL := notLast_of_even t h0
    rw [Dat.leavesExact_idle (dat V c) 10 t (idleOut0 t hF hnL) (noFlushOut0 t hF hnL)]
    rw [Dat.leavesExact_idle (dat V c) 11 t (idleOut1 t hF hnL) (noFlushOut1 t hF hnL)]
    rw [Dat.leavesExact_idle (dat V c) 12 t (idleOut2 t hF hnL) (noFlushOut2 t hF hnL)]
    rw [Dat.leavesExact_idle (dat V c) 13 t (idleOut3 t hF hnL) (noFlushOut3 t hF hnL)]
    rw [Dat.leavesExact_idle (dat V c) 14 t (idleOut4 t hF hnL) (noFlushOut4 t hF hnL)]
    rw [Dat.leavesExact_idle (dat V c) 15 t (idleOut5 t hF hnL) (noFlushOut5 t hF hnL)]
    rw [Dat.leavesExact_idle (dat V c) 16 t (idleOut6 t hF hnL) (noFlushOut6 t hF hnL)]
    rw [Dat.leavesExact_idle (dat V c) 17 t (idleOut7 t hF hnL) (noFlushOut7 t hF hnL)]
    rw [PhiS_succ_of_even V c t h0, Phi_castSucc V c t, PhiS_of_even V c _ _ h0, PhiA_eq]
    unfold sF0 sF1 sF2 sF3 sF4 sF5 sF6 sF7
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((RF V c t h0).2.2.2.2.2.2.2.2 _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, H11, H12, H13, H14, H15, H16, H17, ⟨%es0, HS0⟩, ⟨%es1, HS1⟩, ⟨%es2, HS2⟩, ⟨%es3, HS3⟩, ⟨%es4, HS4⟩, ⟨%es5, HS5⟩, ⟨%es6, HS6⟩, ⟨%es7, HS7⟩⟩
    isplitl [HS0 HS1 HS2 HS3 HS4 HS5 HS6 HS7 Hg]
    · isplitl [HS0 HS1 HS2 HS3 HS4 HS5 HS6 HS7]
      · isplitl [HS0]
        · unfold owns; iexists _; isplitr
          swap; · iexact HS0
          ipureintro; exact View.read_writes_of_cover _ _ _ _ _ (coverF0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverF1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverF2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverF3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS4]
        · unfold owns; iexists _; isplitr
          swap; · iexact HS4
          ipureintro; exact View.read_writes_of_cover _ _ _ _ _ (coverF4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS5]
        · unfold owns; iexists _; isplitr
          swap; · iexact HS5
          ipureintro; exact View.read_writes_of_cover _ _ _ _ _ (coverF5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS6]
        · unfold owns; iexists _; isplitr
          swap; · iexact HS6
          ipureintro; exact View.read_writes_of_cover _ _ _ _ _ (coverF6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS7
        ipureintro; exact View.read_writes_of_cover _ _ _ _ _ (coverF7 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  · have h1 : t.val % 2 = 1 := by omega
    have hnF := notFirst_of_odd t h1
    have hL := last_of_odd t h1
    rw [show (dat V c).leavesExact 10 t = owns (c : Thread nD τ) (ms10 t) fullShare ((dat V c).after 10 t) from by
      unfold Dat.leavesExact; rw [liveOut0 t hnF hL], after10, outAt0_odd V c t h1]
    rw [show (dat V c).leavesExact 11 t = owns (c : Thread nD τ) (ms11 t) fullShare ((dat V c).after 11 t) from by
      unfold Dat.leavesExact; rw [liveOut1 t hnF hL], after11, outAt1_odd V c t h1]
    rw [show (dat V c).leavesExact 12 t = owns (c : Thread nD τ) (ms12 t) fullShare ((dat V c).after 12 t) from by
      unfold Dat.leavesExact; rw [liveOut2 t hnF hL], after12, outAt2_odd V c t h1]
    rw [show (dat V c).leavesExact 13 t = owns (c : Thread nD τ) (ms13 t) fullShare ((dat V c).after 13 t) from by
      unfold Dat.leavesExact; rw [liveOut3 t hnF hL], after13, outAt3_odd V c t h1]
    rw [show (dat V c).leavesExact 14 t = owns (c : Thread nD τ) (ms14 t) fullShare ((dat V c).after 14 t) from by
      unfold Dat.leavesExact; rw [liveOut4 t hnF hL], after14, outAt4_odd V c t h1]
    rw [show (dat V c).leavesExact 15 t = owns (c : Thread nD τ) (ms15 t) fullShare ((dat V c).after 15 t) from by
      unfold Dat.leavesExact; rw [liveOut5 t hnF hL], after15, outAt5_odd V c t h1]
    rw [show (dat V c).leavesExact 16 t = owns (c : Thread nD τ) (ms16 t) fullShare ((dat V c).after 16 t) from by
      unfold Dat.leavesExact; rw [liveOut6 t hnF hL], after16, outAt6_odd V c t h1]
    rw [show (dat V c).leavesExact 17 t = owns (c : Thread nD τ) (ms17 t) fullShare ((dat V c).after 17 t) from by
      unfold Dat.leavesExact; rw [liveOut7 t hnF hL], after17, outAt7_odd V c t h1]
    rw [PhiS_succ_of_odd V c t h1, Phi_castSucc V c t, PhiS_of_odd V c t h1, PhiA_eq]
    unfold oL0 oL1 oL2 oL3 oL4 oL5 oL6 oL7
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((RL V c t h1).2.2.2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, ⟨%e0, H10⟩, ⟨%e1, H11⟩, ⟨%e2, H12⟩, ⟨%e3, H13⟩, ⟨%e4, H14⟩, ⟨%e5, H15⟩, ⟨%e6, H16⟩, ⟨%e7, H17⟩, ⟨%es0, HS0⟩, ⟨%es1, HS1⟩, ⟨%es2, HS2⟩, ⟨%es3, HS3⟩, ⟨%es4, HS4⟩, ⟨%es5, HS5⟩, ⟨%es6, HS6⟩, ⟨%es7, HS7⟩⟩
    isplitl [HS0 HS1 HS2 HS3 HS4 HS5 HS6 HS7 Hg]
    · isplitl [HS0 HS1 HS2 HS3 HS4 HS5 HS6 HS7]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexists _; unfold owns; iexists _; isplitr
          swap; · iexact HS6
          ipureintro; rfl
        iexists _; unfold owns; iexists _; isplitr
        swap; · iexact HS7
        ipureintro; rfl
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverL0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (coverL1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (coverL2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (coverL3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (coverL4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (coverL5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (coverL6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H17
    ipureintro; exact View.read_writes_of_cover _ _ _ _ _ (coverL7 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl]
  try exact Idealize.SL.BI.Entails.refl _

/-- After the last point, which is odd, the invariant is the scratch at anything again. -/
theorem hout (c : Dev nD) : (dat V c).Φ (Fin.last cfg0.N) ⊢ Pipeline.ΦA spec0 c := by
  rw [show (dat V c).Φ (Fin.last cfg0.N) = PhiS V c cfg0.N (Nat.le_refl _) from rfl, PhiS_of_even V c _ _ (by rw [show cfg0.N = 16 from N_0])]
  try exact Idealize.SL.BI.Entails.refl _

end Cert.Kernel.Region

end
-- ==== Proof.RegionSharesK.lean ====
/-
  The kernel reads each of the two bf16 input arrays through two windows (a block of rows for the left operand
  of the products and a block of rows for the right operand).  At the region's entry the full share of such an
  array is dealt to its two windows as its left half and its right half, at one contents; at the exit the two
  halves, still at that contents since both windows only read, make the full share again.  Every other window's
  array is behind one window only and is held whole.
-/
import proofs.«181479_j36618891166019_2_alg».proof.Proof.Gen.Kernel.Launch
import Idealize.ShloMosaic.Lib.Pipeline.Frame
import Idealize.ShloMosaic.Lib.Pipeline.Regions

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share each window holds of its array: the two windows on the first input array its two halves, the two on
    the second likewise, every other window the whole. -/
def shareOf : Fin 18 → PosShare TreeShare
  | ⟨0, _⟩ => fullShare.left
  | ⟨1, _⟩ => fullShare.left
  | ⟨2, _⟩ => fullShare.right
  | ⟨3, _⟩ => fullShare.right
  | ⟨4, _⟩ => fullShare
  | ⟨5, _⟩ => fullShare
  | ⟨6, _⟩ => fullShare
  | ⟨7, _⟩ => fullShare
  | ⟨8, _⟩ => fullShare
  | ⟨9, _⟩ => fullShare
  | ⟨10, _⟩ => fullShare
  | ⟨11, _⟩ => fullShare
  | ⟨12, _⟩ => fullShare
  | ⟨13, _⟩ => fullShare
  | ⟨14, _⟩ => fullShare
  | ⟨15, _⟩ => fullShare
  | ⟨16, _⟩ => fullShare
  | ⟨17, _⟩ => fullShare
  | ⟨_ + 18, h⟩ => absurd h (Nat.not_lt.2 (Nat.le_add_left _ _))

/-- The buffers behind the windows' arrays, each whole at contents `Vc`, are the windows' arrays at those contents
    with the shares dealt as above — both ways. -/
theorem arrays_deal (c : Dev nD) (dat : Dat τ (Elt F) Unit ℕ (UR sig nD τ) ℕ cfg0 c) (hq : ∀ w, dat.share w = shareOf w)
    (Vc : (b : Ref sig .tc) → Buf (Elt F) ((c : Thread nD τ).loc b))
    (Fa : (w : Fin cfg0.W) → Buf (Elt F) ((cfg0.win w).arr.view.loc (c : Thread nD τ)))
    (hF : ∀ w, Fa w = Vc (Pipeline.arrRef spec0 w)) :
    (Pipeline.arrBufs (Ix := Unit) (Name := ℕ) (U := UR sig nD τ) (Lvl := ℕ) spec0 c Vc : sProp 𝕄) ⊣⊢ dat.arrays Fa := by
  have harr : dat.arrays Fa = bigSep Finset.univ fun w : Fin 18 =>
      ((((c : Thread nD τ).loc (Pipeline.arrRef spec0 w)) ↦{shareOf w} Vc (Pipeline.arrRef spec0 w)) : sProp 𝕄) := by
    unfold Pipeline.Dat.arrays
    exact bigSep_congr fun w _ => by rw [(arr_whole0 w).set_eq_univ, hq, hF]
  rw [harr, bigSep_W0]
  have hB : (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_v1) ↦{fullShare} Vc main_v1) ∗ (((c : Thread nD τ).loc main_v6) ↦{fullShare} Vc main_v6) ∗ (((c : Thread nD τ).loc main_v7) ↦{fullShare} Vc main_v7) ∗ (((c : Thread nD τ).loc main_v8) ↦{fullShare} Vc main_v8) ∗ (((c : Thread nD τ).loc main_v9) ↦{fullShare} Vc main_v9) ∗ (((c : Thread nD τ).loc main_v10) ↦{fullShare} Vc main_v10) ∗ (((c : Thread nD τ).loc main_v11) ↦{fullShare} Vc main_v11) ∗ (((c : Thread nD τ).loc main_v12_0) ↦{fullShare} Vc main_v12_0) ∗ (((c : Thread nD τ).loc main_v12_1) ↦{fullShare} Vc main_v12_1) ∗ (((c : Thread nD τ).loc main_v12_2) ↦{fullShare} Vc main_v12_2) ∗ (((c : Thread nD τ).loc main_v12_3) ↦{fullShare} Vc main_v12_3) ∗ (((c : Thread nD τ).loc main_v12_4) ↦{fullShare} Vc main_v12_4) ∗ (((c : Thread nD τ).loc main_v12_5) ↦{fullShare} Vc main_v12_5) ∗ (((c : Thread nD τ).loc main_v12_6) ↦{fullShare} Vc main_v12_6) ∗ (((c : Thread nD τ).loc main_v12_7) ↦{fullShare} Vc main_v12_7)) :=
    bigSep_eq_bigSepL_of_eq [main_v0, main_v1, main_v6, main_v7, main_v8, main_v9, main_v10, main_v11, main_v12_0, main_v12_1, main_v12_2, main_v12_3, main_v12_4, main_v12_5, main_v12_6, main_v12_7] (by decide) (by decide) _
  rw [hB]
  constructor
  · iintro ⟨B0, B1, B2, B3, B4, B5, B6, B7, B8, B9, B10, B11, B12, B13, B14, B15⟩
    ihave B0' := (pointsTo_share (PosShare.mem_left_op_right fullShare)).1 $$ B0
    icases B0' with ⟨B0l, B0r⟩
    ihave B1' := (pointsTo_share (PosShare.mem_left_op_right fullShare)).1 $$ B1
    icases B1' with ⟨B1l, B1r⟩
    isplitl [B0l]; · iexact B0l
    isplitl [B1l]; · iexact B1l
    isplitl [B0r]; · iexact B0r
    isplitl [B1r]; · iexact B1r
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact B15
  · iintro ⟨A0, A1, A2, A3, A4, A5, A6, A7, A8, A9, A10, A11, A12, A13, A14, A15, A16, A17⟩
    isplitl [A0 A2]
    · iapply (pointsTo_share (PosShare.mem_left_op_right fullShare)).2
      isplitl [A0]; · iexact A0
      iexact A2
    isplitl [A1 A3]
    · iapply (pointsTo_share (PosShare.mem_left_op_right fullShare)).2
      isplitl [A1]; · iexact A1
      iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    iexact A17

end Cert.Kernel.Region

end
-- ==== Proof.HostSideBits.lean ====
import proofs.«181479_j36618891166019_2_alg».proof.Proof.Gen.Kernel.Launch
import Idealize.ShloMosaic.Lib.Pipeline.Frame
import Idealize.ShloMosaic.Lib.Pipeline.Regions

/-!
# The host side of the program's run

`@main` is five items in a row: fourteen host operations (the two inputs rounded, their row sums of squares, the
reshapes the kernel reads), the one kernel region, and then the tail in three stretches (fourteen operations, the three
of the rectifier, ten more) that turns the region's eight output columns into the two scalar results.

Between two items the TensorCore's unscoped buffers hold a valuation: `W0` the launch memory, `W1` after the first
stretch, `W2` equal to `W1` except at the region's eight output arrays, which hold unknown contents `outs`, and
`W3`, `W4`, `W5` after each stretch of the tail. No item writes an argument array, so each argument is read back
through the five steps to its launch contents.

`run_cond` is the run of `@main` GIVEN the region's segment record: every weakly fair execution terminates and the
final memory holds the two results at `W5` and the three arguments as launched. `run_of_region` is the same with the
bookkeeping resources chosen: nothing owed at launch, no level assigned, and beside the buffers only the core's
generator register and its empty debt ride through the items.
-/

noncomputable section

namespace Cert.Kernel.HostSide

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the region leaves in its eight output arrays `main_v12_0 … main_v12_7`, per core: the unknowns the later
    valuations are written over (read at those eight references only). -/
abbrev Outs : Type := (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev W0 (c : Dev nD) : Valuation τ sig (Elt F) := fun b => m (c, b)
/-- After the fourteen host operations before the region. -/
abbrev W1 (c : Dev nD) : Valuation τ sig (Elt F) := StableHlo.after hostOps0 (W0 m c)
/-- After the region: its eight output arrays at `outs`, every other buffer as the region found it. -/
abbrev W2 (c : Dev nD) : Valuation τ sig (Elt F) :=
  Function.update (Function.update (Function.update (Function.update (Function.update (Function.update (Function.update (Function.update (W1 m c) main_v12_0 (outs main_v12_0 c)) main_v12_1 (outs main_v12_1 c)) main_v12_2 (outs main_v12_2 c)) main_v12_3 (outs main_v12_3 c)) main_v12_4 (outs main_v12_4 c)) main_v12_5 (outs main_v12_5 c)) main_v12_6 (outs main_v12_6 c)) main_v12_7 (outs main_v12_7 c)
/-- After the first stretch of the tail (reshapes, the two concatenations, the difference plus the margin). -/
abbrev W3 (c : Dev nD) : Valuation τ sig (Elt F) := StableHlo.after hostOps1 (W2 m outs c)
/-- After the rectifier's three operations. -/
abbrev W4 (c : Dev nD) : Valuation τ sig (Elt F) := StableHlo.after hostOps1_1 (W3 m outs c)
/-- After the last stretch (the two means): the end of `@main`. -/
abbrev W5 (c : Dev nD) : Valuation τ sig (Elt F) := StableHlo.after hostOps1_2 (W4 m outs c)

/-! ## What the host stretches write -/

theorem hostOps0_fresh : (hostOps0 : List (HloOp τ sig (Elt F))).Forall fun op => op.fresh = ∅ := by
  simp only [List.Forall]; repeat' constructor
/-- The references the first stretch writes. -/
abbrev hostOps0_W : List (Ref sig .tc) :=
  [main_v0, main_v1, main_v2, main_cst, main_v3, main_v4, main_cst_0, main_v5, main_v6, main_v7, main_v8, main_v9, main_v10, main_v11]
theorem hostOps0_writes : (hostOps0 : List (HloOp τ sig (Elt F))).Forall fun op => op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps1_fresh : (hostOps1 : List (HloOp τ sig (Elt F))).Forall fun op => op.fresh = ∅ := by
  simp only [List.Forall]; repeat' constructor
/-- The references the tail's first stretch writes. -/
abbrev hostOps1_W : List (Ref sig .tc) :=
  [main_v13, main_v14, main_v15, main_v16, main_v17, main_v18, main_v19, main_v20, main_v21, main_v22, main_v23, main_cst_1, main_v24, main_v25]
theorem hostOps1_writes : (hostOps1 : List (HloOp τ sig (Elt F))).Forall fun op => op.writes ⊆ (hostOps1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps1_1_fresh : (hostOps1_1 : List (HloOp τ sig (Elt F))).Forall fun op => op.fresh = ∅ := by
  simp only [List.Forall]; repeat' constructor
/-- The references the rectifier's operations write. -/
abbrev hostOps1_1_W : List (Ref sig .tc) := [main_call0_cst, main_call0_v0, main_v26]
theorem hostOps1_1_writes : (hostOps1_1 : List (HloOp τ sig (Elt F))).Forall fun op => op.writes ⊆ (hostOps1_1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps1_2_fresh : (hostOps1_2 : List (HloOp τ sig (Elt F))).Forall fun op => op.fresh = ∅ := by
  simp only [List.Forall]; repeat' constructor
/-- The references the last stretch writes. -/
abbrev hostOps1_2_W : List (Ref sig .tc) :=
  [main_cst_2, main_v27, main_cst_3, main_v28, main_v29, main_v30, main_cst_4, main_v31, main_cst_5, main_v32]
theorem hostOps1_2_writes : (hostOps1_2 : List (HloOp τ sig (Elt F))).Forall fun op => op.writes ⊆ (hostOps1_2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## What each item leaves unchanged -/

/-- The region's eight output arrays. -/
abbrev region_W : List (Ref sig .tc) := [main_v12_0, main_v12_1, main_v12_2, main_v12_3, main_v12_4, main_v12_5, main_v12_6, main_v12_7]

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ region_W) : W2 m outs c r = W1 m c r := by
  simp only [W2, Function.update_of_ne (StableHlo.devRef_ne_of_ne (List.ne_of_not_mem_cons h) : (Proc.devRef .tc r : DevRef τ sig) ≠ Proc.devRef .tc main_v12_0),
    Function.update_of_ne (StableHlo.devRef_ne_of_ne (List.ne_of_not_mem_cons (List.not_mem_of_not_mem_cons h)) : (Proc.devRef .tc r : DevRef τ sig) ≠ Proc.devRef .tc main_v12_1),
    Function.update_of_ne (StableHlo.devRef_ne_of_ne (List.ne_of_not_mem_cons (List.not_mem_of_not_mem_cons (List.not_mem_of_not_mem_cons h))) : (Proc.devRef .tc r : DevRef τ sig) ≠ Proc.devRef .tc main_v12_2),
    Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v12_3),
    Function.update_of_ne (StableHlo.devRef_ne_of_ne (List.ne_of_not_mem_cons (List.not_mem_of_not_mem_cons (List.not_mem_of_not_mem_cons (List.not_mem_of_not_mem_cons (List.not_mem_of_not_mem_cons h))))) : (Proc.devRef .tc r : DevRef τ sig) ≠ Proc.devRef .tc main_v12_4),
    Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons h)))))) : (Proc.devRef .tc r : DevRef τ sig) ≠ Proc.devRef .tc main_v12_5),
    Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons (List.not_mem_of_not_mem_cons h))))))) : (Proc.devRef .tc r : DevRef τ sig) ≠ Proc.devRef .tc main_v12_6),
    Function.update_of_ne (StableHlo.devRef_ne_of_ne (List.ne_of_not_mem_cons (List.not_mem_of_not_mem_cons (List.not_mem_of_not_mem_cons (List.not_mem_of_not_mem_cons (List.not_mem_of_not_mem_cons (List.not_mem_of_not_mem_cons (List.not_mem_of_not_mem_cons (List.not_mem_of_not_mem_cons h)))))))) : (Proc.devRef .tc r : DevRef τ sig) ≠ Proc.devRef .tc main_v12_7)]
theorem W3_of (c : Dev nD) (r : Ref sig .tc) (h : r ∉ hostOps1_W) : W3 m outs c r = W2 m outs c r :=
  StableHlo.after_of_writes_sub hostOps1 _ hostOps1_writes h
theorem W4_of (c : Dev nD) (r : Ref sig .tc) (h : r ∉ hostOps1_1_W) : W4 m outs c r = W3 m outs c r :=
  StableHlo.after_of_writes_sub hostOps1_1 _ hostOps1_1_writes h
theorem W5_of (c : Dev nD) (r : Ref sig .tc) (h : r ∉ hostOps1_2_W) : W5 m outs c r = W4 m outs c r :=
  StableHlo.after_of_writes_sub hostOps1_2 _ hostOps1_2_writes h

/-! ## The region's output arrays after the region -/

theorem W2_main_v12_0 (c : Dev nD) : W2 m outs c main_v12_0 = outs main_v12_0 c := by
  simp (disch := exact StableHlo.devRef_ne_of_ne (by decide)) only [W2, Function.update_self, Function.update_of_ne]
theorem W2_main_v12_1 (c : Dev nD) : W2 m outs c main_v12_1 = outs main_v12_1 c := by
  simp (disch := exact StableHlo.devRef_ne_of_ne (by decide)) only [W2, Function.update_self, Function.update_of_ne]
theorem W2_main_v12_2 (c : Dev nD) : W2 m outs c main_v12_2 = outs main_v12_2 c := by
  simp (disch := exact StableHlo.devRef_ne_of_ne (by decide)) only [W2, Function.update_self, Function.update_of_ne]
theorem W2_main_v12_3 (c : Dev nD) : W2 m outs c main_v12_3 = outs main_v12_3 c := by
  simp (disch := exact StableHlo.devRef_ne_of_ne (by decide)) only [W2, Function.update_self, Function.update_of_ne]
theorem W2_main_v12_4 (c : Dev nD) : W2 m outs c main_v12_4 = outs main_v12_4 c := by
  simp (disch := exact StableHlo.devRef_ne_of_ne (by decide)) only [W2, Function.update_self, Function.update_of_ne]
theorem W2_main_v12_5 (c : Dev nD) : W2 m outs c main_v12_5 = outs main_v12_5 c := by
  simp (disch := exact StableHlo.devRef_ne_of_ne (by decide)) only [W2, Function.update_self, Function.update_of_ne]
theorem W2_main_v12_6 (c : Dev nD) : W2 m outs c main_v12_6 = outs main_v12_6 c := by
  simp (disch := exact StableHlo.devRef_ne_of_ne (by decide)) only [W2, Function.update_self, Function.update_of_ne]
theorem W2_main_v12_7 (c : Dev nD) : W2 m outs c main_v12_7 = outs main_v12_7 c := by
  simp (disch := exact StableHlo.devRef_ne_of_ne (by decide)) only [W2, Function.update_self, Function.update_of_ne]

/-! ## No item writes an argument -/

/-- `main_arg0` holds its launch contents at the end: no host operation writes it and the region's outputs are other arrays. -/
theorem W5_main_arg0 (c : Dev nD) : W5 m outs c main_arg0 = m ((c : Thread nD τ).loc main_arg0) :=
  (W5_of m outs c main_arg0 (by decide)).trans <| (W4_of m outs c main_arg0 (by decide)).trans <| (W3_of m outs c main_arg0 (by decide)).trans <|
    (W2_of m outs c main_arg0 (by decide)).trans <| (W1_of m c main_arg0 (by decide)).trans rfl
/-- `main_arg1` holds its launch contents at the end: no host operation writes it and the region's outputs are other arrays. -/
theorem W5_main_arg1 (c : Dev nD) : W5 m outs c main_arg1 = m ((c : Thread nD τ).loc main_arg1) :=
  (W5_of m outs c main_arg1 (by decide)).trans <| (W4_of m outs c main_arg1 (by decide)).trans <| (W3_of m outs c main_arg1 (by decide)).trans <|
    (W2_of m outs c main_arg1 (by decide)).trans <| (W1_of m c main_arg1 (by decide)).trans rfl
/-- `main_arg2` holds its launch contents at the end: no host operation writes it and the region's outputs are other arrays. -/
theorem W5_main_arg2 (c : Dev nD) : W5 m outs c main_arg2 = m ((c : Thread nD τ).loc main_arg2) :=
  (W5_of m outs c main_arg2 (by decide)).trans <| (W4_of m outs c main_arg2 (by decide)).trans <| (W3_of m outs c main_arg2 (by decide)).trans <|
    (W2_of m outs c main_arg2 (by decide)).trans <| (W1_of m c main_arg2 (by decide)).trans rfl

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 2 → Dev nD → sProp (MT nD τ sig Ix (Elt F) ℕ U Lvl))

/-- Item 0: the first stretch over the unscoped buffers from `W0`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E 0)
/-- Item 2: the tail's first stretch from `W2`, the rest `E 1` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m outs) (E 1)
/-- Item 3: the rectifier's operations from `W3`. -/
def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (W3 m outs) (E 1)
/-- Item 4: the last stretch from `W4`. -/
def seg4 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (W4 m outs) (E 1)

end Segs

section

variable {Ix : Type} [DecidableEq Ix] {U : Type} [URA U] {Lvl : Type} [Preorder Lvl]

/-- The prefetched tables' admissible contents: the kernel region has no prefetched table. -/
abbrev adm : (p : Fin 1) → (pcfgs (F := F) p).Adm := fun p => (cfgs p).toPCfg_adm

/-- `@main`'s five items as segments on core `c`: the four host stretches and the region's given record. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  [.host (seg0 m 𝒱₀ L lv E), .region R0, .host (seg2 m outs 𝒱₀ L lv E), .host (seg3 m outs 𝒱₀ L lv E), .host (seg4 m outs 𝒱₀ L lv E)]

end

/-! ## The run, given the region's record -/

set_option backward.isDefEq.respectTransparency.types false in
/-- THE CONDITIONAL RUN. For any user algebra, level assignment, launch dues and ghost resources, any rest states `E`
    the launch makes on every core at once (`hE0`) and that end owing nothing (`hE1`), any contents the region leaves in
    its output arrays (`outs`) and any proof data: GIVEN the region's segment record, entered from every unscoped buffer
    at `W1` beside `E 0` and left at `W2` beside `E 1`, every weakly fair execution of `@main` from memory `m` with zero
    counters terminates, and every final memory holds the two results at `W5` and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (W1 m c) ∗ E 0 c) ⊢ R0.pre c)
    (hpost0 : ∀ c : Dev nD, R0.post c ⊢ iprop(StableHlo.held (c : Thread nD τ) (Pipeline.ucRefs τ sig) (W2 m outs c) ∗ E 1 c)) :
    θ_run defs (onTc (τ := τ) (main (F := F))) ⟨m, fun _ => 0, ρ⟩ (fun r => ∀ c : Dev nD,
      r.2.mem ((c.tc : Thread nD τ).loc main_v28) = W5 m outs c main_v28
      ∧ r.2.mem ((c.tc : Thread nD τ).loc main_v32) = W5 m outs c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0)
    (fun c Q => by
      rewrite [main_chain c, Seg.run_eq_chain,
        show (segs m outs 𝒱₀ L lv E ι pdats R0 c).map Seg.prog = [
          StableHlo.seq hostOps0,
          Prog.lift (.customCall (Pipeline.entry 0) ()),
          StableHlo.seq hostOps1,
          StableHlo.seq hostOps1_1,
          StableHlo.seq hostOps1_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (W0 m c) ∗ E 0 c))
    (Tₙ := fun c => StableHlo.held (c : Thread nD τ) (Pipeline.ucRefs τ sig) (W5 m outs c))
    (hch := fun c => ⟨.rfl, hpre0 c, hpost0 c, .rfl, .rfl, sep_mono .rfl (hE1 c)⟩)
    (hinit := ?_)
    (QY := fun c s => s.mem ((c.tc : Thread nD τ).loc main_v28) = W5 m outs c main_v28
      ∧ s.mem ((c.tc : Thread nD τ).loc main_v32) = W5 m outs c main_v32
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers are held at `W0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (W0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the two results and the three arguments read off the last valuation
    unfold StableHlo.held
    iintro ⟨Hh, HSI⟩
    ihave Hr := (pointsTo_read_all (Pipeline.ucRefs τ sig) (fun b => ((c : Thread nD τ).1, b)) (W5 m outs c) s') $$ [Hh HSI]
    · isplitl [Hh] <;> iassumption
    icases Hr with ⟨%h, HSI⟩
    imodintro
    isplitr
    · ipureintro
      exact ⟨h (Proc.devRef .tc main_v28) (Finset.mem_filter.mpr ⟨StableHlo.devRef_mem_tcRefs main_v28, by decide⟩),
        h (Proc.devRef .tc main_v32) (Finset.mem_filter.mpr ⟨StableHlo.devRef_mem_tcRefs main_v32, by decide⟩),
        (h (Proc.devRef .tc main_arg0) (Finset.mem_filter.mpr ⟨StableHlo.devRef_mem_tcRefs main_arg0, by decide⟩)).trans (W5_main_arg0 m outs c),
        (h (Proc.devRef .tc main_arg1) (Finset.mem_filter.mpr ⟨StableHlo.devRef_mem_tcRefs main_arg1, by decide⟩)).trans (W5_main_arg1 m outs c),
        (h (Proc.devRef .tc main_arg2) (Finset.mem_filter.mpr ⟨StableHlo.devRef_mem_tcRefs main_arg2, by decide⟩)).trans (W5_main_arg2 m outs c)⟩
    · iexact HSI

/-! ## The run with the bookkeeping chosen -/

local notation "𝕄₁" => MT nD τ sig Unit (Elt F) ℕ (UR sig nD τ) ℕ

/-- What rides beside the buffers through every item: the core's generator register at some state and its debt,
    which is empty. -/
abbrev Rest (c : Dev nD) : sProp 𝕄₁ :=
  iprop((∃ r, prngReg c r) ∗ ∃ W, owes (c : Thread nD τ) (0 : CellTallies nD τ sig Unit) W)

set_option backward.isDefEq.respectTransparency.types false in
/-- THE RUN, GIVEN THE REGION. The user algebra is one copy of the rounds algebra, no level is assigned, no core owes
    anything at launch and no ghost resource is dealt; beside the buffers each core keeps `Rest`. GIVEN the region's
    segment record over any proof data, entered from every unscoped buffer at `W1` beside `Rest` and left at `W2`
    beside `Rest`, every weakly fair execution of `@main` from memory `m` with zero counters terminates, and every final
    memory holds the two results at `W5` and each argument as launched. -/
theorem run_of_region (ρ : Dev nD → PrngReg) (outs : Outs (F := F))
    (pdats : (p : Fin 1) → (c : Dev nD) → Dat τ (Elt F) Unit ℕ (UR sig nD τ) ℕ (cfgs p) c)
    (R0 : RegionSeg (pcfgs (F := F)) adm pdats () defs₀ Variants.none (fun _ => (∅ : Finset Unit)) (fun _ _ => (0 : ℕ)) 0)
    (hpre0 : ∀ c : Dev nD, iprop(StableHlo.held (c : Thread nD τ) (Pipeline.ucRefs τ sig) (W1 m c) ∗ Rest (F := F) c) ⊢ R0.pre c)
    (hpost0 : ∀ c : Dev nD, R0.post c ⊢ iprop(StableHlo.held (c : Thread nD τ) (Pipeline.ucRefs τ sig) (W2 m outs c) ∗ Rest (F := F) c)) :
    θ_run defs (onTc (τ := τ) (main (F := F))) ⟨m, fun _ => 0, ρ⟩ (fun r => ∀ c : Dev nD,
      r.2.mem ((c.tc : Thread nD τ).loc main_v28) = W5 m outs c main_v28
      ∧ r.2.mem ((c.tc : Thread nD τ).loc main_v32) = W5 m outs c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m emb₁ () Variants.none (fun _ => ∅) (fun _ _ => 0) (fun _ _ => rfl) ρ outs pdats
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄₁)
            ⊢ BI.own (emb₁ (initOf (Pipeline.cells cfgs cellOf_inj) (Pipeline.launchToks cfgs cellOf_inj))) from .rfl)
        iexact Hu
      iapply (show (BI.emp : sProp 𝕄₁) ⊢ bigSep Finset.univ (fun _ : Dev nD => (BI.emp : sProp 𝕄₁)) from by rw [BI.bigSep_emp_const])
      iempintro)
    (E := fun _ c => Rest (F := F) c)
    (hE0 := by
      refine Pipeline.initEach (fun _ => (∅ : Finset Unit)) (fun _ _ => (0 : ℕ)) fun c => ?_
      iintro ⟨⟨-, HO, -, Hp, -⟩, -⟩
      imodintro
      isplitl [Hp]; · iexists _; iexact Hp
      iexists ∅; iexact HO)
    (hE1 := fun c => by
      iintro ⟨-, HO⟩
      iexact HO)
    R0 hpre0 hpost0

end Cert.Kernel.HostSide

end
-- ==== Proof.RegionSegK.lean ====
/-
  The kernel region as one segment of the program's run, and the program's run.  The region is entered holding
  every unscoped buffer at what the host operations before it left; the windows' arrays are taken out of those
  (the two arrays that are read twice dealt to their two windows by halves), the rest bypasses the region; at its
  exit the arrays come back, the eight output arrays at what the write-backs made of them and every input array
  as it was, and are put back among the unscoped buffers.  The scratch buffers and the generator register enter
  the region's invariant and come back out of it; the kernel signals no one.
-/
import proofs.«181479_j36618891166019_2_alg».proof.Proof.RegionBodyK
import proofs.«181479_j36618891166019_2_alg».proof.Proof.RegionSharesK
import proofs.«181479_j36618891166019_2_alg».proof.Proof.HostSideBits
import Idealize.ShloMosaic.Lib.Pipeline.RegionsLoop

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ)

/-- What the region finds in the TensorCore's buffers: the launch contents after the host operations before it. -/
abbrev V1 (c : Dev nD) (b : Ref sig .tc) : Buf (Elt F) ((c : Thread nD τ).loc b) := HostSide.W1 m c b

/-- What the region leaves in the buffers it may change: each of its eight output arrays at what its write-backs
    made of it. (At any other reference the value is not used.) -/
def outs : HostSide.Outs (F := F) := fun r c =>
  (Function.update (Function.update (Function.update (Function.update (Function.update (Function.update (Function.update (Function.update (fun b => V1 m c b) main_v12_0 ((dat (V1 m) c).arrAt 10 cfg0.N)) main_v12_1 ((dat (V1 m) c).arrAt 11 cfg0.N)) main_v12_2 ((dat (V1 m) c).arrAt 12 cfg0.N)) main_v12_3 ((dat (V1 m) c).arrAt 13 cfg0.N)) main_v12_4 ((dat (V1 m) c).arrAt 14 cfg0.N)) main_v12_5 ((dat (V1 m) c).arrAt 15 cfg0.N)) main_v12_6 ((dat (V1 m) c).arrAt 16 cfg0.N)) main_v12_7 ((dat (V1 m) c).arrAt 17 cfg0.N)) r

theorem outs_0 (c : Dev nD) : outs m main_v12_0 c = (dat (V1 m) c).arrAt 10 cfg0.N := by
  unfold outs
  simp only [Function.update_of_ne (show main_v12_0 ≠ main_v12_1 from by decide), Function.update_of_ne (show main_v12_0 ≠ main_v12_2 from by decide), Function.update_of_ne (show main_v12_0 ≠ main_v12_3 from by decide), Function.update_of_ne (show main_v12_0 ≠ main_v12_4 from by decide), Function.update_of_ne (show main_v12_0 ≠ main_v12_5 from by decide), Function.update_of_ne (show main_v12_0 ≠ main_v12_6 from by decide), Function.update_of_ne (show main_v12_0 ≠ main_v12_7 from by decide), Function.update_self]
theorem outs_1 (c : Dev nD) : outs m main_v12_1 c = (dat (V1 m) c).arrAt 11 cfg0.N := by
  unfold outs
  simp only [Function.update_of_ne (show main_v12_1 ≠ main_v12_2 from by decide), Function.update_of_ne (show main_v12_1 ≠ main_v12_3 from by decide), Function.update_of_ne (show main_v12_1 ≠ main_v12_4 from by decide), Function.update_of_ne (show main_v12_1 ≠ main_v12_5 from by decide), Function.update_of_ne (show main_v12_1 ≠ main_v12_6 from by decide), Function.update_of_ne (show main_v12_1 ≠ main_v12_7 from by decide), Function.update_self]
theorem outs_2 (c : Dev nD) : outs m main_v12_2 c = (dat (V1 m) c).arrAt 12 cfg0.N := by
  unfold outs
  simp only [Function.update_of_ne (show main_v12_2 ≠ main_v12_3 from by decide), Function.update_of_ne (show main_v12_2 ≠ main_v12_4 from by decide), Function.update_of_ne (show main_v12_2 ≠ main_v12_5 from by decide), Function.update_of_ne (show main_v12_2 ≠ main_v12_6 from by decide), Function.update_of_ne (show main_v12_2 ≠ main_v12_7 from by decide), Function.update_self]
theorem outs_3 (c : Dev nD) : outs m main_v12_3 c = (dat (V1 m) c).arrAt 13 cfg0.N := by
  unfold outs
  simp only [Function.update_of_ne (show main_v12_3 ≠ main_v12_4 from by decide), Function.update_of_ne (show main_v12_3 ≠ main_v12_5 from by decide), Function.update_of_ne (show main_v12_3 ≠ main_v12_6 from by decide), Function.update_of_ne (show main_v12_3 ≠ main_v12_7 from by decide), Function.update_self]
theorem outs_4 (c : Dev nD) : outs m main_v12_4 c = (dat (V1 m) c).arrAt 14 cfg0.N := by
  unfold outs
  simp only [Function.update_of_ne (show main_v12_4 ≠ main_v12_5 from by decide), Function.update_of_ne (show main_v12_4 ≠ main_v12_6 from by decide), Function.update_of_ne (show main_v12_4 ≠ main_v12_7 from by decide), Function.update_self]
theorem outs_5 (c : Dev nD) : outs m main_v12_5 c = (dat (V1 m) c).arrAt 15 cfg0.N := by
  unfold outs
  simp only [Function.update_of_ne (show main_v12_5 ≠ main_v12_6 from by decide), Function.update_of_ne (show main_v12_5 ≠ main_v12_7 from by decide), Function.update_self]
theorem outs_6 (c : Dev nD) : outs m main_v12_6 c = (dat (V1 m) c).arrAt 16 cfg0.N := by
  unfold outs
  simp only [Function.update_of_ne (show main_v12_6 ≠ main_v12_7 from by decide), Function.update_self]
theorem outs_7 (c : Dev nD) : outs m main_v12_7 c = (dat (V1 m) c).arrAt 17 cfg0.N := by
  unfold outs
  simp only [Function.update_self]

/-- The buffers' contents at the region's exit. -/
abbrev V2 (c : Dev nD) (b : Ref sig .tc) : Buf (Elt F) ((c : Thread nD τ).loc b) := HostSide.W2 m (outs m) c b

/-- The proof data of the program's one pipeline. -/
def pdats : (p : Fin 1) → (c : Dev nD) → Dat τ (Elt F) Unit ℕ (UR sig nD τ) ℕ (cfgs p) c
  | ⟨0, _⟩ => fun c => dat (V1 m) c

theorem share_eq (c : Dev nD) (w : Fin cfg0.W) : (dat (V1 m) c).share w = shareOf w := by
  unfold Pipeline.Dat.share
  fin_cases w <;> rfl

set_option maxHeartbeats 4000000 in
/-- At the exit each array holds what the proof data computes for it: an input array its entry contents, an output
    array what the exit valuation names. -/
theorem exit_arr (c : Dev nD) (w : Fin cfg0.W) : (dat (V1 m) c).arrAt w cfg0.N = V2 m c (Pipeline.arrRef spec0 w) := by
  fin_cases w
  · exact ((dat (V1 m) c).arrAt_in 0 rfl _).trans ((A_eq (V1 m) c 0).trans (HostSide.W2_of m (outs m) c _ (by decide)).symm)
  · exact ((dat (V1 m) c).arrAt_in 1 rfl _).trans ((A_eq (V1 m) c 1).trans (HostSide.W2_of m (outs m) c _ (by decide)).symm)
  · exact ((dat (V1 m) c).arrAt_in 2 rfl _).trans ((A_eq (V1 m) c 2).trans (HostSide.W2_of m (outs m) c _ (by decide)).symm)
  · exact ((dat (V1 m) c).arrAt_in 3 rfl _).trans ((A_eq (V1 m) c 3).trans (HostSide.W2_of m (outs m) c _ (by decide)).symm)
  · exact ((dat (V1 m) c).arrAt_in 4 rfl _).trans ((A_eq (V1 m) c 4).trans (HostSide.W2_of m (outs m) c _ (by decide)).symm)
  · exact ((dat (V1 m) c).arrAt_in 5 rfl _).trans ((A_eq (V1 m) c 5).trans (HostSide.W2_of m (outs m) c _ (by decide)).symm)
  · exact ((dat (V1 m) c).arrAt_in 6 rfl _).trans ((A_eq (V1 m) c 6).trans (HostSide.W2_of m (outs m) c _ (by decide)).symm)
  · exact ((dat (V1 m) c).arrAt_in 7 rfl _).trans ((A_eq (V1 m) c 7).trans (HostSide.W2_of m (outs m) c _ (by decide)).symm)
  · exact ((dat (V1 m) c).arrAt_in 8 rfl _).trans ((A_eq (V1 m) c 8).trans (HostSide.W2_of m (outs m) c _ (by decide)).symm)
  · exact ((dat (V1 m) c).arrAt_in 9 rfl _).trans ((A_eq (V1 m) c 9).trans (HostSide.W2_of m (outs m) c _ (by decide)).symm)
  · exact ((HostSide.W2_main_v12_0 m (outs m) c).trans (outs_0 m c)).symm
  · exact ((HostSide.W2_main_v12_1 m (outs m) c).trans (outs_1 m c)).symm
  · exact ((HostSide.W2_main_v12_2 m (outs m) c).trans (outs_2 m c)).symm
  · exact ((HostSide.W2_main_v12_3 m (outs m) c).trans (outs_3 m c)).symm
  · exact ((HostSide.W2_main_v12_4 m (outs m) c).trans (outs_4 m c)).symm
  · exact ((HostSide.W2_main_v12_5 m (outs m) c).trans (outs_5 m c)).symm
  · exact ((HostSide.W2_main_v12_6 m (outs m) c).trans (outs_6 m c)).symm
  · exact ((HostSide.W2_main_v12_7 m (outs m) c).trans (outs_7 m c)).symm

/-- Every buffer that is no window's array is at the exit what it was at the entry. -/
theorem exit_rest (c : Dev nD) (b : Ref sig .tc) (hb : b ∉ Finset.univ.image (Pipeline.arrRef spec0)) : V2 m c b = V1 m c b :=
  HostSide.W2_of m (outs m) c b fun h => by
    simp only [HostSide.region_W, List.mem_cons, List.mem_nil_iff, or_false] at h
    rcases h with rfl | rfl | rfl | rfl | rfl | rfl | rfl | rfl
    · exact hb (Finset.mem_image.mpr ⟨10, Finset.mem_univ _, rfl⟩)
    · exact hb (Finset.mem_image.mpr ⟨11, Finset.mem_univ _, rfl⟩)
    · exact hb (Finset.mem_image.mpr ⟨12, Finset.mem_univ _, rfl⟩)
    · exact hb (Finset.mem_image.mpr ⟨13, Finset.mem_univ _, rfl⟩)
    · exact hb (Finset.mem_image.mpr ⟨14, Finset.mem_univ _, rfl⟩)
    · exact hb (Finset.mem_image.mpr ⟨15, Finset.mem_univ _, rfl⟩)
    · exact hb (Finset.mem_image.mpr ⟨16, Finset.mem_univ _, rfl⟩)
    · exact hb (Finset.mem_image.mpr ⟨17, Finset.mem_univ _, rfl⟩)

/-- The unscoped buffers at contents `Vc` are the buffers behind the windows' arrays and the rest. -/
theorem ubufs_split (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop((Pipeline.arrBufs spec0 c Vc : sProp 𝕄) ∗ Pipeline.unscopedRest spec0 c Vc) :=
  Pipeline.unscopedBufs_split₀ cfgs 0 winFacts₀0.arr_unscoped c Vc

set_option backward.isDefEq.respectTransparency.types false in
/-- THE REGION as a segment of the run. -/
def reg0 : RegionSeg (pcfgs (F := F)) HostSide.adm (pdats m) () defs₀ Variants.none (fun _ => (∅ : Finset Unit)) (fun _ _ => (0 : ℕ)) 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ (fun _ => (∅ : Finset Unit)) (fun _ _ => (0 : ℕ)) 0 fun _ _ => rfl
  pre c := iprop(StableHlo.held (c : Thread nD τ) (Pipeline.ucRefs τ sig) (HostSide.W1 m c) ∗ HostSide.Rest (F := F) c)
  post c := iprop(StableHlo.held (c : Thread nD τ) (Pipeline.ucRefs τ sig) (HostSide.W2 m (outs m) c) ∗ HostSide.Rest (F := F) c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (StableHlo.held (c : Thread nD τ) (Pipeline.ucRefs τ sig) (HostSide.W1 m c) : sProp 𝕄)
        ⊢ iprop((pdats m 0 c).arrays ((pdats m 0 c).arrAt · 0) ∗ Pipeline.unscopedRest spec0 c (V1 m c)) := by
      rw [← Pipeline.unscopedBufs_held (Ix := Unit) (Name := ℕ) (U := UR sig nD τ) (Lvl := ℕ) c (HostSide.W1 m c), ubufs_split c (V1 m c)]
      exact sep_mono (arrays_deal c (dat (V1 m) c) (share_eq m c) (V1 m c) _ (fun w => A_eq (V1 m) c w)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Cert.Kernel.Region.hout (V1 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (StableHlo.held (c : Thread nD τ) (Pipeline.ucRefs τ sig) (HostSide.W2 m (outs m) c) : sProp 𝕄) := by
      rw [← Pipeline.unscopedBufs_held (Ix := Unit) (Name := ℕ) (U := UR sig nD τ) (Lvl := ℕ) c (HostSide.W2 m (outs m) c), ubufs_split c (V2 m c)]
      refine sep_mono (arrays_deal c (dat (V1 m) c) (share_eq m c) (V2 m c) _ (exit_arr m c)).2 (Entails.of_eq ?_)
      unfold Pipeline.unscopedRest
      exact bigSep_congr fun b hb => by rw [exit_rest m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN of the kernel's program, at any float instance: every weakly fair execution terminates without a fault;
    each result buffer ends at what the host operations after the region make of the region's eight output arrays,
    and the three argument arrays end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v28) = HostSide.W5 m (outs m) c main_v28
      ∧ r.2.mem ((c.tc : Thread nD τ).loc main_v32) = HostSide.W5 m (outs m) c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  HostSide.run_of_region m ρ (outs m) (pdats m) (reg0 m) (fun _ => .rfl) (fun _ => .rfl)

end Cert.Kernel.Region

end
-- ==== Proof.RefFrame.lean ====
/-
  The reference program's frame.  The reference is a straight-line host program: its run terminates,
  faults nowhere and writes only its own intermediate buffers, so each argument array ends as it began.
  This is the run of the reference with the statement about its results dropped.
-/
import proofs.«181479_j36618891166019_2_alg».proof.Defs
import proofs.«181479_j36618891166019_2_alg».proof.Proof.Gen.ReferenceIdeal
import proofs.«181479_j36618891166019_2_alg».proof.Proof.Gen.Pre_finite_inputs
import proofs.«181479_j36618891166019_2_alg».proof.Proof.RefRunP

noncomputable section

open Idealize.ShloMosaic Idealize.SL.Sem

namespace Cert.Proof.RefFrame

/-- Every weakly fair execution of the reference terminates without a fault and leaves the three
    argument arrays unchanged. -/
theorem frame_ri : @Cert.frame_ReferenceIdeal Cert.ReferenceIdeal.Gen.facts Cert.Pre_finite_inputs.Gen.facts :=
  fun m ρ _ =>
    (θ_run Cert.ReferenceIdeal.defs _ _).mono (fun _ h c => (h c).2.2)
      (Cert.ReferenceIdeal.ValueP.run (F := Ideal) m ρ)

end Cert.Proof.RefFrame

end
-- ==== Proof.HostTailIdeal.lean ====
import proofs.«181479_j36618891166019_2_alg».proof.Proof.HostSideIdeal

/-!
# The value of the host tail

After the kernel region, `@main` turns the region's eight output columns `[4096,1]` into the two scalar results:
each column is read as a vector `[4096]`; the first four columns (the hardest-positive distances of the four
pairings) are laid side by side with the third and fourth repeated, and so are the last four (the hardest-negative
distances) with the first and second of them repeated, giving two vectors of length 24576; the first result is the
mean of `max(ap − an + 0.3, 0)`, the second the mean of the indicator of `an > ap`.

`tailOfVecs` is that function of eight vectors, `kerTail` the same of eight columns, and `W5_main_v28` /
`W5_main_v32` say the last valuation of the host side holds its two components. `W1_main_v…` say what the
operations before the region leave in the arrays the region reads.
-/

noncomputable section

namespace Cert.KernelIdeal.HostSide

open Cert.KernelIdeal Cert.KernelIdeal.Gen
open Idealize.ShloMosaic Idealize.ShloMosaic.TcCoe
open Idealize.SL.Sem

variable {F : FTy → Type} [FloatOps F]

/-! ## The tail as one function -/

/-- A column `[4096,1]` read as the vector `[4096]` of its entries. -/
def col (o : (⟨S4096x1, .f32⟩ : BufTy).Contents (Elt F)) : (⟨S4096, .f32⟩ : BufTy).Contents (Elt F) :=
  fun i => shapeCast S4096 o shapeCasts_S4096x1_S4096 i

/-- Six vectors `[4096]` laid end to end. -/
def cat6 (a0 a1 a2 a3 a4 a5 : (⟨S4096, .f32⟩ : BufTy).Contents (Elt F)) : (⟨S24576, .f32⟩ : BufTy).Contents (Elt F) :=
  concatenate S24576 0 [⟨S4096, a0⟩, ⟨S4096, a1⟩, ⟨S4096, a2⟩, ⟨S4096, a3⟩, ⟨S4096, a4⟩, ⟨S4096, a5⟩]
    concatenates_S4096_S4096_S4096_S4096_S4096_S4096_S24576_d0

/-- The mean over the 24576 entries of `max(ap − an + margin, 0)`, the margin the f32 word `0x3E99999A`. -/
def meanHinge (ap an : (⟨S24576, .f32⟩ : BufTy).Contents (Elt F)) : (⟨S_, .f32⟩ : BufTy).Contents (Elt F) :=
  Host.divf
    (Host.reduceAdd
      (maximumf (addf (subf ap an) (broadcastInDim S24576 ![] bcast_S_S24576 (constant (F := F) S_ .f32 0x3E99999A#32)))
        (broadcastInDim S24576 ![] bcast_S_S24576 (constant (F := F) S_ .f32 0x00000000#32)))
      (constant (F := F) S_ .f32 0x00000000#32) reducesTo_S24576_S_d0 h_S_)
    (constant (F := F) S_ .f32 0x46C00000#32)

/-- The mean over the 24576 entries of the indicator of `an > ap`. -/
def meanGreater (ap an : (⟨S24576, .f32⟩ : BufTy).Contents (Elt F)) : (⟨S_, .f32⟩ : BufTy).Contents (Elt F) :=
  Host.divf
    (Host.reduceAdd (uitofp (F := F) .f32 (cmpf .ogt an ap)) (constant (F := F) S_ .f32 0x00000000#32) reducesTo_S24576_S_d0 h_S_)
    (constant (F := F) S_ .f32 0x46C00000#32)

/-- The two results from eight vectors `[4096]`: `p0 … p3` the hardest-positive distances of the four pairings,
    `n0 … n3` the hardest-negative ones. -/
def tailOfVecs (p0 p1 p2 p3 n0 n1 n2 n3 : (⟨S4096, .f32⟩ : BufTy).Contents (Elt F)) :
    (⟨S_, .f32⟩ : BufTy).Contents (Elt F) × (⟨S_, .f32⟩ : BufTy).Contents (Elt F) :=
  (meanHinge (cat6 p0 p1 p2 p3 p2 p3) (cat6 n0 n1 n2 n3 n0 n1), meanGreater (cat6 p0 p1 p2 p3 p2 p3) (cat6 n0 n1 n2 n3 n0 n1))

/-- The two results from the region's eight output columns. -/
def kerTail (o0 o1 o2 o3 o4 o5 o6 o7 : (⟨S4096x1, .f32⟩ : BufTy).Contents (Elt F)) :
    (⟨S_, .f32⟩ : BufTy).Contents (Elt F) × (⟨S_, .f32⟩ : BufTy).Contents (Elt F) :=
  tailOfVecs (col o0) (col o1) (col o2) (col o3) (col o4) (col o5) (col o6) (col o7)

/-! ## The tail's operations compute it -/

/-- A six-operand operation's result with each operand's contents at its own reference. -/
theorem nary6_result' {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (V : Valuation τ sig Val) :
    (StableHlo.nary (τ := τ) ![x0, x1, x2, x3, x4, x5] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) := by
  rw [StableHlo.nary_result]; congr 1; funext k; fin_cases k <;> rfl

variable (m : (ℓ : Loc nD τ sig) → Buf (Elt F) ℓ) (outs : Outs (F := F))

/-- The first result at the end of `@main`. -/
theorem W5_main_v28 (c : Dev nD) :
    W5 m outs c main_v28 = (kerTail (outs main_v12_0 c) (outs main_v12_1 c) (outs main_v12_2 c) (outs main_v12_3 c)
      (outs main_v12_4 c) (outs main_v12_5 c) (outs main_v12_6 c) (outs main_v12_7 c)).1 := by
  show StableHlo.after hostOps1_2 (StableHlo.after hostOps1_1 (StableHlo.after hostOps1 (W2 m outs c))) (Proc.devRef .tc main_v28) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
  rfl

/-- The second result at the end of `@main`. -/
theorem W5_main_v32 (c : Dev nD) :
    W5 m outs c main_v32 = (kerTail (outs main_v12_0 c) (outs main_v12_1 c) (outs main_v12_2 c) (outs main_v12_3 c)
      (outs main_v12_4 c) (outs main_v12_5 c) (outs main_v12_6 c) (outs main_v12_7 c)).2 := by
  show StableHlo.after hostOps1_2 (StableHlo.after hostOps1_1 (StableHlo.after hostOps1 (W2 m outs c))) (Proc.devRef .tc main_v32) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
  rfl

/-! ## What the region reads -/

/-- The sums of squares of the rows of a `[4096,128]` array, from zero. -/
def rowSq (x : (⟨S4096x128, .f32⟩ : BufTy).Contents (Elt F)) : (⟨S4096, .f32⟩ : BufTy).Contents (Elt F) :=
  Host.reduceAdd (mulf x x) (constant (F := F) S_ .f32 0x00000000#32) reducesTo_S4096x128_S4096_d1 h_S_

/-- Window 0 and 2's array: the first input rounded to bf16. -/
theorem W1_main_v0 (c : Dev nD) :
    W1 m c main_v0 = truncf .bf16 (m ((c : Thread nD τ).loc main_arg0)) bitsLt_bf16_f32 := by
  show StableHlo.after hostOps0 (W0 m c) (Proc.devRef .tc main_v0) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
/-- Window 1 and 3's array: the second input rounded to bf16. -/
theorem W1_main_v1 (c : Dev nD) :
    W1 m c main_v1 = truncf .bf16 (m ((c : Thread nD τ).loc main_arg1)) bitsLt_bf16_f32 := by
  show StableHlo.after hostOps0 (W0 m c) (Proc.devRef .tc main_v1) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
/-- Window 4's array: the first input's row sums of squares as a column. -/
theorem W1_main_v6 (c : Dev nD) :
    W1 m c main_v6 = fun i => shapeCast S4096x1 (rowSq (m ((c : Thread nD τ).loc main_arg0))) shapeCasts_S4096_S4096x1 i := by
  show StableHlo.after hostOps0 (W0 m c) (Proc.devRef .tc main_v6) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
  rfl
/-- Window 5's array: the same sums as a row. -/
theorem W1_main_v7 (c : Dev nD) :
    W1 m c main_v7 = fun i => shapeCast S1x4096 (rowSq (m ((c : Thread nD τ).loc main_arg0))) shapeCasts_S4096_S1x4096 i := by
  show StableHlo.after hostOps0 (W0 m c) (Proc.devRef .tc main_v7) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
  rfl
/-- Window 6's array: the second input's row sums of squares as a column. -/
theorem W1_main_v8 (c : Dev nD) :
    W1 m c main_v8 = fun i => shapeCast S4096x1 (rowSq (m ((c : Thread nD τ).loc main_arg1))) shapeCasts_S4096_S4096x1 i := by
  show StableHlo.after hostOps0 (W0 m c) (Proc.devRef .tc main_v8) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
  rfl
/-- Window 7's array: the same sums as a row. -/
theorem W1_main_v9 (c : Dev nD) :
    W1 m c main_v9 = fun i => shapeCast S1x4096 (rowSq (m ((c : Thread nD τ).loc main_arg1))) shapeCasts_S4096_S1x4096 i := by
  show StableHlo.after hostOps0 (W0 m c) (Proc.devRef .tc main_v9) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
  rfl
/-- Window 8's array: the targets as a column. -/
theorem W1_main_v10 (c : Dev nD) :
    W1 m c main_v10 = fun i => shapeCast S4096x1 (m ((c : Thread nD τ).loc main_arg2)) shapeCasts_S4096_S4096x1 i := by
  show StableHlo.after hostOps0 (W0 m c) (Proc.devRef .tc main_v10) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
  rfl
/-- Window 9's array: the targets as a row. -/
theorem W1_main_v11 (c : Dev nD) :
    W1 m c main_v11 = fun i => shapeCast S1x4096 (m ((c : Thread nD τ).loc main_arg2)) shapeCasts_S4096_S1x4096 i := by
  show StableHlo.after hostOps0 (W0 m c) (Proc.devRef .tc main_v11) = _
  simp (disch := decide) only [StableHlo.after_cons, StableHlo.after_nil,
      StableHlo.nullary_result', StableHlo.unary_result', StableHlo.binary_result', StableHlo.reshape_result', nary6_result',
      StableHlo.nullary_result_ne', StableHlo.unary_result_ne', StableHlo.binary_result_ne', StableHlo.reshape_result_ne', StableHlo.nary_result_ne']
  rfl

end Cert.KernelIdeal.HostSide

end
-- ==== Proof.RegionBlocks.lean ====
/-
  Each window's block as a slice of its array, entry by entry.  The grid's sixteen points are numbered row block by
  row block: point t works on row block t / 2 (512 rows) and column block t % 2 (2048 columns).  An entry of a
  block sits in its array at the block's index times the block's extent plus the entry's own coordinate, so row p
  of a row block is row 512 (t / 2) + p of the array, and column l of a column block is column 2048 (t % 2) + l.
  At the exact instance the arrays the region reads are plain functions of the three arguments: the rounded inputs
  are the inputs, the row sums of squares are sums over the 128 columns, the targets are only reshaped.
-/
import proofs.«181479_j36618891166019_2_alg».proof.Proof.RegionData
import proofs.«181479_j36618891166019_2_alg».proof.Proof.HostTailIdeal
import Idealize.ShloMosaic.Lib.ValueIdx
import Idealize.ShloMosaic.Lib.Pipeline.Value
import Idealize.ShloMosaic.PureOps.Ideal.Laws

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The points and their blocks -/

/-- The grid has sixteen points. -/
theorem pt_lt (t : Fin cfg0.N) : t.val < 16 := Nat.lt_of_lt_of_eq t.isLt N_0

/-- Row `p` of point `t`'s row block, as a row of the whole array. -/
def rowIx (t : Fin cfg0.N) (p : Fin 512) : Fin 4096 := ⟨512 * (t.val / 2) + p.val, by have := pt_lt t; omega⟩
/-- Column `l` of point `t`'s column block, as a column of the whole array. -/
def colIx (t : Fin cfg0.N) (l : Fin 2048) : Fin 4096 := ⟨2048 * (t.val % 2) + l.val, by omega⟩
@[simp] theorem rowIx_val (t : Fin cfg0.N) (p : Fin 512) : (rowIx t p).val = 512 * (t.val / 2) + p.val := rfl
@[simp] theorem colIx_val (t : Fin cfg0.N) (l : Fin 2048) : (colIx t l).val = 2048 * (t.val % 2) + l.val := rfl

/-! ## The windows' block indices at a point, decided over the grid -/

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val / 2 ∧ win0_1.index t 1 = 0 :=
  (by decide +kernel : ∀ t : Fin grid0.N, win0_1.index t 0 = t.val / 2 ∧ win0_1.index t 1 = 0)
theorem idx2 : ∀ t : Fin cfg0.N, win0_2.index t 0 = t.val % 2 ∧ win0_2.index t 1 = 0 :=
  (by decide +kernel : ∀ t : Fin grid0.N, win0_2.index t 0 = t.val % 2 ∧ win0_2.index t 1 = 0)
theorem idx3 : ∀ t : Fin cfg0.N, win0_3.index t 0 = t.val % 2 ∧ win0_3.index t 1 = 0 :=
  (by decide +kernel : ∀ t : Fin grid0.N, win0_3.index t 0 = t.val % 2 ∧ win0_3.index t 1 = 0)
theorem idx4 : ∀ t : Fin cfg0.N, win0_4.index t 0 = t.val / 2 ∧ win0_4.index t 1 = 0 :=
  (by decide +kernel : ∀ t : Fin grid0.N, win0_4.index t 0 = t.val / 2 ∧ win0_4.index t 1 = 0)
theorem idx5 : ∀ t : Fin cfg0.N, win0_5.index t 0 = 0 ∧ win0_5.index t 1 = t.val % 2 :=
  (by decide +kernel : ∀ t : Fin grid0.N, win0_5.index t 0 = 0 ∧ win0_5.index t 1 = t.val % 2)
theorem idx6 : ∀ t : Fin cfg0.N, win0_6.index t 0 = t.val / 2 ∧ win0_6.index t 1 = 0 :=
  (by decide +kernel : ∀ t : Fin grid0.N, win0_6.index t 0 = t.val / 2 ∧ win0_6.index t 1 = 0)
theorem idx7 : ∀ t : Fin cfg0.N, win0_7.index t 0 = 0 ∧ win0_7.index t 1 = t.val % 2 :=
  (by decide +kernel : ∀ t : Fin grid0.N, win0_7.index t 0 = 0 ∧ win0_7.index t 1 = t.val % 2)
theorem idx8 : ∀ t : Fin cfg0.N, win0_8.index t 0 = t.val / 2 ∧ win0_8.index t 1 = 0 :=
  (by decide +kernel : ∀ t : Fin grid0.N, win0_8.index t 0 = t.val / 2 ∧ win0_8.index t 1 = 0)
theorem idx9 : ∀ t : Fin cfg0.N, win0_9.index t 0 = 0 ∧ win0_9.index t 1 = t.val % 2 :=
  (by decide +kernel : ∀ t : Fin grid0.N, win0_9.index t 0 = 0 ∧ win0_9.index t 1 = t.val % 2)
theorem idx10 : ∀ t : Fin cfg0.N, win0_10.index t 0 = t.val / 2 ∧ win0_10.index t 1 = 0 :=
  (by decide +kernel : ∀ t : Fin grid0.N, win0_10.index t 0 = t.val / 2 ∧ win0_10.index t 1 = 0)
theorem idx11 : ∀ t : Fin cfg0.N, win0_11.index t 0 = t.val / 2 ∧ win0_11.index t 1 = 0 :=
  (by decide +kernel : ∀ t : Fin grid0.N, win0_11.index t 0 = t.val / 2 ∧ win0_11.index t 1 = 0)
theorem idx12 : ∀ t : Fin cfg0.N, win0_12.index t 0 = t.val / 2 ∧ win0_12.index t 1 = 0 :=
  (by decide +kernel : ∀ t : Fin grid0.N, win0_12.index t 0 = t.val / 2 ∧ win0_12.index t 1 = 0)
theorem idx13 : ∀ t : Fin cfg0.N, win0_13.index t 0 = t.val / 2 ∧ win0_13.index t 1 = 0 :=
  (by decide +kernel : ∀ t : Fin grid0.N, win0_13.index t 0 = t.val / 2 ∧ win0_13.index t 1 = 0)
theorem idx14 : ∀ t : Fin cfg0.N, win0_14.index t 0 = t.val / 2 ∧ win0_14.index t 1 = 0 :=
  (by decide +kernel : ∀ t : Fin grid0.N, win0_14.index t 0 = t.val / 2 ∧ win0_14.index t 1 = 0)
theorem idx15 : ∀ t : Fin cfg0.N, win0_15.index t 0 = t.val / 2 ∧ win0_15.index t 1 = 0 :=
  (by decide +kernel : ∀ t : Fin grid0.N, win0_15.index t 0 = t.val / 2 ∧ win0_15.index t 1 = 0)
theorem idx16 : ∀ t : Fin cfg0.N, win0_16.index t 0 = t.val / 2 ∧ win0_16.index t 1 = 0 :=
  (by decide +kernel : ∀ t : Fin grid0.N, win0_16.index t 0 = t.val / 2 ∧ win0_16.index t 1 = 0)
theorem idx17 : ∀ t : Fin cfg0.N, win0_17.index t 0 = t.val / 2 ∧ win0_17.index t 1 = 0 :=
  (by decide +kernel : ∀ t : Fin grid0.N, win0_17.index t 0 = t.val / 2 ∧ win0_17.index t 1 = 0)

/-! ## Each input block at an entry is its array at the absolute entry -/

variable (V : (c : Dev nD) → (b : Ref sig .tc) → Buf (Elt F) ((c : Thread nD τ).loc b))

theorem iblk0_apply (c : Dev nD) (t : Fin cfg0.N) (p : Fin 512) (k : Fin 128) :
    (iblk V c 0 t : Vec F S512x128 .bf16) (ix2 p k) = (V c main_v0 : S4096x128.Idx → Elt F .bf16) (ix2 (rowIx t p) k) := by
  obtain ⟨e0, e1⟩ := idx0 t
  unfold iblk
  rw [View.read_apply]
  show V c main_v0 _ = V c main_v0 _
  congr 1
  funext a
  apply Fin.ext
  match a with
  | ⟨0, _⟩ => show win0_0.index t 0 * 512 + 1 * p.val = 512 * (t.val / 2) + p.val; rw [e0]; omega
  | ⟨1, _⟩ => show win0_0.index t 1 * 128 + 1 * k.val = k.val; rw [e1]; omega

theorem iblk1_apply (c : Dev nD) (t : Fin cfg0.N) (p : Fin 512) (k : Fin 128) :
    (iblk V c 1 t : Vec F S512x128 .bf16) (ix2 p k) = (V c main_v1 : S4096x128.Idx → Elt F .bf16) (ix2 (rowIx t p) k) := by
  obtain ⟨e0, e1⟩ := idx1 t
  unfold iblk
  rw [View.read_apply]
  show V c main_v1 _ = V c main_v1 _
  congr 1
  funext a
  apply Fin.ext
  match a with
  | ⟨0, _⟩ => show win0_1.index t 0 * 512 + 1 * p.val = 512 * (t.val / 2) + p.val; rw [e0]; omega
  | ⟨1, _⟩ => show win0_1.index t 1 * 128 + 1 * k.val = k.val; rw [e1]; omega

theorem iblk2_apply (c : Dev nD) (t : Fin cfg0.N) (l : Fin 2048) (k : Fin 128) :
    (iblk V c 2 t : Vec F S2048x128 .bf16) (ix2 l k) = (V c main_v0 : S4096x128.Idx → Elt F .bf16) (ix2 (colIx t l) k) := by
  obtain ⟨e0, e1⟩ := idx2 t
  unfold iblk
  rw [View.read_apply]
  show V c main_v0 _ = V c main_v0 _
  congr 1
  funext a
  apply Fin.ext
  match a with
  | ⟨0, _⟩ => show win0_2.index t 0 * 2048 + 1 * l.val = 2048 * (t.val % 2) + l.val; rw [e0]; omega
  | ⟨1, _⟩ => show win0_2.index t 1 * 128 + 1 * k.val = k.val; rw [e1]; omega

theorem iblk3_apply (c : Dev nD) (t : Fin cfg0.N) (l : Fin 2048) (k : Fin 128) :
    (iblk V c 3 t : Vec F S2048x128 .bf16) (ix2 l k) = (V c main_v1 : S4096x128.Idx → Elt F .bf16) (ix2 (colIx t l) k) := by
  obtain ⟨e0, e1⟩ := idx3 t
  unfold iblk
  rw [View.read_apply]
  show V c main_v1 _ = V c main_v1 _
  congr 1
  funext a
  apply Fin.ext
  match a with
  | ⟨0, _⟩ => show win0_3.index t 0 * 2048 + 1 * l.val = 2048 * (t.val % 2) + l.val; rw [e0]; omega
  | ⟨1, _⟩ => show win0_3.index t 1 * 128 + 1 * k.val = k.val; rw [e1]; omega

theorem iblk4_apply (c : Dev nD) (t : Fin cfg0.N) (p : Fin 512) (k : Fin 1) :
    (iblk V c 4 t : Vec F S512x1 .f32) (ix2 p k) = (V c main_v6 : S4096x1.Idx → Elt F .f32) (ix2 (rowIx t p) k) := by
  obtain ⟨e0, e1⟩ := idx4 t
  unfold iblk
  rw [View.read_apply]
  show V c main_v6 _ = V c main_v6 _
  congr 1
  funext a
  apply Fin.ext
  match a with
  | ⟨0, _⟩ => show win0_4.index t 0 * 512 + 1 * p.val = 512 * (t.val / 2) + p.val; rw [e0]; omega
  | ⟨1, _⟩ => show win0_4.index t 1 * 1 + 1 * k.val = k.val; rw [e1]; omega

theorem iblk5_apply (c : Dev nD) (t : Fin cfg0.N) (q : Fin 1) (l : Fin 2048) :
    (iblk V c 5 t : Vec F S1x2048 .f32) (ix2 q l) = (V c main_v7 : S1x4096.Idx → Elt F .f32) (ix2 q (colIx t l)) := by
  obtain ⟨e0, e1⟩ := idx5 t
  unfold iblk
  rw [View.read_apply]
  show V c main_v7 _ = V c main_v7 _
  congr 1
  funext a
  apply Fin.ext
  match a with
  | ⟨0, _⟩ => show win0_5.index t 0 * 1 + 1 * q.val = q.val; rw [e0]; omega
  | ⟨1, _⟩ => show win0_5.index t 1 * 2048 + 1 * l.val = 2048 * (t.val % 2) + l.val; rw [e1]; omega

theorem iblk6_apply (c : Dev nD) (t : Fin cfg0.N) (p : Fin 512) (k : Fin 1) :
    (iblk V c 6 t : Vec F S512x1 .f32) (ix2 p k) = (V c main_v8 : S4096x1.Idx → Elt F .f32) (ix2 (rowIx t p) k) := by
  obtain ⟨e0, e1⟩ := idx6 t
  unfold iblk
  rw [View.read_apply]
  show V c main_v8 _ = V c main_v8 _
  congr 1
  funext a
  apply Fin.ext
  match a with
  | ⟨0, _⟩ => show win0_6.index t 0 * 512 + 1 * p.val = 512 * (t.val / 2) + p.val; rw [e0]; omega
  | ⟨1, _⟩ => show win0_6.index t 1 * 1 + 1 * k.val = k.val; rw [e1]; omega

theorem iblk7_apply (c : Dev nD) (t : Fin cfg0.N) (q : Fin 1) (l : Fin 2048) :
    (iblk V c 7 t : Vec F S1x2048 .f32) (ix2 q l) = (V c main_v9 : S1x4096.Idx → Elt F .f32) (ix2 q (colIx t l)) := by
  obtain ⟨e0, e1⟩ := idx7 t
  unfold iblk
  rw [View.read_apply]
  show V c main_v9 _ = V c main_v9 _
  congr 1
  funext a
  apply Fin.ext
  match a with
  | ⟨0, _⟩ => show win0_7.index t 0 * 1 + 1 * q.val = q.val; rw [e0]; omega
  | ⟨1, _⟩ => show win0_7.index t 1 * 2048 + 1 * l.val = 2048 * (t.val % 2) + l.val; rw [e1]; omega

theorem iblk8_apply (c : Dev nD) (t : Fin cfg0.N) (p : Fin 512) (k : Fin 1) :
    (iblk V c 8 t : Vec F S512x1 .i32) (ix2 p k) = (V c main_v10 : S4096x1.Idx → Elt F .i32) (ix2 (rowIx t p) k) := by
  obtain ⟨e0, e1⟩ := idx8 t
  unfold iblk
  rw [View.read_apply]
  show V c main_v10 _ = V c main_v10 _
  congr 1
  funext a
  apply Fin.ext
  match a with
  | ⟨0, _⟩ => show win0_8.index t 0 * 512 + 1 * p.val = 512 * (t.val / 2) + p.val; rw [e0]; omega
  | ⟨1, _⟩ => show win0_8.index t 1 * 1 + 1 * k.val = k.val; rw [e1]; omega

theorem iblk9_apply (c : Dev nD) (t : Fin cfg0.N) (q : Fin 1) (l : Fin 2048) :
    (iblk V c 9 t : Vec F S1x2048 .i32) (ix2 q l) = (V c main_v11 : S1x4096.Idx → Elt F .i32) (ix2 q (colIx t l)) := by
  obtain ⟨e0, e1⟩ := idx9 t
  unfold iblk
  rw [View.read_apply]
  show V c main_v11 _ = V c main_v11 _
  congr 1
  funext a
  apply Fin.ext
  match a with
  | ⟨0, _⟩ => show win0_9.index t 0 * 1 + 1 * q.val = q.val; rw [e0]; omega
  | ⟨1, _⟩ => show win0_9.index t 1 * 2048 + 1 * l.val = 2048 * (t.val % 2) + l.val; rw [e1]; omega

/-! ## At the exact instance: the arrays the region reads, as functions of the arguments -/

section AtIdeal

variable (m : (ℓ : Loc nD τ sig) → Buf (Elt Ideal) ℓ)

/-- The first input on core `c`, as a function of the index into extended reals. -/
abbrev argA (c : Dev nD) : S4096x128.Idx → EReal := m ((c : Thread nD τ).loc main_arg0)
/-- The second input. -/
abbrev argB (c : Dev nD) : S4096x128.Idx → EReal := m ((c : Thread nD τ).loc main_arg1)
/-- The targets. -/
abbrev argT (c : Dev nD) : S4096.Idx → BitVec 32 := m ((c : Thread nD τ).loc main_arg2)

/-- The host's sum over the 128 columns of a row, from the zero word, at the exact instance. -/
theorem rowSum_apply (y : FVec Ideal S4096x128 .f32) (r : Fin 4096) :
    Host.reduceAdd (F := Ideal) y (constant (F := Ideal) S_ .f32 0x00000000#32) reducesTo_S4096x128_S4096_d1 h_S_ (ix1 r)
      = (0 : EReal) + ∑ k : Fin 128, (y (ix2 r k) : EReal) := by
  simp only [Host.reduceAdd, Ideal.hostReduceAdd_def]
  rw [Ideal.hostReduceAdd_single reducesTo_S4096x128_S4096_d1 (by decide)]
  refine congrArg₂ (· + ·) ?_ (Finset.sum_congr rfl fun k _ => ?_)
  · show Ideal.ofBits .f32 0x00000000#32 = 0
    exact Ideal.ofBits_zero_f32
  · exact congrArg y (funext fun a => Fin.ext (by match a with | ⟨0, _⟩ => rfl | ⟨1, _⟩ => rfl))

/-- A row's sum of squares at the exact instance: zero plus the sum over the 128 columns of the squares. -/
theorem rowSq_apply (x : (⟨S4096x128, .f32⟩ : BufTy).Contents (Elt Ideal)) (r : Fin 4096) :
    HostSide.rowSq (F := Ideal) x (ix1 r) = (0 : EReal) + ∑ k : Fin 128, (x (ix2 r k) : EReal) * (x (ix2 r k) : EReal) := by
  unfold HostSide.rowSq
  rw [rowSum_apply]
  rfl

/-- The first input as the region reads it (rounding to the narrower format changes nothing here). -/
theorem W1_v0_ideal (c : Dev nD) (i : S4096x128.Idx) :
    (HostSide.W1 (F := Ideal) m c main_v0 : S4096x128.Idx → EReal) i = argA m c i := by
  rw [HostSide.W1_main_v0]; rfl
/-- The second input as the region reads it. -/
theorem W1_v1_ideal (c : Dev nD) (i : S4096x128.Idx) :
    (HostSide.W1 (F := Ideal) m c main_v1 : S4096x128.Idx → EReal) i = argB m c i := by
  rw [HostSide.W1_main_v1]; rfl

/-- The first input's row sums of squares, as a column. -/
theorem W1_v6_ideal (c : Dev nD) (r : Fin 4096) (q : Fin 1) :
    (HostSide.W1 (F := Ideal) m c main_v6 : S4096x1.Idx → EReal) (ix2 r q)
      = (0 : EReal) + ∑ k : Fin 128, argA m c (ix2 r k) * argA m c (ix2 r k) := by
  rw [HostSide.W1_main_v6]
  show shapeCast S4096x1 (HostSide.rowSq (F := Ideal) (m ((c : Thread nD τ).loc main_arg0))) shapeCasts_S4096_S4096x1 (ix2 r q) = _
  rw [shapeCast_apply _ _ (ix2 r q) (ix1 r) (by rw [Shape.rowMajor_val_one, Shape.rowMajor_val_two]; show r.val = r.val * 1 + q.val; omega)]
  exact rowSq_apply _ r
/-- The same sums as a row. -/
theorem W1_v7_ideal (c : Dev nD) (q : Fin 1) (r : Fin 4096) :
    (HostSide.W1 (F := Ideal) m c main_v7 : S1x4096.Idx → EReal) (ix2 q r)
      = (0 : EReal) + ∑ k : Fin 128, argA m c (ix2 r k) * argA m c (ix2 r k) := by
  rw [HostSide.W1_main_v7]
  show shapeCast S1x4096 (HostSide.rowSq (F := Ideal) (m ((c : Thread nD τ).loc main_arg0))) shapeCasts_S4096_S1x4096 (ix2 q r) = _
  rw [shapeCast_apply _ _ (ix2 q r) (ix1 r) (by rw [Shape.rowMajor_val_one, Shape.rowMajor_val_two]; show r.val = q.val * 4096 + r.val; omega)]
  exact rowSq_apply _ r
/-- The second input's row sums of squares, as a column. -/
theorem W1_v8_ideal (c : Dev nD) (r : Fin 4096) (q : Fin 1) :
    (HostSide.W1 (F := Ideal) m c main_v8 : S4096x1.Idx → EReal) (ix2 r q)
      = (0 : EReal) + ∑ k : Fin 128, argB m c (ix2 r k) * argB m c (ix2 r k) := by
  rw [HostSide.W1_main_v8]
  show shapeCast S4096x1 (HostSide.rowSq (F := Ideal) (m ((c : Thread nD τ).loc main_arg1))) shapeCasts_S4096_S4096x1 (ix2 r q) = _
  rw [shapeCast_apply _ _ (ix2 r q) (ix1 r) (by rw [Shape.rowMajor_val_one, Shape.rowMajor_val_two]; show r.val = r.val * 1 + q.val; omega)]
  exact rowSq_apply _ r
/-- The same sums as a row. -/
theorem W1_v9_ideal (c : Dev nD) (q : Fin 1) (r : Fin 4096) :
    (HostSide.W1 (F := Ideal) m c main_v9 : S1x4096.Idx → EReal) (ix2 q r)
      = (0 : EReal) + ∑ k : Fin 128, argB m c (ix2 r k) * argB m c (ix2 r k) := by
  rw [HostSide.W1_main_v9]
  show shapeCast S1x4096 (HostSide.rowSq (F := Ideal) (m ((c : Thread nD τ).loc main_arg1))) shapeCasts_S4096_S1x4096 (ix2 q r) = _
  rw [shapeCast_apply _ _ (ix2 q r) (ix1 r) (by rw [Shape.rowMajor_val_one, Shape.rowMajor_val_two]; show r.val = q.val * 4096 + r.val; omega)]
  exact rowSq_apply _ r
/-- The targets as a column: entry `r` is target `r`. -/
theorem W1_v10_ideal (c : Dev nD) (r : Fin 4096) (q : Fin 1) :
    (HostSide.W1 (F := Ideal) m c main_v10 : S4096x1.Idx → BitVec 32) (ix2 r q) = argT m c (ix1 r) := by
  rw [HostSide.W1_main_v10]
  show shapeCast S4096x1 (m ((c : Thread nD τ).loc main_arg2)) shapeCasts_S4096_S4096x1 (ix2 r q) = _
  exact shapeCast_apply _ _ (ix2 r q) (ix1 r) (by rw [Shape.rowMajor_val_one, Shape.rowMajor_val_two]; show r.val = r.val * 1 + q.val; omega)
/-- The targets as a row. -/
theorem W1_v11_ideal (c : Dev nD) (q : Fin 1) (r : Fin 4096) :
    (HostSide.W1 (F := Ideal) m c main_v11 : S1x4096.Idx → BitVec 32) (ix2 q r) = argT m c (ix1 r) := by
  rw [HostSide.W1_main_v11]
  show shapeCast S1x4096 (m ((c : Thread nD τ).loc main_arg2)) shapeCasts_S4096_S1x4096 (ix2 q r) = _
  exact shapeCast_apply _ _ (ix2 q r) (ix1 r) (by rw [Shape.rowMajor_val_one, Shape.rowMajor_val_two]; show r.val = q.val * 4096 + r.val; omega)

end AtIdeal

end Cert.KernelIdeal.Region

end
-- ==== Proof.RegionCover.lean ====
/-
  From blocks to arrays.  An output is stored and written back at the odd points only, and the odd point
  t = 2 b + 1 writes rows 512 b … 512 b + 511 of the output's array.  The eight row blocks tile the 4096 rows, so
  row r is written by the odd point 2 (r / 512) + 1 and by no point after it again with another value: if every odd
  point stores its 512 rows of one whole-array function G, the array ends holding G.
-/
import proofs.«181479_j36618891166019_2_alg».proof.Proof.RegionBody
import proofs.«181479_j36618891166019_2_alg».proof.Proof.RegionBlocks
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ### Output 0 (window 10, the array `main_v12_0`) -/

theorem mem_blk10 (t : Fin cfg0.N) (i : S4096x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v12_0).slice (win0_10.rect t)).set ↔ _
  rw [View.set_slice_whole, Rect.mem_set_unit]
  exact Iff.rfl

theorem arrAt10_of {c : Dev nD} (dat : Dat τ (Elt F) Unit ℕ (UR sig nD τ) ℕ cfg0 c)
    (hafter : ∀ t, dat.after 10 t = outAt0 V c t)
    (G : S4096x1.Idx → Elt F .f32)
    (hG : ∀ (t : Fin cfg0.N) (h1 : t.val % 2 = 1) (p : Fin 512), oL0 V c t h1 (ix2 p 0) = G (ix2 (rowIx t p) 0)) :
    dat.arrAt 10 cfg0.N = G := by
  refine dat.arrAt_eq_of_cover 10 G (fun t hf => ?_) (fun i => ?_)
  · have h1 : t.val % 2 = 1 := (flush0_10 t).mp hf
    obtain ⟨e0, e1⟩ := idx10 t
    show (cfg0.win 10).cut (grid0.coords t) (dat.after 10 t) = _
    rw [hafter, outAt0_odd V c t h1]
    funext j
    obtain ⟨p, q, rfl⟩ : ∃ (p : Fin 512) (q : Fin 1), j = ix2 p q := ⟨j 0, j 1, eq_ix2 j⟩
    obtain rfl : q = 0 := Subsingleton.elim _ _
    show oL0 V c t h1 (ix2 p 0) = G (((cfg0.win 10).blk t).view.emb (ix2 p 0))
    rw [hG t h1 p]
    congr 1
    funext a
    apply Fin.ext
    match a with
    | ⟨0, _⟩ => show 512 * (t.val / 2) + p.val = win0_10.index t 0 * 512 + 1 * p.val; rw [e0]; omega
    | ⟨1, _⟩ => show 0 = win0_10.index t 1 * 1 + 1 * 0; rw [e1]
  · have hi0 : (i 0).val < 4096 := (i 0).isLt
    have hi1 : (i 1).val < 1 := (i 1).isLt
    obtain ⟨tt, htt⟩ : ∃ tt : Fin cfg0.N, tt.val = 2 * ((i 0).val / 512) + 1 :=
      ⟨⟨2 * ((i 0).val / 512) + 1, by rw [show cfg0.N = 16 from N_0]; omega⟩, rfl⟩
    obtain ⟨e0, e1⟩ := idx10 tt
    refine ⟨tt, (flush0_10 tt).mpr (by omega), ?_⟩
    rw [mem_blk10]
    intro a
    match a with
    | ⟨0, _⟩ => show win0_10.index tt 0 * 512 ≤ (i 0).val ∧ (i 0).val < win0_10.index tt 0 * 512 + 512; rw [e0]; omega
    | ⟨1, _⟩ => show win0_10.index tt 1 * 1 ≤ (i 1).val ∧ (i 1).val < win0_10.index tt 1 * 1 + 1; rw [e1]; omega

/-- Output 0's array after the region is `G`, when every odd point stores rows `512 (t / 2) …` of `G`. -/
theorem arrAt10 (c : Dev nD) (G : S4096x1.Idx → Elt F .f32)
    (hG : ∀ (t : Fin cfg0.N) (h1 : t.val % 2 = 1) (p : Fin 512), oL0 V c t h1 (ix2 p 0) = G (ix2 (rowIx t p) 0)) :
    (dat V c).arrAt 10 cfg0.N = G :=
  arrAt10_of V (dat V c) (after10 V c) G hG

/-! ### Output 1 (window 11, the array `main_v12_1`) -/

theorem mem_blk11 (t : Fin cfg0.N) (i : S4096x1.Idx) :
    i ∈ ((cfg0.win 11).blk t).view.set ↔ ∀ a : Fin 2, win0_11.index t a * S512x1.size a ≤ (i a).val ∧ (i a).val < win0_11.index t a * S512x1.size a + S512x1.size a := by
  show i ∈ ((View.whole main_v12_1).slice (win0_11.rect t)).set ↔ _
  rw [View.set_slice_whole, Rect.mem_set_unit]
  exact Iff.rfl

theorem arrAt11_of {c : Dev nD} (dat : Dat τ (Elt F) Unit ℕ (UR sig nD τ) ℕ cfg0 c)
    (hafter : ∀ t, dat.after 11 t = outAt1 V c t)
    (G : S4096x1.Idx → Elt F .f32)
    (hG : ∀ (t : Fin cfg0.N) (h1 : t.val % 2 = 1) (p : Fin 512), oL1 V c t h1 (ix2 p 0) = G (ix2 (rowIx t p) 0)) :
    dat.arrAt 11 cfg0.N = G := by
  refine dat.arrAt_eq_of_cover 11 G (fun t hf => ?_) (fun i => ?_)
  · have h1 : t.val % 2 = 1 := (flush0_11 t).mp hf
    obtain ⟨e0, e1⟩ := idx11 t
    show (cfg0.win 11).cut (grid0.coords t) (dat.after 11 t) = _
    rw [hafter, outAt1_odd V c t h1]
    funext j
    obtain ⟨p, q, rfl⟩ : ∃ (p : Fin 512) (q : Fin 1), j = ix2 p q := ⟨j 0, j 1, eq_ix2 j⟩
    obtain rfl : q = 0 := Subsingleton.elim _ _
    show oL1 V c t h1 (ix2 p 0) = G (((cfg0.win 11).blk t).view.emb (ix2 p 0))
    rw [hG t h1 p]
    congr 1
    funext a
    apply Fin.ext
    match a with
    | ⟨0, _⟩ => show 512 * (t.val / 2) + p.val = win0_11.index t 0 * 512 + 1 * p.val; rw [e0]; omega
    | ⟨1, _⟩ => show 0 = win0_11.index t 1 * 1 + 1 * 0; rw [e1]
  · have hi0 : (i 0).val < 4096 := (i 0).isLt
    have hi1 : (i 1).val < 1 := (i 1).isLt
    obtain ⟨tt, htt⟩ : ∃ tt : Fin cfg0.N, tt.val = 2 * ((i 0).val / 512) + 1 :=
      ⟨⟨2 * ((i 0).val / 512) + 1, by rw [show cfg0.N = 16 from N_0]; omega⟩, rfl⟩
    obtain ⟨e0, e1⟩ := idx11 tt
    refine ⟨tt, (flush0_11 tt).mpr (by omega), ?_⟩
    rw [mem_blk11]
    intro a
    match a with
    | ⟨0, _⟩ => show win0_11.index tt 0 * 512 ≤ (i 0).val ∧ (i 0).val < win0_11.index tt 0 * 512 + 512; rw [e0]; omega
    | ⟨1, _⟩ => show win0_11.index tt 1 * 1 ≤ (i 1).val ∧ (i 1).val < win0_11.index tt 1 * 1 + 1; rw [e1]; omega

/-- Output 1's array after the region is `G`, when every odd point stores rows `512 (t / 2) …` of `G`. -/
theorem arrAt11 (c : Dev nD) (G : S4096x1.Idx → Elt F .f32)
    (hG : ∀ (t : Fin cfg0.N) (h1 : t.val % 2 = 1) (p : Fin 512), oL1 V c t h1 (ix2 p 0) = G (ix2 (rowIx t p) 0)) :
    (dat V c).arrAt 11 cfg0.N = G :=
  arrAt11_of V (dat V c) (after11 V c) G hG

/-! ### Output 2 (window 12, the array `main_v12_2`) -/

theorem mem_blk12 (t : Fin cfg0.N) (i : S4096x1.Idx) :
    i ∈ ((cfg0.win 12).blk t).view.set ↔ ∀ a : Fin 2, win0_12.index t a * S512x1.size a ≤ (i a).val ∧ (i a).val < win0_12.index t a * S512x1.size a + S512x1.size a := by
  show i ∈ ((View.whole main_v12_2).slice (win0_12.rect t)).set ↔ _
  rw [View.set_slice_whole, Rect.mem_set_unit]
  exact Iff.rfl

theorem arrAt12_of {c : Dev nD} (dat : Dat τ (Elt F) Unit ℕ (UR sig nD τ) ℕ cfg0 c)
    (hafter : ∀ t, dat.after 12 t = outAt2 V c t)
    (G : S4096x1.Idx → Elt F .f32)
    (hG : ∀ (t : Fin cfg0.N) (h1 : t.val % 2 = 1) (p : Fin 512), oL2 V c t h1 (ix2 p 0) = G (ix2 (rowIx t p) 0)) :
    dat.arrAt 12 cfg0.N = G := by
  refine dat.arrAt_eq_of_cover 12 G (fun t hf => ?_) (fun i => ?_)
  · have h1 : t.val % 2 = 1 := (flush0_12 t).mp hf
    obtain ⟨e0, e1⟩ := idx12 t
    show (cfg0.win 12).cut (grid0.coords t) (dat.after 12 t) = _
    rw [hafter, outAt2_odd V c t h1]
    funext j
    obtain ⟨p, q, rfl⟩ : ∃ (p : Fin 512) (q : Fin 1), j = ix2 p q := ⟨j 0, j 1, eq_ix2 j⟩
    obtain rfl : q = 0 := Subsingleton.elim _ _
    show oL2 V c t h1 (ix2 p 0) = G (((cfg0.win 12).blk t).view.emb (ix2 p 0))
    rw [hG t h1 p]
    congr 1
    funext a
    apply Fin.ext
    match a with
    | ⟨0, _⟩ => show 512 * (t.val / 2) + p.val = win0_12.index t 0 * 512 + 1 * p.val; rw [e0]; omega
    | ⟨1, _⟩ => show 0 = win0_12.index t 1 * 1 + 1 * 0; rw [e1]
  · have hi0 : (i 0).val < 4096 := (i 0).isLt
    have hi1 : (i 1).val < 1 := (i 1).isLt
    obtain ⟨tt, htt⟩ : ∃ tt : Fin cfg0.N, tt.val = 2 * ((i 0).val / 512) + 1 :=
      ⟨⟨2 * ((i 0).val / 512) + 1, by rw [show cfg0.N = 16 from N_0]; omega⟩, rfl⟩
    obtain ⟨e0, e1⟩ := idx12 tt
    refine ⟨tt, (flush0_12 tt).mpr (by omega), ?_⟩
    rw [mem_blk12]
    intro a
    match a with
    | ⟨0, _⟩ => show win0_12.index tt 0 * 512 ≤ (i 0).val ∧ (i 0).val < win0_12.index tt 0 * 512 + 512; rw [e0]; omega
    | ⟨1, _⟩ => show win0_12.index tt 1 * 1 ≤ (i 1).val ∧ (i 1).val < win0_12.index tt 1 * 1 + 1; rw [e1]; omega

/-- Output 2's array after the region is `G`, when every odd point stores rows `512 (t / 2) …` of `G`. -/
theorem arrAt12 (c : Dev nD) (G : S4096x1.Idx → Elt F .f32)
    (hG : ∀ (t : Fin cfg0.N) (h1 : t.val % 2 = 1) (p : Fin 512), oL2 V c t h1 (ix2 p 0) = G (ix2 (rowIx t p) 0)) :
    (dat V c).arrAt 12 cfg0.N = G :=
  arrAt12_of V (dat V c) (after12 V c) G hG

/-! ### Output 3 (window 13, the array `main_v12_3`) -/

theorem mem_blk13 (t : Fin cfg0.N) (i : S4096x1.Idx) :
    i ∈ ((cfg0.win 13).blk t).view.set ↔ ∀ a : Fin 2, win0_13.index t a * S512x1.size a ≤ (i a).val ∧ (i a).val < win0_13.index t a * S512x1.size a + S512x1.size a := by
  show i ∈ ((View.whole main_v12_3).slice (win0_13.rect t)).set ↔ _
  rw [View.set_slice_whole, Rect.mem_set_unit]
  exact Iff.rfl

theorem arrAt13_of {c : Dev nD} (dat : Dat τ (Elt F) Unit ℕ (UR sig nD τ) ℕ cfg0 c)
    (hafter : ∀ t, dat.after 13 t = outAt3 V c t)
    (G : S4096x1.Idx → Elt F .f32)
    (hG : ∀ (t : Fin cfg0.N) (h1 : t.val % 2 = 1) (p : Fin 512), oL3 V c t h1 (ix2 p 0) = G (ix2 (rowIx t p) 0)) :
    dat.arrAt 13 cfg0.N = G := by
  refine dat.arrAt_eq_of_cover 13 G (fun t hf => ?_) (fun i => ?_)
  · have h1 : t.val % 2 = 1 := (flush0_13 t).mp hf
    obtain ⟨e0, e1⟩ := idx13 t
    show (cfg0.win 13).cut (grid0.coords t) (dat.after 13 t) = _
    rw [hafter, outAt3_odd V c t h1]
    funext j
    obtain ⟨p, q, rfl⟩ : ∃ (p : Fin 512) (q : Fin 1), j = ix2 p q := ⟨j 0, j 1, eq_ix2 j⟩
    obtain rfl : q = 0 := Subsingleton.elim _ _
    show oL3 V c t h1 (ix2 p 0) = G (((cfg0.win 13).blk t).view.emb (ix2 p 0))
    rw [hG t h1 p]
    congr 1
    funext a
    apply Fin.ext
    match a with
    | ⟨0, _⟩ => show 512 * (t.val / 2) + p.val = win0_13.index t 0 * 512 + 1 * p.val; rw [e0]; omega
    | ⟨1, _⟩ => show 0 = win0_13.index t 1 * 1 + 1 * 0; rw [e1]
  · have hi0 : (i 0).val < 4096 := (i 0).isLt
    have hi1 : (i 1).val < 1 := (i 1).isLt
    obtain ⟨tt, htt⟩ : ∃ tt : Fin cfg0.N, tt.val = 2 * ((i 0).val / 512) + 1 :=
      ⟨⟨2 * ((i 0).val / 512) + 1, by rw [show cfg0.N = 16 from N_0]; omega⟩, rfl⟩
    obtain ⟨e0, e1⟩ := idx13 tt
    refine ⟨tt, (flush0_13 tt).mpr (by omega), ?_⟩
    rw [mem_blk13]
    intro a
    match a with
    | ⟨0, _⟩ => show win0_13.index tt 0 * 512 ≤ (i 0).val ∧ (i 0).val < win0_13.index tt 0 * 512 + 512; rw [e0]; omega
    | ⟨1, _⟩ => show win0_13.index tt 1 * 1 ≤ (i 1).val ∧ (i 1).val < win0_13.index tt 1 * 1 + 1; rw [e1]; omega

/-- Output 3's array after the region is `G`, when every odd point stores rows `512 (t / 2) …` of `G`. -/
theorem arrAt13 (c : Dev nD) (G : S4096x1.Idx → Elt F .f32)
    (hG : ∀ (t : Fin cfg0.N) (h1 : t.val % 2 = 1) (p : Fin 512), oL3 V c t h1 (ix2 p 0) = G (ix2 (rowIx t p) 0)) :
    (dat V c).arrAt 13 cfg0.N = G :=
  arrAt13_of V (dat V c) (after13 V c) G hG

/-! ### Output 4 (window 14, the array `main_v12_4`) -/

theorem mem_blk14 (t : Fin cfg0.N) (i : S4096x1.Idx) :
    i ∈ ((cfg0.win 14).blk t).view.set ↔ ∀ a : Fin 2, win0_14.index t a * S512x1.size a ≤ (i a).val ∧ (i a).val < win0_14.index t a * S512x1.size a + S512x1.size a := by
  show i ∈ ((View.whole main_v12_4).slice (win0_14.rect t)).set ↔ _
  rw [View.set_slice_whole, Rect.mem_set_unit]
  exact Iff.rfl

theorem arrAt14_of {c : Dev nD} (dat : Dat τ (Elt F) Unit ℕ (UR sig nD τ) ℕ cfg0 c)
    (hafter : ∀ t, dat.after 14 t = outAt4 V c t)
    (G : S4096x1.Idx → Elt F .f32)
    (hG : ∀ (t : Fin cfg0.N) (h1 : t.val % 2 = 1) (p : Fin 512), oL4 V c t h1 (ix2 p 0) = G (ix2 (rowIx t p) 0)) :
    dat.arrAt 14 cfg0.N = G := by
  refine dat.arrAt_eq_of_cover 14 G (fun t hf => ?_) (fun i => ?_)
  · have h1 : t.val % 2 = 1 := (flush0_14 t).mp hf
    obtain ⟨e0, e1⟩ := idx14 t
    show (cfg0.win 14).cut (grid0.coords t) (dat.after 14 t) = _
    rw [hafter, outAt4_odd V c t h1]
    funext j
    obtain ⟨p, q, rfl⟩ : ∃ (p : Fin 512) (q : Fin 1), j = ix2 p q := ⟨j 0, j 1, eq_ix2 j⟩
    obtain rfl : q = 0 := Subsingleton.elim _ _
    show oL4 V c t h1 (ix2 p 0) = G (((cfg0.win 14).blk t).view.emb (ix2 p 0))
    rw [hG t h1 p]
    congr 1
    funext a
    apply Fin.ext
    match a with
    | ⟨0, _⟩ => show 512 * (t.val / 2) + p.val = win0_14.index t 0 * 512 + 1 * p.val; rw [e0]; omega
    | ⟨1, _⟩ => show 0 = win0_14.index t 1 * 1 + 1 * 0; rw [e1]
  · have hi0 : (i 0).val < 4096 := (i 0).isLt
    have hi1 : (i 1).val < 1 := (i 1).isLt
    obtain ⟨tt, htt⟩ : ∃ tt : Fin cfg0.N, tt.val = 2 * ((i 0).val / 512) + 1 :=
      ⟨⟨2 * ((i 0).val / 512) + 1, by rw [show cfg0.N = 16 from N_0]; omega⟩, rfl⟩
    obtain ⟨e0, e1⟩ := idx14 tt
    refine ⟨tt, (flush0_14 tt).mpr (by omega), ?_⟩
    rw [mem_blk14]
    intro a
    match a with
    | ⟨0, _⟩ => show win0_14.index tt 0 * 512 ≤ (i 0).val ∧ (i 0).val < win0_14.index tt 0 * 512 + 512; rw [e0]; omega
    | ⟨1, _⟩ => show win0_14.index tt 1 * 1 ≤ (i 1).val ∧ (i 1).val < win0_14.index tt 1 * 1 + 1; rw [e1]; omega

/-- Output 4's array after the region is `G`, when every odd point stores rows `512 (t / 2) …` of `G`. -/
theorem arrAt14 (c : Dev nD) (G : S4096x1.Idx → Elt F .f32)
    (hG : ∀ (t : Fin cfg0.N) (h1 : t.val % 2 = 1) (p : Fin 512), oL4 V c t h1 (ix2 p 0) = G (ix2 (rowIx t p) 0)) :
    (dat V c).arrAt 14 cfg0.N = G :=
  arrAt14_of V (dat V c) (after14 V c) G hG

/-! ### Output 5 (window 15, the array `main_v12_5`) -/

theorem mem_blk15 (t : Fin cfg0.N) (i : S4096x1.Idx) :
    i ∈ ((cfg0.win 15).blk t).view.set ↔ ∀ a : Fin 2, win0_15.index t a * S512x1.size a ≤ (i a).val ∧ (i a).val < win0_15.index t a * S512x1.size a + S512x1.size a := by
  show i ∈ ((View.whole main_v12_5).slice (win0_15.rect t)).set ↔ _
  rw [View.set_slice_whole, Rect.mem_set_unit]
  exact Iff.rfl

theorem arrAt15_of {c : Dev nD} (dat : Dat τ (Elt F) Unit ℕ (UR sig nD τ) ℕ cfg0 c)
    (hafter : ∀ t, dat.after 15 t = outAt5 V c t)
    (G : S4096x1.Idx → Elt F .f32)
    (hG : ∀ (t : Fin cfg0.N) (h1 : t.val % 2 = 1) (p : Fin 512), oL5 V c t h1 (ix2 p 0) = G (ix2 (rowIx t p) 0)) :
    dat.arrAt 15 cfg0.N = G := by
  refine dat.arrAt_eq_of_cover 15 G (fun t hf => ?_) (fun i => ?_)
  · have h1 : t.val % 2 = 1 := (flush0_15 t).mp hf
    obtain ⟨e0, e1⟩ := idx15 t
    show (cfg0.win 15).cut (grid0.coords t) (dat.after 15 t) = _
    rw [hafter, outAt5_odd V c t h1]
    funext j
    obtain ⟨p, q, rfl⟩ : ∃ (p : Fin 512) (q : Fin 1), j = ix2 p q := ⟨j 0, j 1, eq_ix2 j⟩
    obtain rfl : q = 0 := Subsingleton.elim _ _
    show oL5 V c t h1 (ix2 p 0) = G (((cfg0.win 15).blk t).view.emb (ix2 p 0))
    rw [hG t h1 p]
    congr 1
    funext a
    apply Fin.ext
    match a with
    | ⟨0, _⟩ => show 512 * (t.val / 2) + p.val = win0_15.index t 0 * 512 + 1 * p.val; rw [e0]; omega
    | ⟨1, _⟩ => show 0 = win0_15.index t 1 * 1 + 1 * 0; rw [e1]
  · have hi0 : (i 0).val < 4096 := (i 0).isLt
    have hi1 : (i 1).val < 1 := (i 1).isLt
    obtain ⟨tt, htt⟩ : ∃ tt : Fin cfg0.N, tt.val = 2 * ((i 0).val / 512) + 1 :=
      ⟨⟨2 * ((i 0).val / 512) + 1, by rw [show cfg0.N = 16 from N_0]; omega⟩, rfl⟩
    obtain ⟨e0, e1⟩ := idx15 tt
    refine ⟨tt, (flush0_15 tt).mpr (by omega), ?_⟩
    rw [mem_blk15]
    intro a
    match a with
    | ⟨0, _⟩ => show win0_15.index tt 0 * 512 ≤ (i 0).val ∧ (i 0).val < win0_15.index tt 0 * 512 + 512; rw [e0]; omega
    | ⟨1, _⟩ => show win0_15.index tt 1 * 1 ≤ (i 1).val ∧ (i 1).val < win0_15.index tt 1 * 1 + 1; rw [e1]; omega

/-- Output 5's array after the region is `G`, when every odd point stores rows `512 (t / 2) …` of `G`. -/
theorem arrAt15 (c : Dev nD) (G : S4096x1.Idx → Elt F .f32)
    (hG : ∀ (t : Fin cfg0.N) (h1 : t.val % 2 = 1) (p : Fin 512), oL5 V c t h1 (ix2 p 0) = G (ix2 (rowIx t p) 0)) :
    (dat V c).arrAt 15 cfg0.N = G :=
  arrAt15_of V (dat V c) (after15 V c) G hG

/-! ### Output 6 (window 16, the array `main_v12_6`) -/

theorem mem_blk16 (t : Fin cfg0.N) (i : S4096x1.Idx) :
    i ∈ ((cfg0.win 16).blk t).view.set ↔ ∀ a : Fin 2, win0_16.index t a * S512x1.size a ≤ (i a).val ∧ (i a).val < win0_16.index t a * S512x1.size a + S512x1.size a := by
  show i ∈ ((View.whole main_v12_6).slice (win0_16.rect t)).set ↔ _
  rw [View.set_slice_whole, Rect.mem_set_unit]
  exact Iff.rfl

theorem arrAt16_of {c : Dev nD} (dat : Dat τ (Elt F) Unit ℕ (UR sig nD τ) ℕ cfg0 c)
    (hafter : ∀ t, dat.after 16 t = outAt6 V c t)
    (G : S4096x1.Idx → Elt F .f32)
    (hG : ∀ (t : Fin cfg0.N) (h1 : t.val % 2 = 1) (p : Fin 512), oL6 V c t h1 (ix2 p 0) = G (ix2 (rowIx t p) 0)) :
    dat.arrAt 16 cfg0.N = G := by
  refine dat.arrAt_eq_of_cover 16 G (fun t hf => ?_) (fun i => ?_)
  · have h1 : t.val % 2 = 1 := (flush0_16 t).mp hf
    obtain ⟨e0, e1⟩ := idx16 t
    show (cfg0.win 16).cut (grid0.coords t) (dat.after 16 t) = _
    rw [hafter, outAt6_odd V c t h1]
    funext j
    obtain ⟨p, q, rfl⟩ : ∃ (p : Fin 512) (q : Fin 1), j = ix2 p q := ⟨j 0, j 1, eq_ix2 j⟩
    obtain rfl : q = 0 := Subsingleton.elim _ _
    show oL6 V c t h1 (ix2 p 0) = G (((cfg0.win 16).blk t).view.emb (ix2 p 0))
    rw [hG t h1 p]
    congr 1
    funext a
    apply Fin.ext
    match a with
    | ⟨0, _⟩ => show 512 * (t.val / 2) + p.val = win0_16.index t 0 * 512 + 1 * p.val; rw [e0]; omega
    | ⟨1, _⟩ => show 0 = win0_16.index t 1 * 1 + 1 * 0; rw [e1]
  · have hi0 : (i 0).val < 4096 := (i 0).isLt
    have hi1 : (i 1).val < 1 := (i 1).isLt
    obtain ⟨tt, htt⟩ : ∃ tt : Fin cfg0.N, tt.val = 2 * ((i 0).val / 512) + 1 :=
      ⟨⟨2 * ((i 0).val / 512) + 1, by rw [show cfg0.N = 16 from N_0]; omega⟩, rfl⟩
    obtain ⟨e0, e1⟩ := idx16 tt
    refine ⟨tt, (flush0_16 tt).mpr (by omega), ?_⟩
    rw [mem_blk16]
    intro a
    match a with
    | ⟨0, _⟩ => show win0_16.index tt 0 * 512 ≤ (i 0).val ∧ (i 0).val < win0_16.index tt 0 * 512 + 512; rw [e0]; omega
    | ⟨1, _⟩ => show win0_16.index tt 1 * 1 ≤ (i 1).val ∧ (i 1).val < win0_16.index tt 1 * 1 + 1; rw [e1]; omega

/-- Output 6's array after the region is `G`, when every odd point stores rows `512 (t / 2) …` of `G`. -/
theorem arrAt16 (c : Dev nD) (G : S4096x1.Idx → Elt F .f32)
    (hG : ∀ (t : Fin cfg0.N) (h1 : t.val % 2 = 1) (p : Fin 512), oL6 V c t h1 (ix2 p 0) = G (ix2 (rowIx t p) 0)) :
    (dat V c).arrAt 16 cfg0.N = G :=
  arrAt16_of V (dat V c) (after16 V c) G hG

/-! ### Output 7 (window 17, the array `main_v12_7`) -/

theorem mem_blk17 (t : Fin cfg0.N) (i : S4096x1.Idx) :
    i ∈ ((cfg0.win 17).blk t).view.set ↔ ∀ a : Fin 2, win0_17.index t a * S512x1.size a ≤ (i a).val ∧ (i a).val < win0_17.index t a * S512x1.size a + S512x1.size a := by
  show i ∈ ((View.whole main_v12_7).slice (win0_17.rect t)).set ↔ _
  rw [View.set_slice_whole, Rect.mem_set_unit]
  exact Iff.rfl

theorem arrAt17_of {c : Dev nD} (dat : Dat τ (Elt F) Unit ℕ (UR sig nD τ) ℕ cfg0 c)
    (hafter : ∀ t, dat.after 17 t = outAt7 V c t)
    (G : S4096x1.Idx → Elt F .f32)
    (hG : ∀ (t : Fin cfg0.N) (h1 : t.val % 2 = 1) (p : Fin 512), oL7 V c t h1 (ix2 p 0) = G (ix2 (rowIx t p) 0)) :
    dat.arrAt 17 cfg0.N = G := by
  refine dat.arrAt_eq_of_cover 17 G (fun t hf => ?_) (fun i => ?_)
  · have h1 : t.val % 2 = 1 := (flush0_17 t).mp hf
    obtain ⟨e0, e1⟩ := idx17 t
    show (cfg0.win 17).cut (grid0.coords t) (dat.after 17 t) = _
    rw [hafter, outAt7_odd V c t h1]
    funext j
    obtain ⟨p, q, rfl⟩ : ∃ (p : Fin 512) (q : Fin 1), j = ix2 p q := ⟨j 0, j 1, eq_ix2 j⟩
    obtain rfl : q = 0 := Subsingleton.elim _ _
    show oL7 V c t h1 (ix2 p 0) = G (((cfg0.win 17).blk t).view.emb (ix2 p 0))
    rw [hG t h1 p]
    congr 1
    funext a
    apply Fin.ext
    match a with
    | ⟨0, _⟩ => show 512 * (t.val / 2) + p.val = win0_17.index t 0 * 512 + 1 * p.val; rw [e0]; omega
    | ⟨1, _⟩ => show 0 = win0_17.index t 1 * 1 + 1 * 0; rw [e1]
  · have hi0 : (i 0).val < 4096 := (i 0).isLt
    have hi1 : (i 1).val < 1 := (i 1).isLt
    obtain ⟨tt, htt⟩ : ∃ tt : Fin cfg0.N, tt.val = 2 * ((i 0).val / 512) + 1 :=
      ⟨⟨2 * ((i 0).val / 512) + 1, by rw [show cfg0.N = 16 from N_0]; omega⟩, rfl⟩
    obtain ⟨e0, e1⟩ := idx17 tt
    refine ⟨tt, (flush0_17 tt).mpr (by omega), ?_⟩
    rw [mem_blk17]
    intro a
    match a with
    | ⟨0, _⟩ => show win0_17.index tt 0 * 512 ≤ (i 0).val ∧ (i 0).val < win0_17.index tt 0 * 512 + 512; rw [e0]; omega
    | ⟨1, _⟩ => show win0_17.index tt 1 * 1 ≤ (i 1).val ∧ (i 1).val < win0_17.index tt 1 * 1 + 1; rw [e1]; omega

/-- Output 7's array after the region is `G`, when every odd point stores rows `512 (t / 2) …` of `G`. -/
theorem arrAt17 (c : Dev nD) (G : S4096x1.Idx → Elt F .f32)
    (hG : ∀ (t : Fin cfg0.N) (h1 : t.val % 2 = 1) (p : Fin 512), oL7 V c t h1 (ix2 p 0) = G (ix2 (rowIx t p) 0)) :
    (dat V c).arrAt 17 cfg0.N = G :=
  arrAt17_of V (dat V c) (after17 V c) G hG

end Cert.KernelIdeal.Region

end
-- ==== Proof.Spec.lean ====
/-
  The mathematics of hard-example mining over squared-distance matrices, stated over plain
  functions into the extended reals and proved without reference to any program.

  For two row families x, y : Fin 4096 → Fin 128 → EReal the clipped squared distance is
      D(r, c) = max eps ((‖x r‖² + ‖y c‖²) − 2 · ⟨x r, y c⟩),
  and for a labelling tg the hardest positive / hardest negative of row r are
      AP(r) = max over c with tg r = tg c of √D(r, c)      (−∞ filling the other columns),
      AN(r) = min over c with tg r ≠ tg c of √D(r, c)      (+∞ filling the other columns).

  Laws proved here:
  * the extended square root is monotone and fixes −∞ and +∞, so it commutes with a masked
    maximum and a masked minimum: one may reduce D first and take one root at the end;
  * a maximum (minimum) over 4096 columns is the maximum (minimum) of the two maxima (minima) over
    the column halves [0, 2048) and [2048, 4096), also in the running form that starts from −∞ (+∞);
  * on the diagonal of a same-family distance matrix with real entries the unclipped value is
    s + s − 2 s = 0, so the clipped value is eps whenever 0 ≤ eps;
  * the clipping constant's float word denotes a positive real; the words of −∞, +∞ and 2.0 denote ⊥, ⊤ and 2;
  * a select on an integer equality test is the `if` on the equality, a fold of max from ⊥ is the supremum and a
    fold of min from ⊤ the infimum.
-/
import Idealize.ShloMosaic.PureOps.Ideal
import Idealize.ShloMosaic.Lib.ValueIdx

noncomputable section

open scoped BigOperators

namespace Cert.HardMine

open Idealize.ShloMosaic

/-! ## The specification -/

/-- Squared norm of row `r`, as a sum started from zero. -/
def sq (x : Fin 4096 → Fin 128 → EReal) (r : Fin 4096) : EReal := 0 + ∑ k, x r k * x r k

/-- Inner product of row `r` of `x` with row `c` of `y`. -/
def dot (x y : Fin 4096 → Fin 128 → EReal) (r c : Fin 4096) : EReal := ∑ k, x r k * y c k

/-- Clipped squared distance: `max eps ((‖x r‖² + ‖y c‖²) − 2 ⟨x r, y c⟩)`. -/
def D (eps : EReal) (x y : Fin 4096 → Fin 128 → EReal) (r c : Fin 4096) : EReal :=
  max eps ((sq x r + sq y c) - 2 * dot x y r c)

/-- Hardest positive: the largest distance to a column with the same label. -/
def AP (eps : EReal) (x y : Fin 4096 → Fin 128 → EReal) (tg : Fin 4096 → BitVec 32) (r : Fin 4096) : EReal :=
  Finset.univ.sup fun c : Fin 4096 => if tg r = tg c then Ideal.sqrt (D eps x y r c) else ⊥

/-- Hardest negative: the smallest distance to a column with another label. -/
def AN (eps : EReal) (x y : Fin 4096 → Fin 128 → EReal) (tg : Fin 4096 → BitVec 32) (r : Fin 4096) : EReal :=
  Finset.univ.inf fun c : Fin 4096 => if tg r = tg c then ⊤ else Ideal.sqrt (D eps x y r c)

theorem sq_eq (x : Fin 4096 → Fin 128 → EReal) (r : Fin 4096) : sq x r = ∑ k, x r k * x r k := zero_add _

/-- The clip is symmetric in its two arguments. -/
theorem D_comm (eps : EReal) (x y : Fin 4096 → Fin 128 → EReal) (r c : Fin 4096) :
    max ((sq x r + sq y c) - 2 * dot x y r c) eps = D eps x y r c := max_comm _ _

/-! ## The square root commutes with masked maxima and minima -/

/-- The extended square root is monotone (a negative real goes to `⊥`, the least element). -/
theorem sqrt_mono : Monotone Ideal.sqrt := by
  intro a b hab
  induction a using EReal.rec with
  | bot => exact bot_le
  | top => rw [top_le_iff.mp hab]
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

/-- One root after a masked maximum is the masked maximum of the roots. -/
theorem sqrt_sup_masked {ι : Type*} (s : Finset ι) (m : ι → Prop) [DecidablePred m] (f : ι → EReal) :
    Ideal.sqrt (s.sup fun c => if m c then f c else ⊥)
      = s.sup fun c => if m c then Ideal.sqrt (f c) else ⊥ := by
  rw [Finset.apply_sup_eq_sup_comp_of_linearOrder Ideal.sqrt sqrt_mono Ideal.sqrt_bot]
  refine Finset.sup_congr rfl fun c _ => ?_
  show Ideal.sqrt (if m c then f c else ⊥) = _
  split_ifs <;> rfl

/-- One root after a masked minimum is the masked minimum of the roots. -/
theorem sqrt_inf_masked {ι : Type*} (s : Finset ι) (m : ι → Prop) [DecidablePred m] (f : ι → EReal) :
    Ideal.sqrt (s.inf fun c => if m c then ⊤ else f c)
      = s.inf fun c => if m c then ⊤ else Ideal.sqrt (f c) := by
  rw [Finset.apply_inf_eq_inf_comp_of_linearOrder Ideal.sqrt sqrt_mono Ideal.sqrt_top]
  refine Finset.inf_congr rfl fun c _ => ?_
  show Ideal.sqrt (if m c then ⊤ else f c) = _
  split_ifs <;> rfl

/-! ## A reduction over 4096 columns from its two halves -/

/-- A maximum over 4096 columns is the larger of the maxima over the two halves. -/
theorem sup_halves (f : Fin 4096 → EReal) :
    Finset.univ.sup f
      = max (Finset.univ.sup fun l : Fin 2048 => f ⟨l.val, by omega⟩)
            (Finset.univ.sup fun l : Fin 2048 => f ⟨2048 + l.val, by omega⟩) := by
  apply le_antisymm
  · refine Finset.sup_le fun i _ => ?_
    by_cases h : i.val < 2048
    · exact le_max_of_le_left
        (Finset.le_sup (f := fun l : Fin 2048 => f ⟨l.val, by omega⟩) (Finset.mem_univ (⟨i.val, h⟩ : Fin 2048)))
    · have hi : i = ⟨2048 + (i.val - 2048), by omega⟩ := Fin.ext (by show i.val = 2048 + (i.val - 2048); omega)
      have h2 : i.val - 2048 < 2048 := by omega
      refine le_max_of_le_right (le_trans (le_of_eq (congrArg f hi)) ?_)
      exact Finset.le_sup (f := fun l : Fin 2048 => f ⟨2048 + l.val, by omega⟩)
        (Finset.mem_univ (⟨i.val - 2048, h2⟩ : Fin 2048))
  · refine max_le (Finset.sup_le fun l _ => ?_) (Finset.sup_le fun l _ => ?_) <;>
      exact Finset.le_sup (Finset.mem_univ _)

/-- A minimum over 4096 columns is the smaller of the minima over the two halves. -/
theorem inf_halves (f : Fin 4096 → EReal) :
    Finset.univ.inf f
      = min (Finset.univ.inf fun l : Fin 2048 => f ⟨l.val, by omega⟩)
            (Finset.univ.inf fun l : Fin 2048 => f ⟨2048 + l.val, by omega⟩) := by
  apply le_antisymm
  · refine le_min (Finset.le_inf fun l _ => ?_) (Finset.le_inf fun l _ => ?_) <;>
      exact Finset.inf_le (Finset.mem_univ _)
  · refine Finset.le_inf fun i _ => ?_
    by_cases h : i.val < 2048
    · exact min_le_of_left_le
        (Finset.inf_le (f := fun l : Fin 2048 => f ⟨l.val, by omega⟩) (Finset.mem_univ (⟨i.val, h⟩ : Fin 2048)))
    · have hi : i = ⟨2048 + (i.val - 2048), by omega⟩ := Fin.ext (by show i.val = 2048 + (i.val - 2048); omega)
      have h2 : i.val - 2048 < 2048 := by omega
      refine min_le_of_right_le (le_trans ?_ (le_of_eq (congrArg f hi).symm))
      exact Finset.inf_le (f := fun l : Fin 2048 => f ⟨2048 + l.val, by omega⟩)
        (Finset.mem_univ (⟨i.val - 2048, h2⟩ : Fin 2048))

/-- The running form: start from `⊥`, fold in the first half's maximum, then the second's. -/
theorem sup_halves_running (f : Fin 4096 → EReal) :
    Finset.univ.sup f
      = max (max ⊥ (Finset.univ.sup fun l : Fin 2048 => f ⟨l.val, by omega⟩))
            (Finset.univ.sup fun l : Fin 2048 => f ⟨2048 + l.val, by omega⟩) := by
  rw [max_bot_left]; exact sup_halves f

/-- The running form: start from `⊤`, fold in the first half's minimum, then the second's. -/
theorem inf_halves_running (f : Fin 4096 → EReal) :
    Finset.univ.inf f
      = min (min ⊤ (Finset.univ.inf fun l : Fin 2048 => f ⟨l.val, by omega⟩))
            (Finset.univ.inf fun l : Fin 2048 => f ⟨2048 + l.val, by omega⟩) := by
  rw [min_top_left]; exact inf_halves f

/-! ## The diagonal of a same-family distance matrix -/

/-- A finite sum of reals, coerced, is the sum of the coerced terms. -/
theorem coe_sum {ι : Type*} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- With real entries in row `r`, the same-family clipped distance of `r` to itself is the clip
    constant: the unclipped value is `s + s − 2 s = 0 ≤ eps`. -/
theorem diag_eq (eps : EReal) (heps : 0 ≤ eps) (x : Fin 4096 → Fin 128 → EReal) (r : Fin 4096)
    (hx : ∀ k, ∃ t : ℝ, x r k = (t : EReal)) : D eps x x r r = eps := by
  choose t ht using hx
  have hs : (∑ k, x r k * x r k) = ((∑ k, t k * t k : ℝ) : EReal) := by
    rw [coe_sum]; refine Finset.sum_congr rfl fun k _ => ?_; rw [ht k, EReal.coe_mul]
  unfold D dot
  rw [sq_eq, hs]
  have h0 : ((∑ k, t k * t k : ℝ) : EReal) + ((∑ k, t k * t k : ℝ) : EReal) - 2 * ((∑ k, t k * t k : ℝ) : EReal) = 0 := by
    rw [show (2 : EReal) = ((2 : ℝ) : EReal) from rfl, ← EReal.coe_add, ← EReal.coe_mul, ← EReal.coe_sub,
      ← EReal.coe_zero]
    congr 1; ring
  rw [h0]; exact max_eq_left heps

/-! ## The two hardest-example vectors of two arrays and a label array

The same functions read off arrays: `x`, `y` of shape [4096, 128], labels `t` of shape [4096]; the
result a rank-1 array of 4096 entries. -/

open Idealize.ShloMosaic.ValueIdx in
/-- Row `i`'s hardest positive among the rows of `y`, for every row `i` of `x`. -/
def apVec (eps : EReal) (x y : (⟨2, ![4096, 128]⟩ : Shape).Idx → EReal) (t : (⟨1, ![4096]⟩ : Shape).Idx → BitVec 32) :
    (⟨1, ![4096]⟩ : Shape).Idx → EReal :=
  fun i => AP eps (fun r k => x (ix2 r k)) (fun r k => y (ix2 r k)) (fun r => t (ix1 r)) (i 0)

open Idealize.ShloMosaic.ValueIdx in
/-- Row `i`'s hardest negative among the rows of `y`, for every row `i` of `x`. -/
def anVec (eps : EReal) (x y : (⟨2, ![4096, 128]⟩ : Shape).Idx → EReal) (t : (⟨1, ![4096]⟩ : Shape).Idx → BitVec 32) :
    (⟨1, ![4096]⟩ : Shape).Idx → EReal :=
  fun i => AN eps (fun r k => x (ix2 r k)) (fun r k => y (ix2 r k)) (fun r => t (ix1 r)) (i 0)

open Idealize.ShloMosaic.ValueIdx in
theorem apVec_apply (eps : EReal) (x y : (⟨2, ![4096, 128]⟩ : Shape).Idx → EReal) (t : (⟨1, ![4096]⟩ : Shape).Idx → BitVec 32)
    (r : Fin 4096) :
    apVec eps x y t (ix1 r) = AP eps (fun r k => x (ix2 r k)) (fun r k => y (ix2 r k)) (fun r => t (ix1 r)) r := rfl

open Idealize.ShloMosaic.ValueIdx in
theorem anVec_apply (eps : EReal) (x y : (⟨2, ![4096, 128]⟩ : Shape).Idx → EReal) (t : (⟨1, ![4096]⟩ : Shape).Idx → BitVec 32)
    (r : Fin 4096) :
    anVec eps x y t (ix1 r) = AN eps (fun r k => x (ix2 r k)) (fun r k => y (ix2 r k)) (fun r => t (ix1 r)) r := rfl

open Idealize.ShloMosaic.ValueIdx in
/-- A rank-1 array that reads `AP` at every row is `apVec`. -/
theorem eq_apVec (eps : EReal) (x y : (⟨2, ![4096, 128]⟩ : Shape).Idx → EReal) (t : (⟨1, ![4096]⟩ : Shape).Idx → BitVec 32)
    (v : (⟨1, ![4096]⟩ : Shape).Idx → EReal)
    (h : ∀ r : Fin 4096, v (ix1 r) = AP eps (fun r k => x (ix2 r k)) (fun r k => y (ix2 r k)) (fun r => t (ix1 r)) r) :
    v = apVec eps x y t := by
  funext i; rw [eq_ix1 i]; exact h (i 0)

open Idealize.ShloMosaic.ValueIdx in
/-- A rank-1 array that reads `AN` at every row is `anVec`. -/
theorem eq_anVec (eps : EReal) (x y : (⟨2, ![4096, 128]⟩ : Shape).Idx → EReal) (t : (⟨1, ![4096]⟩ : Shape).Idx → BitVec 32)
    (v : (⟨1, ![4096]⟩ : Shape).Idx → EReal)
    (h : ∀ r : Fin 4096, v (ix1 r) = AN eps (fun r k => x (ix2 r k)) (fun r k => y (ix2 r k)) (fun r => t (ix1 r)) r) :
    v = anVec eps x y t := by
  funext i; rw [eq_ix1 i]; exact h (i 0)

/-! ## Words and folds -/

/-- A select on an integer equality test is the `if` on the equality. -/
theorem select_cmpi_eq {α : Type} (a b : BitVec 32) (A B : α) :
    Scalar.select (IntOp.cmpi .eq a b) A B = if a = b then A else B := by
  unfold Scalar.select IntOp.cmpi
  by_cases h : a = b
  · subst h; simp
  · have hb : (a == b) = false := by simpa using h
    simp [hb, h]

/-- The float word of −∞ denotes the least extended real. -/
theorem negInf_word : Ideal.ofBits .f32 0xFF800000#32 = ⊥ := by simp [Ideal.ofBits, Ideal.ieee]
/-- The float word of +∞ denotes the greatest extended real. -/
theorem posInf_word : Ideal.ofBits .f32 0x7F800000#32 = ⊤ := by simp [Ideal.ofBits, Ideal.ieee]
/-- The float word of 2.0 denotes 2. -/
theorem two_word : Ideal.ofBits .f32 0x40000000#32 = 2 := by
  simp [Ideal.ofBits, Ideal.ieee, -EReal.coe_mul]; norm_num; rfl

/-- A fold of `max` from `⊥` is the supremum. -/
theorem fold_max_bot {ι : Type*} (s : Finset ι) (g : ι → EReal) : s.fold max ⊥ g = s.sup g :=
  eq_of_forall_ge_iff fun c => by
    rw [Finset.fold_max_le, Finset.sup_le_iff]; simp

/-- A fold of `min` from `⊤` is the infimum. -/
theorem fold_min_top {ι : Type*} (s : Finset ι) (g : ι → EReal) : s.fold min ⊤ g = s.inf g :=
  eq_of_forall_le_iff fun c => by
    rw [Finset.le_fold_min, Finset.le_inf_iff]; simp

/-! ## The clip constant -/

/-- The clip constant's float word denotes a positive real. -/
theorem eps_pos : 0 < Ideal.ofBits .f32 0x2B8CBCCC#32 := by
  simp [Ideal.ofBits, Ideal.ieee, -EReal.coe_mul]

theorem eps_nonneg : 0 ≤ Ideal.ofBits .f32 0x2B8CBCCC#32 := eps_pos.le

end Cert.HardMine

end
-- ==== Proof.ColRead.lean ====
/-
  A column [4096,1] read as a vector [4096] keeps its entries: entry r of the vector is entry (r, 0) of the column.
  So a column whose rows are the hardest positives (negatives) of the specification reads as the specification's
  vector of hardest positives (negatives).
-/
import proofs.«181479_j36618891166019_2_alg».proof.Proof.HostTailIdeal
import proofs.«181479_j36618891166019_2_alg».proof.Proof.Spec
import Idealize.ShloMosaic.Lib.ValueIdx
import Idealize.ShloMosaic.Lib.Pipeline.Value
import Idealize.ShloMosaic.PureOps.Ideal.Laws

noncomputable section

namespace Cert.KernelIdeal.Region

open Idealize.ShloMosaic Idealize.SL.Sem Idealize.ShloMosaic.ValueIdx

/-- A column read as a vector: entry `r` is the column's entry `(r, 0)`. -/
theorem col_apply (o : (⟨Cert.KernelIdeal.S4096x1, .f32⟩ : BufTy).Contents (Elt Ideal)) (r : Fin 4096) :
    Cert.KernelIdeal.HostSide.col (F := Ideal) o (ix1 r) = o (ix2 r (0 : Fin 1)) := by
  unfold Cert.KernelIdeal.HostSide.col
  exact shapeCast_apply _ _ (ix1 r) (ix2 r (0 : Fin 1)) (by rw [Shape.rowMajor_val_one, Shape.rowMajor_val_two]; show r.val * 1 + 0 = r.val; omega)

/-- A column whose entry `(r, 0)` is `g r` reads as the vector `g`. -/
theorem col_of_rows (g : Fin 4096 → EReal) :
    Cert.KernelIdeal.HostSide.col (F := Ideal) (fun i : Cert.KernelIdeal.S4096x1.Idx => g (i 0)) = fun i : Cert.KernelIdeal.S4096.Idx => g (i 0) := by
  funext i
  obtain ⟨r, rfl⟩ : ∃ r : Fin 4096, i = ix1 r := ⟨i 0, eq_ix1 i⟩
  rw [col_apply]

/-- A column whose entry `(r, 0)` is row `r`'s hardest positive reads as the vector of hardest positives. -/
theorem col_eq_apVec (o : (⟨Cert.KernelIdeal.S4096x1, .f32⟩ : BufTy).Contents (Elt Ideal)) (eps : EReal)
    (x y : (⟨2, ![4096, 128]⟩ : Shape).Idx → EReal) (t : (⟨1, ![4096]⟩ : Shape).Idx → BitVec 32)
    (h : ∀ r : Fin 4096, o (ix2 r (0 : Fin 1)) = Cert.HardMine.AP eps (fun r k => x (ix2 r k)) (fun r k => y (ix2 r k)) (fun r => t (ix1 r)) r) :
    Cert.KernelIdeal.HostSide.col (F := Ideal) o = Cert.HardMine.apVec eps x y t :=
  Cert.HardMine.eq_apVec eps x y t _ fun r => (col_apply o r).trans (h r)

/-- The same for the hardest negatives. -/
theorem col_eq_anVec (o : (⟨Cert.KernelIdeal.S4096x1, .f32⟩ : BufTy).Contents (Elt Ideal)) (eps : EReal)
    (x y : (⟨2, ![4096, 128]⟩ : Shape).Idx → EReal) (t : (⟨1, ![4096]⟩ : Shape).Idx → BitVec 32)
    (h : ∀ r : Fin 4096, o (ix2 r (0 : Fin 1)) = Cert.HardMine.AN eps (fun r k => x (ix2 r k)) (fun r k => y (ix2 r k)) (fun r => t (ix1 r)) r) :
    Cert.KernelIdeal.HostSide.col (F := Ideal) o = Cert.HardMine.anVec eps x y t :=
  Cert.HardMine.eq_anVec eps x y t _ fun r => (col_apply o r).trans (h r)

/-- The column of the hardest positives, written entry by entry, reads as their vector. -/
theorem col_apVec (eps : EReal) (x y : (⟨2, ![4096, 128]⟩ : Shape).Idx → EReal) (t : (⟨1, ![4096]⟩ : Shape).Idx → BitVec 32) :
    Cert.KernelIdeal.HostSide.col (F := Ideal)
        (fun i : Cert.KernelIdeal.S4096x1.Idx => Cert.HardMine.AP eps (fun r k => x (ix2 r k)) (fun r k => y (ix2 r k)) (fun r => t (ix1 r)) (i 0))
      = Cert.HardMine.apVec eps x y t :=
  col_eq_apVec _ eps x y t fun _ => rfl

/-- The column of the hardest negatives reads as their vector. -/
theorem col_anVec (eps : EReal) (x y : (⟨2, ![4096, 128]⟩ : Shape).Idx → EReal) (t : (⟨1, ![4096]⟩ : Shape).Idx → BitVec 32) :
    Cert.KernelIdeal.HostSide.col (F := Ideal)
        (fun i : Cert.KernelIdeal.S4096x1.Idx => Cert.HardMine.AN eps (fun r k => x (ix2 r k)) (fun r k => y (ix2 r k)) (fun r => t (ix1 r)) (i 0))
      = Cert.HardMine.anVec eps x y t :=
  col_eq_anVec _ eps x y t fun _ => rfl

end Cert.KernelIdeal.Region

end
-- ==== Proof.KernelResults.lean ====
/-
  The kernel program's two results at the extended reals, as the shared tail applied to the eight vectors of
  hardest positives and hardest negatives.  Given, for each of the eight outputs, that what the body stores at
  row p of an odd point is the hardest positive (negative) of the absolute row 512 (t / 2) + p, the write-backs of
  the eight odd points of a row block cover that output's array, so the array ends as the whole vector; recast
  from a column to a vector it is the specification's vector, and the host operations after the region are the
  tail applied to the eight of them.
-/
import proofs.«181479_j36618891166019_2_alg».proof.Proof.RegionSeg
import proofs.«181479_j36618891166019_2_alg».proof.Proof.RegionCover
import proofs.«181479_j36618891166019_2_alg».proof.Proof.ColRead

noncomputable section

namespace Cert.KernelIdeal.Region

open Cert.KernelIdeal Cert.KernelIdeal.Gen
open Idealize.ShloMosaic Idealize.ShloMosaic.TcCoe Idealize.ShloMosaic.ValueIdx
open Idealize.SL.Sem

/-- The lower clamp of the squared distances, the same float word in both programs. -/
abbrev clipEps : EReal := Ideal.ofBits .f32 0x2B8CBCCC#32

variable (m : (ℓ : Loc nD τ sig) → Buf (Elt Ideal) ℓ)

/-- The two results of the kernel's program, from what each output holds after an odd point. -/
theorem kernel_results (c : Dev nD)
    (hpt0 : ∀ (t : Fin cfg0.N) (h1 : t.val % 2 = 1) (p : Fin 512),
      oL0 (V1 (F := Ideal) m) c t h1 (ix2 p (0 : Fin 1)) = Cert.HardMine.AP clipEps (fun r k => argA m c (ix2 r k)) (fun r k => argA m c (ix2 r k)) (fun r => argT m c (ix1 r)) (rowIx t p))
    (hpt1 : ∀ (t : Fin cfg0.N) (h1 : t.val % 2 = 1) (p : Fin 512),
      oL1 (V1 (F := Ideal) m) c t h1 (ix2 p (0 : Fin 1)) = Cert.HardMine.AP clipEps (fun r k => argB m c (ix2 r k)) (fun r k => argB m c (ix2 r k)) (fun r => argT m c (ix1 r)) (rowIx t p))
    (hpt2 : ∀ (t : Fin cfg0.N) (h1 : t.val % 2 = 1) (p : Fin 512),
      oL2 (V1 (F := Ideal) m) c t h1 (ix2 p (0 : Fin 1)) = Cert.HardMine.AP clipEps (fun r k => argA m c (ix2 r k)) (fun r k => argB m c (ix2 r k)) (fun r => argT m c (ix1 r)) (rowIx t p))
    (hpt3 : ∀ (t : Fin cfg0.N) (h1 : t.val % 2 = 1) (p : Fin 512),
      oL3 (V1 (F := Ideal) m) c t h1 (ix2 p (0 : Fin 1)) = Cert.HardMine.AP clipEps (fun r k => argB m c (ix2 r k)) (fun r k => argA m c (ix2 r k)) (fun r => argT m c (ix1 r)) (rowIx t p))
    (hpt4 : ∀ (t : Fin cfg0.N) (h1 : t.val % 2 = 1) (p : Fin 512),
      oL4 (V1 (F := Ideal) m) c t h1 (ix2 p (0 : Fin 1)) = Cert.HardMine.AN clipEps (fun r k => argA m c (ix2 r k)) (fun r k => argA m c (ix2 r k)) (fun r => argT m c (ix1 r)) (rowIx t p))
    (hpt5 : ∀ (t : Fin cfg0.N) (h1 : t.val % 2 = 1) (p : Fin 512),
      oL5 (V1 (F := Ideal) m) c t h1 (ix2 p (0 : Fin 1)) = Cert.HardMine.AN clipEps (fun r k => argB m c (ix2 r k)) (fun r k => argB m c (ix2 r k)) (fun r => argT m c (ix1 r)) (rowIx t p))
    (hpt6 : ∀ (t : Fin cfg0.N) (h1 : t.val % 2 = 1) (p : Fin 512),
      oL6 (V1 (F := Ideal) m) c t h1 (ix2 p (0 : Fin 1)) = Cert.HardMine.AN clipEps (fun r k => argA m c (ix2 r k)) (fun r k => argB m c (ix2 r k)) (fun r => argT m c (ix1 r)) (rowIx t p))
    (hpt7 : ∀ (t : Fin cfg0.N) (h1 : t.val % 2 = 1) (p : Fin 512),
      oL7 (V1 (F := Ideal) m) c t h1 (ix2 p (0 : Fin 1)) = Cert.HardMine.AN clipEps (fun r k => argB m c (ix2 r k)) (fun r k => argA m c (ix2 r k)) (fun r => argT m c (ix1 r)) (rowIx t p)) :
    HostSide.W5 (F := Ideal) m (outs m) c main_v28
        = (HostSide.tailOfVecs (F := Ideal) (Cert.HardMine.apVec clipEps (argA m c) (argA m c) (argT m c)) (Cert.HardMine.apVec clipEps (argB m c) (argB m c) (argT m c)) (Cert.HardMine.apVec clipEps (argA m c) (argB m c) (argT m c)) (Cert.HardMine.apVec clipEps (argB m c) (argA m c) (argT m c)) (Cert.HardMine.anVec clipEps (argA m c) (argA m c) (argT m c)) (Cert.HardMine.anVec clipEps (argB m c) (argB m c) (argT m c)) (Cert.HardMine.anVec clipEps (argA m c) (argB m c) (argT m c)) (Cert.HardMine.anVec clipEps (argB m c) (argA m c) (argT m c))).1
    ∧ HostSide.W5 (F := Ideal) m (outs m) c main_v32
        = (HostSide.tailOfVecs (F := Ideal) (Cert.HardMine.apVec clipEps (argA m c) (argA m c) (argT m c)) (Cert.HardMine.apVec clipEps (argB m c) (argB m c) (argT m c)) (Cert.HardMine.apVec clipEps (argA m c) (argB m c) (argT m c)) (Cert.HardMine.apVec clipEps (argB m c) (argA m c) (argT m c)) (Cert.HardMine.anVec clipEps (argA m c) (argA m c) (argT m c)) (Cert.HardMine.anVec clipEps (argB m c) (argB m c) (argT m c)) (Cert.HardMine.anVec clipEps (argA m c) (argB m c) (argT m c)) (Cert.HardMine.anVec clipEps (argB m c) (argA m c) (argT m c))).2 := by
  have e0 : outs (F := Ideal) m main_v12_0 c = (fun i : S4096x1.Idx => Cert.HardMine.AP clipEps (fun r k => argA m c (ix2 r k)) (fun r k => argA m c (ix2 r k)) (fun r => argT m c (ix1 r)) (i 0)) :=
    (outs_0 m c).trans (arrAt10 (V1 (F := Ideal) m) c _ (fun t h1 p => hpt0 t h1 p))
  have e1 : outs (F := Ideal) m main_v12_1 c = (fun i : S4096x1.Idx => Cert.HardMine.AP clipEps (fun r k => argB m c (ix2 r k)) (fun r k => argB m c (ix2 r k)) (fun r => argT m c (ix1 r)) (i 0)) :=
    (outs_1 m c).trans (arrAt11 (V1 (F := Ideal) m) c _ (fun t h1 p => hpt1 t h1 p))
  have e2 : outs (F := Ideal) m main_v12_2 c = (fun i : S4096x1.Idx => Cert.HardMine.AP clipEps (fun r k => argA m c (ix2 r k)) (fun r k => argB m c (ix2 r k)) (fun r => argT m c (ix1 r)) (i 0)) :=
    (outs_2 m c).trans (arrAt12 (V1 (F := Ideal) m) c _ (fun t h1 p => hpt2 t h1 p))
  have e3 : outs (F := Ideal) m main_v12_3 c = (fun i : S4096x1.Idx => Cert.HardMine.AP clipEps (fun r k => argB m c (ix2 r k)) (fun r k => argA m c (ix2 r k)) (fun r => argT m c (ix1 r)) (i 0)) :=
    (outs_3 m c).trans (arrAt13 (V1 (F := Ideal) m) c _ (fun t h1 p => hpt3 t h1 p))
  have e4 : outs (F := Ideal) m main_v12_4 c = (fun i : S4096x1.Idx => Cert.HardMine.AN clipEps (fun r k => argA m c (ix2 r k)) (fun r k => argA m c (ix2 r k)) (fun r => argT m c (ix1 r)) (i 0)) :=
    (outs_4 m c).trans (arrAt14 (V1 (F := Ideal) m) c _ (fun t h1 p => hpt4 t h1 p))
  have e5 : outs (F := Ideal) m main_v12_5 c = (fun i : S4096x1.Idx => Cert.HardMine.AN clipEps (fun r k => argB m c (ix2 r k)) (fun r k => argB m c (ix2 r k)) (fun r => argT m c (ix1 r)) (i 0)) :=
    (outs_5 m c).trans (arrAt15 (V1 (F := Ideal) m) c _ (fun t h1 p => hpt5 t h1 p))
  have e6 : outs (F := Ideal) m main_v12_6 c = (fun i : S4096x1.Idx => Cert.HardMine.AN clipEps (fun r k => argA m c (ix2 r k)) (fun r k => argB m c (ix2 r k)) (fun r => argT m c (ix1 r)) (i 0)) :=
    (outs_6 m c).trans (arrAt16 (V1 (F := Ideal) m) c _ (fun t h1 p => hpt6 t h1 p))
  have e7 : outs (F := Ideal) m main_v12_7 c = (fun i : S4096x1.Idx => Cert.HardMine.AN clipEps (fun r k => argB m c (ix2 r k)) (fun r k => argA m c (ix2 r k)) (fun r => argT m c (ix1 r)) (i 0)) :=
    (outs_7 m c).trans (arrAt17 (V1 (F := Ideal) m) c _ (fun t h1 p => hpt7 t h1 p))
  refine ⟨?_, ?_⟩
  · rw [HostSide.W5_main_v28, e0, e1, e2, e3, e4, e5, e6, e7]
    unfold HostSide.kerTail
    rw [col_apVec clipEps (argA m c) (argA m c) (argT m c), col_apVec clipEps (argB m c) (argB m c) (argT m c), col_apVec clipEps (argA m c) (argB m c) (argT m c), col_apVec clipEps (argB m c) (argA m c) (argT m c), col_anVec clipEps (argA m c) (argA m c) (argT m c), col_anVec clipEps (argB m c) (argB m c) (argT m c), col_anVec clipEps (argA m c) (argB m c) (argT m c), col_anVec clipEps (argB m c) (argA m c) (argT m c)]
  · rw [HostSide.W5_main_v32, e0, e1, e2, e3, e4, e5, e6, e7]
    unfold HostSide.kerTail
    rw [col_apVec clipEps (argA m c) (argA m c) (argT m c), col_apVec clipEps (argB m c) (argB m c) (argT m c), col_apVec clipEps (argA m c) (argB m c) (argT m c), col_apVec clipEps (argB m c) (argA m c) (argT m c), col_anVec clipEps (argA m c) (argA m c) (argT m c), col_anVec clipEps (argB m c) (argB m c) (argT m c), col_anVec clipEps (argA m c) (argB m c) (argT m c), col_anVec clipEps (argB m c) (argA m c) (argT m c)]

end Cert.KernelIdeal.Region

end
-- ==== Proof.Payload1.lean ====
/-
  The element-level vocabulary for reading the kernel body's arithmetic at the extended reals.

  A grid point (i₀, i₁) works on rows 512·i₀ + p (p < 512) and columns 2048·i₁ + l (l < 2048) of the
  [4096, 4096] distance matrices. This file has: the 32-bit row / column identifiers of an entry of
  that block and the arithmetic fact their comparison decides; the broadcasts of a column [512, 1]
  and of a row [1, 2048] over the block and the keepdims view [512] → [512, 1]; the product of a
  [512, 128] block with the transpose of a [2048, 128] block as the inner products of their rows;
  and a lane maximum / minimum over the 2048 columns of a row, started from −∞ / +∞, as a supremum /
  infimum.
-/
import proofs.«181479_j36618891166019_2_alg».proof.Proof.Gen.KernelIdeal.Skeleton
import proofs.«181479_j36618891166019_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## Row and column identifiers -/

/-- A comparison for equality yields the bit 1 exactly when the two words are equal. -/
theorem cmpi_eq_one_iff {w : Nat} (x y : BitVec w) : IntOp.cmpi .eq x y = 1#1 ↔ x = y := by
  unfold IntOp.cmpi
  by_cases h : x = y
  · subst h; simp
  · have hb : (x == y) = false := by simpa using h
    simp [hb, h]

/-- Row 512·i₀ + p and column 2048·i₁ + l of the [4096, 4096] matrix, computed in 32-bit words, are
    the same word exactly when they are the same number: nothing wraps below 4096. -/
theorem absIds_eq_iff (i0 : Fin 8) (i1 : Fin 2) (p : Fin 512) (l : Fin 2048) :
    (BitVec.ofNat 32 i0.val * 512#32 + BitVec.ofNat 32 p.val
        = BitVec.ofNat 32 i1.val * 2048#32 + BitVec.ofNat 32 l.val)
      ↔ 512 * i0.val + p.val = 2048 * i1.val + l.val := by
  have h0 := i0.isLt; have h1 := i1.isLt; have hp := p.isLt; have hl := l.isLt
  rw [← BitVec.toNat_inj]
  simp only [BitVec.toNat_add, BitVec.toNat_mul, BitVec.toNat_ofNat]
  omega

/-! ## Layouts -/

section Layouts
variable {α : Type}

/-- A column [512, 1] spread over the block reads its row's entry. -/
theorem broadcastCol_apply (v : S512x1.Idx → α) (p : Fin 512) (l : Fin 2048) :
    broadcastTo S512x2048 v broadcasts_S512x1_S512x2048 (ix2 p l) = v (ix2 p (0 : Fin 1)) :=
  broadcastTo_apply v broadcasts_S512x1_S512x2048 (ix2 p l) (ix2 p (0 : Fin 1)) fun a =>
    match a with
    | ⟨0, _⟩ => rfl
    | ⟨1, _⟩ => rfl

/-- A row [1, 2048] spread over the block reads its column's entry. -/
theorem broadcastRow_apply (v : S1x2048.Idx → α) (p : Fin 512) (l : Fin 2048) :
    broadcastTo S512x2048 v broadcasts_S1x2048_S512x2048 (ix2 p l) = v (ix2 (0 : Fin 1) l) :=
  broadcastTo_1b_ab_apply v broadcasts_S1x2048_S512x2048 p l

/-- A vector [512] viewed as a column [512, 1]. -/
theorem keepdims_apply (v : S512.Idx → α) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_one, Shape.rowMajor_val_two]
    show p.val = p.val * 1 + 0
    omega)

end Layouts

/-! ## The product of a row block with the transpose of a column block -/

/-- The dimension numbers of the kernel's four products: both operands contract their second axis. -/
abbrev rowsByRows : DotDims S512x128 S2048x128 S512x2048 := dot_S512x128_S2048x128_S512x2048_1_1_0_0_n_n

theorem rowsByRows_lhs0 (j : S512x2048.Idx) (q : rowsByRows.contr.Idx) : (rowsByRows.lhsIdx j q 0).val = (j 0).val := by
  unfold DotDims.lhsIdx
  rw [dif_neg (show ¬(0 : Fin S512x128.rank) ∈ rowsByRows.lhsBatch by decide),
    dif_pos (show (0 : Fin S512x128.rank) ∈ rowsByRows.lhsNonContracting by decide)]
  rfl

theorem rowsByRows_lhs1 (j : S512x2048.Idx) (q : rowsByRows.contr.Idx) :
    (rowsByRows.lhsIdx j q 1).val = (q ⟨0, by decide⟩).val :=
  rowsByRows.lhsIdx_val_of_single rfl j q

theorem rowsByRows_rhs0 (j : S512x2048.Idx) (q : rowsByRows.contr.Idx) : (rowsByRows.rhsIdx j q 0).val = (j 1).val := by
  unfold DotDims.rhsIdx
  rw [dif_neg (show ¬(0 : Fin S2048x128.rank) ∈ rowsByRows.rhsBatch by decide),
    dif_pos (show (0 : Fin S2048x128.rank) ∈ rowsByRows.rhsNonContracting by decide)]
  rfl

theorem rowsByRows_rhs1 (j : S512x2048.Idx) (q : rowsByRows.contr.Idx) :
    (rowsByRows.rhsIdx j q 1).val = (q ⟨0, by decide⟩).val :=
  rowsByRows.rhsIdx_val_of_single rfl j q

/-- Entry (p, l) of the product into a zero accumulator is the inner product of row p of the first block
    with row l of the second. -/
theorem matmulT_zero_apply (u : FVec Ideal S512x128 .bf16) (v : FVec Ideal S2048x128 .bf16) (p : Fin 512) (l : Fin 2048) :
    matmul (F := Ideal) dot_S512x128_S2048x128_S512x2048_1_1_0_0_n_n none u v
        (constant (F := Ideal) S512x2048 .f32 0x00000000#32) (ix2 p l)
      = ∑ k : Fin 128, u (ix2 p k) * v (ix2 l k) := by
  show FloatOps.matmul rowsByRows none u v (constant (F := Ideal) S512x2048 .f32 0x00000000#32) (ix2 p l) = _
  rw [Ideal.matmul_constant_zero_apply, ← Equiv.sum_comp (contrEquiv1 rowsByRows 128 rfl rfl).symm]
  refine Finset.sum_congr rfl fun k _ => ?_
  have hk := contrEquiv1_symm_val rowsByRows 128 rfl rfl k
  have el : rowsByRows.lhsIdx (ix2 p l) ((contrEquiv1 rowsByRows 128 rfl rfl).symm k) = ix2 p k :=
    funext fun a => Fin.ext (by
      match a with
      | ⟨0, _⟩ => exact rowsByRows_lhs0 _ _
      | ⟨1, _⟩ => exact (rowsByRows_lhs1 _ _).trans hk)
  have er : rowsByRows.rhsIdx (ix2 p l) ((contrEquiv1 rowsByRows 128 rfl rfl).symm k) = ix2 l k :=
    funext fun a => Fin.ext (by
      match a with
      | ⟨0, _⟩ => exact rowsByRows_rhs0 _ _
      | ⟨1, _⟩ => exact (rowsByRows_rhs1 _ _).trans hk)
  rw [el, er]

/-! ## Lane reductions -/

/-- The entries of row p of the block are the row index p with each column inserted. -/
theorem lift_row (p : Fin 512) (l : Fin 2048) :
    reduces_S512x2048_S512.lift (ix1 p) l = (ix2 p l : S512x2048.Idx) :=
  funext fun a => Fin.ext (by
    match a with
    | ⟨0, _⟩ => rfl
    | ⟨1, _⟩ => rfl)

/-- A lane maximum started from −∞ is the supremum over the row's 2048 entries. -/
theorem laneMax_apply (src : FVec Ideal S512x2048 .f32) (p : Fin 512) :
    multiReduction (F := Ideal) .maximumf [1] S512 src 0xFF800000#32 reduces_S512x2048_S512 (.inl rfl) rfl (ix1 p)
      = Finset.univ.sup fun l : Fin 2048 => src (ix2 p l) := by
  refine (Ideal.multiReduction_maximumf_single src 0xFF800000#32 reduces_S512x2048_S512 (.inl rfl) rfl (ix1 p)).trans ?_
  show (Finset.univ : Finset (Fin 2048)).fold max (Ideal.ofBits .f32 0xFF800000#32) (src ∘ reduces_S512x2048_S512.lift (ix1 p)) = _
  rw [HardMine.negInf_word]
  exact (HardMine.fold_max_bot _ _).trans (Finset.sup_congr rfl fun l _ => congrArg src (lift_row p l))

/-- A lane minimum started from +∞ is the infimum over the row's 2048 entries. -/
theorem laneMin_apply (src : FVec Ideal S512x2048 .f32) (p : Fin 512) :
    multiReduction (F := Ideal) .minimumf [1] S512 src 0x7F800000#32 reduces_S512x2048_S512 (.inl rfl) rfl (ix1 p)
      = Finset.univ.inf fun l : Fin 2048 => src (ix2 p l) := by
  refine (multiReduction_minimumf_eq_fold src 0x7F800000#32 reduces_S512x2048_S512 (.inl rfl) rfl (ix1 p)).trans ?_
  refine (reduces_S512x2048_S512.fold_filter_drop_single _ _ src (ix1 p)).trans ?_
  show (Finset.univ : Finset (Fin 2048)).fold min (Ideal.ofBits .f32 0x7F800000#32) (src ∘ reduces_S512x2048_S512.lift (ix1 p)) = _
  rw [HardMine.posInf_word]
  exact (HardMine.fold_min_top _ _).trans (Finset.inf_congr rfl fun l _ => congrArg src (lift_row p l))

end Cert.KernelIdeal.Payload

end
-- ==== Proof.Payload2.lean ====
/-
  The four squared-distance blocks of a grid point, entry by entry.

  With E the clip constant (the float word 0x2B8CBCCC), s a column of squared norms of the block's
  rows and s' a row of squared norms of the block's columns, entry (p, l) of a block is
      max E ((s p + s' l) − 2 · ⟨u p, v l⟩),
  u and v the two blocks of rows whose inner products the product forms. The two same-family blocks
  replace this by E where the entry lies on the diagonal of the whole matrix, that is where the row
  number 512·i₀ + p equals the column number 2048·i₁ + l.
-/
import proofs.«181479_j36618891166019_2_alg».proof.Proof.Payload1

noncomputable section

open scoped BigOperators

namespace Cert.KernelIdeal.Payload

open Idealize.ShloMosaic Idealize.ShloMosaic.ValueIdx Cert.KernelIdeal Cert.KernelIdeal.Gen

/-- The clip constant. -/
abbrev clip : EReal := Ideal.ofBits .f32 0x2B8CBCCC#32

/-! ## The diagonal test -/

/-- The row identifier of entry (p, l) at grid point i: 512·i₀ + p as a 32-bit word. -/
theorem rowId_apply (i : grid0.Coords) (p : Fin 512) (l : Fin 2048) :
    k0_pay28 i (ix2 p l) = BitVec.ofNat 32 (i 0).val * 512#32 + BitVec.ofNat 32 p.val := by
  unfold k0_pay28
  show IntOp.addi (Scalar.muli (BitVec.ofNat 32 (i 0).val) 512#32)
      (iota .tc S512x2048 32 [0] iota_S512x2048_d0_w32 (ix2 p l)) = _
  rw [iota_single_apply]
  rfl

/-- The column base at grid point i: 2048·i₁ as a 32-bit word, the same at every entry. -/
theorem colBase_apply (i : grid0.Coords) (p : Fin 512) (l : Fin 2048) :
    k0_pay29 i (ix2 p l) = BitVec.ofNat 32 (i 1).val * 2048#32 := rfl

/-- The column offset of entry (p, l): l as a 32-bit word. -/
theorem colOffset_apply (p : Fin 512) (l : Fin 2048) :
    iota .tc S512x2048 32 [1] iota_S512x2048_d1_w32 (ix2 p l) = BitVec.ofNat 32 l.val :=
  (iota_single_apply .tc S512x2048 32 1 iota_S512x2048_d1_w32 (ix2 p l)).trans rfl

/-- The comparison of identifiers at entry (p, l), over any three identifier blocks. -/
theorem diagTest_entry (rid cofs cbase : IVec S512x2048 32) (p : Fin 512) (l : Fin 2048) :
    k0_pay30 rid cofs cbase (ix2 p l) = 1#1 ↔ rid (ix2 p l) = cbase (ix2 p l) + cofs (ix2 p l) := by
  unfold k0_pay30
  exact cmpi_eq_one_iff _ _

/-- At grid point i the identifiers of entry (p, l) agree exactly on the diagonal of the whole matrix. -/
theorem absIds_iff (i : grid0.Coords) (p : Fin 512) (l : Fin 2048) :
    k0_pay28 i (ix2 p l) = k0_pay29 i (ix2 p l) + iota .tc S512x2048 32 [1] iota_S512x2048_d1_w32 (ix2 p l)
      ↔ 512 * (i 0).val + p.val = 2048 * (i 1).val + l.val := by
  rw [rowId_apply, colBase_apply, colOffset_apply]
  exact absIds_eq_iff (i 0) (i 1) p l

/-- The diagonal test at grid point i. -/
theorem diagTest_apply (i : grid0.Coords) (p : Fin 512) (l : Fin 2048) :
    k0_pay30 (k0_pay28 i) (iota .tc S512x2048 32 [1] iota_S512x2048_d1_w32) (k0_pay29 i) (ix2 p l) = 1#1
      ↔ 512 * (i 0).val + p.val = 2048 * (i 1).val + l.val :=
  (diagTest_entry _ _ _ p l).trans (absIds_iff i p l)

/-! ## The clipped squared distance -/

/-- Entry (p, l) of the clipped combination of a column of squared norms, a row of squared norms
    and the product of two blocks of rows. -/
theorem clippedDist_entry (u : FVec Ideal S512x128 .bf16) (v : FVec Ideal S2048x128 .bf16)
    (si : FVec Ideal S512x1 .f32) (sj : FVec Ideal S1x2048 .f32) (p : Fin 512) (l : Fin 2048) :
    maximumf (F := Ideal)
        (subf
          (addf (broadcastTo S512x2048 si broadcasts_S512x1_S512x2048)
            (broadcastTo S512x2048 sj broadcasts_S1x2048_S512x2048))
          (mulf (broadcast S512x2048 (Scalar.ofBits (F := Ideal) .f32 0x40000000#32))
            (matmul (F := Ideal) dot_S512x128_S2048x128_S512x2048_1_1_0_0_n_n none u v
              (constant (F := Ideal) S512x2048 .f32 0x00000000#32))))
        (broadcast S512x2048 (Scalar.ofBits (F := Ideal) .f32 0x2B8CBCCC#32)) (ix2 p l)
      = max clip ((si (ix2 p (0 : Fin 1)) + sj (ix2 (0 : Fin 1) l)) - 2 * ∑ k : Fin 128, u (ix2 p k) * v (ix2 l k)) := by
  show max
      ((broadcastTo S512x2048 si broadcasts_S512x1_S512x2048 (ix2 p l)
          + broadcastTo S512x2048 sj broadcasts_S1x2048_S512x2048 (ix2 p l))
        - Ideal.ofBits .f32 0x40000000#32
          * matmul (F := Ideal) dot_S512x128_S2048x128_S512x2048_1_1_0_0_n_n none u v
              (constant (F := Ideal) S512x2048 .f32 0x00000000#32) (ix2 p l))
      clip = _
  rw [broadcastCol_apply, broadcastRow_apply, matmulT_zero_apply, HardMine.two_word]
  exact max_comm _ _

/-- A cross-family block (first family's rows against second family's rows). -/
theorem crossDist12_apply (u : FVec Ideal S512x128 .bf16) (v : FVec Ideal S2048x128 .bf16)
    (si : FVec Ideal S512x1 .f32) (sj : FVec Ideal S1x2048 .f32) (p : Fin 512) (l : Fin 2048) :
    k0_pay33 (F := Ideal) u v si sj (ix2 p l)
      = max clip ((si (ix2 p (0 : Fin 1)) + sj (ix2 (0 : Fin 1) l)) - 2 * ∑ k : Fin 128, u (ix2 p k) * v (ix2 l k)) := by
  unfold k0_pay33
  exact clippedDist_entry u v si sj p l

/-- The other cross-family block; its row of squared norms comes before its column in the arguments. -/
theorem crossDist21_apply (u : FVec Ideal S512x128 .bf16) (v : FVec Ideal S2048x128 .bf16)
    (sj : FVec Ideal S1x2048 .f32) (si : FVec Ideal S512x1 .f32) (p : Fin 512) (l : Fin 2048) :
    k0_pay34 (F := Ideal) u v sj si (ix2 p l)
      = max clip ((si (ix2 p (0 : Fin 1)) + sj (ix2 (0 : Fin 1) l)) - 2 * ∑ k : Fin 128, u (ix2 p k) * v (ix2 l k)) := by
  unfold k0_pay34
  exact clippedDist_entry u v si sj p l

/-- A same-family block over any three identifier blocks: the clip constant where the identifiers
    agree, the clipped combination elsewhere. -/
theorem sameDist1_entry (u : FVec Ideal S512x128 .bf16) (v : FVec Ideal S2048x128 .bf16)
    (si : FVec Ideal S512x1 .f32) (sj : FVec Ideal S1x2048 .f32) (rid cofs cbase : IVec S512x2048 32)
    (p : Fin 512) (l : Fin 2048) :
    k0_pay31 (F := Ideal) u v si sj rid cofs cbase (ix2 p l)
      = if rid (ix2 p l) = cbase (ix2 p l) + cofs (ix2 p l) then clip
        else max clip ((si (ix2 p (0 : Fin 1)) + sj (ix2 (0 : Fin 1) l)) - 2 * ∑ k : Fin 128, u (ix2 p k) * v (ix2 l k)) := by
  unfold k0_pay31 k0_pay30
  refine (HardMine.select_cmpi_eq (rid (ix2 p l)) (cbase (ix2 p l) + cofs (ix2 p l)) _ _).trans ?_
  exact congrArg (fun z => if rid (ix2 p l) = cbase (ix2 p l) + cofs (ix2 p l) then clip else z)
    (clippedDist_entry u v si sj p l)

theorem sameDist2_entry (u : FVec Ideal S512x128 .bf16) (v : FVec Ideal S2048x128 .bf16)
    (si : FVec Ideal S512x1 .f32) (sj : FVec Ideal S1x2048 .f32) (rid cofs cbase : IVec S512x2048 32)
    (p : Fin 512) (l : Fin 2048) :
    k0_pay32 (F := Ideal) u v si sj rid cofs cbase (ix2 p l)
      = if rid (ix2 p l) = cbase (ix2 p l) + cofs (ix2 p l) then clip
        else max clip ((si (ix2 p (0 : Fin 1)) + sj (ix2 (0 : Fin 1) l)) - 2 * ∑ k : Fin 128, u (ix2 p k) * v (ix2 l k)) := by
  unfold k0_pay32 k0_pay30
  refine (HardMine.select_cmpi_eq (rid (ix2 p l)) (cbase (ix2 p l) + cofs (ix2 p l)) _ _).trans ?_
  exact congrArg (fun z => if rid (ix2 p l) = cbase (ix2 p l) + cofs (ix2 p l) then clip else z)
    (clippedDist_entry u v si sj p l)

/-- The first same-family block at grid point i: the clip constant on the diagonal of the whole
    matrix, the clipped combination off it. -/
theorem sameDist1_apply (u : FVec Ideal S512x128 .bf16) (v : FVec Ideal S2048x128 .bf16)
    (si : FVec Ideal S512x1 .f32) (sj : FVec Ideal S1x2048 .f32) (i : grid0.Coords) (p : Fin 512) (l : Fin 2048) :
    k0_pay31 (F := Ideal) u v si sj (k0_pay28 i) (iota .tc S512x2048 32 [1] iota_S512x2048_d1_w32) (k0_pay29 i) (ix2 p l)
      = if 512 * (i 0).val + p.val = 2048 * (i 1).val + l.val then clip
        else max clip ((si (ix2 p (0 : Fin 1)) + sj (ix2 (0 : Fin 1) l)) - 2 * ∑ k : Fin 128, u (ix2 p k) * v (ix2 l k)) :=
  (sameDist1_entry u v si sj _ _ _ p l).trans (if_congr (absIds_iff i p l) rfl rfl)

/-- The second same-family block at grid point i. -/
theorem sameDist2_apply (u : FVec Ideal S512x128 .bf16) (v : FVec Ideal S2048x128 .bf16)
    (si : FVec Ideal S512x1 .f32) (sj : FVec Ideal S1x2048 .f32) (i : grid0.Coords) (p : Fin 512) (l : Fin 2048) :
    k0_pay32 (F := Ideal) u v si sj (k0_pay28 i) (iota .tc S512x2048 32 [1] iota_S512x2048_d1_w32) (k0_pay29 i) (ix2 p l)
      = if 512 * (i 0).val + p.val = 2048 * (i 1).val + l.val then clip
        else max clip ((si (ix2 p (0 : Fin 1)) + sj (ix2 (0 : Fin 1) l)) - 2 * ∑ k : Fin 128, u (ix2 p k) * v (ix2 l k)) :=
  (sameDist2_entry u v si sj _ _ _ p l).trans (if_congr (absIds_iff i p l) rfl rfl)

end Cert.KernelIdeal.Payload

end
-- ==== Proof.Payload3.lean ====
/-
  The masked lane reductions of a grid point, row by row.

  The label mask of the block is M(p, l) = (label of row p = label of column l). For a block d of
  squared distances the hardest positive of row p within the block is the maximum over the 2048
  columns of (M ? d : −∞), a supremum with −∞ in the unmasked places; the hardest negative is the
  minimum of (M ? +∞ : d), an infimum with +∞ in the masked places. Two of the maxima are folded
  into the running value in the same step: max(previous, block maximum).
-/
import proofs.«181479_j36618891166019_2_alg».proof.Proof.Payload1

noncomputable section

open scoped BigOperators

namespace Cert.KernelIdeal.Payload

open Idealize.ShloMosaic Idealize.ShloMosaic.ValueIdx Cert.KernelIdeal Cert.KernelIdeal.Gen

/-! ## The label mask -/

/-- The label comparison at entry (p, l): row p's label against column l's. -/
theorem sameLabel_apply (ti : Vec Ideal S512x1 .i32) (tj : Vec Ideal S1x2048 .i32) (p : Fin 512) (l : Fin 2048) :
    k0_pay27 (F := Ideal) ti tj (ix2 p l) = IntOp.cmpi .eq (ti (ix2 p (0 : Fin 1))) (tj (ix2 (0 : Fin 1) l)) := by
  unfold k0_pay27
  show IntOp.cmpi .eq
      (broadcastTo S512x2048 (shapeCast S512x1 ti shapeCasts_S512x1_S512x1) broadcasts_S512x1_S512x2048 (ix2 p l))
      (broadcastTo S512x2048 (shapeCast S1x2048 tj shapeCasts_S1x2048_S1x2048) broadcasts_S1x2048_S512x2048 (ix2 p l)) = _
  rw [broadcastCol_apply, broadcastRow_apply, shapeCast_self, shapeCast_self]

/-- The mask bit is set exactly where the two labels are equal. -/
theorem sameLabel_iff (ti : Vec Ideal S512x1 .i32) (tj : Vec Ideal S1x2048 .i32) (p : Fin 512) (l : Fin 2048) :
    k0_pay27 (F := Ideal) ti tj (ix2 p l) = 1#1 ↔ ti (ix2 p (0 : Fin 1)) = tj (ix2 (0 : Fin 1) l) := by
  rw [sameLabel_apply]
  exact cmpi_eq_one_iff _ _

/-! ## A masked maximum and a masked minimum over the lanes, for any mask -/

/-- Maximum over the row's columns of (mask ? d : −∞), kept as a column. -/
theorem maskedLaneMax_entry (m : IVec S512x2048 1) (d : FVec Ideal S512x2048 .f32) (p : Fin 512) :
    shapeCast S512x1
        (multiReduction (F := Ideal) .maximumf [1] S512
          (select m d (broadcast S512x2048 (Scalar.ofBits (F := Ideal) .f32 0xFF800000#32)))
          0xFF800000#32 reduces_S512x2048_S512 (.inl rfl) rfl)
        shapeCasts_S512_S512x1 (ix2 p (0 : Fin 1))
      = Finset.univ.sup fun l : Fin 2048 => if m (ix2 p l) = 1#1 then d (ix2 p l) else (⊥ : EReal) := by
  rw [keepdims_apply, laneMax_apply]
  refine Finset.sup_congr rfl fun l _ => ?_
  show Scalar.select (m (ix2 p l)) (d (ix2 p l)) (Ideal.ofBits .f32 0xFF800000#32) = _
  rw [HardMine.negInf_word]
  rfl

/-- Minimum over the row's columns of (mask ? +∞ : d), kept as a column. -/
theorem maskedLaneMin_entry (m : IVec S512x2048 1) (d : FVec Ideal S512x2048 .f32) (p : Fin 512) :
    shapeCast S512x1
        (multiReduction (F := Ideal) .minimumf [1] S512
          (select m (broadcast S512x2048 (Scalar.ofBits (F := Ideal) .f32 0x7F800000#32)) d)
          0x7F800000#32 reduces_S512x2048_S512 (.inl rfl) rfl)
        shapeCasts_S512_S512x1 (ix2 p (0 : Fin 1))
      = Finset.univ.inf fun l : Fin 2048 => if m (ix2 p l) = 1#1 then (⊤ : EReal) else d (ix2 p l) := by
  rw [keepdims_apply, laneMin_apply]
  refine Finset.inf_congr rfl fun l _ => ?_
  show Scalar.select (m (ix2 p l)) (Ideal.ofBits .f32 0x7F800000#32) (d (ix2 p l)) = _
  rw [HardMine.posInf_word]
  rfl

/-! ## The six block reductions that are kept as values -/

/-- Block hardest negative of the first same-family distances. -/
theorem hardestNeg1_entry (m : IVec S512x2048 1) (d : FVec Ideal S512x2048 .f32) (p : Fin 512) :
    k0_pay36 (F := Ideal) m d (ix2 p (0 : Fin 1))
      = Finset.univ.inf fun l : Fin 2048 => if m (ix2 p l) = 1#1 then (⊤ : EReal) else d (ix2 p l) := by
  unfold k0_pay36
  exact maskedLaneMin_entry m d p

/-- Block hardest negative of the second same-family distances. -/
theorem hardestNeg2_entry (m : IVec S512x2048 1) (d : FVec Ideal S512x2048 .f32) (p : Fin 512) :
    k0_pay37 (F := Ideal) m d (ix2 p (0 : Fin 1))
      = Finset.univ.inf fun l : Fin 2048 => if m (ix2 p l) = 1#1 then (⊤ : EReal) else d (ix2 p l) := by
  unfold k0_pay37
  exact maskedLaneMin_entry m d p

/-- Block hardest positive of the first cross-family distances. -/
theorem hardestPos3_entry (m : IVec S512x2048 1) (d : FVec Ideal S512x2048 .f32) (p : Fin 512) :
    k0_pay38 (F := Ideal) m d (ix2 p (0 : Fin 1))
      = Finset.univ.sup fun l : Fin 2048 => if m (ix2 p l) = 1#1 then d (ix2 p l) else (⊥ : EReal) := by
  unfold k0_pay38
  exact maskedLaneMax_entry m d p

/-- Block hardest negative of the first cross-family distances. -/
theorem hardestNeg3_entry (m : IVec S512x2048 1) (d : FVec Ideal S512x2048 .f32) (p : Fin 512) :
    k0_pay39 (F := Ideal) m d (ix2 p (0 : Fin 1))
      = Finset.univ.inf fun l : Fin 2048 => if m (ix2 p l) = 1#1 then (⊤ : EReal) else d (ix2 p l) := by
  unfold k0_pay39
  exact maskedLaneMin_entry m d p

/-- Block hardest positive of the second cross-family distances. -/
theorem hardestPos4_entry (m : IVec S512x2048 1) (d : FVec Ideal S512x2048 .f32) (p : Fin 512) :
    k0_pay40 (F := Ideal) m d (ix2 p (0 : Fin 1))
      = Finset.univ.sup fun l : Fin 2048 => if m (ix2 p l) = 1#1 then d (ix2 p l) else (⊥ : EReal) := by
  unfold k0_pay40
  exact maskedLaneMax_entry m d p

/-- Block hardest negative of the second cross-family distances. -/
theorem hardestNeg4_entry (m : IVec S512x2048 1) (d : FVec Ideal S512x2048 .f32) (p : Fin 512) :
    k0_pay41 (F := Ideal) m d (ix2 p (0 : Fin 1))
      = Finset.univ.inf fun l : Fin 2048 => if m (ix2 p l) = 1#1 then (⊤ : EReal) else d (ix2 p l) := by
  unfold k0_pay41
  exact maskedLaneMin_entry m d p

/-! ## The same six, with the label mask written out -/

section Labels
variable (ti : Vec Ideal S512x1 .i32) (tj : Vec Ideal S1x2048 .i32) (d : FVec Ideal S512x2048 .f32) (p : Fin 512)

/-- A masked supremum over the label mask is the supremum over the columns with row p's label. -/
theorem sup_sameLabel :
    (Finset.univ.sup fun l : Fin 2048 => if k0_pay27 (F := Ideal) ti tj (ix2 p l) = 1#1 then d (ix2 p l) else (⊥ : EReal))
      = Finset.univ.sup fun l : Fin 2048 =>
          if ti (ix2 p (0 : Fin 1)) = tj (ix2 (0 : Fin 1) l) then d (ix2 p l) else (⊥ : EReal) :=
  Finset.sup_congr rfl fun l _ => if_congr (sameLabel_iff ti tj p l) rfl rfl

/-- A masked infimum over the label mask is the infimum over the columns with another label. -/
theorem inf_sameLabel :
    (Finset.univ.inf fun l : Fin 2048 => if k0_pay27 (F := Ideal) ti tj (ix2 p l) = 1#1 then (⊤ : EReal) else d (ix2 p l))
      = Finset.univ.inf fun l : Fin 2048 =>
          if ti (ix2 p (0 : Fin 1)) = tj (ix2 (0 : Fin 1) l) then (⊤ : EReal) else d (ix2 p l) :=
  Finset.inf_congr rfl fun l _ => if_congr (sameLabel_iff ti tj p l) rfl rfl

theorem hardestNeg1_apply :
    k0_pay36 (F := Ideal) (k0_pay27 (F := Ideal) ti tj) d (ix2 p (0 : Fin 1))
      = Finset.univ.inf fun l : Fin 2048 =>
          if ti (ix2 p (0 : Fin 1)) = tj (ix2 (0 : Fin 1) l) then (⊤ : EReal) else d (ix2 p l) :=
  (hardestNeg1_entry _ d p).trans (inf_sameLabel ti tj d p)

theorem hardestNeg2_apply :
    k0_pay37 (F := Ideal) (k0_pay27 (F := Ideal) ti tj) d (ix2 p (0 : Fin 1))
      = Finset.univ.inf fun l : Fin 2048 =>
          if ti (ix2 p (0 : Fin 1)) = tj (ix2 (0 : Fin 1) l) then (⊤ : EReal) else d (ix2 p l) :=
  (hardestNeg2_entry _ d p).trans (inf_sameLabel ti tj d p)

theorem hardestPos3_apply :
    k0_pay38 (F := Ideal) (k0_pay27 (F := Ideal) ti tj) d (ix2 p (0 : Fin 1))
      = Finset.univ.sup fun l : Fin 2048 =>
          if ti (ix2 p (0 : Fin 1)) = tj (ix2 (0 : Fin 1) l) then d (ix2 p l) else (⊥ : EReal) :=
  (hardestPos3_entry _ d p).trans (sup_sameLabel ti tj d p)

theorem hardestNeg3_apply :
    k0_pay39 (F := Ideal) (k0_pay27 (F := Ideal) ti tj) d (ix2 p (0 : Fin 1))
      = Finset.univ.inf fun l : Fin 2048 =>
          if ti (ix2 p (0 : Fin 1)) = tj (ix2 (0 : Fin 1) l) then (⊤ : EReal) else d (ix2 p l) :=
  (hardestNeg3_entry _ d p).trans (inf_sameLabel ti tj d p)

theorem hardestPos4_apply :
    k0_pay40 (F := Ideal) (k0_pay27 (F := Ideal) ti tj) d (ix2 p (0 : Fin 1))
      = Finset.univ.sup fun l : Fin 2048 =>
          if ti (ix2 p (0 : Fin 1)) = tj (ix2 (0 : Fin 1) l) then d (ix2 p l) else (⊥ : EReal) :=
  (hardestPos4_entry _ d p).trans (sup_sameLabel ti tj d p)

theorem hardestNeg4_apply :
    k0_pay41 (F := Ideal) (k0_pay27 (F := Ideal) ti tj) d (ix2 p (0 : Fin 1))
      = Finset.univ.inf fun l : Fin 2048 =>
          if ti (ix2 p (0 : Fin 1)) = tj (ix2 (0 : Fin 1) l) then (⊤ : EReal) else d (ix2 p l) :=
  (hardestNeg4_entry _ d p).trans (inf_sameLabel ti tj d p)

end Labels

/-! ## The two maxima folded into the running value in the same step -/

/-- The first same-family distances with −∞ outside the mask, entry by entry. -/
theorem maskedSameDist1_entry (u : FVec Ideal S512x128 .bf16) (v : FVec Ideal S2048x128 .bf16)
    (si : FVec Ideal S512x1 .f32) (sj : FVec Ideal S1x2048 .f32) (m : IVec S512x2048 1)
    (rid cofs cbase : IVec S512x2048 32) (p : Fin 512) (l : Fin 2048) :
    k0_pay35 (F := Ideal) u v si sj m rid cofs cbase (ix2 p l)
      = if m (ix2 p l) = 1#1 then k0_pay31 (F := Ideal) u v si sj rid cofs cbase (ix2 p l) else (⊥ : EReal) := by
  unfold k0_pay35
  show Scalar.select (m (ix2 p l)) (k0_pay31 (F := Ideal) u v si sj rid cofs cbase (ix2 p l))
      (Ideal.ofBits .f32 0xFF800000#32) = _
  rw [HardMine.negInf_word]
  rfl

/-- A lane maximum kept as a column: the supremum over the row's columns. -/
theorem laneMaxCol_apply (src : FVec Ideal S512x2048 .f32) (p : Fin 512) :
    shapeCast S512x1
        (multiReduction (F := Ideal) .maximumf [1] S512 src 0xFF800000#32 reduces_S512x2048_S512 (.inl rfl) rfl)
        shapeCasts_S512_S512x1 (ix2 p (0 : Fin 1))
      = Finset.univ.sup fun l : Fin 2048 => src (ix2 p l) := by
  rw [keepdims_apply, laneMax_apply]

/-- Running hardest positive of the first same-family distances: the previous value against the
    maximum over the row's columns of an already masked block. -/
theorem runningPos1_entry (dm : FVec Ideal S512x2048 .f32) (prev : Vec Ideal S512x1 .f32) (p : Fin 512) :
    k0_pay42 (F := Ideal) dm prev (ix2 p (0 : Fin 1))
      = max (prev (ix2 p (0 : Fin 1))) (Finset.univ.sup fun l : Fin 2048 => dm (ix2 p l)) := by
  unfold k0_pay42
  rw [shapeCast_self]
  exact congrArg (max (prev (ix2 p (0 : Fin 1)))) (laneMaxCol_apply dm p)

/-- Running hardest positive of the second same-family distances: the previous value against the
    masked maximum over the row's columns. -/
theorem runningPos2_entry (m : IVec S512x2048 1) (d : FVec Ideal S512x2048 .f32) (prev : Vec Ideal S512x1 .f32)
    (p : Fin 512) :
    k0_pay43 (F := Ideal) m d prev (ix2 p (0 : Fin 1))
      = max (prev (ix2 p (0 : Fin 1)))
          (Finset.univ.sup fun l : Fin 2048 => if m (ix2 p l) = 1#1 then d (ix2 p l) else (⊥ : EReal)) := by
  unfold k0_pay43
  exact congrArg (max (prev (ix2 p (0 : Fin 1)))) (maskedLaneMax_entry m d p)

/-- The same with the label mask written out. -/
theorem runningPos2_apply (ti : Vec Ideal S512x1 .i32) (tj : Vec Ideal S1x2048 .i32) (d : FVec Ideal S512x2048 .f32)
    (prev : Vec Ideal S512x1 .f32) (p : Fin 512) :
    k0_pay43 (F := Ideal) (k0_pay27 (F := Ideal) ti tj) d prev (ix2 p (0 : Fin 1))
      = max (prev (ix2 p (0 : Fin 1)))
          (Finset.univ.sup fun l : Fin 2048 =>
            if ti (ix2 p (0 : Fin 1)) = tj (ix2 (0 : Fin 1) l) then d (ix2 p l) else (⊥ : EReal)) :=
  (runningPos2_entry _ d prev p).trans (congrArg (max (prev (ix2 p (0 : Fin 1)))) (sup_sameLabel ti tj d p))

end Cert.KernelIdeal.Payload

end
-- ==== Proof.Payload4.lean ====
/-
  The remaining arithmetic of a grid point: the running values, the resets, the final roots and
  the shape casts that change nothing.

  Across the two column blocks of a row block each of the eight quantities is carried in a
  [512, 1] column: at the first column block it is reset to −∞ (a maximum) or +∞ (a minimum); at
  every column block it becomes max(previous, block value), respectively min(previous, block value);
  at the last column block the extended square root of the carried value is the result.
-/
import proofs.«181479_j36618891166019_2_alg».proof.Proof.Payload1

noncomputable section

open scoped BigOperators

namespace Cert.KernelIdeal.Payload

open Idealize.ShloMosaic Idealize.ShloMosaic.ValueIdx Cert.KernelIdeal Cert.KernelIdeal.Gen

/-! ## Running updates -/

section Running
variable (blk : FVec Ideal S512x1 .f32) (prev : Vec Ideal S512x1 .f32) (j : S512x1.Idx)

/-- Running hardest positive of the first cross-family distances. -/
theorem runningPos3_apply : k0_pay45 (F := Ideal) blk prev j = max (prev j) (blk j) := by
  unfold k0_pay45; rw [shapeCast_self]; rfl

/-- Running hardest positive of the second cross-family distances. -/
theorem runningPos4_apply : k0_pay46 (F := Ideal) blk prev j = max (prev j) (blk j) := by
  unfold k0_pay46; rw [shapeCast_self]; rfl

/-- Running hardest negative of the first same-family distances. -/
theorem runningNeg1_apply : k0_pay47 (F := Ideal) blk prev j = min (prev j) (blk j) := by
  unfold k0_pay47; rw [shapeCast_self]; rfl

/-- Running hardest negative of the second same-family distances. -/
theorem runningNeg2_apply : k0_pay48 (F := Ideal) blk prev j = min (prev j) (blk j) := by
  unfold k0_pay48; rw [shapeCast_self]; rfl

/-- Running hardest negative of the first cross-family distances. -/
theorem runningNeg3_apply : k0_pay49 (F := Ideal) blk prev j = min (prev j) (blk j) := by
  unfold k0_pay49; rw [shapeCast_self]; rfl

/-- Running hardest negative of the second cross-family distances. -/
theorem runningNeg4_apply : k0_pay50 (F := Ideal) blk prev j = min (prev j) (blk j) := rfl

end Running

/-! ## Resets at the first column block -/

section Resets
variable (j : S512x1.Idx)

theorem resetPos1_apply : k0_pay2 (F := Ideal) j = (⊥ : EReal) := by
  unfold k0_pay2; rw [shapeCast_self]; exact HardMine.negInf_word
theorem resetPos2_apply : k0_pay3 (F := Ideal) j = (⊥ : EReal) := by
  unfold k0_pay3; rw [shapeCast_self]; exact HardMine.negInf_word
theorem resetPos3_apply : k0_pay4 (F := Ideal) j = (⊥ : EReal) := by
  unfold k0_pay4; rw [shapeCast_self]; exact HardMine.negInf_word
theorem resetPos4_apply : k0_pay5 (F := Ideal) j = (⊥ : EReal) := by
  unfold k0_pay5; rw [shapeCast_self]; exact HardMine.negInf_word
theorem resetNeg1_apply : k0_pay6 (F := Ideal) j = (⊤ : EReal) := by
  unfold k0_pay6; rw [shapeCast_self]; exact HardMine.posInf_word
theorem resetNeg2_apply : k0_pay7 (F := Ideal) j = (⊤ : EReal) := by
  unfold k0_pay7; rw [shapeCast_self]; exact HardMine.posInf_word
theorem resetNeg3_apply : k0_pay8 (F := Ideal) j = (⊤ : EReal) := by
  unfold k0_pay8; rw [shapeCast_self]; exact HardMine.posInf_word
theorem resetNeg4_apply : k0_pay9 (F := Ideal) j = (⊤ : EReal) := HardMine.posInf_word

end Resets

/-! ## Roots at the last column block -/

section Roots
variable (acc : Vec Ideal S512x1 .f32) (j : S512x1.Idx)

theorem rootPos1_apply : k0_pay10 (F := Ideal) acc j = Ideal.sqrt (acc j) := rfl
theorem rootPos2_apply : k0_pay11 (F := Ideal) acc j = Ideal.sqrt (acc j) := rfl
theorem rootPos3_apply : k0_pay12 (F := Ideal) acc j = Ideal.sqrt (acc j) := rfl
theorem rootPos4_apply : k0_pay13 (F := Ideal) acc j = Ideal.sqrt (acc j) := rfl
theorem rootNeg1_apply : k0_pay14 (F := Ideal) acc j = Ideal.sqrt (acc j) := rfl
theorem rootNeg2_apply : k0_pay15 (F := Ideal) acc j = Ideal.sqrt (acc j) := rfl
theorem rootNeg3_apply : k0_pay16 (F := Ideal) acc j = Ideal.sqrt (acc j) := rfl
theorem rootNeg4_apply : k0_pay17 (F := Ideal) acc j = Ideal.sqrt (acc j) := rfl

end Roots

/-! ## Shape casts to the same shape -/

theorem storedNeg4_eq (v : FVec Ideal S512x1 .f32) : k0_pay1 (F := Ideal) v = v := shapeCast_self v _
theorem storedResetNeg4_eq (v : FVec Ideal S512x1 .f32) : k0_pay18 (F := Ideal) v = v := shapeCast_self v _
theorem rows1_eq (v : Vec Ideal S512x128 .bf16) : k0_pay19 (F := Ideal) v = v := shapeCast_self v _
theorem rows2_eq (v : Vec Ideal S512x128 .bf16) : k0_pay20 (F := Ideal) v = v := shapeCast_self v _
theorem cols1_eq (v : Vec Ideal S2048x128 .bf16) : k0_pay21 (F := Ideal) v = v := shapeCast_self v _
theorem cols2_eq (v : Vec Ideal S2048x128 .bf16) : k0_pay22 (F := Ideal) v = v := shapeCast_self v _
theorem rowNorms1_eq (v : Vec Ideal S512x1 .f32) : k0_pay23 (F := Ideal) v = v := shapeCast_self v _
theorem colNorms1_eq (v : Vec Ideal S1x2048 .f32) : k0_pay24 (F := Ideal) v = v := shapeCast_self v _
theorem rowNorms2_eq (v : Vec Ideal S512x1 .f32) : k0_pay25 (F := Ideal) v = v := shapeCast_self v _
theorem colNorms2_eq (v : Vec Ideal S1x2048 .f32) : k0_pay26 (F := Ideal) v = v := shapeCast_self v _
theorem storedPos2_eq (v : FVec Ideal S512x1 .f32) : k0_pay44 (F := Ideal) v = v := shapeCast_self v _

end Cert.KernelIdeal.Payload

end
-- ==== Proof.Payload.lean ====
/-
  The kernel body's arithmetic at the extended reals, index by index: the entry-level vocabulary
  (identifiers, layouts, the product of row blocks, lane reductions), the four squared-distance
  blocks, the masked lane maxima and minima, and the running values, resets, roots and casts.
-/
import proofs.«181479_j36618891166019_2_alg».proof.Proof.Payload1
import proofs.«181479_j36618891166019_2_alg».proof.Proof.Payload2
import proofs.«181479_j36618891166019_2_alg».proof.Proof.Payload3
import proofs.«181479_j36618891166019_2_alg».proof.Proof.Payload4
-- ==== Proof.KernelPointSteps.lean ====
/-
  One fold step of each of the eight running extrema, read at a row of the block, in the
  specification's terms.

  Let the ten input blocks of a grid point read, entry by entry, two row families A and B of the
  whole arrays: rows r of A and B (the block's row p), rows cl l of A and B (the block's column l),
  their squared norms, and the labels tg r and tg (cl l). Then at row p a step is
      max(previous, sup over l of (tg r = tg (cl l) ? D(r, cl l) : −∞))     (a hardest positive)
      min(previous, inf over l of (tg r = tg (cl l) ? +∞ : D(r, cl l)))     (a hardest negative)
  with D the clipped squared distance of the step's pairing of families; for a family paired with
  itself D is replaced by the clip constant where r = cl l, which is what the comparison of row and
  column numbers decides.
-/
import proofs.«181479_j36618891166019_2_alg».proof.Proof.Payload

noncomputable section

open scoped BigOperators

namespace Cert.KernelIdeal.Region

open Idealize.ShloMosaic Idealize.ShloMosaic.ValueIdx Cert.KernelIdeal Cert.KernelIdeal.Gen Cert.KernelIdeal.Payload
open Cert.HardMine (sq dot D)

/-! ## The clipped squared distance of an entry, from the blocks' entries -/

/-- If the blocks read rows r and c of the families X and Y and their squared norms, the clipped
    combination at the entry is the specification's clipped squared distance. -/
theorem dist_eq_D (u : Vec Ideal S512x128 .bf16) (v : Vec Ideal S2048x128 .bf16)
    (si : Vec Ideal S512x1 .f32) (sj : Vec Ideal S1x2048 .f32) (p : Fin 512) (l : Fin 2048)
    (X Y : Fin 4096 → Fin 128 → EReal) (r c : Fin 4096)
    (hu : ∀ k, u (ix2 p k) = X r k) (hv : ∀ k, v (ix2 l k) = Y c k)
    (hsi : si (ix2 p (0 : Fin 1)) = sq X r) (hsj : sj (ix2 (0 : Fin 1) l) = sq Y c) :
    max clip ((si (ix2 p (0 : Fin 1)) + sj (ix2 (0 : Fin 1) l)) - 2 * ∑ k : Fin 128, u (ix2 p k) * v (ix2 l k))
      = D clip X Y r c := by
  rw [hsi, hsj]
  unfold D dot
  refine congrArg (fun z => max clip ((sq X r + sq Y c) - 2 * z)) ?_
  exact Finset.sum_congr rfl fun k _ => by rw [hu k, hv k]

section Steps

variable (i : grid0.Coords)
  (x0 x1 : Vec Ideal S512x128 .bf16) (x2 x3 : Vec Ideal S2048x128 .bf16)
  (x4 : Vec Ideal S512x1 .f32) (x5 : Vec Ideal S1x2048 .f32) (x6 : Vec Ideal S512x1 .f32) (x7 : Vec Ideal S1x2048 .f32)
  (x8 : Vec Ideal S512x1 .i32) (x9 : Vec Ideal S1x2048 .i32) (acc : Vec Ideal S512x1 .f32) (p : Fin 512)
  (A B : Fin 4096 → Fin 128 → EReal) (tg : Fin 4096 → BitVec 32) (r : Fin 4096) (cl : Fin 2048 → Fin 4096)

/-! ## The cross pairings -/

/-- Hardest positive, first family's rows against the second's. -/
theorem stepPosAB
    (h0 : ∀ k, x0 (ix2 p k) = A r k) (h3 : ∀ l k, x3 (ix2 l k) = B (cl l) k)
    (h4 : x4 (ix2 p (0 : Fin 1)) = sq A r) (h7 : ∀ l, x7 (ix2 (0 : Fin 1) l) = sq B (cl l))
    (h8 : x8 (ix2 p (0 : Fin 1)) = tg r) (h9 : ∀ l, x9 (ix2 (0 : Fin 1) l) = tg (cl l)) :
    k0_pay45 (F := Ideal) (k0_pay38 (F := Ideal) (k0_pay27 (F := Ideal) x8 x9)
        (k0_pay33 (F := Ideal) (k0_pay19 (F := Ideal) x0) (k0_pay22 (F := Ideal) x3) (k0_pay23 (F := Ideal) x4) (k0_pay26 (F := Ideal) x7)))
        acc (ix2 p (0 : Fin 1))
      = max (acc (ix2 p (0 : Fin 1)))
          (Finset.univ.sup fun l : Fin 2048 => if tg r = tg (cl l) then D clip A B r (cl l) else (⊥ : EReal)) := by
  refine (runningPos3_apply _ acc (ix2 p (0 : Fin 1))).trans ?_
  refine congrArg (max (acc (ix2 p (0 : Fin 1)))) ?_
  refine (hardestPos3_apply x8 x9 _ p).trans ?_
  refine Finset.sup_congr rfl fun l _ => ?_
  rw [h8, h9 l]
  refine congrArg (fun z => if tg r = tg (cl l) then z else (⊥ : EReal)) ?_
  rw [rows1_eq, cols2_eq, rowNorms1_eq, colNorms2_eq]
  exact (crossDist12_apply x0 x3 x4 x7 p l).trans (dist_eq_D x0 x3 x4 x7 p l A B r (cl l) h0 (h3 l) h4 (h7 l))

/-- Hardest negative, first family's rows against the second's. -/
theorem stepNegAB
    (h0 : ∀ k, x0 (ix2 p k) = A r k) (h3 : ∀ l k, x3 (ix2 l k) = B (cl l) k)
    (h4 : x4 (ix2 p (0 : Fin 1)) = sq A r) (h7 : ∀ l, x7 (ix2 (0 : Fin 1) l) = sq B (cl l))
    (h8 : x8 (ix2 p (0 : Fin 1)) = tg r) (h9 : ∀ l, x9 (ix2 (0 : Fin 1) l) = tg (cl l)) :
    k0_pay49 (F := Ideal) (k0_pay39 (F := Ideal) (k0_pay27 (F := Ideal) x8 x9)
        (k0_pay33 (F := Ideal) (k0_pay19 (F := Ideal) x0) (k0_pay22 (F := Ideal) x3) (k0_pay23 (F := Ideal) x4) (k0_pay26 (F := Ideal) x7)))
        acc (ix2 p (0 : Fin 1))
      = min (acc (ix2 p (0 : Fin 1)))
          (Finset.univ.inf fun l : Fin 2048 => if tg r = tg (cl l) then (⊤ : EReal) else D clip A B r (cl l)) := by
  refine (runningNeg3_apply _ acc (ix2 p (0 : Fin 1))).trans ?_
  refine congrArg (min (acc (ix2 p (0 : Fin 1)))) ?_
  refine (hardestNeg3_apply x8 x9 _ p).trans ?_
  refine Finset.inf_congr rfl fun l _ => ?_
  rw [h8, h9 l]
  refine congrArg (fun z => if tg r = tg (cl l) then (⊤ : EReal) else z) ?_
  rw [rows1_eq, cols2_eq, rowNorms1_eq, colNorms2_eq]
  exact (crossDist12_apply x0 x3 x4 x7 p l).trans (dist_eq_D x0 x3 x4 x7 p l A B r (cl l) h0 (h3 l) h4 (h7 l))

/-- Hardest positive, second family's rows against the first's. -/
theorem stepPosBA
    (h1 : ∀ k, x1 (ix2 p k) = B r k) (h2 : ∀ l k, x2 (ix2 l k) = A (cl l) k)
    (h6 : x6 (ix2 p (0 : Fin 1)) = sq B r) (h5 : ∀ l, x5 (ix2 (0 : Fin 1) l) = sq A (cl l))
    (h8 : x8 (ix2 p (0 : Fin 1)) = tg r) (h9 : ∀ l, x9 (ix2 (0 : Fin 1) l) = tg (cl l)) :
    k0_pay46 (F := Ideal) (k0_pay40 (F := Ideal) (k0_pay27 (F := Ideal) x8 x9)
        (k0_pay34 (F := Ideal) (k0_pay20 (F := Ideal) x1) (k0_pay21 (F := Ideal) x2) (k0_pay24 (F := Ideal) x5) (k0_pay25 (F := Ideal) x6)))
        acc (ix2 p (0 : Fin 1))
      = max (acc (ix2 p (0 : Fin 1)))
          (Finset.univ.sup fun l : Fin 2048 => if tg r = tg (cl l) then D clip B A r (cl l) else (⊥ : EReal)) := by
  refine (runningPos4_apply _ acc (ix2 p (0 : Fin 1))).trans ?_
  refine congrArg (max (acc (ix2 p (0 : Fin 1)))) ?_
  refine (hardestPos4_apply x8 x9 _ p).trans ?_
  refine Finset.sup_congr rfl fun l _ => ?_
  rw [h8, h9 l]
  refine congrArg (fun z => if tg r = tg (cl l) then z else (⊥ : EReal)) ?_
  rw [rows2_eq, cols1_eq, colNorms1_eq, rowNorms2_eq]
  exact (crossDist21_apply x1 x2 x5 x6 p l).trans (dist_eq_D x1 x2 x6 x5 p l B A r (cl l) h1 (h2 l) h6 (h5 l))

/-- Hardest negative, second family's rows against the first's; the value is stored through a cast
    that changes nothing. -/
theorem stepNegBA
    (h1 : ∀ k, x1 (ix2 p k) = B r k) (h2 : ∀ l k, x2 (ix2 l k) = A (cl l) k)
    (h6 : x6 (ix2 p (0 : Fin 1)) = sq B r) (h5 : ∀ l, x5 (ix2 (0 : Fin 1) l) = sq A (cl l))
    (h8 : x8 (ix2 p (0 : Fin 1)) = tg r) (h9 : ∀ l, x9 (ix2 (0 : Fin 1) l) = tg (cl l)) :
    k0_pay1 (F := Ideal) (k0_pay50 (F := Ideal) (k0_pay41 (F := Ideal) (k0_pay27 (F := Ideal) x8 x9)
        (k0_pay34 (F := Ideal) (k0_pay20 (F := Ideal) x1) (k0_pay21 (F := Ideal) x2) (k0_pay24 (F := Ideal) x5) (k0_pay25 (F := Ideal) x6)))
        acc) (ix2 p (0 : Fin 1))
      = min (acc (ix2 p (0 : Fin 1)))
          (Finset.univ.inf fun l : Fin 2048 => if tg r = tg (cl l) then (⊤ : EReal) else D clip B A r (cl l)) := by
  rw [storedNeg4_eq]
  refine (runningNeg4_apply _ acc (ix2 p (0 : Fin 1))).trans ?_
  refine congrArg (min (acc (ix2 p (0 : Fin 1)))) ?_
  refine (hardestNeg4_apply x8 x9 _ p).trans ?_
  refine Finset.inf_congr rfl fun l _ => ?_
  rw [h8, h9 l]
  refine congrArg (fun z => if tg r = tg (cl l) then (⊤ : EReal) else z) ?_
  rw [rows2_eq, cols1_eq, colNorms1_eq, rowNorms2_eq]
  exact (crossDist21_apply x1 x2 x5 x6 p l).trans (dist_eq_D x1 x2 x6 x5 p l B A r (cl l) h1 (h2 l) h6 (h5 l))

/-! ## A family paired with itself -/

/-- Hardest positive of the first family against itself. -/
theorem stepPosAA
    (h0 : ∀ k, x0 (ix2 p k) = A r k) (h2 : ∀ l k, x2 (ix2 l k) = A (cl l) k)
    (h4 : x4 (ix2 p (0 : Fin 1)) = sq A r) (h5 : ∀ l, x5 (ix2 (0 : Fin 1) l) = sq A (cl l))
    (h8 : x8 (ix2 p (0 : Fin 1)) = tg r) (h9 : ∀ l, x9 (ix2 (0 : Fin 1) l) = tg (cl l))
    (hd : ∀ l : Fin 2048, 512 * (i 0).val + p.val = 2048 * (i 1).val + l.val ↔ r = cl l) :
    k0_pay42 (F := Ideal)
        (k0_pay35 (F := Ideal) (k0_pay19 (F := Ideal) x0) (k0_pay21 (F := Ideal) x2) (k0_pay23 (F := Ideal) x4) (k0_pay24 (F := Ideal) x5)
          (k0_pay27 (F := Ideal) x8 x9) (k0_pay28 i) (iota .tc S512x2048 32 [1] iota_S512x2048_d1_w32) (k0_pay29 i))
        acc (ix2 p (0 : Fin 1))
      = max (acc (ix2 p (0 : Fin 1)))
          (Finset.univ.sup fun l : Fin 2048 =>
            if tg r = tg (cl l) then (if r = cl l then clip else D clip A A r (cl l)) else (⊥ : EReal)) := by
  refine (runningPos1_entry _ acc p).trans ?_
  refine congrArg (max (acc (ix2 p (0 : Fin 1)))) ?_
  refine Finset.sup_congr rfl fun l _ => ?_
  refine (maskedSameDist1_entry _ _ _ _ _ _ _ _ p l).trans ?_
  refine (if_congr (sameLabel_iff x8 x9 p l) rfl rfl).trans ?_
  rw [h8, h9 l]
  refine congrArg (fun z => if tg r = tg (cl l) then z else (⊥ : EReal)) ?_
  rw [rows1_eq, cols1_eq, rowNorms1_eq, colNorms1_eq]
  refine (sameDist1_apply x0 x2 x4 x5 i p l).trans ?_
  exact if_congr (hd l) rfl (dist_eq_D x0 x2 x4 x5 p l A A r (cl l) h0 (h2 l) h4 (h5 l))

/-- Hardest negative of the first family against itself. -/
theorem stepNegAA
    (h0 : ∀ k, x0 (ix2 p k) = A r k) (h2 : ∀ l k, x2 (ix2 l k) = A (cl l) k)
    (h4 : x4 (ix2 p (0 : Fin 1)) = sq A r) (h5 : ∀ l, x5 (ix2 (0 : Fin 1) l) = sq A (cl l))
    (h8 : x8 (ix2 p (0 : Fin 1)) = tg r) (h9 : ∀ l, x9 (ix2 (0 : Fin 1) l) = tg (cl l))
    (hd : ∀ l : Fin 2048, 512 * (i 0).val + p.val = 2048 * (i 1).val + l.val ↔ r = cl l) :
    k0_pay47 (F := Ideal) (k0_pay36 (F := Ideal) (k0_pay27 (F := Ideal) x8 x9)
        (k0_pay31 (F := Ideal) (k0_pay19 (F := Ideal) x0) (k0_pay21 (F := Ideal) x2) (k0_pay23 (F := Ideal) x4) (k0_pay24 (F := Ideal) x5)
          (k0_pay28 i) (iota .tc S512x2048 32 [1] iota_S512x2048_d1_w32) (k0_pay29 i)))
        acc (ix2 p (0 : Fin 1))
      = min (acc (ix2 p (0 : Fin 1)))
          (Finset.univ.inf fun l : Fin 2048 =>
            if tg r = tg (cl l) then (⊤ : EReal) else (if r = cl l then clip else D clip A A r (cl l))) := by
  refine (runningNeg1_apply _ acc (ix2 p (0 : Fin 1))).trans ?_
  refine congrArg (min (acc (ix2 p (0 : Fin 1)))) ?_
  refine (hardestNeg1_apply x8 x9 _ p).trans ?_
  refine Finset.inf_congr rfl fun l _ => ?_
  rw [h8, h9 l]
  refine congrArg (fun z => if tg r = tg (cl l) then (⊤ : EReal) else z) ?_
  rw [rows1_eq, cols1_eq, rowNorms1_eq, colNorms1_eq]
  refine (sameDist1_apply x0 x2 x4 x5 i p l).trans ?_
  exact if_congr (hd l) rfl (dist_eq_D x0 x2 x4 x5 p l A A r (cl l) h0 (h2 l) h4 (h5 l))

/-- Hardest positive of the second family against itself; stored through a cast that changes nothing. -/
theorem stepPosBB
    (h1 : ∀ k, x1 (ix2 p k) = B r k) (h3 : ∀ l k, x3 (ix2 l k) = B (cl l) k)
    (h6 : x6 (ix2 p (0 : Fin 1)) = sq B r) (h7 : ∀ l, x7 (ix2 (0 : Fin 1) l) = sq B (cl l))
    (h8 : x8 (ix2 p (0 : Fin 1)) = tg r) (h9 : ∀ l, x9 (ix2 (0 : Fin 1) l) = tg (cl l))
    (hd : ∀ l : Fin 2048, 512 * (i 0).val + p.val = 2048 * (i 1).val + l.val ↔ r = cl l) :
    k0_pay44 (F := Ideal) (k0_pay43 (F := Ideal) (k0_pay27 (F := Ideal) x8 x9)
        (k0_pay32 (F := Ideal) (k0_pay20 (F := Ideal) x1) (k0_pay22 (F := Ideal) x3) (k0_pay25 (F := Ideal) x6) (k0_pay26 (F := Ideal) x7)
          (k0_pay28 i) (iota .tc S512x2048 32 [1] iota_S512x2048_d1_w32) (k0_pay29 i))
        acc) (ix2 p (0 : Fin 1))
      = max (acc (ix2 p (0 : Fin 1)))
          (Finset.univ.sup fun l : Fin 2048 =>
            if tg r = tg (cl l) then (if r = cl l then clip else D clip B B r (cl l)) else (⊥ : EReal)) := by
  rw [storedPos2_eq]
  refine (runningPos2_apply x8 x9 _ acc p).trans ?_
  refine congrArg (max (acc (ix2 p (0 : Fin 1)))) ?_
  refine Finset.sup_congr rfl fun l _ => ?_
  rw [h8, h9 l]
  refine congrArg (fun z => if tg r = tg (cl l) then z else (⊥ : EReal)) ?_
  rw [rows2_eq, cols2_eq, rowNorms2_eq, colNorms2_eq]
  refine (sameDist2_apply x1 x3 x6 x7 i p l).trans ?_
  exact if_congr (hd l) rfl (dist_eq_D x1 x3 x6 x7 p l B B r (cl l) h1 (h3 l) h6 (h7 l))

/-- Hardest negative of the second family against itself. -/
theorem stepNegBB
    (h1 : ∀ k, x1 (ix2 p k) = B r k) (h3 : ∀ l k, x3 (ix2 l k) = B (cl l) k)
    (h6 : x6 (ix2 p (0 : Fin 1)) = sq B r) (h7 : ∀ l, x7 (ix2 (0 : Fin 1) l) = sq B (cl l))
    (h8 : x8 (ix2 p (0 : Fin 1)) = tg r) (h9 : ∀ l, x9 (ix2 (0 : Fin 1) l) = tg (cl l))
    (hd : ∀ l : Fin 2048, 512 * (i 0).val + p.val = 2048 * (i 1).val + l.val ↔ r = cl l) :
    k0_pay48 (F := Ideal) (k0_pay37 (F := Ideal) (k0_pay27 (F := Ideal) x8 x9)
        (k0_pay32 (F := Ideal) (k0_pay20 (F := Ideal) x1) (k0_pay22 (F := Ideal) x3) (k0_pay25 (F := Ideal) x6) (k0_pay26 (F := Ideal) x7)
          (k0_pay28 i) (iota .tc S512x2048 32 [1] iota_S512x2048_d1_w32) (k0_pay29 i)))
        acc (ix2 p (0 : Fin 1))
      = min (acc (ix2 p (0 : Fin 1)))
          (Finset.univ.inf fun l : Fin 2048 =>
            if tg r = tg (cl l) then (⊤ : EReal) else (if r = cl l then clip else D clip B B r (cl l))) := by
  refine (runningNeg2_apply _ acc (ix2 p (0 : Fin 1))).trans ?_
  refine congrArg (min (acc (ix2 p (0 : Fin 1)))) ?_
  refine (hardestNeg2_apply x8 x9 _ p).trans ?_
  refine Finset.inf_congr rfl fun l _ => ?_
  rw [h8, h9 l]
  refine congrArg (fun z => if tg r = tg (cl l) then (⊤ : EReal) else z) ?_
  rw [rows2_eq, cols2_eq, rowNorms2_eq, colNorms2_eq]
  refine (sameDist2_apply x1 x3 x6 x7 i p l).trans ?_
  exact if_congr (hd l) rfl (dist_eq_D x1 x3 x6 x7 p l B B r (cl l) h1 (h3 l) h6 (h7 l))

end Steps

end Cert.KernelIdeal.Region

end
-- ==== Proof.RegionValues.lean ====
/-
  The values the kernel body leaves behind.

  The body keeps eight running extrema, one per [512,1] buffer: four running maxima of masked clipped squared
  distances (one per pairing of the two input arrays) and four running minima of the complementarily masked ones.
  At a point of the first column block it resets each to its neutral constant and folds the block's row reduction
  in; at a point of the last column block it folds the second block's row reduction into what the first left and
  writes the final operation of each running extremum to the matching output.

  This module names the eight fold steps as functions of a point's coordinates, its ten input blocks and the
  carried value, and shows that what each buffer holds after the body is exactly such a step: every buffer is
  stored whole by its last store, so its contents are that store's value, whose loads read the whole input blocks
  (and, for the carried value, the reset constant just stored or the contents the buffer came with).
-/
import proofs.«181479_j36618891166019_2_alg».proof.Proof.RegionCovers
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of a whole [512,1] (or any rank-2) rectangle are zero. -/
theorem hz2 : (![0, 0] : Fin 2 → Nat) = fun _ => 0 := funext fun a => by fin_cases a <;> rfl

/-! ## One fold step per running extremum

At a grid point the body folds this column block's masked row reduction into the running value `acc` of each of
its eight extrema.  The eight steps, as functions of the point's coordinates, the ten input blocks and `acc`: -/

/-- Step 0: first array against itself, diagonal overwritten: the running maximum of the masked clipped squared distances. -/
def stp0 (i : grid0.Coords) (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (acc : Vec F S512x1 .f32) : FVec F S512x1 .f32 :=
  k0_pay42 (k0_pay35 (k0_pay19 x0) (k0_pay21 x2) (k0_pay23 x4) (k0_pay24 x5) (k0_pay27 x8 x9) (k0_pay28 i) (iota .tc S512x2048 32 [1] iota_S512x2048_d1_w32) (k0_pay29 i)) acc

/-- Step 1: second array against itself, diagonal overwritten: the running maximum. -/
def stp1 (i : grid0.Coords) (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (acc : Vec F S512x1 .f32) : FVec F S512x1 .f32 :=
  k0_pay44 (k0_pay43 (k0_pay27 x8 x9) (k0_pay32 (k0_pay20 x1) (k0_pay22 x3) (k0_pay25 x6) (k0_pay26 x7) (k0_pay28 i) (iota .tc S512x2048 32 [1] iota_S512x2048_d1_w32) (k0_pay29 i)) acc)

/-- Step 2: first array against the second: the running maximum. -/
def stp2 (i : grid0.Coords) (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (acc : Vec F S512x1 .f32) : FVec F S512x1 .f32 :=
  k0_pay45 (k0_pay38 (k0_pay27 x8 x9) (k0_pay33 (k0_pay19 x0) (k0_pay22 x3) (k0_pay23 x4) (k0_pay26 x7))) acc

/-- Step 3: second array against the first: the running maximum. -/
def stp3 (i : grid0.Coords) (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (acc : Vec F S512x1 .f32) : FVec F S512x1 .f32 :=
  k0_pay46 (k0_pay40 (k0_pay27 x8 x9) (k0_pay34 (k0_pay20 x1) (k0_pay21 x2) (k0_pay24 x5) (k0_pay25 x6))) acc

/-- Step 4: first array against itself, diagonal overwritten: the running minimum of the complementarily masked clipped squared distances. -/
def stp4 (i : grid0.Coords) (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (acc : Vec F S512x1 .f32) : FVec F S512x1 .f32 :=
  k0_pay47 (k0_pay36 (k0_pay27 x8 x9) (k0_pay31 (k0_pay19 x0) (k0_pay21 x2) (k0_pay23 x4) (k0_pay24 x5) (k0_pay28 i) (iota .tc S512x2048 32 [1] iota_S512x2048_d1_w32) (k0_pay29 i))) acc

/-- Step 5: second array against itself, diagonal overwritten: the running minimum. -/
def stp5 (i : grid0.Coords) (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (acc : Vec F S512x1 .f32) : FVec F S512x1 .f32 :=
  k0_pay48 (k0_pay37 (k0_pay27 x8 x9) (k0_pay32 (k0_pay20 x1) (k0_pay22 x3) (k0_pay25 x6) (k0_pay26 x7) (k0_pay28 i) (iota .tc S512x2048 32 [1] iota_S512x2048_d1_w32) (k0_pay29 i))) acc

/-- Step 6: first array against the second: the running minimum. -/
def stp6 (i : grid0.Coords) (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (acc : Vec F S512x1 .f32) : FVec F S512x1 .f32 :=
  k0_pay49 (k0_pay39 (k0_pay27 x8 x9) (k0_pay33 (k0_pay19 x0) (k0_pay22 x3) (k0_pay23 x4) (k0_pay26 x7))) acc

/-- Step 7: second array against the first: the running minimum. -/
def stp7 (i : grid0.Coords) (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (acc : Vec F S512x1 .f32) : FVec F S512x1 .f32 :=
  k0_pay1 (k0_pay50 (k0_pay41 (k0_pay27 x8 x9) (k0_pay34 (k0_pay20 x1) (k0_pay21 x2) (k0_pay24 x5) (k0_pay25 x6))) acc)

/-! ## What the stored pieces are

Each [512,1] buffer is stored whole, last, by one store; so what it holds after the body is that store's value.
At a point of the first column block the value is the fold step applied to the reset constant (the body has just
stored the constant and reads it back); at a point of the last column block it is the fold step applied to what the
buffer held, and each output receives the square root of its running extremum. -/

theorem canonF0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).1 = stp0 i x0 x1 x2 x3 x4 x5 x6 x7 x8 x9 (k0_pay2 (F := F)) := by
  unfold runFirst stp0
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonF1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.1 = stp1 i x0 x1 x2 x3 x4 x5 x6 x7 x8 x9 (k0_pay3 (F := F)) := by
  unfold runFirst stp1
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonF2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.1 = stp2 i x0 x1 x2 x3 x4 x5 x6 x7 x8 x9 (k0_pay4 (F := F)) := by
  unfold runFirst stp2
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonF3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.1 = stp3 i x0 x1 x2 x3 x4 x5 x6 x7 x8 x9 (k0_pay5 (F := F)) := by
  unfold runFirst stp3
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonF4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.1 = stp4 i x0 x1 x2 x3 x4 x5 x6 x7 x8 x9 (k0_pay6 (F := F)) := by
  unfold runFirst stp4
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonF5 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.1 = stp5 i x0 x1 x2 x3 x4 x5 x6 x7 x8 x9 (k0_pay7 (F := F)) := by
  unfold runFirst stp5
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonF6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.2.1 = stp6 i x0 x1 x2 x3 x4 x5 x6 x7 x8 x9 (k0_pay8 (F := F)) := by
  unfold runFirst stp6
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonF7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : condFirst i) (hc1 : ¬condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9).2.2.2.2.2.2.2.1 = stp7 i x0 x1 x2 x3 x4 x5 x6 x7 x8 x9 (k0_pay18 (k0_pay9 (F := F))) := by
  unfold runFirst stp7
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLO0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).1 = k0_pay10 (stp0 i x0 x1 x2 x3 x4 x5 x6 x7 x8 x9 xs0) := by
  unfold runLast stp0
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLO1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.1 = k0_pay11 (stp1 i x0 x1 x2 x3 x4 x5 x6 x7 x8 x9 xs1) := by
  unfold runLast stp1
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLO2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.1 = k0_pay12 (stp2 i x0 x1 x2 x3 x4 x5 x6 x7 x8 x9 xs2) := by
  unfold runLast stp2
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLO3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.1 = k0_pay13 (stp3 i x0 x1 x2 x3 x4 x5 x6 x7 x8 x9 xs3) := by
  unfold runLast stp3
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLO4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.1 = k0_pay14 (stp4 i x0 x1 x2 x3 x4 x5 x6 x7 x8 x9 xs4) := by
  unfold runLast stp4
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLO5 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.1 = k0_pay15 (stp5 i x0 x1 x2 x3 x4 x5 x6 x7 x8 x9 xs5) := by
  unfold runLast stp5
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLO6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.1 = k0_pay16 (stp6 i x0 x1 x2 x3 x4 x5 x6 x7 x8 x9 xs6) := by
  unfold runLast stp6
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLO7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.1 = k0_pay17 (stp7 i x0 x1 x2 x3 x4 x5 x6 x7 x8 x9 xs7) := by
  unfold runLast stp7
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLS0 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.1 = stp0 i x0 x1 x2 x3 x4 x5 x6 x7 x8 x9 xs0 := by
  unfold runLast stp0
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLS1 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.1 = stp1 i x0 x1 x2 x3 x4 x5 x6 x7 x8 x9 xs1 := by
  unfold runLast stp1
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLS2 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.1 = stp2 i x0 x1 x2 x3 x4 x5 x6 x7 x8 x9 xs2 := by
  unfold runLast stp2
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLS3 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.1 = stp3 i x0 x1 x2 x3 x4 x5 x6 x7 x8 x9 xs3 := by
  unfold runLast stp3
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLS4 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.1 = stp4 i x0 x1 x2 x3 x4 x5 x6 x7 x8 x9 xs4 := by
  unfold runLast stp4
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLS5 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.1 = stp5 i x0 x1 x2 x3 x4 x5 x6 x7 x8 x9 xs5 := by
  unfold runLast stp5
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLS6 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.2.1 = stp6 i x0 x1 x2 x3 x4 x5 x6 x7 x8 x9 xs6 := by
  unfold runLast stp6
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

theorem canonLS7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x1 .f32) (harg6 : arg6.IsWhole) (arg7 : Memref sig .tc .vmem S1x2048 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .i32) (harg10 : arg10.IsWhole) (arg11 : Memref sig .tc .vmem S1x2048 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (arg24 : Memref sig .tc .vmem S512x1 .f32) (harg24 : arg24.IsWhole) (arg25 : Memref sig .tc .vmem S512x1 .f32) (harg25 : arg25.IsWhole) (arg26 : Memref sig .tc .vmem S512x1 .f32) (harg26 : arg26.IsWhole) (arg27 : Memref sig .tc .vmem S512x1 .f32) (harg27 : arg27.IsWhole) (hc0 : ¬condFirst i) (hc1 : condLast i)
    (x0 : Vec F S512x128 .bf16) (x1 : Vec F S512x128 .bf16) (x2 : Vec F S2048x128 .bf16) (x3 : Vec F S2048x128 .bf16) (x4 : Vec F S512x1 .f32) (x5 : Vec F S1x2048 .f32) (x6 : Vec F S512x1 .f32) (x7 : Vec F S1x2048 .f32) (x8 : Vec F S512x1 .i32) (x9 : Vec F S1x2048 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 xs0 xs1 xs2 xs3 xs4 xs5 xs6 xs7).2.2.2.2.2.2.2.2.2.2.2.2.2.2.2.1 = stp7 i x0 x1 x2 x3 x4 x5 x6 x7 x8 x9 xs7 := by
  unfold runLast stp7
  dsimp only
  sl_unfold_words
  rw [View.canon_cons_unit_zero (S := S512x1) hz2]
  simp only [View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S512x128) hz2, View.ld_unit_zero (S := S2048x128) hz2, View.ld_unit_zero (S := S512x1) hz2, View.ld_unit_zero (S := S1x2048) hz2] <;> rfl

/-! ## At the points of the grid -/

variable (V : (c : Dev nD) → (b : Ref sig .tc) → Buf (Elt F) ((c : Thread nD τ).loc b))

/-- Running extremum 0 after an even point: the fold step from the reset constant. -/
theorem sF0_eq (c : Dev nD) (t : Fin cfg0.N) (h0 : t.val % 2 = 0) :
    sF0 V c t h0 = stp0 (grid0.coords t) (iblk V c 0 t) (iblk V c 1 t) (iblk V c 2 t) (iblk V c 3 t) (iblk V c 4 t) (iblk V c 5 t) (iblk V c 6 t) (iblk V c 7 t) (iblk V c 8 t) (iblk V c 9 t) (k0_pay2 (F := F)) := by
  unfold sF0
  exact (View.read_writes_eq_canon VS0 VS0.junk _ (coverF0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))).trans
    (canonF0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))

/-- Running extremum 1 after an even point: the fold step from the reset constant. -/
theorem sF1_eq (c : Dev nD) (t : Fin cfg0.N) (h0 : t.val % 2 = 0) :
    sF1 V c t h0 = stp1 (grid0.coords t) (iblk V c 0 t) (iblk V c 1 t) (iblk V c 2 t) (iblk V c 3 t) (iblk V c 4 t) (iblk V c 5 t) (iblk V c 6 t) (iblk V c 7 t) (iblk V c 8 t) (iblk V c 9 t) (k0_pay3 (F := F)) := by
  unfold sF1
  exact (View.read_writes_eq_canon VS1 VS1.junk _ (coverF1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))).trans
    (canonF1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))

/-- Running extremum 2 after an even point: the fold step from the reset constant. -/
theorem sF2_eq (c : Dev nD) (t : Fin cfg0.N) (h0 : t.val % 2 = 0) :
    sF2 V c t h0 = stp2 (grid0.coords t) (iblk V c 0 t) (iblk V c 1 t) (iblk V c 2 t) (iblk V c 3 t) (iblk V c 4 t) (iblk V c 5 t) (iblk V c 6 t) (iblk V c 7 t) (iblk V c 8 t) (iblk V c 9 t) (k0_pay4 (F := F)) := by
  unfold sF2
  exact (View.read_writes_eq_canon VS2 VS2.junk _ (coverF2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))).trans
    (canonF2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))

/-- Running extremum 3 after an even point: the fold step from the reset constant. -/
theorem sF3_eq (c : Dev nD) (t : Fin cfg0.N) (h0 : t.val % 2 = 0) :
    sF3 V c t h0 = stp3 (grid0.coords t) (iblk V c 0 t) (iblk V c 1 t) (iblk V c 2 t) (iblk V c 3 t) (iblk V c 4 t) (iblk V c 5 t) (iblk V c 6 t) (iblk V c 7 t) (iblk V c 8 t) (iblk V c 9 t) (k0_pay5 (F := F)) := by
  unfold sF3
  exact (View.read_writes_eq_canon VS3 VS3.junk _ (coverF3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))).trans
    (canonF3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))

/-- Running extremum 4 after an even point: the fold step from the reset constant. -/
theorem sF4_eq (c : Dev nD) (t : Fin cfg0.N) (h0 : t.val % 2 = 0) :
    sF4 V c t h0 = stp4 (grid0.coords t) (iblk V c 0 t) (iblk V c 1 t) (iblk V c 2 t) (iblk V c 3 t) (iblk V c 4 t) (iblk V c 5 t) (iblk V c 6 t) (iblk V c 7 t) (iblk V c 8 t) (iblk V c 9 t) (k0_pay6 (F := F)) := by
  unfold sF4
  exact (View.read_writes_eq_canon VS4 VS4.junk _ (coverF4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))).trans
    (canonF4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))

/-- Running extremum 5 after an even point: the fold step from the reset constant. -/
theorem sF5_eq (c : Dev nD) (t : Fin cfg0.N) (h0 : t.val % 2 = 0) :
    sF5 V c t h0 = stp5 (grid0.coords t) (iblk V c 0 t) (iblk V c 1 t) (iblk V c 2 t) (iblk V c 3 t) (iblk V c 4 t) (iblk V c 5 t) (iblk V c 6 t) (iblk V c 7 t) (iblk V c 8 t) (iblk V c 9 t) (k0_pay7 (F := F)) := by
  unfold sF5
  exact (View.read_writes_eq_canon VS5 VS5.junk _ (coverF5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))).trans
    (canonF5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))

/-- Running extremum 6 after an even point: the fold step from the reset constant. -/
theorem sF6_eq (c : Dev nD) (t : Fin cfg0.N) (h0 : t.val % 2 = 0) :
    sF6 V c t h0 = stp6 (grid0.coords t) (iblk V c 0 t) (iblk V c 1 t) (iblk V c 2 t) (iblk V c 3 t) (iblk V c 4 t) (iblk V c 5 t) (iblk V c 6 t) (iblk V c 7 t) (iblk V c 8 t) (iblk V c 9 t) (k0_pay8 (F := F)) := by
  unfold sF6
  exact (View.read_writes_eq_canon VS6 VS6.junk _ (coverF6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))).trans
    (canonF6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))

/-- Running extremum 7 after an even point: the fold step from the reset constant. -/
theorem sF7_eq (c : Dev nD) (t : Fin cfg0.N) (h0 : t.val % 2 = 0) :
    sF7 V c t h0 = stp7 (grid0.coords t) (iblk V c 0 t) (iblk V c 1 t) (iblk V c 2 t) (iblk V c 3 t) (iblk V c 4 t) (iblk V c 5 t) (iblk V c 6 t) (iblk V c 7 t) (iblk V c 8 t) (iblk V c 9 t) (k0_pay18 (k0_pay9 (F := F))) := by
  unfold sF7
  exact (View.read_writes_eq_canon VS7 VS7.junk _ (coverF7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))).trans
    (canonF7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (first_of_even t h0) (notLast_of_even t h0) (iblk V c 0 t) (iblk V c 1 t) (iblk V c 2 t) (iblk V c 3 t) (iblk V c 4 t) (iblk V c 5 t) (iblk V c 6 t) (iblk V c 7 t) (iblk V c 8 t) (iblk V c 9 t))

/-- Running extremum 0 after an odd point: its stored pieces read back. -/
def sL0 (c : Dev nD) (t : Fin cfg0.N) (h1 : t.val % 2 = 1) : Vec F S512x1 .f32 :=
  VS0.read (Elt F) (VS0.writes (Elt F) VS0.junk (RL V c t h1).2.2.2.2.2.2.2.2.1)

/-- It is the fold step from what the even point before left. -/
theorem sL0_eq (c : Dev nD) (t : Fin cfg0.N) (h1 : t.val % 2 = 1) :
    sL0 V c t h1 = stp0 (grid0.coords t) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) := by
  unfold sL0
  exact (View.read_writes_eq_canon VS0 VS0.junk _ (coverL8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLS0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Output 0 after an odd point is the final operation applied to the running extremum. -/
theorem oL0_eq (c : Dev nD) (t : Fin cfg0.N) (h1 : t.val % 2 = 1) :
    oL0 V c t h1 = k0_pay10 (sL0 V c t h1) := by
  rw [sL0_eq]
  unfold oL0
  exact (View.read_writes_eq_canon VO0 VO0.junk _ (coverL0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLO0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Running extremum 1 after an odd point: its stored pieces read back. -/
def sL1 (c : Dev nD) (t : Fin cfg0.N) (h1 : t.val % 2 = 1) : Vec F S512x1 .f32 :=
  VS1.read (Elt F) (VS1.writes (Elt F) VS1.junk (RL V c t h1).2.2.2.2.2.2.2.2.2.1)

/-- It is the fold step from what the even point before left. -/
theorem sL1_eq (c : Dev nD) (t : Fin cfg0.N) (h1 : t.val % 2 = 1) :
    sL1 V c t h1 = stp1 (grid0.coords t) (iblk V c 0 t) (iblk V c 1 t) (iblk V c 2 t) (iblk V c 3 t) (iblk V c 4 t) (iblk V c 5 t) (iblk V c 6 t) (iblk V c 7 t) (iblk V c 8 t) (iblk V c 9 t) (sF1 V c (predPt t) (predPt_even t h1)) := by
  unfold sL1
  exact (View.read_writes_eq_canon VS1 VS1.junk _ (coverL9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLS1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Output 1 after an odd point is the final operation applied to the running extremum. -/
theorem oL1_eq (c : Dev nD) (t : Fin cfg0.N) (h1 : t.val % 2 = 1) :
    oL1 V c t h1 = k0_pay11 (sL1 V c t h1) := by
  rw [sL1_eq]
  unfold oL1
  exact (View.read_writes_eq_canon VO1 VO1.junk _ (coverL1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLO1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Running extremum 2 after an odd point: its stored pieces read back. -/
def sL2 (c : Dev nD) (t : Fin cfg0.N) (h1 : t.val % 2 = 1) : Vec F S512x1 .f32 :=
  VS2.read (Elt F) (VS2.writes (Elt F) VS2.junk (RL V c t h1).2.2.2.2.2.2.2.2.2.2.1)

/-- It is the fold step from what the even point before left. -/
theorem sL2_eq (c : Dev nD) (t : Fin cfg0.N) (h1 : t.val % 2 = 1) :
    sL2 V c t h1 = stp2 (grid0.coords t) (iblk V c 0 t) (iblk V c 1 t) (iblk V c 2 t) (iblk V c 3 t) (iblk V c 4 t) (iblk V c 5 t) (iblk V c 6 t) (iblk V c 7 t) (iblk V c 8 t) (iblk V c 9 t) (sF2 V c (predPt t) (predPt_even t h1)) := by
  unfold sL2
  exact (View.read_writes_eq_canon VS2 VS2.junk _ (coverL10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLS2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Output 2 after an odd point is the final operation applied to the running extremum. -/
theorem oL2_eq (c : Dev nD) (t : Fin cfg0.N) (h1 : t.val % 2 = 1) :
    oL2 V c t h1 = k0_pay12 (sL2 V c t h1) := by
  rw [sL2_eq]
  unfold oL2
  exact (View.read_writes_eq_canon VO2 VO2.junk _ (coverL2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLO2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Running extremum 3 after an odd point: its stored pieces read back. -/
def sL3 (c : Dev nD) (t : Fin cfg0.N) (h1 : t.val % 2 = 1) : Vec F S512x1 .f32 :=
  VS3.read (Elt F) (VS3.writes (Elt F) VS3.junk (RL V c t h1).2.2.2.2.2.2.2.2.2.2.2.1)

/-- It is the fold step from what the even point before left. -/
theorem sL3_eq (c : Dev nD) (t : Fin cfg0.N) (h1 : t.val % 2 = 1) :
    sL3 V c t h1 = stp3 (grid0.coords t) (iblk V c 0 t) (iblk V c 1 t) (iblk V c 2 t) (iblk V c 3 t) (iblk V c 4 t) (iblk V c 5 t) (iblk V c 6 t) (iblk V c 7 t) (iblk V c 8 t) (iblk V c 9 t) (sF3 V c (predPt t) (predPt_even t h1)) := by
  unfold sL3
  exact (View.read_writes_eq_canon VS3 VS3.junk _ (coverL11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLS3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Output 3 after an odd point is the final operation applied to the running extremum. -/
theorem oL3_eq (c : Dev nD) (t : Fin cfg0.N) (h1 : t.val % 2 = 1) :
    oL3 V c t h1 = k0_pay13 (sL3 V c t h1) := by
  rw [sL3_eq]
  unfold oL3
  exact (View.read_writes_eq_canon VO3 VO3.junk _ (coverL3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLO3 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Running extremum 4 after an odd point: its stored pieces read back. -/
def sL4 (c : Dev nD) (t : Fin cfg0.N) (h1 : t.val % 2 = 1) : Vec F S512x1 .f32 :=
  VS4.read (Elt F) (VS4.writes (Elt F) VS4.junk (RL V c t h1).2.2.2.2.2.2.2.2.2.2.2.2.1)

/-- It is the fold step from what the even point before left. -/
theorem sL4_eq (c : Dev nD) (t : Fin cfg0.N) (h1 : t.val % 2 = 1) :
    sL4 V c t h1 = stp4 (grid0.coords t) (iblk V c 0 t) (iblk V c 1 t) (iblk V c 2 t) (iblk V c 3 t) (iblk V c 4 t) (iblk V c 5 t) (iblk V c 6 t) (iblk V c 7 t) (iblk V c 8 t) (iblk V c 9 t) (sF4 V c (predPt t) (predPt_even t h1)) := by
  unfold sL4
  exact (View.read_writes_eq_canon VS4 VS4.junk _ (coverL12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLS4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Output 4 after an odd point is the final operation applied to the running extremum. -/
theorem oL4_eq (c : Dev nD) (t : Fin cfg0.N) (h1 : t.val % 2 = 1) :
    oL4 V c t h1 = k0_pay14 (sL4 V c t h1) := by
  rw [sL4_eq]
  unfold oL4
  exact (View.read_writes_eq_canon VO4 VO4.junk _ (coverL4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLO4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Running extremum 5 after an odd point: its stored pieces read back. -/
def sL5 (c : Dev nD) (t : Fin cfg0.N) (h1 : t.val % 2 = 1) : Vec F S512x1 .f32 :=
  VS5.read (Elt F) (VS5.writes (Elt F) VS5.junk (RL V c t h1).2.2.2.2.2.2.2.2.2.2.2.2.2.1)

/-- It is the fold step from what the even point before left. -/
theorem sL5_eq (c : Dev nD) (t : Fin cfg0.N) (h1 : t.val % 2 = 1) :
    sL5 V c t h1 = stp5 (grid0.coords t) (iblk V c 0 t) (iblk V c 1 t) (iblk V c 2 t) (iblk V c 3 t) (iblk V c 4 t) (iblk V c 5 t) (iblk V c 6 t) (iblk V c 7 t) (iblk V c 8 t) (iblk V c 9 t) (sF5 V c (predPt t) (predPt_even t h1)) := by
  unfold sL5
  exact (View.read_writes_eq_canon VS5 VS5.junk _ (coverL13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLS5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Output 5 after an odd point is the final operation applied to the running extremum. -/
theorem oL5_eq (c : Dev nD) (t : Fin cfg0.N) (h1 : t.val % 2 = 1) :
    oL5 V c t h1 = k0_pay15 (sL5 V c t h1) := by
  rw [sL5_eq]
  unfold oL5
  exact (View.read_writes_eq_canon VO5 VO5.junk _ (coverL5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLO5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Running extremum 6 after an odd point: its stored pieces read back. -/
def sL6 (c : Dev nD) (t : Fin cfg0.N) (h1 : t.val % 2 = 1) : Vec F S512x1 .f32 :=
  VS6.read (Elt F) (VS6.writes (Elt F) VS6.junk (RL V c t h1).2.2.2.2.2.2.2.2.2.2.2.2.2.2.1)

/-- It is the fold step from what the even point before left. -/
theorem sL6_eq (c : Dev nD) (t : Fin cfg0.N) (h1 : t.val % 2 = 1) :
    sL6 V c t h1 = stp6 (grid0.coords t) (iblk V c 0 t) (iblk V c 1 t) (iblk V c 2 t) (iblk V c 3 t) (iblk V c 4 t) (iblk V c 5 t) (iblk V c 6 t) (iblk V c 7 t) (iblk V c 8 t) (iblk V c 9 t) (sF6 V c (predPt t) (predPt_even t h1)) := by
  unfold sL6
  exact (View.read_writes_eq_canon VS6 VS6.junk _ (coverL14 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLS6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Output 6 after an odd point is the final operation applied to the running extremum. -/
theorem oL6_eq (c : Dev nD) (t : Fin cfg0.N) (h1 : t.val % 2 = 1) :
    oL6 V c t h1 = k0_pay16 (sL6 V c t h1) := by
  rw [sL6_eq]
  unfold oL6
  exact (View.read_writes_eq_canon VO6 VO6.junk _ (coverL6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLO6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Running extremum 7 after an odd point: its stored pieces read back. -/
def sL7 (c : Dev nD) (t : Fin cfg0.N) (h1 : t.val % 2 = 1) : Vec F S512x1 .f32 :=
  VS7.read (Elt F) (VS7.writes (Elt F) VS7.junk (RL V c t h1).2.2.2.2.2.2.2.2.2.2.2.2.2.2.2.1)

/-- It is the fold step from what the even point before left. -/
theorem sL7_eq (c : Dev nD) (t : Fin cfg0.N) (h1 : t.val % 2 = 1) :
    sL7 V c t h1 = stp7 (grid0.coords t) (iblk V c 0 t) (iblk V c 1 t) (iblk V c 2 t) (iblk V c 3 t) (iblk V c 4 t) (iblk V c 5 t) (iblk V c 6 t) (iblk V c 7 t) (iblk V c 8 t) (iblk V c 9 t) (sF7 V c (predPt t) (predPt_even t h1)) := by
  unfold sL7
  exact (View.read_writes_eq_canon VS7 VS7.junk _ (coverL15 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLS7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

/-- Output 7 after an odd point is the final operation applied to the running extremum. -/
theorem oL7_eq (c : Dev nD) (t : Fin cfg0.N) (h1 : t.val % 2 = 1) :
    oL7 V c t h1 = k0_pay17 (sL7 V c t h1) := by
  rw [sL7_eq]
  unfold oL7
  exact (View.read_writes_eq_canon VO7 VO7.junk _ (coverL7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))).trans
    (canonLO7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) scr7 (Memref.isWhole_whole _) (notFirst_of_odd t h1) (last_of_odd t h1) (iblk V c 0 t) (iblk V c 1 t) (iblk V c 2 t) (iblk V c 3 t) (iblk V c 4 t) (iblk V c 5 t) (iblk V c 6 t) (iblk V c 7 t) (iblk V c 8 t) (iblk V c 9 t) (sF0 V c (predPt t) (predPt_even t h1)) (sF1 V c (predPt t) (predPt_even t h1)) (sF2 V c (predPt t) (predPt_even t h1)) (sF3 V c (predPt t) (predPt_even t h1)) (sF4 V c (predPt t) (predPt_even t h1)) (sF5 V c (predPt t) (predPt_even t h1)) (sF6 V c (predPt t) (predPt_even t h1)) (sF7 V c (predPt t) (predPt_even t h1)))

end Cert.KernelIdeal.Region

end
-- ==== Proof.SpecBridge.lean ====
/-
  The blocked form of the hardest-example vectors equals the specification's.

  A computation that sweeps the 4096 columns in two halves keeps a running maximum (from −∞) of the
  masked clipped squared distances and a running minimum (from +∞) of the complementarily masked ones,
  and takes ONE square root at the end.  Because the root is monotone and fixes −∞ and +∞, and a
  reduction over all columns is the reduction of the two half reductions, that is the row's hardest
  positive (negative) of the specification.

  For a pairing of an array with itself the sweep may also overwrite the diagonal entry (r, r) by the
  clip constant before reducing.  When row r has real entries the unclipped diagonal value is
  s + s − 2 s = 0, so the clipped one IS the clip constant (0 ≤ eps) and the overwrite changes nothing.
-/
import proofs.«181479_j36618891166019_2_alg».proof.Proof.Spec

noncomputable section

open scoped BigOperators

namespace Cert.HardMine

open Idealize.ShloMosaic

/-- One root after the two-half running maximum of masked values `Dk` that agree with the clipped squared
    distances of row `r` is the hardest positive of row `r`. -/
theorem kernel_ap_of (eps : EReal) (x y : Fin 4096 → Fin 128 → EReal) (tg : Fin 4096 → BitVec 32) (r : Fin 4096)
    (Dk : Fin 4096 → EReal) (hDk : ∀ c, Dk c = D eps x y r c) :
    Ideal.sqrt (max (max ⊥ (Finset.univ.sup fun l : Fin 2048 =>
          if tg r = tg ⟨l.val, by omega⟩ then Dk ⟨l.val, by omega⟩ else ⊥))
        (Finset.univ.sup fun l : Fin 2048 =>
          if tg r = tg ⟨2048 + l.val, by omega⟩ then Dk ⟨2048 + l.val, by omega⟩ else ⊥))
      = AP eps x y tg r := by
  refine (congrArg Ideal.sqrt (sup_halves_running fun c : Fin 4096 => if tg r = tg c then Dk c else ⊥).symm).trans ?_
  refine (sqrt_sup_masked Finset.univ (fun c : Fin 4096 => tg r = tg c) Dk).trans ?_
  refine Finset.sup_congr rfl fun c _ => ?_
  rw [hDk c]

/-- One root after the two-half running minimum of complementarily masked values `Dk` that agree with the
    clipped squared distances of row `r` is the hardest negative of row `r`. -/
theorem kernel_an_of (eps : EReal) (x y : Fin 4096 → Fin 128 → EReal) (tg : Fin 4096 → BitVec 32) (r : Fin 4096)
    (Dk : Fin 4096 → EReal) (hDk : ∀ c, Dk c = D eps x y r c) :
    Ideal.sqrt (min (min ⊤ (Finset.univ.inf fun l : Fin 2048 =>
          if tg r = tg ⟨l.val, by omega⟩ then ⊤ else Dk ⟨l.val, by omega⟩))
        (Finset.univ.inf fun l : Fin 2048 =>
          if tg r = tg ⟨2048 + l.val, by omega⟩ then ⊤ else Dk ⟨2048 + l.val, by omega⟩))
      = AN eps x y tg r := by
  refine (congrArg Ideal.sqrt (inf_halves_running fun c : Fin 4096 => if tg r = tg c then ⊤ else Dk c).symm).trans ?_
  refine (sqrt_inf_masked Finset.univ (fun c : Fin 4096 => tg r = tg c) Dk).trans ?_
  refine Finset.inf_congr rfl fun c _ => ?_
  rw [hDk c]

/-- Overwriting the diagonal of a same-array clipped distance by the clip constant changes nothing when the
    row is real and the constant is not negative. -/
theorem diag_fix (eps : EReal) (heps : 0 ≤ eps) (x : Fin 4096 → Fin 128 → EReal) (r : Fin 4096)
    (hx : ∀ k, ∃ t : ℝ, x r k = (t : EReal)) (c : Fin 4096) :
    (if r = c then eps else D eps x x r c) = D eps x x r c := by
  split_ifs with h
  · subst h; exact (diag_eq eps heps x r hx).symm
  · rfl

/-- The cross pairings: the blocked form with the clipped squared distances themselves. -/
theorem kernel_ap_cross (eps : EReal) (x y : Fin 4096 → Fin 128 → EReal) (tg : Fin 4096 → BitVec 32) (r : Fin 4096) :
    Ideal.sqrt (max (max ⊥ (Finset.univ.sup fun l : Fin 2048 =>
          if tg r = tg ⟨l.val, by omega⟩ then D eps x y r ⟨l.val, by omega⟩ else ⊥))
        (Finset.univ.sup fun l : Fin 2048 =>
          if tg r = tg ⟨2048 + l.val, by omega⟩ then D eps x y r ⟨2048 + l.val, by omega⟩ else ⊥))
      = AP eps x y tg r :=
  kernel_ap_of eps x y tg r (D eps x y r) fun _ => rfl

theorem kernel_an_cross (eps : EReal) (x y : Fin 4096 → Fin 128 → EReal) (tg : Fin 4096 → BitVec 32) (r : Fin 4096) :
    Ideal.sqrt (min (min ⊤ (Finset.univ.inf fun l : Fin 2048 =>
          if tg r = tg ⟨l.val, by omega⟩ then ⊤ else D eps x y r ⟨l.val, by omega⟩))
        (Finset.univ.inf fun l : Fin 2048 =>
          if tg r = tg ⟨2048 + l.val, by omega⟩ then ⊤ else D eps x y r ⟨2048 + l.val, by omega⟩))
      = AN eps x y tg r :=
  kernel_an_of eps x y tg r (D eps x y r) fun _ => rfl

/-- The same-array pairings: the blocked form with the diagonal overwritten by the clip constant. -/
theorem kernel_ap_same (eps : EReal) (heps : 0 ≤ eps) (x : Fin 4096 → Fin 128 → EReal) (tg : Fin 4096 → BitVec 32)
    (r : Fin 4096) (hx : ∀ k, ∃ t : ℝ, x r k = (t : EReal)) :
    Ideal.sqrt (max (max ⊥ (Finset.univ.sup fun l : Fin 2048 =>
          if tg r = tg ⟨l.val, by omega⟩ then
            (if r = (⟨l.val, by omega⟩ : Fin 4096) then eps else D eps x x r ⟨l.val, by omega⟩) else ⊥))
        (Finset.univ.sup fun l : Fin 2048 =>
          if tg r = tg ⟨2048 + l.val, by omega⟩ then
            (if r = (⟨2048 + l.val, by omega⟩ : Fin 4096) then eps else D eps x x r ⟨2048 + l.val, by omega⟩) else ⊥))
      = AP eps x x tg r :=
  kernel_ap_of eps x x tg r (fun c => if r = c then eps else D eps x x r c) (diag_fix eps heps x r hx)

theorem kernel_an_same (eps : EReal) (heps : 0 ≤ eps) (x : Fin 4096 → Fin 128 → EReal) (tg : Fin 4096 → BitVec 32)
    (r : Fin 4096) (hx : ∀ k, ∃ t : ℝ, x r k = (t : EReal)) :
    Ideal.sqrt (min (min ⊤ (Finset.univ.inf fun l : Fin 2048 =>
          if tg r = tg ⟨l.val, by omega⟩ then ⊤ else
            (if r = (⟨l.val, by omega⟩ : Fin 4096) then eps else D eps x x r ⟨l.val, by omega⟩)))
        (Finset.univ.inf fun l : Fin 2048 =>
          if tg r = tg ⟨2048 + l.val, by omega⟩ then ⊤ else
            (if r = (⟨2048 + l.val, by omega⟩ : Fin 4096) then eps else D eps x x r ⟨2048 + l.val, by omega⟩)))
      = AN eps x x tg r :=
  kernel_an_of eps x x tg r (fun c => if r = c then eps else D eps x x r c) (diag_fix eps heps x r hx)

end Cert.HardMine

end
-- ==== Proof.KernelPoint.lean ====
/-
  The value each output holds after a point of the last column block, row by row, in the
  specification's terms.

  Point t works on rows 512 (t / 2) + p and columns 2048 (t % 2) + l. An odd point t folds the second
  2048 columns into what the even point t − 1 left, which is the fold of the first 2048 columns into
  the reset value; both points work on the same rows. So after the odd point row p's running maximum
  is max(max(−∞, sup over the first half), sup over the second half), the running minimum likewise,
  and the output is its square root: the row's hardest positive (negative) over all 4096 columns.
-/
import proofs.«181479_j36618891166019_2_alg».proof.Proof.KernelPointSteps
import proofs.«181479_j36618891166019_2_alg».proof.Proof.RegionValues
import proofs.«181479_j36618891166019_2_alg».proof.Proof.RegionBlocks
import proofs.«181479_j36618891166019_2_alg».proof.Proof.SpecBridge
import proofs.«181479_j36618891166019_2_alg».proof.Proof.RegionSeg

set_option maxRecDepth 16384

noncomputable section

open scoped BigOperators

namespace Cert.KernelIdeal.Region

open Cert.KernelIdeal Cert.KernelIdeal.Gen Cert.KernelIdeal.Payload
open Idealize.ShloMosaic Idealize.ShloMosaic.TcCoe
open Idealize.SL Idealize.SL.Sem
open Idealize.ShloMosaic.Pipeline (Dat Cfg Window)
open Idealize.ShloMosaic.ValueIdx
open Cert.HardMine (sq dot D AP AN)

variable (m : (ℓ : Loc nD τ sig) → Buf (Elt Ideal) ℓ)

/-! ## The two row families and the labels -/

/-- The first input's rows. -/
abbrev famA (c : Dev nD) : Fin 4096 → Fin 128 → EReal := fun r j => argA m c (ix2 r j)
/-- The second input's rows. -/
abbrev famB (c : Dev nD) : Fin 4096 → Fin 128 → EReal := fun r j => argB m c (ix2 r j)
/-- The labels. -/
abbrev labels (c : Dev nD) : Fin 4096 → BitVec 32 := fun r => argT m c (ix1 r)

/-! ## The ten input blocks of a point, entry by entry -/

section Blocks
variable (c : Dev nD) (t : Fin cfg0.N)

theorem blk0 (p : Fin 512) (k : Fin 128) :
    (iblk (V1 m) c 0 t : Vec Ideal S512x128 .bf16) (ix2 p k) = famA m c (rowIx t p) k :=
  (iblk0_apply (V1 m) c t p k).trans (W1_v0_ideal m c _)
theorem blk1 (p : Fin 512) (k : Fin 128) :
    (iblk (V1 m) c 1 t : Vec Ideal S512x128 .bf16) (ix2 p k) = famB m c (rowIx t p) k :=
  (iblk1_apply (V1 m) c t p k).trans (W1_v1_ideal m c _)
theorem blk2 (l : Fin 2048) (k : Fin 128) :
    (iblk (V1 m) c 2 t : Vec Ideal S2048x128 .bf16) (ix2 l k) = famA m c (colIx t l) k :=
  (iblk2_apply (V1 m) c t l k).trans (W1_v0_ideal m c _)
theorem blk3 (l : Fin 2048) (k : Fin 128) :
    (iblk (V1 m) c 3 t : Vec Ideal S2048x128 .bf16) (ix2 l k) = famB m c (colIx t l) k :=
  (iblk3_apply (V1 m) c t l k).trans (W1_v1_ideal m c _)
theorem blk4 (p : Fin 512) :
    (iblk (V1 m) c 4 t : Vec Ideal S512x1 .f32) (ix2 p (0 : Fin 1)) = sq (famA m c) (rowIx t p) :=
  (iblk4_apply (V1 m) c t p 0).trans (W1_v6_ideal m c _ _)
theorem blk5 (l : Fin 2048) :
    (iblk (V1 m) c 5 t : Vec Ideal S1x2048 .f32) (ix2 (0 : Fin 1) l) = sq (famA m c) (colIx t l) :=
  (iblk5_apply (V1 m) c t 0 l).trans (W1_v7_ideal m c _ _)
theorem blk6 (p : Fin 512) :
    (iblk (V1 m) c 6 t : Vec Ideal S512x1 .f32) (ix2 p (0 : Fin 1)) = sq (famB m c) (rowIx t p) :=
  (iblk6_apply (V1 m) c t p 0).trans (W1_v8_ideal m c _ _)
theorem blk7 (l : Fin 2048) :
    (iblk (V1 m) c 7 t : Vec Ideal S1x2048 .f32) (ix2 (0 : Fin 1) l) = sq (famB m c) (colIx t l) :=
  (iblk7_apply (V1 m) c t 0 l).trans (W1_v9_ideal m c _ _)
theorem blk8 (p : Fin 512) :
    (iblk (V1 m) c 8 t : Vec Ideal S512x1 .i32) (ix2 p (0 : Fin 1)) = labels m c (rowIx t p) :=
  (iblk8_apply (V1 m) c t p 0).trans (W1_v10_ideal m c _ _)
theorem blk9 (l : Fin 2048) :
    (iblk (V1 m) c 9 t : Vec Ideal S1x2048 .i32) (ix2 (0 : Fin 1) l) = labels m c (colIx t l) :=
  (iblk9_apply (V1 m) c t 0 l).trans (W1_v11_ideal m c _ _)

end Blocks

/-! ## The grid coordinates of a point, and the diagonal -/

theorem coords_val : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)

/-- The row and column numbers of an entry agree exactly when its absolute row is its absolute column. -/
theorem diag_iff (t : Fin cfg0.N) (p : Fin 512) (l : Fin 2048) :
    512 * (grid0.coords t 0).val + p.val = 2048 * (grid0.coords t 1).val + l.val ↔ rowIx t p = colIx t l := by
  obtain ⟨e0, e1⟩ := coords_val t
  rw [e0, e1, Fin.ext_iff, rowIx_val, colIx_val]

/-! ## An odd point and the even point before it -/

section Halves
variable (t : Fin cfg0.N) (h1 : t.val % 2 = 1)
include h1

theorem rowIx_pred (p : Fin 512) : rowIx (predPt t) p = rowIx t p :=
  Fin.ext (by show 512 * ((t.val - 1) / 2) + p.val = 512 * (t.val / 2) + p.val; omega)
theorem colIx_pred (l : Fin 2048) : colIx (predPt t) l = ⟨l.val, by omega⟩ :=
  Fin.ext (by show 2048 * ((t.val - 1) % 2) + l.val = l.val; omega)
theorem colIx_odd (l : Fin 2048) : colIx t l = ⟨2048 + l.val, by omega⟩ :=
  Fin.ext (by show 2048 * (t.val % 2) + l.val = 2048 + l.val; omega)

end Halves

/-! ## A fold step at a point, row by row -/

section PointSteps
variable (c : Dev nD) (t : Fin cfg0.N) (acc : Vec Ideal S512x1 .f32) (p : Fin 512)

/-- Step 0 at point t: first family against itself, hardest positive. -/
theorem stp0_row :
    stp0 (F := Ideal) (grid0.coords t) (iblk (V1 m) c 0 t) (iblk (V1 m) c 1 t) (iblk (V1 m) c 2 t) (iblk (V1 m) c 3 t)
        (iblk (V1 m) c 4 t) (iblk (V1 m) c 5 t) (iblk (V1 m) c 6 t) (iblk (V1 m) c 7 t) (iblk (V1 m) c 8 t) (iblk (V1 m) c 9 t)
        acc (ix2 p (0 : Fin 1))
      = max (acc (ix2 p (0 : Fin 1)))
          (Finset.univ.sup fun l : Fin 2048 =>
            if labels m c (rowIx t p) = labels m c (colIx t l) then
              (if rowIx t p = colIx t l then clip else D clip (famA m c) (famA m c) (rowIx t p) (colIx t l))
            else (⊥ : EReal)) := by
  unfold stp0
  exact stepPosAA (i := grid0.coords t) (x0 := iblk (V1 m) c 0 t) (x2 := iblk (V1 m) c 2 t) (x4 := iblk (V1 m) c 4 t)
    (x5 := iblk (V1 m) c 5 t) (x8 := iblk (V1 m) c 8 t) (x9 := iblk (V1 m) c 9 t) (acc := acc) (p := p)
    (A := famA m c) (tg := labels m c) (r := rowIx t p) (cl := colIx t)
    (fun k => blk0 m c t p k) (fun l k => blk2 m c t l k) (blk4 m c t p) (fun l => blk5 m c t l)
    (blk8 m c t p) (fun l => blk9 m c t l) (fun l => diag_iff t p l)

/-- Step 1 at point t: second family against itself, hardest positive. -/
theorem stp1_row :
    stp1 (F := Ideal) (grid0.coords t) (iblk (V1 m) c 0 t) (iblk (V1 m) c 1 t) (iblk (V1 m) c 2 t) (iblk (V1 m) c 3 t)
        (iblk (V1 m) c 4 t) (iblk (V1 m) c 5 t) (iblk (V1 m) c 6 t) (iblk (V1 m) c 7 t) (iblk (V1 m) c 8 t) (iblk (V1 m) c 9 t)
        acc (ix2 p (0 : Fin 1))
      = max (acc (ix2 p (0 : Fin 1)))
          (Finset.univ.sup fun l : Fin 2048 =>
            if labels m c (rowIx t p) = labels m c (colIx t l) then
              (if rowIx t p = colIx t l then clip else D clip (famB m c) (famB m c) (rowIx t p) (colIx t l))
            else (⊥ : EReal)) := by
  unfold stp1
  exact stepPosBB (i := grid0.coords t) (x1 := iblk (V1 m) c 1 t) (x3 := iblk (V1 m) c 3 t) (x6 := iblk (V1 m) c 6 t)
    (x7 := iblk (V1 m) c 7 t) (x8 := iblk (V1 m) c 8 t) (x9 := iblk (V1 m) c 9 t) (acc := acc) (p := p)
    (B := famB m c) (tg := labels m c) (r := rowIx t p) (cl := colIx t)
    (fun k => blk1 m c t p k) (fun l k => blk3 m c t l k) (blk6 m c t p) (fun l => blk7 m c t l)
    (blk8 m c t p) (fun l => blk9 m c t l) (fun l => diag_iff t p l)

/-- Step 2 at point t: first family against the second, hardest positive. -/
theorem stp2_row :
    stp2 (F := Ideal) (grid0.coords t) (iblk (V1 m) c 0 t) (iblk (V1 m) c 1 t) (iblk (V1 m) c 2 t) (iblk (V1 m) c 3 t)
        (iblk (V1 m) c 4 t) (iblk (V1 m) c 5 t) (iblk (V1 m) c 6 t) (iblk (V1 m) c 7 t) (iblk (V1 m) c 8 t) (iblk (V1 m) c 9 t)
        acc (ix2 p (0 : Fin 1))
      = max (acc (ix2 p (0 : Fin 1)))
          (Finset.univ.sup fun l : Fin 2048 =>
            if labels m c (rowIx t p) = labels m c (colIx t l) then D clip (famA m c) (famB m c) (rowIx t p) (colIx t l)
            else (⊥ : EReal)) := by
  unfold stp2
  exact stepPosAB (x0 := iblk (V1 m) c 0 t) (x3 := iblk (V1 m) c 3 t) (x4 := iblk (V1 m) c 4 t)
    (x7 := iblk (V1 m) c 7 t) (x8 := iblk (V1 m) c 8 t) (x9 := iblk (V1 m) c 9 t) (acc := acc) (p := p)
    (A := famA m c) (B := famB m c) (tg := labels m c) (r := rowIx t p) (cl := colIx t)
    (fun k => blk0 m c t p k) (fun l k => blk3 m c t l k) (blk4 m c t p) (fun l => blk7 m c t l)
    (blk8 m c t p) (fun l => blk9 m c t l)

/-- Step 3 at point t: second family against the first, hardest positive. -/
theorem stp3_row :
    stp3 (F := Ideal) (grid0.coords t) (iblk (V1 m) c 0 t) (iblk (V1 m) c 1 t) (iblk (V1 m) c 2 t) (iblk (V1 m) c 3 t)
        (iblk (V1 m) c 4 t) (iblk (V1 m) c 5 t) (iblk (V1 m) c 6 t) (iblk (V1 m) c 7 t) (iblk (V1 m) c 8 t) (iblk (V1 m) c 9 t)
        acc (ix2 p (0 : Fin 1))
      = max (acc (ix2 p (0 : Fin 1)))
          (Finset.univ.sup fun l : Fin 2048 =>
            if labels m c (rowIx t p) = labels m c (colIx t l) then D clip (famB m c) (famA m c) (rowIx t p) (colIx t l)
            else (⊥ : EReal)) := by
  unfold stp3
  exact stepPosBA (x1 := iblk (V1 m) c 1 t) (x2 := iblk (V1 m) c 2 t) (x5 := iblk (V1 m) c 5 t)
    (x6 := iblk (V1 m) c 6 t) (x8 := iblk (V1 m) c 8 t) (x9 := iblk (V1 m) c 9 t) (acc := acc) (p := p)
    (A := famA m c) (B := famB m c) (tg := labels m c) (r := rowIx t p) (cl := colIx t)
    (fun k => blk1 m c t p k) (fun l k => blk2 m c t l k) (blk6 m c t p) (fun l => blk5 m c t l)
    (blk8 m c t p) (fun l => blk9 m c t l)

/-- Step 4 at point t: first family against itself, hardest negative. -/
theorem stp4_row :
    stp4 (F := Ideal) (grid0.coords t) (iblk (V1 m) c 0 t) (iblk (V1 m) c 1 t) (iblk (V1 m) c 2 t) (iblk (V1 m) c 3 t)
        (iblk (V1 m) c 4 t) (iblk (V1 m) c 5 t) (iblk (V1 m) c 6 t) (iblk (V1 m) c 7 t) (iblk (V1 m) c 8 t) (iblk (V1 m) c 9 t)
        acc (ix2 p (0 : Fin 1))
      = min (acc (ix2 p (0 : Fin 1)))
          (Finset.univ.inf fun l : Fin 2048 =>
            if labels m c (rowIx t p) = labels m c (colIx t l) then (⊤ : EReal)
            else (if rowIx t p = colIx t l then clip else D clip (famA m c) (famA m c) (rowIx t p) (colIx t l))) := by
  unfold stp4
  exact stepNegAA (i := grid0.coords t) (x0 := iblk (V1 m) c 0 t) (x2 := iblk (V1 m) c 2 t) (x4 := iblk (V1 m) c 4 t)
    (x5 := iblk (V1 m) c 5 t) (x8 := iblk (V1 m) c 8 t) (x9 := iblk (V1 m) c 9 t) (acc := acc) (p := p)
    (A := famA m c) (tg := labels m c) (r := rowIx t p) (cl := colIx t)
    (fun k => blk0 m c t p k) (fun l k => blk2 m c t l k) (blk4 m c t p) (fun l => blk5 m c t l)
    (blk8 m c t p) (fun l => blk9 m c t l) (fun l => diag_iff t p l)

/-- Step 5 at point t: second family against itself, hardest negative. -/
theorem stp5_row :
    stp5 (F := Ideal) (grid0.coords t) (iblk (V1 m) c 0 t) (iblk (V1 m) c 1 t) (iblk (V1 m) c 2 t) (iblk (V1 m) c 3 t)
        (iblk (V1 m) c 4 t) (iblk (V1 m) c 5 t) (iblk (V1 m) c 6 t) (iblk (V1 m) c 7 t) (iblk (V1 m) c 8 t) (iblk (V1 m) c 9 t)
        acc (ix2 p (0 : Fin 1))
      = min (acc (ix2 p (0 : Fin 1)))
          (Finset.univ.inf fun l : Fin 2048 =>
            if labels m c (rowIx t p) = labels m c (colIx t l) then (⊤ : EReal)
            else (if rowIx t p = colIx t l then clip else D clip (famB m c) (famB m c) (rowIx t p) (colIx t l))) := by
  unfold stp5
  exact stepNegBB (i := grid0.coords t) (x1 := iblk (V1 m) c 1 t) (x3 := iblk (V1 m) c 3 t) (x6 := iblk (V1 m) c 6 t)
    (x7 := iblk (V1 m) c 7 t) (x8 := iblk (V1 m) c 8 t) (x9 := iblk (V1 m) c 9 t) (acc := acc) (p := p)
    (B := famB m c) (tg := labels m c) (r := rowIx t p) (cl := colIx t)
    (fun k => blk1 m c t p k) (fun l k => blk3 m c t l k) (blk6 m c t p) (fun l => blk7 m c t l)
    (blk8 m c t p) (fun l => blk9 m c t l) (fun l => diag_iff t p l)

/-- Step 6 at point t: first family against the second, hardest negative. -/
theorem stp6_row :
    stp6 (F := Ideal) (grid0.coords t) (iblk (V1 m) c 0 t) (iblk (V1 m) c 1 t) (iblk (V1 m) c 2 t) (iblk (V1 m) c 3 t)
        (iblk (V1 m) c 4 t) (iblk (V1 m) c 5 t) (iblk (V1 m) c 6 t) (iblk (V1 m) c 7 t) (iblk (V1 m) c 8 t) (iblk (V1 m) c 9 t)
        acc (ix2 p (0 : Fin 1))
      = min (acc (ix2 p (0 : Fin 1)))
          (Finset.univ.inf fun l : Fin 2048 =>
            if labels m c (rowIx t p) = labels m c (colIx t l) then (⊤ : EReal)
            else D clip (famA m c) (famB m c) (rowIx t p) (colIx t l)) := by
  unfold stp6
  exact stepNegAB (x0 := iblk (V1 m) c 0 t) (x3 := iblk (V1 m) c 3 t) (x4 := iblk (V1 m) c 4 t)
    (x7 := iblk (V1 m) c 7 t) (x8 := iblk (V1 m) c 8 t) (x9 := iblk (V1 m) c 9 t) (acc := acc) (p := p)
    (A := famA m c) (B := famB m c) (tg := labels m c) (r := rowIx t p) (cl := colIx t)
    (fun k => blk0 m c t p k) (fun l k => blk3 m c t l k) (blk4 m c t p) (fun l => blk7 m c t l)
    (blk8 m c t p) (fun l => blk9 m c t l)

/-- Step 7 at point t: second family against the first, hardest negative. -/
theorem stp7_row :
    stp7 (F := Ideal) (grid0.coords t) (iblk (V1 m) c 0 t) (iblk (V1 m) c 1 t) (iblk (V1 m) c 2 t) (iblk (V1 m) c 3 t)
        (iblk (V1 m) c 4 t) (iblk (V1 m) c 5 t) (iblk (V1 m) c 6 t) (iblk (V1 m) c 7 t) (iblk (V1 m) c 8 t) (iblk (V1 m) c 9 t)
        acc (ix2 p (0 : Fin 1))
      = min (acc (ix2 p (0 : Fin 1)))
          (Finset.univ.inf fun l : Fin 2048 =>
            if labels m c (rowIx t p) = labels m c (colIx t l) then (⊤ : EReal)
            else D clip (famB m c) (famA m c) (rowIx t p) (colIx t l)) := by
  unfold stp7
  exact stepNegBA (x1 := iblk (V1 m) c 1 t) (x2 := iblk (V1 m) c 2 t) (x5 := iblk (V1 m) c 5 t)
    (x6 := iblk (V1 m) c 6 t) (x8 := iblk (V1 m) c 8 t) (x9 := iblk (V1 m) c 9 t) (acc := acc) (p := p)
    (A := famA m c) (B := famB m c) (tg := labels m c) (r := rowIx t p) (cl := colIx t)
    (fun k => blk1 m c t p k) (fun l k => blk2 m c t l k) (blk6 m c t p) (fun l => blk5 m c t l)
    (blk8 m c t p) (fun l => blk9 m c t l)

end PointSteps

/-! ## Two halves make the whole row -/

section Combine
variable (eps : EReal) (x y : Fin 4096 → Fin 128 → EReal) (tg : Fin 4096 → BitVec 32) (r r' : Fin 4096)
  (c0 c1 : Fin 2048 → Fin 4096)

theorem ap_cross_halves (hr : r' = r) (h0 : ∀ l : Fin 2048, c0 l = ⟨l.val, by omega⟩)
    (h1 : ∀ l : Fin 2048, c1 l = ⟨2048 + l.val, by omega⟩) :
    Ideal.sqrt (max (max ⊥ (Finset.univ.sup fun l : Fin 2048 => if tg r' = tg (c0 l) then D eps x y r' (c0 l) else (⊥ : EReal)))
        (Finset.univ.sup fun l : Fin 2048 => if tg r = tg (c1 l) then D eps x y r (c1 l) else (⊥ : EReal)))
      = AP eps x y tg r := by
  subst hr
  simp only [h0, h1]
  exact HardMine.kernel_ap_cross eps x y tg _

theorem an_cross_halves (hr : r' = r) (h0 : ∀ l : Fin 2048, c0 l = ⟨l.val, by omega⟩)
    (h1 : ∀ l : Fin 2048, c1 l = ⟨2048 + l.val, by omega⟩) :
    Ideal.sqrt (min (min ⊤ (Finset.univ.inf fun l : Fin 2048 => if tg r' = tg (c0 l) then (⊤ : EReal) else D eps x y r' (c0 l)))
        (Finset.univ.inf fun l : Fin 2048 => if tg r = tg (c1 l) then (⊤ : EReal) else D eps x y r (c1 l)))
      = AN eps x y tg r := by
  subst hr
  simp only [h0, h1]
  exact HardMine.kernel_an_cross eps x y tg _

theorem ap_same_halves (heps : 0 ≤ eps) (hx : ∀ k, ∃ s : ℝ, x r k = (s : EReal)) (hr : r' = r)
    (h0 : ∀ l : Fin 2048, c0 l = ⟨l.val, by omega⟩) (h1 : ∀ l : Fin 2048, c1 l = ⟨2048 + l.val, by omega⟩) :
    Ideal.sqrt (max (max ⊥ (Finset.univ.sup fun l : Fin 2048 =>
          if tg r' = tg (c0 l) then (if r' = c0 l then eps else D eps x x r' (c0 l)) else (⊥ : EReal)))
        (Finset.univ.sup fun l : Fin 2048 =>
          if tg r = tg (c1 l) then (if r = c1 l then eps else D eps x x r (c1 l)) else (⊥ : EReal)))
      = AP eps x x tg r := by
  subst hr
  simp only [h0, h1]
  exact HardMine.kernel_ap_same eps heps x tg _ hx

theorem an_same_halves (heps : 0 ≤ eps) (hx : ∀ k, ∃ s : ℝ, x r k = (s : EReal)) (hr : r' = r)
    (h0 : ∀ l : Fin 2048, c0 l = ⟨l.val, by omega⟩) (h1 : ∀ l : Fin 2048, c1 l = ⟨2048 + l.val, by omega⟩) :
    Ideal.sqrt (min (min ⊤ (Finset.univ.inf fun l : Fin 2048 =>
          if tg r' = tg (c0 l) then (⊤ : EReal) else (if r' = c0 l then eps else D eps x x r' (c0 l))))
        (Finset.univ.inf fun l : Fin 2048 =>
          if tg r = tg (c1 l) then (⊤ : EReal) else (if r = c1 l then eps else D eps x x r (c1 l))))
      = AN eps x x tg r := by
  subst hr
  simp only [h0, h1]
  exact HardMine.kernel_an_same eps heps x tg _ hx

end Combine

/-! ## The eight outputs after an odd point -/

section Outputs
variable (c : Dev nD) (hA : ∀ i, ∃ s : ℝ, argA m c i = (s : EReal)) (hB : ∀ i, ∃ s : ℝ, argB m c i = (s : EReal))
  (t : Fin cfg0.N) (h1 : t.val % 2 = 1) (p : Fin 512)
include hA hB

/-- Output 0: the hardest positive of the first input against itself. -/
theorem kernelPoint0 :
    oL0 (V1 m) c t h1 (ix2 p (0 : Fin 1))
      = AP (Ideal.ofBits .f32 0x2B8CBCCC#32) (fun r k => argA m c (ix2 r k)) (fun r k => argA m c (ix2 r k))
          (fun r => argT m c (ix1 r)) (rowIx t p) := by
  have e1 : oL0 (V1 m) c t h1 (ix2 p (0 : Fin 1)) = Ideal.sqrt (sL0 (V1 m) c t h1 (ix2 p (0 : Fin 1))) :=
    (congrFun (oL0_eq (V1 m) c t h1) (ix2 p (0 : Fin 1))).trans (rootPos1_apply _ _)
  have e2 := (congrFun (sL0_eq (V1 m) c t h1) (ix2 p (0 : Fin 1))).trans
    (stp0_row m c t (sF0 (V1 m) c (predPt t) (predPt_even t h1)) p)
  have e3 := (congrFun (sF0_eq (V1 m) c (predPt t) (predPt_even t h1)) (ix2 p (0 : Fin 1))).trans
    (stp0_row m c (predPt t) (k0_pay2 (F := Ideal)) p)
  rw [e1, e2, e3, resetPos1_apply]
  exact ap_same_halves clip (famA m c) (labels m c) (rowIx t p) (rowIx (predPt t) p) (colIx (predPt t)) (colIx t)
    HardMine.eps_nonneg (fun k => hA (ix2 (rowIx t p) k)) (rowIx_pred t h1 p) (colIx_pred t h1) (colIx_odd t h1)

/-- Output 1: the hardest positive of the second input against itself. -/
theorem kernelPoint1 :
    oL1 (V1 m) c t h1 (ix2 p (0 : Fin 1))
      = AP (Ideal.ofBits .f32 0x2B8CBCCC#32) (fun r k => argB m c (ix2 r k)) (fun r k => argB m c (ix2 r k))
          (fun r => argT m c (ix1 r)) (rowIx t p) := by
  have e1 : oL1 (V1 m) c t h1 (ix2 p (0 : Fin 1)) = Ideal.sqrt (sL1 (V1 m) c t h1 (ix2 p (0 : Fin 1))) :=
    (congrFun (oL1_eq (V1 m) c t h1) (ix2 p (0 : Fin 1))).trans (rootPos2_apply _ _)
  have e2 := (congrFun (sL1_eq (V1 m) c t h1) (ix2 p (0 : Fin 1))).trans
    (stp1_row m c t (sF1 (V1 m) c (predPt t) (predPt_even t h1)) p)
  have e3 := (congrFun (sF1_eq (V1 m) c (predPt t) (predPt_even t h1)) (ix2 p (0 : Fin 1))).trans
    (stp1_row m c (predPt t) (k0_pay3 (F := Ideal)) p)
  rw [e1, e2, e3, resetPos2_apply]
  exact ap_same_halves clip (famB m c) (labels m c) (rowIx t p) (rowIx (predPt t) p) (colIx (predPt t)) (colIx t)
    HardMine.eps_nonneg (fun k => hB (ix2 (rowIx t p) k)) (rowIx_pred t h1 p) (colIx_pred t h1) (colIx_odd t h1)

/-- Output 2: the hardest positive of the first input against the second. -/
theorem kernelPoint2 :
    oL2 (V1 m) c t h1 (ix2 p (0 : Fin 1))
      = AP (Ideal.ofBits .f32 0x2B8CBCCC#32) (fun r k => argA m c (ix2 r k)) (fun r k => argB m c (ix2 r k))
          (fun r => argT m c (ix1 r)) (rowIx t p) := by
  have e1 : oL2 (V1 m) c t h1 (ix2 p (0 : Fin 1)) = Ideal.sqrt (sL2 (V1 m) c t h1 (ix2 p (0 : Fin 1))) :=
    (congrFun (oL2_eq (V1 m) c t h1) (ix2 p (0 : Fin 1))).trans (rootPos3_apply _ _)
  have e2 := (congrFun (sL2_eq (V1 m) c t h1) (ix2 p (0 : Fin 1))).trans
    (stp2_row m c t (sF2 (V1 m) c (predPt t) (predPt_even t h1)) p)
  have e3 := (congrFun (sF2_eq (V1 m) c (predPt t) (predPt_even t h1)) (ix2 p (0 : Fin 1))).trans
    (stp2_row m c (predPt t) (k0_pay4 (F := Ideal)) p)
  rw [e1, e2, e3, resetPos3_apply]
  exact ap_cross_halves clip (famA m c) (famB m c) (labels m c) (rowIx t p) (rowIx (predPt t) p) (colIx (predPt t)) (colIx t)
    (rowIx_pred t h1 p) (colIx_pred t h1) (colIx_odd t h1)

/-- Output 3: the hardest positive of the second input against the first. -/
theorem kernelPoint3 :
    oL3 (V1 m) c t h1 (ix2 p (0 : Fin 1))
      = AP (Ideal.ofBits .f32 0x2B8CBCCC#32) (fun r k => argB m c (ix2 r k)) (fun r k => argA m c (ix2 r k))
          (fun r => argT m c (ix1 r)) (rowIx t p) := by
  have e1 : oL3 (V1 m) c t h1 (ix2 p (0 : Fin 1)) = Ideal.sqrt (sL3 (V1 m) c t h1 (ix2 p (0 : Fin 1))) :=
    (congrFun (oL3_eq (V1 m) c t h1) (ix2 p (0 : Fin 1))).trans (rootPos4_apply _ _)
  have e2 := (congrFun (sL3_eq (V1 m) c t h1) (ix2 p (0 : Fin 1))).trans
    (stp3_row m c t (sF3 (V1 m) c (predPt t) (predPt_even t h1)) p)
  have e3 := (congrFun (sF3_eq (V1 m) c (predPt t) (predPt_even t h1)) (ix2 p (0 : Fin 1))).trans
    (stp3_row m c (predPt t) (k0_pay5 (F := Ideal)) p)
  rw [e1, e2, e3, resetPos4_apply]
  exact ap_cross_halves clip (famB m c) (famA m c) (labels m c) (rowIx t p) (rowIx (predPt t) p) (colIx (predPt t)) (colIx t)
    (rowIx_pred t h1 p) (colIx_pred t h1) (colIx_odd t h1)

/-- Output 4: the hardest negative of the first input against itself. -/
theorem kernelPoint4 :
    oL4 (V1 m) c t h1 (ix2 p (0 : Fin 1))
      = AN (Ideal.ofBits .f32 0x2B8CBCCC#32) (fun r k => argA m c (ix2 r k)) (fun r k => argA m c (ix2 r k))
          (fun r => argT m c (ix1 r)) (rowIx t p) := by
  have e1 : oL4 (V1 m) c t h1 (ix2 p (0 : Fin 1)) = Ideal.sqrt (sL4 (V1 m) c t h1 (ix2 p (0 : Fin 1))) :=
    (congrFun (oL4_eq (V1 m) c t h1) (ix2 p (0 : Fin 1))).trans (rootNeg1_apply _ _)
  have e2 := (congrFun (sL4_eq (V1 m) c t h1) (ix2 p (0 : Fin 1))).trans
    (stp4_row m c t (sF4 (V1 m) c (predPt t) (predPt_even t h1)) p)
  have e3 := (congrFun (sF4_eq (V1 m) c (predPt t) (predPt_even t h1)) (ix2 p (0 : Fin 1))).trans
    (stp4_row m c (predPt t) (k0_pay6 (F := Ideal)) p)
  rw [e1, e2, e3, resetNeg1_apply]
  exact an_same_halves clip (famA m c) (labels m c) (rowIx t p) (rowIx (predPt t) p) (colIx (predPt t)) (colIx t)
    HardMine.eps_nonneg (fun k => hA (ix2 (rowIx t p) k)) (rowIx_pred t h1 p) (colIx_pred t h1) (colIx_odd t h1)

/-- Output 5: the hardest negative of the second input against itself. -/
theorem kernelPoint5 :
    oL5 (V1 m) c t h1 (ix2 p (0 : Fin 1))
      = AN (Ideal.ofBits .f32 0x2B8CBCCC#32) (fun r k => argB m c (ix2 r k)) (fun r k => argB m c (ix2 r k))
          (fun r => argT m c (ix1 r)) (rowIx t p) := by
  have e1 : oL5 (V1 m) c t h1 (ix2 p (0 : Fin 1)) = Ideal.sqrt (sL5 (V1 m) c t h1 (ix2 p (0 : Fin 1))) :=
    (congrFun (oL5_eq (V1 m) c t h1) (ix2 p (0 : Fin 1))).trans (rootNeg2_apply _ _)
  have e2 := (congrFun (sL5_eq (V1 m) c t h1) (ix2 p (0 : Fin 1))).trans
    (stp5_row m c t (sF5 (V1 m) c (predPt t) (predPt_even t h1)) p)
  have e3 := (congrFun (sF5_eq (V1 m) c (predPt t) (predPt_even t h1)) (ix2 p (0 : Fin 1))).trans
    (stp5_row m c (predPt t) (k0_pay7 (F := Ideal)) p)
  rw [e1, e2, e3, resetNeg2_apply]
  exact an_same_halves clip (famB m c) (labels m c) (rowIx t p) (rowIx (predPt t) p) (colIx (predPt t)) (colIx t)
    HardMine.eps_nonneg (fun k => hB (ix2 (rowIx t p) k)) (rowIx_pred t h1 p) (colIx_pred t h1) (colIx_odd t h1)

/-- Output 6: the hardest negative of the first input against the second. -/
theorem kernelPoint6 :
    oL6 (V1 m) c t h1 (ix2 p (0 : Fin 1))
      = AN (Ideal.ofBits .f32 0x2B8CBCCC#32) (fun r k => argA m c (ix2 r k)) (fun r k => argB m c (ix2 r k))
          (fun r => argT m c (ix1 r)) (rowIx t p) := by
  have e1 : oL6 (V1 m) c t h1 (ix2 p (0 : Fin 1)) = Ideal.sqrt (sL6 (V1 m) c t h1 (ix2 p (0 : Fin 1))) :=
    (congrFun (oL6_eq (V1 m) c t h1) (ix2 p (0 : Fin 1))).trans (rootNeg3_apply _ _)
  have e2 := (congrFun (sL6_eq (V1 m) c t h1) (ix2 p (0 : Fin 1))).trans
    (stp6_row m c t (sF6 (V1 m) c (predPt t) (predPt_even t h1)) p)
  have e3 := (congrFun (sF6_eq (V1 m) c (predPt t) (predPt_even t h1)) (ix2 p (0 : Fin 1))).trans
    (stp6_row m c (predPt t) (k0_pay8 (F := Ideal)) p)
  rw [e1, e2, e3, resetNeg3_apply]
  exact an_cross_halves clip (famA m c) (famB m c) (labels m c) (rowIx t p) (rowIx (predPt t) p) (colIx (predPt t)) (colIx t)
    (rowIx_pred t h1 p) (colIx_pred t h1) (colIx_odd t h1)

/-- Output 7: the hardest negative of the second input against the first. -/
theorem kernelPoint7 :
    oL7 (V1 m) c t h1 (ix2 p (0 : Fin 1))
      = AN (Ideal.ofBits .f32 0x2B8CBCCC#32) (fun r k => argB m c (ix2 r k)) (fun r k => argA m c (ix2 r k))
          (fun r => argT m c (ix1 r)) (rowIx t p) := by
  have e1 : oL7 (V1 m) c t h1 (ix2 p (0 : Fin 1)) = Ideal.sqrt (sL7 (V1 m) c t h1 (ix2 p (0 : Fin 1))) :=
    (congrFun (oL7_eq (V1 m) c t h1) (ix2 p (0 : Fin 1))).trans (rootNeg4_apply _ _)
  have e2 := (congrFun (sL7_eq (V1 m) c t h1) (ix2 p (0 : Fin 1))).trans
    (stp7_row m c t (sF7 (V1 m) c (predPt t) (predPt_even t h1)) p)
  have e3 := (congrFun (sF7_eq (V1 m) c (predPt t) (predPt_even t h1)) (ix2 p (0 : Fin 1))).trans
    (stp7_row m c (predPt t) (k0_pay18 (F := Ideal) (k0_pay9 (F := Ideal))) p)
  rw [e1, e2, e3, storedResetNeg4_eq, resetNeg4_apply]
  exact an_cross_halves clip (famB m c) (famA m c) (labels m c) (rowIx t p) (rowIx (predPt t) p) (colIx (predPt t)) (colIx t)
    (rowIx_pred t h1 p) (colIx_pred t h1) (colIx_odd t h1)

end Outputs

end Cert.KernelIdeal.Region

end
-- ==== Proof.Finite.lean ====
/-
  Finite inputs are real.

  The precondition says, for each of the two float arrays, that the conjunction over all entries of
  "|x| < +∞" is true.  A conjunction folded from `true` is true only if every conjunct is; and an extended
  real whose absolute value max x (−x) lies strictly below +∞ is neither +∞ nor −∞, hence a real number.
-/
import proofs.«181479_j36618891166019_2_alg».proof.Pre_finite_inputs
import Idealize.ShloMosaic.Lib.ReduceAll
import Idealize.ShloMosaic.Lib.Affine
import Idealize.ShloMosaic.Lib.ValueIdx

noncomputable section

namespace Cert.Pre_finite_inputs.Finite

open Idealize.ShloMosaic Cert.Pre_finite_inputs

/-- The scalar shape has one index. -/
instance : Subsingleton S_.Idx := ⟨fun a b => funext fun d => d.elim0⟩

/-- An extended real whose absolute value is below +∞ is a real number. -/
theorem real_of_abs_lt (v : EReal)
    (h : FloatOps.cmpf (F := Ideal) (φ := .f32) .olt (FloatOps.hostAbsf (F := Ideal) (φ := .f32) v) (Ideal.ofBits .f32 0x7F800000#32) = 1#1) :
    ∃ t : ℝ, v = (t : EReal) := by
  have hinf : Ideal.ofBits .f32 0x7F800000#32 = ⊤ := by simp [Ideal.ofBits, Ideal.ieee]
  rw [hinf] at h
  induction v using EReal.rec with
  | bot =>
    have h' : Ideal.cmp .olt (max (⊥ : EReal) (-⊥)) ⊤ = 1#1 := h
    exact absurd h' (by simp [Ideal.cmp])
  | top =>
    have h' : Ideal.cmp .olt (max (⊤ : EReal) (-⊤)) ⊤ = 1#1 := h
    exact absurd h' (by simp [Ideal.cmp])
  | coe r => exact ⟨r, rfl⟩

variable [Facts]

/-- Under the finiteness precondition every entry of the two float arrays is a real number. -/
theorem real_of_pre (a0 a1 : FVec Ideal S4096x128 .f32) (a2 : IVec S4096 32)
    (h : fn (F := Ideal) a0 a1 a2 = fun _ => 1#1) :
    (∀ i : S4096x128.Idx, ∃ t : ℝ, a0 i = (t : EReal)) ∧ (∀ i : S4096x128.Idx, ∃ t : ℝ, a1 i = (t : EReal)) := by
  have h0 := congrFun h ValueIdx.ix0
  dsimp only [fn] at h0
  obtain ⟨hA, hB⟩ := IntOp.andi_eq_one.1 h0
  exact ⟨fun i => real_of_abs_lt _ (Host.reduce_andi_all _ _ _ _ _ hA i),
         fun i => real_of_abs_lt _ (Host.reduce_andi_all _ _ _ _ _ hB i)⟩

end Cert.Pre_finite_inputs.Finite

end
-- ==== Proof.KernelRun.lean ====
/-
  The idealized kernel program's run with its results named: under the precondition (every float input finite,
  hence a real) each result buffer ends at the shared tail applied to the specification's eight vectors of the
  argument arrays, and the arguments end as launched.  Finiteness is used once: it makes the diagonal entry of a
  same-array pairing, which the kernel overwrites by the clamp, equal to the clamp in the specification as well.
-/
import proofs.«181479_j36618891166019_2_alg».proof.Defs
import proofs.«181479_j36618891166019_2_alg».proof.Proof.Gen.KernelIdeal
import proofs.«181479_j36618891166019_2_alg».proof.Proof.Gen.Pre_finite_inputs
import proofs.«181479_j36618891166019_2_alg».proof.Proof.KernelResults
import proofs.«181479_j36618891166019_2_alg».proof.Proof.KernelPoint
import proofs.«181479_j36618891166019_2_alg».proof.Proof.Finite

noncomputable section

namespace Cert.KernelIdeal.Region

open Cert.KernelIdeal Cert.KernelIdeal.Gen
open Idealize.ShloMosaic Idealize.ShloMosaic.TcCoe Idealize.ShloMosaic.ValueIdx
open Idealize.SL.Sem

/-- The pair of results as a function of the three argument arrays: the shared tail of the eight vectors. -/
def resultsOf (a0 a1 : S4096x128.Idx → EReal) (a2 : S4096.Idx → BitVec 32) :=
  HostSide.tailOfVecs (F := Ideal)
    (Cert.HardMine.apVec clipEps a0 a0 a2) (Cert.HardMine.apVec clipEps a1 a1 a2)
    (Cert.HardMine.apVec clipEps a0 a1 a2) (Cert.HardMine.apVec clipEps a1 a0 a2)
    (Cert.HardMine.anVec clipEps a0 a0 a2) (Cert.HardMine.anVec clipEps a1 a1 a2)
    (Cert.HardMine.anVec clipEps a0 a1 a2) (Cert.HardMine.anVec clipEps a1 a0 a2)

/-- THE KERNEL'S VALUE RUN. -/
theorem kernel_run (m : (ℓ : Loc nD τ sig) → Buf (Elt Ideal) ℓ) (ρ : Dev nD → PrngReg)
    (hpre : @Cert.Pre_KernelIdeal Cert.Pre_finite_inputs.Gen.facts m) :
    θ_run (defs (F := Ideal)) (onTc (τ := τ) (main (F := Ideal))) ⟨m, fun _ => 0, ρ⟩ (fun r => ∀ c : Dev nD,
      r.2.mem ((c.tc : Thread nD τ).loc main_v28) = (resultsOf (argA m c) (argB m c) (argT m c)).1
      ∧ r.2.mem ((c.tc : Thread nD τ).loc main_v32) = (resultsOf (argA m c) (argB m c) (argT m c)).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hreal : ∀ c : Dev nD, (∀ i, ∃ s : ℝ, argA m c i = (s : EReal)) ∧ (∀ i, ∃ s : ℝ, argB m c i = (s : EReal)) := fun c =>
    @Cert.Pre_finite_inputs.Finite.real_of_pre Cert.Pre_finite_inputs.Gen.facts _ _ _ (hpre c)
  have hres : ∀ c : Dev nD, _ := fun c => kernel_results m c
    (kernelPoint0 m c (hreal c).1 (hreal c).2)
    (kernelPoint1 m c (hreal c).1 (hreal c).2)
    (kernelPoint2 m c (hreal c).1 (hreal c).2)
    (kernelPoint3 m c (hreal c).1 (hreal c).2)
    (kernelPoint4 m c (hreal c).1 (hreal c).2)
    (kernelPoint5 m c (hreal c).1 (hreal c).2)
    (kernelPoint6 m c (hreal c).1 (hreal c).2)
    (kernelPoint7 m c (hreal c).1 (hreal c).2)
  refine (θ_run (defs (F := Ideal)) _ _).mono (fun _ h c => ⟨(h c).1.trans (hres c).1, (h c).2.1.trans (hres c).2, (h c).2.2⟩)
    (run_main (F := Ideal) m ρ)

end Cert.KernelIdeal.Region

end
-- ==== Proof.RefValue.lean ====
/-
  The reference computation read as mathematics.

  The reference forms, for each of the four pairings (x, y) of the two input arrays, the matrix of
  clipped distances  √ max eps ((‖x r‖² + ‖y c‖²) − 2 ⟨x r, y c⟩),  masks it by label equality
  (−∞ off the mask for the row maximum, +∞ on the mask for the row minimum) and reduces each row.
  Read entry by entry these eight row reductions are the hardest-positive and hardest-negative vectors
  of the specification: a row maximum started from −∞ is the supremum of the row, a row minimum started
  from +∞ its infimum, and a select on an integer equality test is the `if` on the equality.

  Everything after the eight reductions (two concatenations, the margin loss and the precision count,
  each averaged over 24576 entries) is one fixed function `refTail` of the eight vectors; the run of
  the reference therefore ends with its two results at `refTail` of the specification's vectors of the
  three argument arrays.
-/
import proofs.«181479_j36618891166019_2_alg».proof.Defs
import proofs.«181479_j36618891166019_2_alg».proof.Proof.Gen.ReferenceIdeal
import proofs.«181479_j36618891166019_2_alg».proof.Proof.RefRunP
import proofs.«181479_j36618891166019_2_alg».proof.Proof.RefReadP
import proofs.«181479_j36618891166019_2_alg».proof.Proof.Spec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.ValueIdx

/-- The clip constant 1e-12 as the extended real its float word denotes. -/
abbrev clipC : EReal := Ideal.ofBits .f32 0x2B8CBCCC#32

/-! ## A row reduction is a supremum or an infimum -/

/-- Row `r` with column `k` put back on the reduced axis is the entry (r, k). -/
theorem lift_row (h : (⟨2, ![4096, 4096]⟩ : Shape).Reduces [1] (⟨1, ![4096]⟩ : Shape)) (r : Fin 4096)
    (k : Fin ((⟨2, ![4096, 4096]⟩ : Shape).size 1)) : h.lift (ix1 r) k = ix2 r (⟨k.val, k.isLt⟩ : Fin 4096) := by
  funext c; apply Fin.ext
  fin_cases c <;> rfl

/-- From −∞, a reduction with a maximum body along the columns is, at row `r`, the supremum of the row. -/
theorem reduce_max_row (x : FVec Ideal ⟨2, ![4096, 4096]⟩ .f32)
    (h' : (⟨2, ![4096, 4096]⟩ : Shape).ReducesTo [1] (⟨1, ![4096]⟩ : Shape)) (hu : 0 < (⟨0, ![]⟩ : Shape).numel) (r : Fin 4096) :
    Host.reduce FloatOps.maximumf x (constant (F := Ideal) (⟨0, ![]⟩ : Shape) .f32 0xFF800000#32) h' hu (ix1 r)
      = Finset.univ.sup fun c : Fin 4096 => x (ix2 r c) := by
  have h : (⟨2, ![4096, 4096]⟩ : Shape).Reduces [1] (⟨1, ![4096]⟩ : Shape) := by decide
  rw [Host.reduce_eq_fold_single FloatOps.maximumf x _ h' h hu]
  have hf : (x ∘ h.lift (ix1 r)) = fun k : Fin 4096 => x (ix2 r k) := funext fun k => congrArg x (lift_row h r k)
  refine Eq.trans ?_ (HardMine.fold_max_bot Finset.univ fun c : Fin 4096 => x (ix2 r c))
  refine Eq.trans (congrArg (fun f => Finset.fold max (Ideal.ofBits .f32 0xFF800000#32) f (Finset.univ : Finset (Fin 4096))) hf) ?_
  rw [HardMine.negInf_word]

/-- From +∞, a reduction with a minimum body along the columns is, at row `r`, the infimum of the row. -/
theorem reduce_min_row (x : FVec Ideal ⟨2, ![4096, 4096]⟩ .f32)
    (h' : (⟨2, ![4096, 4096]⟩ : Shape).ReducesTo [1] (⟨1, ![4096]⟩ : Shape)) (hu : 0 < (⟨0, ![]⟩ : Shape).numel) (r : Fin 4096) :
    Host.reduce FloatOps.minimumf x (constant (F := Ideal) (⟨0, ![]⟩ : Shape) .f32 0x7F800000#32) h' hu (ix1 r)
      = Finset.univ.inf fun c : Fin 4096 => x (ix2 r c) := by
  have h : (⟨2, ![4096, 4096]⟩ : Shape).Reduces [1] (⟨1, ![4096]⟩ : Shape) := by decide
  rw [Host.reduce_eq_fold_single FloatOps.minimumf x _ h' h hu]
  have hf : (x ∘ h.lift (ix1 r)) = fun k : Fin 4096 => x (ix2 r k) := funext fun k => congrArg x (lift_row h r k)
  refine Eq.trans ?_ (HardMine.fold_min_top Finset.univ fun c : Fin 4096 => x (ix2 r c))
  refine Eq.trans (congrArg (fun f => Finset.fold min (Ideal.ofBits .f32 0x7F800000#32) f (Finset.univ : Finset (Fin 4096))) hf) ?_
  rw [HardMine.posInf_word]

/-! ## One pairing, entry by entry

The cross pairing (first array's rows against the second's) is read once; the other three pairings are
the same composition of operations at other arguments. -/

/-- The squared norm of row `r`, as the reference sums it. -/
theorem sq_row (x : (⟨S4096x128, .f32⟩ : BufTy).Contents (Elt Ideal)) (r : Fin 4096) :
    val_main_v40 (F := Ideal) x (ix1 r) = HardMine.sq (fun r k => x (ix2 r k)) r := by
  rw [val_main_v40_apply]
  show Ideal.ofBits .f32 0x00000000#32 + ∑ k : Fin 128, x (idx_main_v40 (ix1 r) k) * x (idx_main_v40 (ix1 r) k)
    = 0 + ∑ k : Fin 128, x (ix2 r k) * x (ix2 r k)
  rw [Ideal.ofBits_zero_f32]
  refine congrArg (0 + ·) (Finset.sum_congr rfl fun k _ => ?_)
  have e : idx_main_v40 (ix1 r) k = ix2 r k := funext fun a => by match a with | ⟨0, _⟩ => rfl | ⟨1, _⟩ => rfl
  rw [e]

/-- The squared norm of row `c` of the second array. -/
theorem sq_col (y : (⟨S4096x128, .f32⟩ : BufTy).Contents (Elt Ideal)) (c : Fin 4096) :
    val_main_v43 (F := Ideal) y (ix1 c) = HardMine.sq (fun r k => y (ix2 r k)) c := by
  rw [val_main_v43_apply]
  show Ideal.ofBits .f32 0x00000000#32 + ∑ k : Fin 128, y (idx_main_v43 (ix1 c) k) * y (idx_main_v43 (ix1 c) k)
    = 0 + ∑ k : Fin 128, y (ix2 c k) * y (ix2 c k)
  rw [Ideal.ofBits_zero_f32]
  refine congrArg (0 + ·) (Finset.sum_congr rfl fun k _ => ?_)
  have e : idx_main_v43 (ix1 c) k = ix2 c k := funext fun a => by match a with | ⟨0, _⟩ => rfl | ⟨1, _⟩ => rfl
  rw [e]

/-- The product with the transpose, at (r, c), is the inner product of row `r` with row `c`. -/
theorem dot_entry (x y : (⟨S4096x128, .f32⟩ : BufTy).Contents (Elt Ideal)) (r c : Fin 4096) :
    val_main_v50 (F := Ideal) x y (ix2 r c) = HardMine.dot (fun r k => x (ix2 r k)) (fun r k => y (ix2 r k)) r c := by
  rw [val_main_v50_apply]
  show ∑ k : Fin 128, x (lidx_main_v50 (ix2 r c) k) * val_main_v49 (F := Ideal) y (ridx_main_v50 (ix2 r c) k)
    = ∑ k : Fin 128, x (ix2 r k) * y (ix2 c k)
  refine Finset.sum_congr rfl fun k _ => ?_
  rw [val_main_v49_apply]
  have el : lidx_main_v50 (ix2 r c) k = ix2 r k := funext fun a => by match a with | ⟨0, _⟩ => rfl | ⟨1, _⟩ => rfl
  have er : idx_main_v49 (ridx_main_v50 (ix2 r c) k) = ix2 c k :=
    funext fun a => by match a with | ⟨0, _⟩ => rfl | ⟨1, _⟩ => rfl
  rw [el, er]

/-- The distance matrix of the cross pairing at (r, c) is the root of the clipped squared distance. -/
theorem dist_entry (x y : (⟨S4096x128, .f32⟩ : BufTy).Contents (Elt Ideal)) (r c : Fin 4096) :
    val_main_v55 (F := Ideal) x y (ix2 r c)
      = Ideal.sqrt (HardMine.D clipC (fun r k => x (ix2 r k)) (fun r k => y (ix2 r k)) r c) := by
  have e46 : val_main_v46 (F := Ideal) x (ix2 r c) = HardMine.sq (fun r k => x (ix2 r k)) r := by
    rw [val_main_v46_apply, val_main_v41_apply]
    have e : idx_main_v41 (idx_main_v46 (ix2 r c)) = ix1 r := funext fun a => by match a with | ⟨0, _⟩ => rfl
    rw [e]; exact sq_row x r
  have e47 : val_main_v47 (F := Ideal) y (ix2 r c) = HardMine.sq (fun r k => y (ix2 r k)) c := by
    rw [val_main_v47_apply, val_main_v45_apply, val_main_v44_apply]
    have e : idx_main_v44 (idx_main_v45 (idx_main_v47 (ix2 r c))) = ix1 c :=
      funext fun a => by match a with | ⟨0, _⟩ => rfl
    rw [e]; exact sq_col y c
  have e51 : val_main_v51 (F := Ideal) (ix2 r c) = 2 := by
    rw [val_main_v51_apply]; exact HardMine.two_word
  have eclip : val_main_call2_v1 (F := Ideal) (ix2 r c) = clipC := by
    rw [val_main_call2_v1_apply]; rfl
  show Ideal.sqrt (max (val_main_call2_v1 (F := Ideal) (ix2 r c))
      ((val_main_v46 (F := Ideal) x (ix2 r c) + val_main_v47 (F := Ideal) y (ix2 r c))
        - val_main_v51 (F := Ideal) (ix2 r c) * val_main_v50 (F := Ideal) x y (ix2 r c))) = _
  rw [eclip, e46, e47, e51, dot_entry]
  rfl

/-- The label mask at (r, c) is the equality test of the two labels. -/
theorem mask_entry (t : (⟨S4096, .i32⟩ : BufTy).Contents (Elt Ideal)) (r c : Fin 4096) :
    val_main_v4 (F := Ideal) t (ix2 r c) = IntOp.cmpi .eq (t (ix1 r)) (t (ix1 c)) := by
  rw [val_main_v4_apply, val_main_v2_apply, val_main_v0_apply, val_main_v3_apply, val_main_v1_apply]
  have e0 : idx_main_v0 (idx_main_v2 (ix2 r c)) = ix1 r := funext fun a => by match a with | ⟨0, _⟩ => rfl
  have e1 : idx_main_v1 (idx_main_v3 (ix2 r c)) = ix1 c := funext fun a => by match a with | ⟨0, _⟩ => rfl
  rw [e0, e1]

/-- The masked row maximum of the cross pairing is the hardest positive. -/
theorem ap_cross (x y : (⟨S4096x128, .f32⟩ : BufTy).Contents (Elt Ideal)) (t : (⟨S4096, .i32⟩ : BufTy).Contents (Elt Ideal))
    (r : Fin 4096) :
    val_main_v82 (F := Ideal) x y t (ix1 r)
      = HardMine.AP clipC (fun r k => x (ix2 r k)) (fun r k => y (ix2 r k)) (fun r => t (ix1 r)) r := by
  unfold val_main_v82
  refine (reduce_max_row (val_main_v81 (F := Ideal) x y t) reducesTo_S4096x4096_S4096_d1 h_S_ r).trans ?_
  refine Finset.sup_congr rfl fun c _ => ?_
  rw [val_main_v81_apply, mask_entry, HardMine.select_cmpi_eq, dist_entry, val_main_call8_v0_apply]
  show (if t (ix1 r) = t (ix1 c) then _ else Ideal.ofBits .f32 0xFF800000#32) = _
  rw [HardMine.negInf_word]

/-- The masked row minimum of the cross pairing is the hardest negative. -/
theorem an_cross (x y : (⟨S4096x128, .f32⟩ : BufTy).Contents (Elt Ideal)) (t : (⟨S4096, .i32⟩ : BufTy).Contents (Elt Ideal))
    (r : Fin 4096) :
    val_main_v84 (F := Ideal) x y t (ix1 r)
      = HardMine.AN clipC (fun r k => x (ix2 r k)) (fun r k => y (ix2 r k)) (fun r => t (ix1 r)) r := by
  unfold val_main_v84
  refine (reduce_min_row (val_main_v83 (F := Ideal) x y t) reducesTo_S4096x4096_S4096_d1 h_S_ r).trans ?_
  refine Finset.inf_congr rfl fun c _ => ?_
  rw [val_main_v83_apply, mask_entry, HardMine.select_cmpi_eq, dist_entry, val_main_call9_v0_apply]
  show (if t (ix1 r) = t (ix1 c) then Ideal.ofBits .f32 0x7F800000#32 else _) = _
  rw [HardMine.posInf_word]

/-! ## The other three pairings are the cross pairing at other arguments -/

theorem ap_first (x : (⟨S4096x128, .f32⟩ : BufTy).Contents (Elt Ideal)) (t : (⟨S4096, .i32⟩ : BufTy).Contents (Elt Ideal)) :
    val_main_v74 (F := Ideal) x t = val_main_v82 (F := Ideal) x x t := rfl
theorem an_first (x : (⟨S4096x128, .f32⟩ : BufTy).Contents (Elt Ideal)) (t : (⟨S4096, .i32⟩ : BufTy).Contents (Elt Ideal)) :
    val_main_v76 (F := Ideal) x t = val_main_v84 (F := Ideal) x x t := rfl
theorem ap_second (y : (⟨S4096x128, .f32⟩ : BufTy).Contents (Elt Ideal)) (t : (⟨S4096, .i32⟩ : BufTy).Contents (Elt Ideal)) :
    val_main_v78 (F := Ideal) y t = val_main_v82 (F := Ideal) y y t := rfl
theorem an_second (y : (⟨S4096x128, .f32⟩ : BufTy).Contents (Elt Ideal)) (t : (⟨S4096, .i32⟩ : BufTy).Contents (Elt Ideal)) :
    val_main_v80 (F := Ideal) y t = val_main_v84 (F := Ideal) y y t := rfl
theorem ap_swapped (x y : (⟨S4096x128, .f32⟩ : BufTy).Contents (Elt Ideal)) (t : (⟨S4096, .i32⟩ : BufTy).Contents (Elt Ideal)) :
    val_main_v86 (F := Ideal) x y t = val_main_v82 (F := Ideal) y x t := rfl
theorem an_swapped (x y : (⟨S4096x128, .f32⟩ : BufTy).Contents (Elt Ideal)) (t : (⟨S4096, .i32⟩ : BufTy).Contents (Elt Ideal)) :
    val_main_v88 (F := Ideal) x y t = val_main_v84 (F := Ideal) y x t := rfl

/-- The eight row reductions of the reference are the specification's eight vectors. -/
theorem ref_vectors (x0 x1 : (⟨S4096x128, .f32⟩ : BufTy).Contents (Elt Ideal)) (t : (⟨S4096, .i32⟩ : BufTy).Contents (Elt Ideal)) :
    val_main_v74 (F := Ideal) x0 t = HardMine.apVec clipC x0 x0 t
    ∧ val_main_v76 (F := Ideal) x0 t = HardMine.anVec clipC x0 x0 t
    ∧ val_main_v78 (F := Ideal) x1 t = HardMine.apVec clipC x1 x1 t
    ∧ val_main_v80 (F := Ideal) x1 t = HardMine.anVec clipC x1 x1 t
    ∧ val_main_v82 (F := Ideal) x0 x1 t = HardMine.apVec clipC x0 x1 t
    ∧ val_main_v84 (F := Ideal) x0 x1 t = HardMine.anVec clipC x0 x1 t
    ∧ val_main_v86 (F := Ideal) x0 x1 t = HardMine.apVec clipC x1 x0 t
    ∧ val_main_v88 (F := Ideal) x0 x1 t = HardMine.anVec clipC x1 x0 t :=
  ⟨(ap_first x0 t).trans (HardMine.eq_apVec clipC x0 x0 t _ (ap_cross x0 x0 t)),
   (an_first x0 t).trans (HardMine.eq_anVec clipC x0 x0 t _ (an_cross x0 x0 t)),
   (ap_second x1 t).trans (HardMine.eq_apVec clipC x1 x1 t _ (ap_cross x1 x1 t)),
   (an_second x1 t).trans (HardMine.eq_anVec clipC x1 x1 t _ (an_cross x1 x1 t)),
   HardMine.eq_apVec clipC x0 x1 t _ (ap_cross x0 x1 t),
   HardMine.eq_anVec clipC x0 x1 t _ (an_cross x0 x1 t),
   (ap_swapped x0 x1 t).trans (HardMine.eq_apVec clipC x1 x0 t _ (ap_cross x1 x0 t)),
   (an_swapped x0 x1 t).trans (HardMine.eq_anVec clipC x1 x0 t _ (an_cross x1 x0 t))⟩

/-! ## The tail after the eight reductions -/

/-- From the eight vectors to the two results: the positives and the negatives are each laid end to end in
    the order 1, 2, 3, 4, 3, 4 (positives) and 1, 2, 3, 4, 1, 2 (negatives); the first result is the mean of
    `max (ap − an + 0.3) 0`, the second the mean of the indicator of `an > ap`, both over 24576 entries. -/
def refTail (ap1 an1 ap2 an2 ap3 an3 ap4 an4 : FVec Ideal S4096 .f32) : FVec Ideal S_ .f32 × FVec Ideal S_ .f32 :=
  (Host.divf (F := Ideal)
      (Host.reduceAdd (F := Ideal)
        (maximumf (F := Ideal)
          (addf (F := Ideal)
            (subf (F := Ideal) (concatenate S24576 0 [⟨S4096, ap1⟩, ⟨S4096, ap2⟩, ⟨S4096, ap3⟩, ⟨S4096, ap4⟩, ⟨S4096, ap3⟩, ⟨S4096, ap4⟩] concatenates_S4096_S4096_S4096_S4096_S4096_S4096_S24576_d0) (concatenate S24576 0 [⟨S4096, an1⟩, ⟨S4096, an2⟩, ⟨S4096, an3⟩, ⟨S4096, an4⟩, ⟨S4096, an1⟩, ⟨S4096, an2⟩] concatenates_S4096_S4096_S4096_S4096_S4096_S4096_S24576_d0))
            (broadcastInDim S24576 ![] bcast_S_S24576 (constant (F := Ideal) S_ .f32 0x3E99999A#32)))
          (broadcastInDim S24576 ![] bcast_S_S24576 (constant (F := Ideal) S_ .f32 0x00000000#32)))
        (constant (F := Ideal) S_ .f32 0x00000000#32) reducesTo_S24576_S_d0 h_S_)
      (constant (F := Ideal) S_ .f32 0x46C00000#32),
   Host.divf (F := Ideal)
      (Host.reduceAdd (F := Ideal)
        (uitofp (F := Ideal) .f32 (cmpf (F := Ideal) .ogt (concatenate S24576 0 [⟨S4096, an1⟩, ⟨S4096, an2⟩, ⟨S4096, an3⟩, ⟨S4096, an4⟩, ⟨S4096, an1⟩, ⟨S4096, an2⟩] concatenates_S4096_S4096_S4096_S4096_S4096_S4096_S24576_d0) (concatenate S24576 0 [⟨S4096, ap1⟩, ⟨S4096, ap2⟩, ⟨S4096, ap3⟩, ⟨S4096, ap4⟩, ⟨S4096, ap3⟩, ⟨S4096, ap4⟩] concatenates_S4096_S4096_S4096_S4096_S4096_S4096_S24576_d0)))
        (constant (F := Ideal) S_ .f32 0x00000000#32) reducesTo_S24576_S_d0 h_S_)
      (constant (F := Ideal) S_ .f32 0x46C00000#32))

/-- The first result is the tail's first component at the eight reductions. -/
theorem tail_fst (x0 x1 : (⟨S4096x128, .f32⟩ : BufTy).Contents (Elt Ideal)) (t : (⟨S4096, .i32⟩ : BufTy).Contents (Elt Ideal)) :
    val_main_v96 (F := Ideal) x0 x1 t
      = (refTail (val_main_v74 (F := Ideal) x0 t) (val_main_v76 (F := Ideal) x0 t) (val_main_v78 (F := Ideal) x1 t)
          (val_main_v80 (F := Ideal) x1 t) (val_main_v82 (F := Ideal) x0 x1 t) (val_main_v84 (F := Ideal) x0 x1 t)
          (val_main_v86 (F := Ideal) x0 x1 t) (val_main_v88 (F := Ideal) x0 x1 t)).1 := rfl

/-- The second result is the tail's second component at the eight reductions. -/
theorem tail_snd (x0 x1 : (⟨S4096x128, .f32⟩ : BufTy).Contents (Elt Ideal)) (t : (⟨S4096, .i32⟩ : BufTy).Contents (Elt Ideal)) :
    val_main_v100 (F := Ideal) x0 x1 t
      = (refTail (val_main_v74 (F := Ideal) x0 t) (val_main_v76 (F := Ideal) x0 t) (val_main_v78 (F := Ideal) x1 t)
          (val_main_v80 (F := Ideal) x1 t) (val_main_v82 (F := Ideal) x0 x1 t) (val_main_v84 (F := Ideal) x0 x1 t)
          (val_main_v86 (F := Ideal) x0 x1 t) (val_main_v88 (F := Ideal) x0 x1 t)).2 := rfl

/-- Both results as the tail of the specification's eight vectors. -/
theorem ref_value (x0 x1 : (⟨S4096x128, .f32⟩ : BufTy).Contents (Elt Ideal)) (t : (⟨S4096, .i32⟩ : BufTy).Contents (Elt Ideal)) :
    val_main_v96 (F := Ideal) x0 x1 t = (refTail (HardMine.apVec clipC x0 x0 t) (HardMine.anVec clipC x0 x0 t) (HardMine.apVec clipC x1 x1 t) (HardMine.anVec clipC x1 x1 t) (HardMine.apVec clipC x0 x1 t) (HardMine.anVec clipC x0 x1 t) (HardMine.apVec clipC x1 x0 t) (HardMine.anVec clipC x1 x0 t)).1
    ∧ val_main_v100 (F := Ideal) x0 x1 t = (refTail (HardMine.apVec clipC x0 x0 t) (HardMine.anVec clipC x0 x0 t) (HardMine.apVec clipC x1 x1 t) (HardMine.anVec clipC x1 x1 t) (HardMine.apVec clipC x0 x1 t) (HardMine.anVec clipC x0 x1 t) (HardMine.apVec clipC x1 x0 t) (HardMine.anVec clipC x1 x0 t)).2 := by
  obtain ⟨h1, h2, h3, h4, h5, h6, h7, h8⟩ := ref_vectors x0 x1 t
  refine ⟨?_, ?_⟩
  · rw [tail_fst, h1, h2, h3, h4, h5, h6, h7, h8]
  · rw [tail_snd, h1, h2, h3, h4, h5, h6, h7, h8]

/-! ## The run -/

/-- Every weakly fair execution of the reference terminates with its two results at the tail of the
    specification's eight vectors of the three argument arrays, and leaves the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v96) = (refTail (HardMine.apVec clipC (m ((c.tc : Thread nD τ).loc main_arg0)) (m ((c.tc : Thread nD τ).loc main_arg0)) (m ((c.tc : Thread nD τ).loc main_arg2))) (HardMine.anVec clipC (m ((c.tc : Thread nD τ).loc main_arg0)) (m ((c.tc : Thread nD τ).loc main_arg0)) (m ((c.tc : Thread nD τ).loc main_arg2))) (HardMine.apVec clipC (m ((c.tc : Thread nD τ).loc main_arg1)) (m ((c.tc : Thread nD τ).loc main_arg1)) (m ((c.tc : Thread nD τ).loc main_arg2))) (HardMine.anVec clipC (m ((c.tc : Thread nD τ).loc main_arg1)) (m ((c.tc : Thread nD τ).loc main_arg1)) (m ((c.tc : Thread nD τ).loc main_arg2))) (HardMine.apVec clipC (m ((c.tc : Thread nD τ).loc main_arg0)) (m ((c.tc : Thread nD τ).loc main_arg1)) (m ((c.tc : Thread nD τ).loc main_arg2))) (HardMine.anVec clipC (m ((c.tc : Thread nD τ).loc main_arg0)) (m ((c.tc : Thread nD τ).loc main_arg1)) (m ((c.tc : Thread nD τ).loc main_arg2))) (HardMine.apVec clipC (m ((c.tc : Thread nD τ).loc main_arg1)) (m ((c.tc : Thread nD τ).loc main_arg0)) (m ((c.tc : Thread nD τ).loc main_arg2))) (HardMine.anVec clipC (m ((c.tc : Thread nD τ).loc main_arg1)) (m ((c.tc : Thread nD τ).loc main_arg0)) (m ((c.tc : Thread nD τ).loc main_arg2)))).1
      ∧ r.2.mem ((c.tc : Thread nD τ).loc main_v100) = (refTail (HardMine.apVec clipC (m ((c.tc : Thread nD τ).loc main_arg0)) (m ((c.tc : Thread nD τ).loc main_arg0)) (m ((c.tc : Thread nD τ).loc main_arg2))) (HardMine.anVec clipC (m ((c.tc : Thread nD τ).loc main_arg0)) (m ((c.tc : Thread nD τ).loc main_arg0)) (m ((c.tc : Thread nD τ).loc main_arg2))) (HardMine.apVec clipC (m ((c.tc : Thread nD τ).loc main_arg1)) (m ((c.tc : Thread nD τ).loc main_arg1)) (m ((c.tc : Thread nD τ).loc main_arg2))) (HardMine.anVec clipC (m ((c.tc : Thread nD τ).loc main_arg1)) (m ((c.tc : Thread nD τ).loc main_arg1)) (m ((c.tc : Thread nD τ).loc main_arg2))) (HardMine.apVec clipC (m ((c.tc : Thread nD τ).loc main_arg0)) (m ((c.tc : Thread nD τ).loc main_arg1)) (m ((c.tc : Thread nD τ).loc main_arg2))) (HardMine.anVec clipC (m ((c.tc : Thread nD τ).loc main_arg0)) (m ((c.tc : Thread nD τ).loc main_arg1)) (m ((c.tc : Thread nD τ).loc main_arg2))) (HardMine.apVec clipC (m ((c.tc : Thread nD τ).loc main_arg1)) (m ((c.tc : Thread nD τ).loc main_arg0)) (m ((c.tc : Thread nD τ).loc main_arg2))) (HardMine.anVec clipC (m ((c.tc : Thread nD τ).loc main_arg1)) (m ((c.tc : Thread nD τ).loc main_arg0)) (m ((c.tc : Thread nD τ).loc main_arg2)))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((val_main_v96_eq m c).trans (ref_value _ _ _).1),
       (h c).2.1.trans ((val_main_v100_eq m c).trans (ref_value _ _ _).2),
       (h c).2.2⟩)
    (Cert.ReferenceIdeal.ValueP.run (F := Ideal) m ρ)

end Cert.ReferenceIdeal.RefValue

end
-- ==== Proof.TailEq.lean ====
/-
  After their eight row reductions the two programs apply the same operations: the reference's tail of its eight
  vectors and the kernel program's tail of its eight vectors are one function, argument for argument (the
  reference lists each pairing's positive and negative together, the kernel program the four positives and then the
  four negatives).
-/
import proofs.«181479_j36618891166019_2_alg».proof.Proof.HostTailIdeal
import proofs.«181479_j36618891166019_2_alg».proof.Proof.RefValue

noncomputable section

namespace Cert.KernelIdeal.Region

open Idealize.ShloMosaic Idealize.SL.Sem

/-- The reference's tail of its eight vectors is the kernel program's tail of the same eight, the four positives
    first and then the four negatives. -/
theorem refTail_eq (ap1 an1 ap2 an2 ap3 an3 ap4 an4 : FVec Ideal Cert.ReferenceIdeal.S4096 .f32) :
    Cert.ReferenceIdeal.RefValue.refTail ap1 an1 ap2 an2 ap3 an3 ap4 an4
      = Cert.KernelIdeal.HostSide.tailOfVecs (F := Ideal) ap1 ap2 ap3 ap4 an1 an2 an3 an4 := by
  unfold Cert.ReferenceIdeal.RefValue.refTail Cert.KernelIdeal.HostSide.tailOfVecs
    Cert.KernelIdeal.HostSide.meanHinge Cert.KernelIdeal.HostSide.meanGreater Cert.KernelIdeal.HostSide.cat6
  rfl

end Cert.KernelIdeal.Region

end
-- ==== Proof.lean ====
/-
  The certificate of a hard-example-mining kernel against its reference.

  For two arrays of 4096 feature rows x1, x2 and a vector of 4096 integer labels, and each of the four pairings
  (x, y) of the two arrays, the squared distance of row r of x to row c of y is taken as
  max(eps, (|x_r|^2 + |y_c|^2) - 2 <x_r, y_c>); the hardest positive of row r is the largest distance to a row with
  r's label, the hardest negative the smallest distance to a row with another label; both programs then apply one
  and the same host computation to the eight vectors of hardest positives and negatives.  The reference takes the
  square root of every entry and then reduces; the kernel reduces the squared distances over the two halves of the
  columns, carrying running extrema from the first half to the second, takes the square root once at the end, and
  overwrites the diagonal entry of the two same-array pairings by eps.

  At the extended reals the two agree: the square root is monotone and sends each fill of the masks to itself, so
  it commutes with the masked maximum and minimum; the maximum over all columns is the maximum of the maxima over
  the two halves; and for finite inputs the diagonal entry of a same-array pairing is max(eps, s + s - 2 s) = eps
  already.  The frames say that each program terminates, faults nowhere, and leaves its three arguments as they
  were: for the kernel's two programs this is the run of the kernel region between the host operations before and
  after it; for the reference it is its run with the results dropped.
-/
import proofs.«181479_j36618891166019_2_alg».proof.Defs
import proofs.«181479_j36618891166019_2_alg».proof.Proof.Gen.Kernel
import proofs.«181479_j36618891166019_2_alg».proof.Proof.Gen.KernelIdeal
import proofs.«181479_j36618891166019_2_alg».proof.Proof.Gen.ReferenceIdeal
import proofs.«181479_j36618891166019_2_alg».proof.Proof.Gen.Pre_finite_inputs
import proofs.«181479_j36618891166019_2_alg».proof.Proof.RegionSeg
import proofs.«181479_j36618891166019_2_alg».proof.Proof.RegionSegK
import proofs.«181479_j36618891166019_2_alg».proof.Proof.RefFrame
import proofs.«181479_j36618891166019_2_alg».proof.Proof.KernelRun
import proofs.«181479_j36618891166019_2_alg».proof.Proof.RefValue
import proofs.«181479_j36618891166019_2_alg».proof.Proof.TailEq

noncomputable section

namespace Cert.Proof

open Idealize.ShloMosaic Idealize.SL.Sem

/-- The word-level kernel program runs and leaves its arguments as launched. -/
theorem frame_k : @Cert.frame_Kernel Cert.Kernel.Gen.facts Cert.Pre_finite_inputs.Gen.facts := fun m ρ _ =>
  (θ_run Cert.Kernel.defs _ _).mono (fun _ h c => (h c).2.2) (Cert.Kernel.Region.run_main (F := Bits) m ρ)

/-- The idealized kernel program runs and leaves its arguments as launched. -/
theorem frame_ki : @Cert.frame_KernelIdeal Cert.KernelIdeal.Gen.facts Cert.Pre_finite_inputs.Gen.facts := fun m ρ _ =>
  (θ_run Cert.KernelIdeal.defs _ _).mono (fun _ h c => (h c).2.2) (Cert.KernelIdeal.Region.run_main (F := Ideal) m ρ)

/-- At the extended reals the kernel's program and the reference, run from memories that agree on the three
    arguments, end with equal results: both are the shared tail applied to the specification's eight vectors of
    the arguments — the kernel's by its value run (which uses the inputs' finiteness for the diagonal), the
    reference's by reading its run operation by operation. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => (Cert.KernelIdeal.Region.resultsOf (Cert.KernelIdeal.Region.argA m c) (Cert.KernelIdeal.Region.argB m c)
      (Cert.KernelIdeal.Region.argT m c)).1,
    fun c => (Cert.KernelIdeal.Region.resultsOf (Cert.KernelIdeal.Region.argA m c) (Cert.KernelIdeal.Region.argB m c)
      (Cert.KernelIdeal.Region.argT m c)).2,
    Cert.KernelIdeal.Region.kernel_run m ρ hpre, ?_⟩
  refine (θ_run Cert.ReferenceIdeal.defs _ _).mono (fun _ h c => ⟨(h c).1.trans ?_, (h c).2.1.trans ?_, (h c).2.2⟩)
    (Cert.ReferenceIdeal.RefValue.ref_run m' ρ')
  · rw [(hagree c).1, (hagree c).2.1, (hagree c).2.2, Cert.KernelIdeal.Region.refTail_eq]; rfl
  · rw [(hagree c).1, (hagree c).2.1, (hagree c).2.2, Cert.KernelIdeal.Region.refTail_eq]; rfl

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, algebraic⟩

end Cert.Proof

end
